-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v190)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v190) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v299) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000x1 : Shape := ⟨2, ![800000, 1]⟩
abbrev S10x64 : Shape := ⟨2, ![10, 64]⟩
abbrev S3x87 : Shape := ⟨2, ![3, 87]⟩
abbrev S3x87x200 : Shape := ⟨3, ![3, 87, 200]⟩
abbrev S3x200 : Shape := ⟨2, ![3, 200]⟩
abbrev S3x200x200 : Shape := ⟨3, ![3, 200, 200]⟩
abbrev S3x200x64 : Shape := ⟨3, ![3, 200, 64]⟩
abbrev S3x64 : Shape := ⟨2, ![3, 64]⟩
abbrev S256 : Shape := ⟨1, ![256]⟩
abbrev S256x200 : Shape := ⟨2, ![256, 200]⟩
abbrev S200 : Shape := ⟨1, ![200]⟩
abbrev S200x200 : Shape := ⟨2, ![200, 200]⟩
abbrev S200x1 : Shape := ⟨2, ![200, 1]⟩
abbrev S1 : Shape := ⟨1, ![1]⟩
abbrev S_ : Shape := ⟨0, ![]⟩

class Facts : Prop where
  bcast_S_S800000x1 : S_.BroadcastsInDim S800000x1 (![] : Fin 0 → Fin S800000x1.rank)
  reducesTo_S800000x1_S_d0_1 : S800000x1.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_
  bcast_S_S3x87 : S_.BroadcastsInDim S3x87 (![] : Fin 0 → Fin S3x87.rank)
  reducesTo_S3x87_S_d0_1 : S3x87.ReducesTo [0, 1] S_
  bcast_S_S3x87x200 : S_.BroadcastsInDim S3x87x200 (![] : Fin 0 → Fin S3x87x200.rank)
  reducesTo_S3x87x200_S_d0_1_2 : S3x87x200.ReducesTo [0, 1, 2] S_
  bcast_S_S3x200 : S_.BroadcastsInDim S3x200 (![] : Fin 0 → Fin S3x200.rank)
  reducesTo_S3x200_S_d0_1 : S3x200.ReducesTo [0, 1] S_
  bcast_S_S3x200x200 : S_.BroadcastsInDim S3x200x200 (![] : Fin 0 → Fin S3x200x200.rank)
  reducesTo_S3x200x200_S_d0_1_2 : S3x200x200.ReducesTo [0, 1, 2] S_
  bcast_S_S3x200x64 : S_.BroadcastsInDim S3x200x64 (![] : Fin 0 → Fin S3x200x64.rank)
  reducesTo_S3x200x64_S_d0_1_2 : S3x200x64.ReducesTo [0, 1, 2] S_
  bcast_S_S3x64 : S_.BroadcastsInDim S3x64 (![] : Fin 0 → Fin S3x64.rank)
  reducesTo_S3x64_S_d0_1 : S3x64.ReducesTo [0, 1] S_
  bcast_S_S256 : S_.BroadcastsInDim S256 (![] : Fin 0 → Fin S256.rank)
  reducesTo_S256_S_d0 : S256.ReducesTo [0] S_
  bcast_S_S256x200 : S_.BroadcastsInDim S256x200 (![] : Fin 0 → Fin S256x200.rank)
  reducesTo_S256x200_S_d0_1 : S256x200.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S200x1 : S_.BroadcastsInDim S200x1 (![] : Fin 0 → Fin S200x1.rank)
  reducesTo_S200x1_S_d0_1 : S200x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg24 : FVec F S1 .f32) (main_v98 : IVec S_ 1) (main_v101 : IVec S200x1 1) (main_c_39 : IVec S_ 1) : IVec S_ 1 :=
  let main_v102 : IVec S_ 1 := (fun x v => Host.reduce IntOp.andi x v reducesTo_S200x1_S_d0_1 h_S_) main_v101 main_c_39
  let main_v103 : IVec S_ 1 := andi main_v98 main_v102
  let main_v104 : FVec F S1 .f32 := Host.absf main_arg24
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg21 : FVec F S200x200 .f32) (main_arg22 : FVec F S200 .f32) (main_arg23 : FVec F S200x1 .f32) (main_arg24 : FVec F S1 .f32) (main_v83 : IVec S_ 1) (main_v84 : FVec F S200 .f32) (main_cst_32 : FVec F S_ .f32) : IVec S_ 1 :=
  let main_v85 : FVec F S200 .f32 := broadcastInDim S200 ![] bcast_S_S200 main_cst_32
  let main_v86 : IVec S200 1 := cmpf .olt main_v84 main_v85
  let main_c_33 : IVec S_ 1 := constantI S_ 1 1#1
  let main_v87 : IVec S_ 1 := (fun x v => Host.reduce IntOp.andi x v reducesTo_S200_S_d0 h_S_) main_v86 main_c_33
  let main_v88 : IVec S_ 1 := andi main_v83 main_v87
  let main_v89 : FVec F S200x200 .f32 := Host.absf main_arg21
  let main_cst_34 : FVec F S_ .f32 := constant S_ .f32 0x7F800000#32
  let main_v90 : FVec F S200x200 .f32 := broadcastInDim S200x200 ![] bcast_S_S200x200 main_cst_34
  let main_v91 : IVec S200x200 1 := cmpf .olt main_v89 main_v90
  let main_c_35 : IVec S_ 1 := constantI S_ 1 1#1
  let main_v92 : IVec S_ 1 := (fun x v => Host.reduce IntOp.andi x v reducesTo_S200x200_S_d0_1 h_S_) main_v91 main_c_35
  let main_v93 : IVec S_ 1 := andi main_v88 main_v92
  let main_v94 : FVec F S200 .f32 := Host.absf main_arg22
  let main_cst_36 : FVec F S_ .f32 := constant S_ .f32 0x7F800000#32
  let main_v95 : FVec F S200 .f32 := broadcastInDim S200 ![] bcast_S_S200 main_cst_36
  let main_v96 : IVec S200 1 := cmpf .olt main_v94 main_v95
  let main_c_37 : IVec S_ 1 := constantI S_ 1 1#1
  let main_v97 : IVec S_ 1 := (fun x v => Host.reduce IntOp.andi x v reducesTo_S200_S_d0 h_S_) main_v96 main_c_37
  let main_v98 : IVec S_ 1 := andi main_v93 main_v97
  let main_v99 : FVec F S200x1 .f32 := Host.absf main_arg23
  let main_cst_38 : FVec F S_ .f32 := constant S_ .f32 0x7F800000#32
  let main_v100 : FVec F S200x1 .f32 := broadcastInDim S200x1 ![] bcast_S_S200x1 main_cst_38
  let main_v101 : IVec S200x1 1 := cmpf .olt main_v99 main_v100
  let main_c_39 : IVec S_ 1 := constantI S_ 1 1#1
  fn_part6 (F := F) main_arg24 main_v98 main_v101 main_c_39

def fn_part4 {F : FTy → Type} [FloatOps F] (main_arg17 : FVec F S256x200 .f32) (main_arg18 : FVec F S200 .f32) (main_arg19 : FVec F S200x200 .f32) (main_arg20 : FVec F S200 .f32) (main_arg21 : FVec F S200x200 .f32) (main_arg22 : FVec F S200 .f32) (main_arg23 : FVec F S200x1 .f32) (main_arg24 : FVec F S1 .f32) (main_v63 : IVec S_ 1) (main_v67 : IVec S_ 1) : IVec S_ 1 :=
  let main_v68 : IVec S_ 1 := andi main_v63 main_v67
  let main_v69 : FVec F S256x200 .f32 := Host.absf main_arg17
  let main_cst_26 : FVec F S_ .f32 := constant S_ .f32 0x7F800000#32
  let main_v70 : FVec F S256x200 .f32 := broadcastInDim S256x200 ![] bcast_S_S256x200 main_cst_26
  let main_v71 : IVec S256x200 1 := cmpf .olt main_v69 main_v70
  let main_c_27 : IVec S_ 1 := constantI S_ 1 1#1
  let main_v72 : IVec S_ 1 := (fun x v => Host.reduce IntOp.andi x v reducesTo_S256x200_S_d0_1 h_S_) main_v71 main_c_27
  let main_v73 : IVec S_ 1 := andi main_v68 main_v72
  let main_v74 : FVec F S200 .f32 := Host.absf main_arg18
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S200x200 .f32 := Host.absf main_arg19
  let main_cst_30 : FVec F S_ .f32 := constant S_ .f32 0x7F800000#32
  let main_v80 : FVec F S200x200 .f32 := broadcastInDim S200x200 ![] bcast_S_S200x200 main_cst_30
  let main_v81 : IVec S200x200 1 := cmpf .olt main_v79 main_v80
  let main_c_31 : IVec S_ 1 := constantI S_ 1 1#1
  let main_v82 : IVec S_ 1 := (fun x v => Host.reduce IntOp.andi x v reducesTo_S200x200_S_d0_1 h_S_) main_v81 main_c_31
  let main_v83 : IVec S_ 1 := andi main_v78 main_v82
  let main_v84 : FVec F S200 .f32 := Host.absf main_arg20
  let main_cst_32 : FVec F S_ .f32 := constant S_ .f32 0x7F800000#32
  fn_part5 (F := F) main_arg21 main_arg22 main_arg23 main_arg24 main_v83 main_v84 main_cst_32

def fn_part3 {F : FTy → Type} [FloatOps F] (main_arg14 : FVec F S3x64 .f32) (main_arg15 : FVec F S256 .f32) (main_arg16 : FVec F S256 .f32) (main_arg17 : FVec F S256x200 .f32) (main_arg18 : FVec F S200 .f32) (main_arg19 : FVec F S200x200 .f32) (main_arg20 : FVec F S200 .f32) (main_arg21 : FVec F S200x200 .f32) (main_arg22 : FVec F S200 .f32) (main_arg23 : FVec F S200x1 .f32) (main_arg24 : FVec F S1 .f32) (main_v48 : IVec S_ 1) (main_v49 : FVec F S3x200x64 .f32) (main_v50 : FVec F S3x200x64 .f32) : IVec S_ 1 :=
  let main_v51 : IVec S3x200x64 1 := cmpf .olt main_v49 main_v50
  let main_c_19 : IVec S_ 1 := constantI S_ 1 1#1
  let main_v52 : IVec S_ 1 := (fun x v => Host.reduce IntOp.andi x v reducesTo_S3x200x64_S_d0_1_2 h_S_) main_v51 main_c_19
  let main_v53 : IVec S_ 1 := andi main_v48 main_v52
  let main_v54 : FVec F S3x64 .f32 := Host.absf main_arg14
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S256 .f32 := Host.absf main_arg15
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg16
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg17 main_arg18 main_arg19 main_arg20 main_arg21 main_arg22 main_arg23 main_arg24 main_v63 main_v67

def fn_part2 {F : FTy → Type} [FloatOps F] (main_arg10 : FVec F S3x200 .f32) (main_arg11 : FVec F S3x200x200 .f32) (main_arg12 : FVec F S3x200 .f32) (main_arg13 : FVec F S3x200x64 .f32) (main_arg14 : FVec F S3x64 .f32) (main_arg15 : FVec F S256 .f32) (main_arg16 : FVec F S256 .f32) (main_arg17 : FVec F S256x200 .f32) (main_arg18 : FVec F S200 .f32) (main_arg19 : FVec F S200x200 .f32) (main_arg20 : FVec F S200 .f32) (main_arg21 : FVec F S200x200 .f32) (main_arg22 : FVec F S200 .f32) (main_arg23 : FVec F S200x1 .f32) (main_arg24 : FVec F S1 .f32) (main_v33 : IVec S_ 1) : IVec S_ 1 :=
  let main_v34 : FVec F S3x200 .f32 := Host.absf main_arg10
  let main_cst_12 : FVec F S_ .f32 := constant S_ .f32 0x7F800000#32
  let main_v35 : FVec F S3x200 .f32 := broadcastInDim S3x200 ![] bcast_S_S3x200 main_cst_12
  let main_v36 : IVec S3x200 1 := cmpf .olt main_v34 main_v35
  let main_c_13 : IVec S_ 1 := constantI S_ 1 1#1
  let main_v37 : IVec S_ 1 := (fun x v => Host.reduce IntOp.andi x v reducesTo_S3x200_S_d0_1 h_S_) main_v36 main_c_13
  let main_v38 : IVec S_ 1 := andi main_v33 main_v37
  let main_v39 : FVec F S3x200x200 .f32 := Host.absf main_arg11
  let main_cst_14 : FVec F S_ .f32 := constant S_ .f32 0x7F800000#32
  let main_v40 : FVec F S3x200x200 .f32 := broadcastInDim S3x200x200 ![] bcast_S_S3x200x200 main_cst_14
  let main_v41 : IVec S3x200x200 1 := cmpf .olt main_v39 main_v40
  let main_c_15 : IVec S_ 1 := constantI S_ 1 1#1
  let main_v42 : IVec S_ 1 := (fun x v => Host.reduce IntOp.andi x v reducesTo_S3x200x200_S_d0_1_2 h_S_) main_v41 main_c_15
  let main_v43 : IVec S_ 1 := andi main_v38 main_v42
  let main_v44 : FVec F S3x200 .f32 := Host.absf main_arg12
  let main_cst_16 : FVec F S_ .f32 := constant S_ .f32 0x7F800000#32
  let main_v45 : FVec F S3x200 .f32 := broadcastInDim S3x200 ![] bcast_S_S3x200 main_cst_16
  let main_v46 : IVec S3x200 1 := cmpf .olt main_v44 main_v45
  let main_c_17 : IVec S_ 1 := constantI S_ 1 1#1
  let main_v47 : IVec S_ 1 := (fun x v => Host.reduce IntOp.andi x v reducesTo_S3x200_S_d0_1 h_S_) main_v46 main_c_17
  let main_v48 : IVec S_ 1 := andi main_v43 main_v47
  let main_v49 : FVec F S3x200x64 .f32 := Host.absf main_arg13
  let main_cst_18 : FVec F S_ .f32 := constant S_ .f32 0x7F800000#32
  let main_v50 : FVec F S3x200x64 .f32 := broadcastInDim S3x200x64 ![] bcast_S_S3x200x64 main_cst_18
  fn_part3 (F := F) main_arg14 main_arg15 main_arg16 main_arg17 main_arg18 main_arg19 main_arg20 main_arg21 main_arg22 main_arg23 main_arg24 main_v48 main_v49 main_v50

def fn_part1 {F : FTy → Type} [FloatOps F] (main_arg7 : FVec F S3x87x200 .f32) (main_arg8 : FVec F S3x200 .f32) (main_arg9 : FVec F S3x200x200 .f32) (main_arg10 : FVec F S3x200 .f32) (main_arg11 : FVec F S3x200x200 .f32) (main_arg12 : FVec F S3x200 .f32) (main_arg13 : FVec F S3x200x64 .f32) (main_arg14 : FVec F S3x64 .f32) (main_arg15 : FVec F S256 .f32) (main_arg16 : FVec F S256 .f32) (main_arg17 : FVec F S256x200 .f32) (main_arg18 : FVec F S200 .f32) (main_arg19 : FVec F S200x200 .f32) (main_arg20 : FVec F S200 .f32) (main_arg21 : FVec F S200x200 .f32) (main_arg22 : FVec F S200 .f32) (main_arg23 : FVec F S200x1 .f32) (main_arg24 : FVec F S1 .f32) (main_v13 : IVec S_ 1) (main_v16 : IVec S3x87 1) : IVec S_ 1 :=
  let main_c_5 : IVec S_ 1 := constantI S_ 1 1#1
  let main_v17 : IVec S_ 1 := (fun x v => Host.reduce IntOp.andi x v reducesTo_S3x87_S_d0_1 h_S_) main_v16 main_c_5
  let main_v18 : IVec S_ 1 := andi main_v13 main_v17
  let main_v19 : FVec F S3x87x200 .f32 := Host.absf main_arg7
  let main_cst_6 : FVec F S_ .f32 := constant S_ .f32 0x7F800000#32
  let main_v20 : FVec F S3x87x200 .f32 := broadcastInDim S3x87x200 ![] bcast_S_S3x87x200 main_cst_6
  let main_v21 : IVec S3x87x200 1 := cmpf .olt main_v19 main_v20
  let main_c_7 : IVec S_ 1 := constantI S_ 1 1#1
  let main_v22 : IVec S_ 1 := (fun x v => Host.reduce IntOp.andi x v reducesTo_S3x87x200_S_d0_1_2 h_S_) main_v21 main_c_7
  let main_v23 : IVec S_ 1 := andi main_v18 main_v22
  let main_v24 : FVec F S3x200 .f32 := Host.absf main_arg8
  let main_cst_8 : FVec F S_ .f32 := constant S_ .f32 0x7F800000#32
  let main_v25 : FVec F S3x200 .f32 := broadcastInDim S3x200 ![] bcast_S_S3x200 main_cst_8
  let main_v26 : IVec S3x200 1 := cmpf .olt main_v24 main_v25
  let main_c_9 : IVec S_ 1 := constantI S_ 1 1#1
  let main_v27 : IVec S_ 1 := (fun x v => Host.reduce IntOp.andi x v reducesTo_S3x200_S_d0_1 h_S_) main_v26 main_c_9
  let main_v28 : IVec S_ 1 := andi main_v23 main_v27
  let main_v29 : FVec F S3x200x200 .f32 := Host.absf main_arg9
  let main_cst_10 : FVec F S_ .f32 := constant S_ .f32 0x7F800000#32
  let main_v30 : FVec F S3x200x200 .f32 := broadcastInDim S3x200x200 ![] bcast_S_S3x200x200 main_cst_10
  let main_v31 : IVec S3x200x200 1 := cmpf .olt main_v29 main_v30
  let main_c_11 : IVec S_ 1 := constantI S_ 1 1#1
  let main_v32 : IVec S_ 1 := (fun x v => Host.reduce IntOp.andi x v reducesTo_S3x200x200_S_d0_1_2 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_v33

def fn {F : FTy → Type} [FloatOps F] (main_arg0 : IVec S50000 32) (main_arg1 : IVec S2x800000 32) (main_arg2 : FVec F S800000x1 .f32) (main_arg3 : IVec S50000 32) (main_arg4 : FVec F S10x64 .f32) (main_arg5 : FVec F S3x87 .f32) (main_arg6 : FVec F S3x87 .f32) (main_arg7 : FVec F S3x87x200 .f32) (main_arg8 : FVec F S3x200 .f32) (main_arg9 : FVec F S3x200x200 .f32) (main_arg10 : FVec F S3x200 .f32) (main_arg11 : FVec F S3x200x200 .f32) (main_arg12 : FVec F S3x200 .f32) (main_arg13 : FVec F S3x200x64 .f32) (main_arg14 : FVec F S3x64 .f32) (main_arg15 : FVec F S256 .f32) (main_arg16 : FVec F S256 .f32) (main_arg17 : FVec F S256x200 .f32) (main_arg18 : FVec F S200 .f32) (main_arg19 : FVec F S200x200 .f32) (main_arg20 : FVec F S200 .f32) (main_arg21 : FVec F S200x200 .f32) (main_arg22 : FVec F S200 .f32) (main_arg23 : FVec F S200x1 .f32) (main_arg24 : FVec F S1 .f32) : IVec S_ 1 :=
  let main_v0 : FVec F S800000x1 .f32 := Host.absf main_arg2
  let main_cst : FVec F S_ .f32 := constant S_ .f32 0x7F800000#32
  let main_v1 : FVec F S800000x1 .f32 := broadcastInDim S800000x1 ![] bcast_S_S800000x1 main_cst
  let main_v2 : IVec S800000x1 1 := cmpf .olt main_v0 main_v1
  let main_c : IVec S_ 1 := constantI S_ 1 1#1
  let main_v3 : IVec S_ 1 := (fun x v => Host.reduce IntOp.andi x v reducesTo_S800000x1_S_d0_1 h_S_) main_v2 main_c
  let main_v4 : FVec F S10x64 .f32 := Host.absf main_arg4
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S3x87 .f32 := Host.absf main_arg5
  let main_cst_2 : FVec F S_ .f32 := constant S_ .f32 0x7F800000#32
  let main_v10 : FVec F S3x87 .f32 := broadcastInDim S3x87 ![] bcast_S_S3x87 main_cst_2
  let main_v11 : IVec S3x87 1 := cmpf .olt main_v9 main_v10
  let main_c_3 : IVec S_ 1 := constantI S_ 1 1#1
  let main_v12 : IVec S_ 1 := (fun x v => Host.reduce IntOp.andi x v reducesTo_S3x87_S_d0_1 h_S_) main_v11 main_c_3
  let main_v13 : IVec S_ 1 := andi main_v8 main_v12
  let main_v14 : FVec F S3x87 .f32 := Host.absf main_arg6
  let main_cst_4 : FVec F S_ .f32 := constant S_ .f32 0x7F800000#32
  let main_v15 : FVec F S3x87 .f32 := broadcastInDim S3x87 ![] bcast_S_S3x87 main_cst_4
  let main_v16 : IVec S3x87 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000 : Shape := ⟨1, ![50000]⟩
abbrev S2x800000 : Shape := ⟨2, ![2, 800000]⟩
abbrev S800000x1 : Shape := ⟨2, ![800000, 1]⟩
abbrev S10x64 : Shape := ⟨2, ![10, 64]⟩
abbrev S3x87 : Shape := ⟨2, ![3, 87]⟩
abbrev S3x87x200 : Shape := ⟨3, ![3, 87, 200]⟩
abbrev S3x200 : Shape := ⟨2, ![3, 200]⟩
abbrev S3x200x200 : Shape := ⟨3, ![3, 200, 200]⟩
abbrev S3x200x64 : Shape := ⟨3, ![3, 200, 64]⟩
abbrev S3x64 : Shape := ⟨2, ![3, 64]⟩
abbrev S256 : Shape := ⟨1, ![256]⟩
abbrev S256x200 : Shape := ⟨2, ![256, 200]⟩
abbrev S200 : Shape := ⟨1, ![200]⟩
abbrev S200x200 : Shape := ⟨2, ![200, 200]⟩
abbrev S200x1 : Shape := ⟨2, ![200, 1]⟩
abbrev S1 : Shape := ⟨1, ![1]⟩
abbrev S23 : Shape := ⟨1, ![23]⟩
abbrev S1x800000 : Shape := ⟨2, ![1, 800000]⟩
abbrev S800000 : Shape := ⟨1, ![800000]⟩
abbrev S1x23 : Shape := ⟨2, ![1, 23]⟩
abbrev S800000x23 : Shape := ⟨2, ![800000, 23]⟩
abbrev S_ : Shape := ⟨0, ![]⟩
abbrev S50000x1 : Shape := ⟨2, ![50000, 1]⟩
abbrev S50000x64 : Shape := ⟨2, ![50000, 64]⟩
abbrev S800000x64 : Shape := ⟨2, ![800000, 64]⟩
abbrev S800000x87 : Shape := ⟨2, ![800000, 87]⟩
abbrev S50000x87 : Shape := ⟨2, ![50000, 87]⟩
abbrev S87 : Shape := ⟨1, ![87]⟩
abbrev S1x87 : Shape := ⟨2, ![1, 87]⟩
abbrev S1x87x200 : Shape := ⟨3, ![1, 87, 200]⟩
abbrev S87x200 : Shape := ⟨2, ![87, 200]⟩
abbrev S1x200 : Shape := ⟨2, ![1, 200]⟩
abbrev S1x200x200 : Shape := ⟨3, ![1, 200, 200]⟩
abbrev S1x200x64 : Shape := ⟨3, ![1, 200, 64]⟩
abbrev S200x64 : Shape := ⟨2, ![200, 64]⟩
abbrev S1x64 : Shape := ⟨2, ![1, 64]⟩
abbrev S64 : Shape := ⟨1, ![64]⟩
abbrev S10000x87 : Shape := ⟨2, ![10000, 87]⟩
abbrev S10000x64 : Shape := ⟨2, ![10000, 64]⟩
abbrev S10000x200 : Shape := ⟨2, ![10000, 200]⟩
abbrev S50000x256 : Shape := ⟨2, ![50000, 256]⟩
abbrev S1x256 : Shape := ⟨2, ![1, 256]⟩
abbrev S1x1 : Shape := ⟨2, ![1, 1]⟩
abbrev S10000x256 : Shape := ⟨2, ![10000, 256]⟩
abbrev S10000x1 : Shape := ⟨2, ![10000, 1]⟩
abbrev S2048x1 : Shape := ⟨2, ![2048, 1]⟩

abbrev nBuf : Space → Nat
  | .hbm => 245
  | .vmem => 70
  | .smem => 0
  | _ => 0

abbrev hbmTy0_0 (i : Nat) : BufTy := match i % 128 with
  | 0 => ⟨S50000, .i32⟩
  | 1 => ⟨S2x800000, .i32⟩
  | 2 => ⟨S800000x1, .f32⟩
  | 3 => ⟨S50000, .i32⟩
  | 4 => ⟨S10x64, .f32⟩
  | 5 => ⟨S3x87, .f32⟩
  | 6 => ⟨S3x87, .f32⟩
  | 7 => ⟨S3x87x200, .f32⟩
  | 8 => ⟨S3x200, .f32⟩
  | 9 => ⟨S3x200x200, .f32⟩
  | 10 => ⟨S3x200, .f32⟩
  | 11 => ⟨S3x200x200, .f32⟩
  | 12 => ⟨S3x200, .f32⟩
  | 13 => ⟨S3x200x64, .f32⟩
  | 14 => ⟨S3x64, .f32⟩
  | 15 => ⟨S256, .f32⟩
  | 16 => ⟨S256, .f32⟩
  | 17 => ⟨S256x200, .f32⟩
  | 18 => ⟨S200, .f32⟩
  | 19 => ⟨S200x200, .f32⟩
  | 20 => ⟨S200, .f32⟩
  | 21 => ⟨S200x200, .f32⟩
  | 22 => ⟨S200, .f32⟩
  | 23 => ⟨S200x1, .f32⟩
  | 24 => ⟨S1, .f32⟩
  | 25 => ⟨S23, .f32⟩
  | 26 => ⟨S1x800000, .i32⟩
  | 27 => ⟨S800000, .i32⟩
  | 28 => ⟨S1x800000, .i32⟩
  | 29 => ⟨S800000, .i32⟩
  | 30 => ⟨S1x23, .f32⟩
  | 31 => ⟨S800000x23, .f32⟩
  | 32 => ⟨S800000x23, .f32⟩
  | 33 => ⟨S800000x23, .f32⟩
  | 34 => ⟨S800000x23, .f32⟩
  | 35 => ⟨S800000x23, .f32⟩
  | 36 => ⟨S800000x23, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x87, .f32⟩
  | 56 => ⟨S_, .f32⟩
  | 57 => ⟨S50000x87, .f32⟩
  | 58 => ⟨S800000x1, .i32⟩
  | 59 => ⟨S50000x87, .f32⟩
  | 60 => ⟨S_, .f32⟩
  | 61 => ⟨S87, .f32⟩
  | 62 => ⟨S_, .f32⟩
  | 63 => ⟨S87, .f32⟩
  | 64 => ⟨S87, .f32⟩
  | 65 => ⟨S1x87, .f32⟩
  | 66 => ⟨S50000x87, .f32⟩
  | 67 => ⟨S50000x87, .f32⟩
  | 68 => ⟨S50000x87, .f32⟩
  | 69 => ⟨S_, .f32⟩
  | 70 => ⟨S87, .f32⟩
  | 71 => ⟨S_, .f32⟩
  | 72 => ⟨S87, .f32⟩
  | 73 => ⟨S87, .f32⟩
  | 74 => ⟨S1x87, .f32⟩
  | 75 => ⟨S87, .f32⟩
  | 76 => ⟨S1x87, .f32⟩
  | 77 => ⟨S87, .f32⟩
  | 78 => ⟨S1x87x200, .f32⟩
  | 79 => ⟨S87x200, .f32⟩
  | 80 => ⟨S1x200, .f32⟩
  | 81 => ⟨S200, .f32⟩
  | 82 => ⟨S1x200x200, .f32⟩
  | 83 => ⟨S200x200, .f32⟩
  | 84 => ⟨S1x200, .f32⟩
  | 85 => ⟨S200, .f32⟩
  | 86 => ⟨S1x200x200, .f32⟩
  | 87 => ⟨S200x200, .f32⟩
  | 88 => ⟨S1x200, .f32⟩
  | 89 => ⟨S200, .f32⟩
  | 90 => ⟨S1x200x64, .f32⟩
  | 91 => ⟨S200x64, .f32⟩
  | 92 => ⟨S1x64, .f32⟩
  | 93 => ⟨S64, .f32⟩
  | 94 => ⟨S1x87, .f32⟩
  | 95 => ⟨S1x87, .f32⟩
  | 96 => ⟨S1x87, .f32⟩
  | 97 => ⟨S1x87, .f32⟩
  | 98 => ⟨S1x200, .f32⟩
  | 99 => ⟨S1x200, .f32⟩
  | 100 => ⟨S1x200, .f32⟩
  | 101 => ⟨S1x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x87, .f32⟩
  | 113 => ⟨S_, .f32⟩
  | 114 => ⟨S50000x87, .f32⟩
  | 115 => ⟨S800000x1, .i32⟩
  | 116 => ⟨S50000x87, .f32⟩
  | 117 => ⟨S_, .f32⟩
  | 118 => ⟨S87, .f32⟩
  | 119 => ⟨S_, .f32⟩
  | 120 => ⟨S87, .f32⟩
  | 121 => ⟨S87, .f32⟩
  | 122 => ⟨S1x87, .f32⟩
  | 123 => ⟨S50000x87, .f32⟩
  | 124 => ⟨S50000x87, .f32⟩
  | 125 => ⟨S50000x87, .f32⟩
  | 126 => ⟨S_, .f32⟩
  | 127 => ⟨S87, .f32⟩
  | _ => ⟨S50000, .i32⟩

abbrev hbmTy0_1 (i : Nat) : BufTy := match i % 128 with
  | 0 => ⟨S_, .f32⟩
  | 1 => ⟨S87, .f32⟩
  | 2 => ⟨S87, .f32⟩
  | 3 => ⟨S1x87, .f32⟩
  | 4 => ⟨S87, .f32⟩
  | 5 => ⟨S1x87, .f32⟩
  | 6 => ⟨S87, .f32⟩
  | 7 => ⟨S1x87x200, .f32⟩
  | 8 => ⟨S87x200, .f32⟩
  | 9 => ⟨S1x200, .f32⟩
  | 10 => ⟨S200, .f32⟩
  | 11 => ⟨S1x200x200, .f32⟩
  | 12 => ⟨S200x200, .f32⟩
  | 13 => ⟨S1x200, .f32⟩
  | 14 => ⟨S200, .f32⟩
  | 15 => ⟨S1x200x200, .f32⟩
  | 16 => ⟨S200x200, .f32⟩
  | 17 => ⟨S1x200, .f32⟩
  | 18 => ⟨S200, .f32⟩
  | 19 => ⟨S1x200x64, .f32⟩
  | 20 => ⟨S200x64, .f32⟩
  | 21 => ⟨S1x64, .f32⟩
  | 22 => ⟨S64, .f32⟩
  | 23 => ⟨S1x87, .f32⟩
  | 24 => ⟨S1x87, .f32⟩
  | 25 => ⟨S1x87, .f32⟩
  | 26 => ⟨S1x87, .f32⟩
  | 27 => ⟨S1x200, .f32⟩
  | 28 => ⟨S1x200, .f32⟩
  | 29 => ⟨S1x200, .f32⟩
  | 30 => ⟨S1x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x87, .f32⟩
  | 42 => ⟨S_, .f32⟩
  | 43 => ⟨S50000x87, .f32⟩
  | 44 => ⟨S800000x1, .i32⟩
  | 45 => ⟨S50000x87, .f32⟩
  | 46 => ⟨S_, .f32⟩
  | 47 => ⟨S87, .f32⟩
  | 48 => ⟨S_, .f32⟩
  | 49 => ⟨S87, .f32⟩
  | 50 => ⟨S87, .f32⟩
  | 51 => ⟨S1x87, .f32⟩
  | 52 => ⟨S50000x87, .f32⟩
  | 53 => ⟨S50000x87, .f32⟩
  | 54 => ⟨S50000x87, .f32⟩
  | 55 => ⟨S_, .f32⟩
  | 56 => ⟨S87, .f32⟩
  | 57 => ⟨S_, .f32⟩
  | 58 => ⟨S87, .f32⟩
  | 59 => ⟨S87, .f32⟩
  | 60 => ⟨S1x87, .f32⟩
  | 61 => ⟨S87, .f32⟩
  | 62 => ⟨S1x87, .f32⟩
  | 63 => ⟨S87, .f32⟩
  | 64 => ⟨S1x87x200, .f32⟩
  | 65 => ⟨S87x200, .f32⟩
  | 66 => ⟨S1x200, .f32⟩
  | 67 => ⟨S200, .f32⟩
  | 68 => ⟨S1x200x200, .f32⟩
  | 69 => ⟨S200x200, .f32⟩
  | 70 => ⟨S1x200, .f32⟩
  | 71 => ⟨S200, .f32⟩
  | 72 => ⟨S1x200x200, .f32⟩
  | 73 => ⟨S200x200, .f32⟩
  | 74 => ⟨S1x200, .f32⟩
  | 75 => ⟨S200, .f32⟩
  | 76 => ⟨S1x200x64, .f32⟩
  | 77 => ⟨S200x64, .f32⟩
  | 78 => ⟨S1x64, .f32⟩
  | 79 => ⟨S64, .f32⟩
  | 80 => ⟨S1x87, .f32⟩
  | 81 => ⟨S1x87, .f32⟩
  | 82 => ⟨S1x87, .f32⟩
  | 83 => ⟨S1x87, .f32⟩
  | 84 => ⟨S1x200, .f32⟩
  | 85 => ⟨S1x200, .f32⟩
  | 86 => ⟨S1x200, .f32⟩
  | 87 => ⟨S1x64, .f32⟩
  | 88 => ⟨S50000x64, .f32⟩
  | 89 => ⟨S50000x256, .f32⟩
  | 90 => ⟨S_, .f32⟩
  | 91 => ⟨S256, .f32⟩
  | 92 => ⟨S_, .f32⟩
  | 93 => ⟨S256, .f32⟩
  | 94 => ⟨S256, .f32⟩
  | 95 => ⟨S1x256, .f32⟩
  | 96 => ⟨S50000x256, .f32⟩
  | 97 => ⟨S50000x256, .f32⟩
  | 98 => ⟨S50000x256, .f32⟩
  | 99 => ⟨S_, .f32⟩
  | 100 => ⟨S256, .f32⟩
  | 101 => ⟨S_, .f32⟩
  | 102 => ⟨S256, .f32⟩
  | 103 => ⟨S256, .f32⟩
  | 104 => ⟨S1x256, .f32⟩
  | 105 => ⟨S1x256, .f32⟩
  | 106 => ⟨S1x256, .f32⟩
  | 107 => ⟨S1x256, .f32⟩
  | 108 => ⟨S1x200, .f32⟩
  | 109 => ⟨S1x200, .f32⟩
  | 110 => ⟨S1x200, .f32⟩
  | 111 => ⟨S1x1, .f32⟩
  | 112 => ⟨S50000x1, .f32⟩
  | 113 => ⟨S_, .f32⟩
  | 114 => ⟨S2048x1, .f32⟩
  | 115 => ⟨S50000x1, .i32⟩
  | 116 => ⟨S2048x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S10000x87, .f32⟩
  | .local _ .vmem, ⟨1, _⟩ => ⟨S10000x87, .f32⟩
  | .local _ .vmem, ⟨2, _⟩ => ⟨S10000x64, .f32⟩
  | .local _ .vmem, ⟨3, _⟩ => ⟨S10000x64, .f32⟩
  | .local _ .vmem, ⟨4, _⟩ => ⟨S1x87, .f32⟩
  | .local _ .vmem, ⟨5, _⟩ => ⟨S1x87, .f32⟩
  | .local _ .vmem, ⟨6, _⟩ => ⟨S1x87, .f32⟩
  | .local _ .vmem, ⟨7, _⟩ => ⟨S1x87, .f32⟩
  | .local _ .vmem, ⟨8, _⟩ => ⟨S87x200, .f32⟩
  | .local _ .vmem, ⟨9, _⟩ => ⟨S1x200, .f32⟩
  | .local _ .vmem, ⟨10, _⟩ => ⟨S200x200, .f32⟩
  | .local _ .vmem, ⟨11, _⟩ => ⟨S1x200, .f32⟩
  | .local _ .vmem, ⟨12, _⟩ => ⟨S200x200, .f32⟩
  | .local _ .vmem, ⟨13, _⟩ => ⟨S1x200, .f32⟩
  | .local _ .vmem, ⟨14, _⟩ => ⟨S200x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x87, .f32⟩
  | .local _ .vmem, ⟨19, _⟩ => ⟨S10000x87, .f32⟩
  | .local _ .vmem, ⟨20, _⟩ => ⟨S10000x64, .f32⟩
  | .local _ .vmem, ⟨21, _⟩ => ⟨S10000x64, .f32⟩
  | .local _ .vmem, ⟨22, _⟩ => ⟨S1x87, .f32⟩
  | .local _ .vmem, ⟨23, _⟩ => ⟨S1x87, .f32⟩
  | .local _ .vmem, ⟨24, _⟩ => ⟨S1x87, .f32⟩
  | .local _ .vmem, ⟨25, _⟩ => ⟨S1x87, .f32⟩
  | .local _ .vmem, ⟨26, _⟩ => ⟨S87x200, .f32⟩
  | .local _ .vmem, ⟨27, _⟩ => ⟨S1x200, .f32⟩
  | .local _ .vmem, ⟨28, _⟩ => ⟨S200x200, .f32⟩
  | .local _ .vmem, ⟨29, _⟩ => ⟨S1x200, .f32⟩
  | .local _ .vmem, ⟨30, _⟩ => ⟨S200x200, .f32⟩
  | .local _ .vmem, ⟨31, _⟩ => ⟨S1x200, .f32⟩
  | .local _ .vmem, ⟨32, _⟩ => ⟨S200x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x87, .f32⟩
  | .local _ .vmem, ⟨37, _⟩ => ⟨S10000x87, .f32⟩
  | .local _ .vmem, ⟨38, _⟩ => ⟨S10000x64, .f32⟩
  | .local _ .vmem, ⟨39, _⟩ => ⟨S10000x64, .f32⟩
  | .local _ .vmem, ⟨40, _⟩ => ⟨S1x87, .f32⟩
  | .local _ .vmem, ⟨41, _⟩ => ⟨S1x87, .f32⟩
  | .local _ .vmem, ⟨42, _⟩ => ⟨S1x87, .f32⟩
  | .local _ .vmem, ⟨43, _⟩ => ⟨S1x87, .f32⟩
  | .local _ .vmem, ⟨44, _⟩ => ⟨S87x200, .f32⟩
  | .local _ .vmem, ⟨45, _⟩ => ⟨S1x200, .f32⟩
  | .local _ .vmem, ⟨46, _⟩ => ⟨S200x200, .f32⟩
  | .local _ .vmem, ⟨47, _⟩ => ⟨S1x200, .f32⟩
  | .local _ .vmem, ⟨48, _⟩ => ⟨S200x200, .f32⟩
  | .local _ .vmem, ⟨49, _⟩ => ⟨S1x200, .f32⟩
  | .local _ .vmem, ⟨50, _⟩ => ⟨S200x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x256, .f32⟩
  | .local _ .vmem, ⟨55, _⟩ => ⟨S10000x256, .f32⟩
  | .local _ .vmem, ⟨56, _⟩ => ⟨S1x256, .f32⟩
  | .local _ .vmem, ⟨57, _⟩ => ⟨S1x256, .f32⟩
  | .local _ .vmem, ⟨58, _⟩ => ⟨S1x256, .f32⟩
  | .local _ .vmem, ⟨59, _⟩ => ⟨S1x256, .f32⟩
  | .local _ .vmem, ⟨60, _⟩ => ⟨S256x200, .f32⟩
  | .local _ .vmem, ⟨61, _⟩ => ⟨S1x200, .f32⟩
  | .local _ .vmem, ⟨62, _⟩ => ⟨S200x200, .f32⟩
  | .local _ .vmem, ⟨63, _⟩ => ⟨S1x200, .f32⟩
  | .local _ .vmem, ⟨64, _⟩ => ⟨S200x200, .f32⟩
  | .local _ .vmem, ⟨65, _⟩ => ⟨S1x200, .f32⟩
  | .local _ .vmem, ⟨66, _⟩ => ⟨S200x1, .f32⟩
  | .local _ .vmem, ⟨67, _⟩ => ⟨S1x1, .f32⟩
  | .local _ .vmem, ⟨68, _⟩ => ⟨S10000x1, .f32⟩
  | .local _ .vmem, ⟨69, _⟩ => ⟨S10000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_1 : Ref sig .tc := ⟨.hbm, 46, rfl⟩
abbrev main_v18 : Ref sig .tc := ⟨.hbm, 47, rfl⟩
abbrev main_v19 : Ref sig .tc := ⟨.hbm, 48, rfl⟩
abbrev main_c_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_6 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_8 : Ref sig .tc := ⟨.hbm, 103, rfl⟩
abbrev main_v68 : Ref sig .tc := ⟨.hbm, 104, rfl⟩
abbrev main_v69 : Ref sig .tc := ⟨.hbm, 105, rfl⟩
abbrev main_c_9 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_10 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_11 : Ref sig .tc := ⟨.hbm, 117, rfl⟩
abbrev main_v79 : Ref sig .tc := ⟨.hbm, 118, rfl⟩
abbrev main_cst_12 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_13 : Ref sig .tc := ⟨.hbm, 126, rfl⟩
abbrev main_v86 : Ref sig .tc := ⟨.hbm, 127, rfl⟩
abbrev main_cst_14 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_15 : Ref sig .tc := ⟨.hbm, 160, rfl⟩
abbrev main_v118 : Ref sig .tc := ⟨.hbm, 161, rfl⟩
abbrev main_v119 : Ref sig .tc := ⟨.hbm, 162, rfl⟩
abbrev main_c_16 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_17 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_18 : Ref sig .tc := ⟨.hbm, 174, rfl⟩
abbrev main_v129 : Ref sig .tc := ⟨.hbm, 175, rfl⟩
abbrev main_cst_19 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_20 : Ref sig .tc := ⟨.hbm, 183, rfl⟩
abbrev main_v136 : Ref sig .tc := ⟨.hbm, 184, rfl⟩
abbrev main_cst_21 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_22 : Ref sig .tc := ⟨.hbm, 218, rfl⟩
abbrev main_v169 : Ref sig .tc := ⟨.hbm, 219, rfl⟩
abbrev main_cst_23 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_cst_24 : Ref sig .tc := ⟨.hbm, 227, rfl⟩
abbrev main_v176 : Ref sig .tc := ⟨.hbm, 228, rfl⟩
abbrev main_cst_25 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_cst_26 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc2_stg12_0 : Ref sig .tc := ⟨.vmem, 50, rfl⟩
abbrev cc2_stg13_0 : Ref sig .tc := ⟨.vmem, 51, rfl⟩
abbrev cc2_stg14_0 : Ref sig .tc := ⟨.vmem, 52, rfl⟩
abbrev cc2_stg14_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg2_0 : Ref sig .tc := ⟨.vmem, 57, rfl⟩
abbrev cc3_stg3_0 : Ref sig .tc := ⟨.vmem, 58, rfl⟩
abbrev cc3_stg4_0 : Ref sig .tc := ⟨.vmem, 59, rfl⟩
abbrev cc3_stg5_0 : Ref sig .tc := ⟨.vmem, 60, rfl⟩
abbrev cc3_stg6_0 : Ref sig .tc := ⟨.vmem, 61, rfl⟩
abbrev cc3_stg7_0 : Ref sig .tc := ⟨.vmem, 62, rfl⟩
abbrev cc3_stg8_0 : Ref sig .tc := ⟨.vmem, 63, rfl⟩
abbrev cc3_stg9_0 : Ref sig .tc := ⟨.vmem, 64, rfl⟩
abbrev cc3_stg10_0 : Ref sig .tc := ⟨.vmem, 65, rfl⟩
abbrev cc3_stg11_0 : Ref sig .tc := ⟨.vmem, 66, rfl⟩
abbrev cc3_stg12_0 : Ref sig .tc := ⟨.vmem, 67, rfl⟩
abbrev cc3_stg13_0 : Ref sig .tc := ⟨.vmem, 68, rfl⟩
abbrev cc3_stg13_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem14_0 : DmaSem sig := 52
abbrev cc2_sem14_1 : DmaSem sig := 53
abbrev cc3_sem0_0 : DmaSem sig := 54
abbrev cc3_sem0_1 : DmaSem sig := 55
abbrev cc3_sem1_0 : DmaSem sig := 56
abbrev cc3_sem2_0 : DmaSem sig := 57
abbrev cc3_sem3_0 : DmaSem sig := 58
abbrev cc3_sem4_0 : DmaSem sig := 59
abbrev cc3_sem5_0 : DmaSem sig := 60
abbrev cc3_sem6_0 : DmaSem sig := 61
abbrev cc3_sem7_0 : DmaSem sig := 62
abbrev cc3_sem8_0 : DmaSem sig := 63
abbrev cc3_sem9_0 : DmaSem sig := 64
abbrev cc3_sem10_0 : DmaSem sig := 65
abbrev cc3_sem11_0 : DmaSem sig := 66
abbrev cc3_sem12_0 : DmaSem sig := 67
abbrev cc3_sem13_0 : DmaSem sig := 68
abbrev cc3_sem13_1 : DmaSem sig := 69

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x87 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x87 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x87 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x87 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x87 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S87x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S200x200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x200 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S10000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x87 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x87 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x87 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x87 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x87 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S87x200 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x200 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S200x200 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x200 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S200x200 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x200 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S200x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S10000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x87 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x87 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x87 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x87 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x87 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S87x200 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x200 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S200x200 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x200 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S200x200 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x200 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S200x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S10000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x200 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x200 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S200x200 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x200 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S200x200 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x200 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S200x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S10000x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S23_S1x23_1 : S23.BroadcastsInDim S1x23 (![1] : Fin 1 → Fin S1x23.rank)
  bcast_S800000x1_S800000x23_0_1 : S800000x1.BroadcastsInDim S800000x23 (![0, 1] : Fin 2 → Fin S800000x23.rank)
  bcast_S1x23_S800000x23_0_1 : S1x23.BroadcastsInDim S800000x23 (![0, 1] : Fin 2 → Fin S800000x23.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x23_S800000x64_S800000x87_d1 : Shape.Concatenates [S800000x23, S800000x64] S800000x87 1
  bcast_S_S50000x87 : S_.BroadcastsInDim S50000x87 (![] : Fin 0 → Fin S50000x87.rank)
  reducesTo_S50000x87_S87_d0 : S50000x87.ReducesTo [0] S87
  h_S_ : 0 < S_.numel
  bcast_S_S87 : S_.BroadcastsInDim S87 (![] : Fin 0 → Fin S87.rank)
  bcast_S87_S1x87_1 : S87.BroadcastsInDim S1x87 (![1] : Fin 1 → Fin S1x87.rank)
  bcast_S1x87_S50000x87_0_1 : S1x87.BroadcastsInDim S50000x87 (![0, 1] : Fin 2 → Fin S50000x87.rank)
  slices_S3x87_S1x87_0_0 : S3x87.Slices ![0, 0] S1x87
  shapeCasts_S1x87_S87 : S1x87.ShapeCasts S87
  slices_S3x87x200_S1x87x200_0_0_0 : S3x87x200.Slices ![0, 0, 0] S1x87x200
  shapeCasts_S1x87x200_S87x200 : S1x87x200.ShapeCasts S87x200
  slices_S3x200_S1x200_0_0 : S3x200.Slices ![0, 0] S1x200
  shapeCasts_S1x200_S200 : S1x200.ShapeCasts S200
  slices_S3x200x200_S1x200x200_0_0_0 : S3x200x200.Slices ![0, 0, 0] S1x200x200
  shapeCasts_S1x200x200_S200x200 : S1x200x200.ShapeCasts S200x200
  slices_S3x200x64_S1x200x64_0_0_0 : S3x200x64.Slices ![0, 0, 0] S1x200x64
  shapeCasts_S1x200x64_S200x64 : S1x200x64.ShapeCasts S200x64
  slices_S3x64_S1x64_0_0 : S3x64.Slices ![0, 0] S1x64
  shapeCasts_S1x64_S64 : S1x64.ShapeCasts S64
  shapeCasts_S87_S1x87 : S87.ShapeCasts S1x87
  shapeCasts_S200_S1x200 : S200.ShapeCasts S1x200
  shapeCasts_S64_S1x64 : S64.ShapeCasts S1x64
  inb_S10000x87_S10000x87_0_0 : ∀ a, (![0, 0] : Fin 2 → Nat) a + S10000x87.size a ≤ S10000x87.size a
  h_S10000x87 : 0 < S10000x87.numel
  shapeCasts_S10000x87_S10000x87 : S10000x87.ShapeCasts S10000x87
  inb_S1x87_S1x87_0_0 : ∀ a, (![0, 0] : Fin 2 → Nat) a + S1x87.size a ≤ S1x87.size a
  h_S1x87 : 0 < S1x87.numel
  shapeCasts_S1x87_S1x87 : S1x87.ShapeCasts S1x87
  broadcasts_S1x87_S10000x87 : S1x87.Broadcasts S10000x87
  inb_S87x200_S87x200_0_0 : ∀ a, (![0, 0] : Fin 2 → Nat) a + S87x200.size a ≤ S87x200.size a
  h_S87x200 : 0 < S87x200.numel
  shapeCasts_S87x200_S87x200 : S87x200.ShapeCasts S87x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S10000x200 : S1x200.Broadcasts S10000x200
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  slices_S3x87_S1x87_1_0 : S3x87.Slices ![1, 0] S1x87
  slices_S3x87x200_S1x87x200_1_0_0 : S3x87x200.Slices ![1, 0, 0] S1x87x200
  slices_S3x200_S1x200_1_0 : S3x200.Slices ![1, 0] S1x200
  slices_S3x200x200_S1x200x200_1_0_0 : S3x200x200.Slices ![1, 0, 0] S1x200x200
  slices_S3x200x64_S1x200x64_1_0_0 : S3x200x64.Slices ![1, 0, 0] S1x200x64
  slices_S3x64_S1x64_1_0 : S3x64.Slices ![1, 0] S1x64
  slices_S3x87_S1x87_2_0 : S3x87.Slices ![2, 0] S1x87
  slices_S3x87x200_S1x87x200_2_0_0 : S3x87x200.Slices ![2, 0, 0] S1x87x200
  slices_S3x200_S1x200_2_0 : S3x200.Slices ![2, 0] S1x200
  slices_S3x200x200_S1x200x200_2_0_0 : S3x200x200.Slices ![2, 0, 0] S1x200x200
  slices_S3x200x64_S1x200x64_2_0_0 : S3x200x64.Slices ![2, 0, 0] S1x200x64
  slices_S3x64_S1x64_2_0 : S3x64.Slices ![2, 0] S1x64
  concatenates_S50000x64_S50000x64_S50000x64_S50000x64_S50000x256_d1 : Shape.Concatenates [S50000x64, S50000x64, S50000x64, S50000x64] S50000x256 1
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S256_S1x256 : S256.ShapeCasts S1x256
  shapeCasts_S1_S1x1 : S1.ShapeCasts S1x1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x200_S256x200_0_0 : ∀ a, (![0, 0] : Fin 2 → Nat) a + S256x200.size a ≤ S256x200.size a
  h_S256x200 : 0 < S256x200.numel
  inb_S200x1_S200x1_0_0 : ∀ a, (![0, 0] : Fin 2 → Nat) a + S200x1.size a ≤ S200x1.size a
  h_S200x1 : 0 < S200x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  bcast_S_S2048x1 : S_.BroadcastsInDim S2048x1 (![] : Fin 0 → Fin S2048x1.rank)
  gather_S10x64_S50000x1_S50000x64_1_0_n_n_0_1_164_wf : GatherDims.WF S10x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x87_S800000x1_S800000x87_1_0_0_1_wf : ScatterDims.WF S50000x87 S800000x1 S800000x87 [1] [0] [0] 1
  dot_S10000x87_S87x200_S10000x200_1_0_0_1_n_n_wf : DotDims.WF S10000x87 S87x200 S10000x200 [1] [0] [0] [1] [] []
  dot_S10000x200_S200x200_S10000x200_1_0_0_1_n_n_wf : DotDims.WF S10000x200 S200x200 S10000x200 [1] [0] [0] [1] [] []
  dot_S10000x200_S200x64_S10000x64_1_0_0_1_n_n_wf : DotDims.WF S10000x200 S200x64 S10000x64 [1] [0] [0] [1] [] []
  dot_S10000x256_S256x200_S10000x200_1_0_0_1_n_n_wf : DotDims.WF S10000x256 S256x200 S10000x200 [1] [0] [0] [1] [] []
  dot_S10000x200_S200x1_S10000x1_1_0_0_1_n_n_wf : DotDims.WF S10000x200 S200x1 S10000x1 [1] [0] [0] [1] [] []
  scatter_S2048x1_S50000x1_S50000x1_1_0_0_1_wf : ScatterDims.WF S2048x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x87.size a ≤ S50000x87.size a
  hwx0_0 : ∀ i : grid0.Coords, EltTy.bits .f32 = 32 ∨ (Rect.block (s := S50000x87) S10000x87.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x87.size a ≤ S1x87.size a
  hwx0_2 : ∀ i : grid0.Coords, EltTy.bits .f32 = 32 ∨ (Rect.block (s := S1x87) S1x87.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x87.size a ≤ S1x87.size a
  hwx0_3 : ∀ i : grid0.Coords, EltTy.bits .f32 = 32 ∨ (Rect.block (s := S1x87) S1x87.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x87.size a ≤ S1x87.size a
  hwx0_4 : ∀ i : grid0.Coords, EltTy.bits .f32 = 32 ∨ (Rect.block (s := S1x87) S1x87.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x87.size a ≤ S1x87.size a
  hwx0_5 : ∀ i : grid0.Coords, EltTy.bits .f32 = 32 ∨ (Rect.block (s := S1x87) S1x87.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S87x200.size a ≤ S87x200.size a
  hwx0_6 : ∀ i : grid0.Coords, EltTy.bits .f32 = 32 ∨ (Rect.block (s := S87x200) S87x200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x200.size a ≤ S1x200.size a
  hwx0_7 : ∀ i : grid0.Coords, EltTy.bits .f32 = 32 ∨ (Rect.block (s := S1x200) S1x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200x200.size a ≤ S200x200.size a
  hwx0_8 : ∀ i : grid0.Coords, EltTy.bits .f32 = 32 ∨ (Rect.block (s := S200x200) S200x200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x200.size a ≤ S1x200.size a
  hwx0_9 : ∀ i : grid0.Coords, EltTy.bits .f32 = 32 ∨ (Rect.block (s := S1x200) S1x200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S200x200.size a ≤ S200x200.size a
  hwx0_10 : ∀ i : grid0.Coords, EltTy.bits .f32 = 32 ∨ (Rect.block (s := S200x200) S200x200.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x200.size a ≤ S1x200.size a
  hwx0_11 : ∀ i : grid0.Coords, EltTy.bits .f32 = 32 ∨ (Rect.block (s := S1x200) S1x200.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S200x64.size a ≤ S200x64.size a
  hwx0_12 : ∀ i : grid0.Coords, EltTy.bits .f32 = 32 ∨ (Rect.block (s := S200x64) S200x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S10000x64.size a ≤ S50000x64.size a
  hwx0_14 : ∀ i : grid0.Coords, EltTy.bits .f32 = 32 ∨ (Rect.block (s := S50000x64) S10000x64.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x87.size a ≤ S50000x87.size a
  hwx1_0 : ∀ i : grid1.Coords, EltTy.bits .f32 = 32 ∨ (Rect.block (s := S50000x87) S10000x87.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x87.size a ≤ S1x87.size a
  hwx1_2 : ∀ i : grid1.Coords, EltTy.bits .f32 = 32 ∨ (Rect.block (s := S1x87) S1x87.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x87.size a ≤ S1x87.size a
  hwx1_3 : ∀ i : grid1.Coords, EltTy.bits .f32 = 32 ∨ (Rect.block (s := S1x87) S1x87.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x87.size a ≤ S1x87.size a
  hwx1_4 : ∀ i : grid1.Coords, EltTy.bits .f32 = 32 ∨ (Rect.block (s := S1x87) S1x87.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x87.size a ≤ S1x87.size a
  hwx1_5 : ∀ i : grid1.Coords, EltTy.bits .f32 = 32 ∨ (Rect.block (s := S1x87) S1x87.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S87x200.size a ≤ S87x200.size a
  hwx1_6 : ∀ i : grid1.Coords, EltTy.bits .f32 = 32 ∨ (Rect.block (s := S87x200) S87x200.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x200.size a ≤ S1x200.size a
  hwx1_7 : ∀ i : grid1.Coords, EltTy.bits .f32 = 32 ∨ (Rect.block (s := S1x200) S1x200.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S200x200.size a ≤ S200x200.size a
  hwx1_8 : ∀ i : grid1.Coords, EltTy.bits .f32 = 32 ∨ (Rect.block (s := S200x200) S200x200.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x200.size a ≤ S1x200.size a
  hwx1_9 : ∀ i : grid1.Coords, EltTy.bits .f32 = 32 ∨ (Rect.block (s := S1x200) S1x200.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S200x200.size a ≤ S200x200.size a
  hwx1_10 : ∀ i : grid1.Coords, EltTy.bits .f32 = 32 ∨ (Rect.block (s := S200x200) S200x200.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x200.size a ≤ S1x200.size a
  hwx1_11 : ∀ i : grid1.Coords, EltTy.bits .f32 = 32 ∨ (Rect.block (s := S1x200) S1x200.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S200x64.size a ≤ S200x64.size a
  hwx1_12 : ∀ i : grid1.Coords, EltTy.bits .f32 = 32 ∨ (Rect.block (s := S200x64) S200x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S10000x64.size a ≤ S50000x64.size a
  hwx1_14 : ∀ i : grid1.Coords, EltTy.bits .f32 = 32 ∨ (Rect.block (s := S50000x64) S10000x64.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x87.size a ≤ S50000x87.size a
  hwx2_0 : ∀ i : grid2.Coords, EltTy.bits .f32 = 32 ∨ (Rect.block (s := S50000x87) S10000x87.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x87.size a ≤ S1x87.size a
  hwx2_2 : ∀ i : grid2.Coords, EltTy.bits .f32 = 32 ∨ (Rect.block (s := S1x87) S1x87.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x87.size a ≤ S1x87.size a
  hwx2_3 : ∀ i : grid2.Coords, EltTy.bits .f32 = 32 ∨ (Rect.block (s := S1x87) S1x87.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x87.size a ≤ S1x87.size a
  hwx2_4 : ∀ i : grid2.Coords, EltTy.bits .f32 = 32 ∨ (Rect.block (s := S1x87) S1x87.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x87.size a ≤ S1x87.size a
  hwx2_5 : ∀ i : grid2.Coords, EltTy.bits .f32 = 32 ∨ (Rect.block (s := S1x87) S1x87.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S87x200.size a ≤ S87x200.size a
  hwx2_6 : ∀ i : grid2.Coords, EltTy.bits .f32 = 32 ∨ (Rect.block (s := S87x200) S87x200.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x200.size a ≤ S1x200.size a
  hwx2_7 : ∀ i : grid2.Coords, EltTy.bits .f32 = 32 ∨ (Rect.block (s := S1x200) S1x200.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S200x200.size a ≤ S200x200.size a
  hwx2_8 : ∀ i : grid2.Coords, EltTy.bits .f32 = 32 ∨ (Rect.block (s := S200x200) S200x200.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x200.size a ≤ S1x200.size a
  hwx2_9 : ∀ i : grid2.Coords, EltTy.bits .f32 = 32 ∨ (Rect.block (s := S1x200) S1x200.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S200x200.size a ≤ S200x200.size a
  hwx2_10 : ∀ i : grid2.Coords, EltTy.bits .f32 = 32 ∨ (Rect.block (s := S200x200) S200x200.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x200.size a ≤ S1x200.size a
  hwx2_11 : ∀ i : grid2.Coords, EltTy.bits .f32 = 32 ∨ (Rect.block (s := S1x200) S1x200.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S200x64.size a ≤ S200x64.size a
  hwx2_12 : ∀ i : grid2.Coords, EltTy.bits .f32 = 32 ∨ (Rect.block (s := S200x64) S200x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S10000x64.size a ≤ S50000x64.size a
  hwx2_14 : ∀ i : grid2.Coords, EltTy.bits .f32 = 32 ∨ (Rect.block (s := S50000x64) S10000x64.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S50000x256.size a
  hwx3_0 : ∀ i : grid3.Coords, EltTy.bits .f32 = 32 ∨ (Rect.block (s := S50000x256) S10000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x200.size a ≤ S256x200.size a
  hwx3_5 : ∀ i : grid3.Coords, EltTy.bits .f32 = 32 ∨ (Rect.block (s := S256x200) S256x200.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x200.size a ≤ S1x200.size a
  hwx3_6 : ∀ i : grid3.Coords, EltTy.bits .f32 = 32 ∨ (Rect.block (s := S1x200) S1x200.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S200x200.size a ≤ S200x200.size a
  hwx3_7 : ∀ i : grid3.Coords, EltTy.bits .f32 = 32 ∨ (Rect.block (s := S200x200) S200x200.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x200.size a ≤ S1x200.size a
  hwx3_8 : ∀ i : grid3.Coords, EltTy.bits .f32 = 32 ∨ (Rect.block (s := S1x200) S1x200.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S200x200.size a ≤ S200x200.size a
  hwx3_9 : ∀ i : grid3.Coords, EltTy.bits .f32 = 32 ∨ (Rect.block (s := S200x200) S200x200.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x200.size a ≤ S1x200.size a
  hwx3_10 : ∀ i : grid3.Coords, EltTy.bits .f32 = 32 ∨ (Rect.block (s := S1x200) S1x200.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S200x1.size a ≤ S200x1.size a
  hwx3_11 : ∀ i : grid3.Coords, EltTy.bits .f32 = 32 ∨ (Rect.block (s := S200x1) S200x1.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x1.size a ≤ S1x1.size a
  hwx3_12 : ∀ i : grid3.Coords, EltTy.bits .f32 = 32 ∨ (Rect.block (s := S1x1) S1x1.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S10000x1.size a ≤ S50000x1.size a
  hwx3_13 : ∀ i : grid3.Coords, EltTy.bits .f32 = 32 ∨ (Rect.block (s := S50000x1) S10000x1.size (cc3_transform_13 i) (hinb3_13 i)).WholeWords (EltTy.packing .f32)

variable [Facts₀]

def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x87_S800000x1_S800000x87_1_0_0_1 : ScatterDims S50000x87 S800000x1 S800000x87 where
  updateWindowDims := [1]
  insertedWindowDims := [0]
  scatterDimsToOperandDims := [0]
  indexVectorDim := 1
  wf := scatter_S50000x87_S800000x1_S800000x87_1_0_0_1_wf
def dot_S10000x87_S87x200_S10000x200_1_0_0_1_n_n : DotDims S10000x87 S87x200 S10000x200 where
  lhsContracting := [1]
  rhsContracting := [0]
  lhsNonContracting := [0]
  rhsNonContracting := [1]
  lhsBatch := []
  rhsBatch := []
  wf := dot_S10000x87_S87x200_S10000x200_1_0_0_1_n_n_wf
def dot_S10000x200_S200x200_S10000x200_1_0_0_1_n_n : DotDims S10000x200 S200x200 S10000x200 where
  lhsContracting := [1]
  rhsContracting := [0]
  lhsNonContracting := [0]
  rhsNonContracting := [1]
  lhsBatch := []
  rhsBatch := []
  wf := dot_S10000x200_S200x200_S10000x200_1_0_0_1_n_n_wf
def dot_S10000x200_S200x64_S10000x64_1_0_0_1_n_n : DotDims S10000x200 S200x64 S10000x64 where
  lhsContracting := [1]
  rhsContracting := [0]
  lhsNonContracting := [0]
  rhsNonContracting := [1]
  lhsBatch := []
  rhsBatch := []
  wf := dot_S10000x200_S200x64_S10000x64_1_0_0_1_n_n_wf
def dot_S10000x256_S256x200_S10000x200_1_0_0_1_n_n : DotDims S10000x256 S256x200 S10000x200 where
  lhsContracting := [1]
  rhsContracting := [0]
  lhsNonContracting := [0]
  rhsNonContracting := [1]
  lhsBatch := []
  rhsBatch := []
  wf := dot_S10000x256_S256x200_S10000x200_1_0_0_1_n_n_wf
def dot_S10000x200_S200x1_S10000x1_1_0_0_1_n_n : DotDims S10000x200 S200x1 S10000x1 where
  lhsContracting := [1]
  rhsContracting := [0]
  lhsNonContracting := [0]
  rhsNonContracting := [1]
  lhsBatch := []
  rhsBatch := []
  wf := dot_S10000x200_S200x1_S10000x1_1_0_0_1_n_n_wf
def scatter_S2048x1_S50000x1_S50000x1_1_0_0_1 : ScatterDims S2048x1 S50000x1 S50000x1 where
  updateWindowDims := [1]
  insertedWindowDims := [0]
  scatterDimsToOperandDims := [0]
  indexVectorDim := 1
  wf := scatter_S2048x1_S50000x1_S50000x1_1_0_0_1_wf

abbrev win0_0 : Pipeline.Window sig grid0 :=
  Pipeline.Window.ofSpec (Memref.whole main_v28) S10000x87.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x87.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1x87.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61) S1x87.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62) S1x87.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S87x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v63) S1x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S200x200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v64) S1x200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S200x200.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v65) S1x200.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v56) S200x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v66) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v67) S10000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v78) S10000x87.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v109) S1x87.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v110) S1x87.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v111) S1x87.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v112) S1x87.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v94) S87x200.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v113) S1x200.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v98) S200x200.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v114) S1x200.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v102) S200x200.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v115) S1x200.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v106) S200x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v116) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v117) S10000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v128) S10000x87.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v117) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v159) S1x87.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v160) S1x87.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v161) S1x87.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v162) S1x87.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v144) S87x200.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v163) S1x200.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v148) S200x200.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v164) S1x200.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v152) S200x200.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v165) S1x200.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v156) S200x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v166) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v167) S10000x64.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v168) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v179) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v180) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v181) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v182) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S256x200.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v183) S1x200.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg19) S200x200.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v184) S1x200.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg21) S200x200.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v185) S1x200.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg23) S200x1.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v186) S1x1.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v187) S10000x1.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S50000 : Shape := ⟨1, ![50000]⟩
abbrev S2x800000 : Shape := ⟨2, ![2, 800000]⟩
abbrev S800000x1 : Shape := ⟨2, ![800000, 1]⟩
abbrev S10x64 : Shape := ⟨2, ![10, 64]⟩
abbrev S3x87 : Shape := ⟨2, ![3, 87]⟩
abbrev S3x87x200 : Shape := ⟨3, ![3, 87, 200]⟩
abbrev S3x200 : Shape := ⟨2, ![3, 200]⟩
abbrev S3x200x200 : Shape := ⟨3, ![3, 200, 200]⟩
abbrev S3x200x64 : Shape := ⟨3, ![3, 200, 64]⟩
abbrev S3x64 : Shape := ⟨2, ![3, 64]⟩
abbrev S256 : Shape := ⟨1, ![256]⟩
abbrev S256x200 : Shape := ⟨2, ![256, 200]⟩
abbrev S200 : Shape := ⟨1, ![200]⟩
abbrev S200x200 : Shape := ⟨2, ![200, 200]⟩
abbrev S200x1 : Shape := ⟨2, ![200, 1]⟩
abbrev S1 : Shape := ⟨1, ![1]⟩
abbrev S23 : Shape := ⟨1, ![23]⟩
abbrev S1x800000 : Shape := ⟨2, ![1, 800000]⟩
abbrev S800000 : Shape := ⟨1, ![800000]⟩
abbrev S1x23 : Shape := ⟨2, ![1, 23]⟩
abbrev S800000x23 : Shape := ⟨2, ![800000, 23]⟩
abbrev S_ : Shape := ⟨0, ![]⟩
abbrev S50000x1 : Shape := ⟨2, ![50000, 1]⟩
abbrev S50000x64 : Shape := ⟨2, ![50000, 64]⟩
abbrev S800000x64 : Shape := ⟨2, ![800000, 64]⟩
abbrev S800000x87 : Shape := ⟨2, ![800000, 87]⟩
abbrev S50000x87 : Shape := ⟨2, ![50000, 87]⟩
abbrev S1x87 : Shape := ⟨2, ![1, 87]⟩
abbrev S87 : Shape := ⟨1, ![87]⟩
abbrev S1x87x200 : Shape := ⟨3, ![1, 87, 200]⟩
abbrev S87x200 : Shape := ⟨2, ![87, 200]⟩
abbrev S1x200 : Shape := ⟨2, ![1, 200]⟩
abbrev S1x200x200 : Shape := ⟨3, ![1, 200, 200]⟩
abbrev S1x200x64 : Shape := ⟨3, ![1, 200, 64]⟩
abbrev S200x64 : Shape := ⟨2, ![200, 64]⟩
abbrev S1x64 : Shape := ⟨2, ![1, 64]⟩
abbrev S64 : Shape := ⟨1, ![64]⟩
abbrev S50000x200 : Shape := ⟨2, ![50000, 200]⟩
abbrev S50000x256 : Shape := ⟨2, ![50000, 256]⟩
abbrev S1x256 : Shape := ⟨2, ![1, 256]⟩
abbrev S1x1 : Shape := ⟨2, ![1, 1]⟩
abbrev S2048x1 : Shape := ⟨2, ![2048, 1]⟩

abbrev nBuf : Space → Nat
  | .hbm => 385
  | .vmem => 0
  | .smem => 0
  | _ => 0

abbrev hbmTy0_0 (i : Nat) : BufTy := match i % 128 with
  | 0 => ⟨S50000, .i32⟩
  | 1 => ⟨S2x800000, .i32⟩
  | 2 => ⟨S800000x1, .f32⟩
  | 3 => ⟨S50000, .i32⟩
  | 4 => ⟨S10x64, .f32⟩
  | 5 => ⟨S3x87, .f32⟩
  | 6 => ⟨S3x87, .f32⟩
  | 7 => ⟨S3x87x200, .f32⟩
  | 8 => ⟨S3x200, .f32⟩
  | 9 => ⟨S3x200x200, .f32⟩
  | 10 => ⟨S3x200, .f32⟩
  | 11 => ⟨S3x200x200, .f32⟩
  | 12 => ⟨S3x200, .f32⟩
  | 13 => ⟨S3x200x64, .f32⟩
  | 14 => ⟨S3x64, .f32⟩
  | 15 => ⟨S256, .f32⟩
  | 16 => ⟨S256, .f32⟩
  | 17 => ⟨S256x200, .f32⟩
  | 18 => ⟨S200, .f32⟩
  | 19 => ⟨S200x200, .f32⟩
  | 20 => ⟨S200, .f32⟩
  | 21 => ⟨S200x200, .f32⟩
  | 22 => ⟨S200, .f32⟩
  | 23 => ⟨S200x1, .f32⟩
  | 24 => ⟨S1, .f32⟩
  | 25 => ⟨S23, .f32⟩
  | 26 => ⟨S1x800000, .i32⟩
  | 27 => ⟨S800000, .i32⟩
  | 28 => ⟨S1x800000, .i32⟩
  | 29 => ⟨S800000, .i32⟩
  | 30 => ⟨S1x23, .f32⟩
  | 31 => ⟨S800000x23, .f32⟩
  | 32 => ⟨S800000x23, .f32⟩
  | 33 => ⟨S800000x23, .f32⟩
  | 34 => ⟨S800000x23, .f32⟩
  | 35 => ⟨S800000x23, .f32⟩
  | 36 => ⟨S800000x23, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x87, .f32⟩
  | 56 => ⟨S_, .f32⟩
  | 57 => ⟨S50000x87, .f32⟩
  | 58 => ⟨S800000x1, .i32⟩
  | 59 => ⟨S50000x87, .f32⟩
  | 60 => ⟨S1x87, .f32⟩
  | 61 => ⟨S87, .f32⟩
  | 62 => ⟨S1x87, .f32⟩
  | 63 => ⟨S87, .f32⟩
  | 64 => ⟨S1x87x200, .f32⟩
  | 65 => ⟨S87x200, .f32⟩
  | 66 => ⟨S1x200, .f32⟩
  | 67 => ⟨S200, .f32⟩
  | 68 => ⟨S1x200x200, .f32⟩
  | 69 => ⟨S200x200, .f32⟩
  | 70 => ⟨S1x200, .f32⟩
  | 71 => ⟨S200, .f32⟩
  | 72 => ⟨S1x200x200, .f32⟩
  | 73 => ⟨S200x200, .f32⟩
  | 74 => ⟨S1x200, .f32⟩
  | 75 => ⟨S200, .f32⟩
  | 76 => ⟨S1x200x64, .f32⟩
  | 77 => ⟨S200x64, .f32⟩
  | 78 => ⟨S1x64, .f32⟩
  | 79 => ⟨S64, .f32⟩
  | 80 => ⟨S_, .f32⟩
  | 81 => ⟨S87, .f32⟩
  | 82 => ⟨S_, .f32⟩
  | 83 => ⟨S87, .f32⟩
  | 84 => ⟨S87, .f32⟩
  | 85 => ⟨S1x87, .f32⟩
  | 86 => ⟨S50000x87, .f32⟩
  | 87 => ⟨S50000x87, .f32⟩
  | 88 => ⟨S50000x87, .f32⟩
  | 89 => ⟨S_, .f32⟩
  | 90 => ⟨S87, .f32⟩
  | 91 => ⟨S_, .f32⟩
  | 92 => ⟨S87, .f32⟩
  | 93 => ⟨S87, .f32⟩
  | 94 => ⟨S1x87, .f32⟩
  | 95 => ⟨S50000x87, .f32⟩
  | 96 => ⟨S50000x87, .f32⟩
  | 97 => ⟨S_, .f32⟩
  | 98 => ⟨S87, .f32⟩
  | 99 => ⟨S87, .f32⟩
  | 100 => ⟨S87, .f32⟩
  | 101 => ⟨S1x87, .f32⟩
  | 102 => ⟨S50000x87, .f32⟩
  | 103 => ⟨S50000x87, .f32⟩
  | 104 => ⟨S1x87, .f32⟩
  | 105 => ⟨S50000x87, .f32⟩
  | 106 => ⟨S50000x87, .f32⟩
  | 107 => ⟨S1x87, .f32⟩
  | 108 => ⟨S50000x87, .f32⟩
  | 109 => ⟨S50000x87, .f32⟩
  | 110 => ⟨S50000x200, .f32⟩
  | 111 => ⟨S1x200, .f32⟩
  | 112 => ⟨S50000x200, .f32⟩
  | 113 => ⟨S50000x200, .f32⟩
  | 114 => ⟨S_, .f32⟩
  | 115 => ⟨S50000x200, .f32⟩
  | 116 => ⟨S50000x200, .f32⟩
  | 117 => ⟨S50000x200, .f32⟩
  | 118 => ⟨S1x200, .f32⟩
  | 119 => ⟨S50000x200, .f32⟩
  | 120 => ⟨S50000x200, .f32⟩
  | 121 => ⟨S_, .f32⟩
  | 122 => ⟨S50000x200, .f32⟩
  | 123 => ⟨S50000x200, .f32⟩
  | 124 => ⟨S50000x200, .f32⟩
  | 125 => ⟨S1x200, .f32⟩
  | 126 => ⟨S50000x200, .f32⟩
  | 127 => ⟨S50000x200, .f32⟩
  | _ => ⟨S50000, .i32⟩

abbrev hbmTy0_1 (i : Nat) : BufTy := match i % 128 with
  | 0 => ⟨S_, .f32⟩
  | 1 => ⟨S50000x200, .f32⟩
  | 2 => ⟨S50000x200, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S50000x64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x87, .f32⟩
  | 21 => ⟨S_, .f32⟩
  | 22 => ⟨S50000x87, .f32⟩
  | 23 => ⟨S800000x1, .i32⟩
  | 24 => ⟨S50000x87, .f32⟩
  | 25 => ⟨S1x87, .f32⟩
  | 26 => ⟨S87, .f32⟩
  | 27 => ⟨S1x87, .f32⟩
  | 28 => ⟨S87, .f32⟩
  | 29 => ⟨S1x87x200, .f32⟩
  | 30 => ⟨S87x200, .f32⟩
  | 31 => ⟨S1x200, .f32⟩
  | 32 => ⟨S200, .f32⟩
  | 33 => ⟨S1x200x200, .f32⟩
  | 34 => ⟨S200x200, .f32⟩
  | 35 => ⟨S1x200, .f32⟩
  | 36 => ⟨S200, .f32⟩
  | 37 => ⟨S1x200x200, .f32⟩
  | 38 => ⟨S200x200, .f32⟩
  | 39 => ⟨S1x200, .f32⟩
  | 40 => ⟨S200, .f32⟩
  | 41 => ⟨S1x200x64, .f32⟩
  | 42 => ⟨S200x64, .f32⟩
  | 43 => ⟨S1x64, .f32⟩
  | 44 => ⟨S64, .f32⟩
  | 45 => ⟨S_, .f32⟩
  | 46 => ⟨S87, .f32⟩
  | 47 => ⟨S_, .f32⟩
  | 48 => ⟨S87, .f32⟩
  | 49 => ⟨S87, .f32⟩
  | 50 => ⟨S1x87, .f32⟩
  | 51 => ⟨S50000x87, .f32⟩
  | 52 => ⟨S50000x87, .f32⟩
  | 53 => ⟨S50000x87, .f32⟩
  | 54 => ⟨S_, .f32⟩
  | 55 => ⟨S87, .f32⟩
  | 56 => ⟨S_, .f32⟩
  | 57 => ⟨S87, .f32⟩
  | 58 => ⟨S87, .f32⟩
  | 59 => ⟨S1x87, .f32⟩
  | 60 => ⟨S50000x87, .f32⟩
  | 61 => ⟨S50000x87, .f32⟩
  | 62 => ⟨S_, .f32⟩
  | 63 => ⟨S87, .f32⟩
  | 64 => ⟨S87, .f32⟩
  | 65 => ⟨S87, .f32⟩
  | 66 => ⟨S1x87, .f32⟩
  | 67 => ⟨S50000x87, .f32⟩
  | 68 => ⟨S50000x87, .f32⟩
  | 69 => ⟨S1x87, .f32⟩
  | 70 => ⟨S50000x87, .f32⟩
  | 71 => ⟨S50000x87, .f32⟩
  | 72 => ⟨S1x87, .f32⟩
  | 73 => ⟨S50000x87, .f32⟩
  | 74 => ⟨S50000x87, .f32⟩
  | 75 => ⟨S50000x200, .f32⟩
  | 76 => ⟨S1x200, .f32⟩
  | 77 => ⟨S50000x200, .f32⟩
  | 78 => ⟨S50000x200, .f32⟩
  | 79 => ⟨S_, .f32⟩
  | 80 => ⟨S50000x200, .f32⟩
  | 81 => ⟨S50000x200, .f32⟩
  | 82 => ⟨S50000x200, .f32⟩
  | 83 => ⟨S1x200, .f32⟩
  | 84 => ⟨S50000x200, .f32⟩
  | 85 => ⟨S50000x200, .f32⟩
  | 86 => ⟨S_, .f32⟩
  | 87 => ⟨S50000x200, .f32⟩
  | 88 => ⟨S50000x200, .f32⟩
  | 89 => ⟨S50000x200, .f32⟩
  | 90 => ⟨S1x200, .f32⟩
  | 91 => ⟨S50000x200, .f32⟩
  | 92 => ⟨S50000x200, .f32⟩
  | 93 => ⟨S_, .f32⟩
  | 94 => ⟨S50000x200, .f32⟩
  | 95 => ⟨S50000x200, .f32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x64, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x87, .f32⟩
  | 114 => ⟨S_, .f32⟩
  | 115 => ⟨S50000x87, .f32⟩
  | 116 => ⟨S800000x1, .i32⟩
  | 117 => ⟨S50000x87, .f32⟩
  | 118 => ⟨S1x87, .f32⟩
  | 119 => ⟨S87, .f32⟩
  | 120 => ⟨S1x87, .f32⟩
  | 121 => ⟨S87, .f32⟩
  | 122 => ⟨S1x87x200, .f32⟩
  | 123 => ⟨S87x200, .f32⟩
  | 124 => ⟨S1x200, .f32⟩
  | 125 => ⟨S200, .f32⟩
  | 126 => ⟨S1x200x200, .f32⟩
  | 127 => ⟨S200x200, .f32⟩
  | _ => ⟨S50000, .i32⟩

abbrev hbmTy0_2 (i : Nat) : BufTy := match i % 128 with
  | 0 => ⟨S1x200, .f32⟩
  | 1 => ⟨S200, .f32⟩
  | 2 => ⟨S1x200x200, .f32⟩
  | 3 => ⟨S200x200, .f32⟩
  | 4 => ⟨S1x200, .f32⟩
  | 5 => ⟨S200, .f32⟩
  | 6 => ⟨S1x200x64, .f32⟩
  | 7 => ⟨S200x64, .f32⟩
  | 8 => ⟨S1x64, .f32⟩
  | 9 => ⟨S64, .f32⟩
  | 10 => ⟨S_, .f32⟩
  | 11 => ⟨S87, .f32⟩
  | 12 => ⟨S_, .f32⟩
  | 13 => ⟨S87, .f32⟩
  | 14 => ⟨S87, .f32⟩
  | 15 => ⟨S1x87, .f32⟩
  | 16 => ⟨S50000x87, .f32⟩
  | 17 => ⟨S50000x87, .f32⟩
  | 18 => ⟨S50000x87, .f32⟩
  | 19 => ⟨S_, .f32⟩
  | 20 => ⟨S87, .f32⟩
  | 21 => ⟨S_, .f32⟩
  | 22 => ⟨S87, .f32⟩
  | 23 => ⟨S87, .f32⟩
  | 24 => ⟨S1x87, .f32⟩
  | 25 => ⟨S50000x87, .f32⟩
  | 26 => ⟨S50000x87, .f32⟩
  | 27 => ⟨S_, .f32⟩
  | 28 => ⟨S87, .f32⟩
  | 29 => ⟨S87, .f32⟩
  | 30 => ⟨S87, .f32⟩
  | 31 => ⟨S1x87, .f32⟩
  | 32 => ⟨S50000x87, .f32⟩
  | 33 => ⟨S50000x87, .f32⟩
  | 34 => ⟨S1x87, .f32⟩
  | 35 => ⟨S50000x87, .f32⟩
  | 36 => ⟨S50000x87, .f32⟩
  | 37 => ⟨S1x87, .f32⟩
  | 38 => ⟨S50000x87, .f32⟩
  | 39 => ⟨S50000x87, .f32⟩
  | 40 => ⟨S50000x200, .f32⟩
  | 41 => ⟨S1x200, .f32⟩
  | 42 => ⟨S50000x200, .f32⟩
  | 43 => ⟨S50000x200, .f32⟩
  | 44 => ⟨S_, .f32⟩
  | 45 => ⟨S50000x200, .f32⟩
  | 46 => ⟨S50000x200, .f32⟩
  | 47 => ⟨S50000x200, .f32⟩
  | 48 => ⟨S1x200, .f32⟩
  | 49 => ⟨S50000x200, .f32⟩
  | 50 => ⟨S50000x200, .f32⟩
  | 51 => ⟨S_, .f32⟩
  | 52 => ⟨S50000x200, .f32⟩
  | 53 => ⟨S50000x200, .f32⟩
  | 54 => ⟨S50000x200, .f32⟩
  | 55 => ⟨S1x200, .f32⟩
  | 56 => ⟨S50000x200, .f32⟩
  | 57 => ⟨S50000x200, .f32⟩
  | 58 => ⟨S_, .f32⟩
  | 59 => ⟨S50000x200, .f32⟩
  | 60 => ⟨S50000x200, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S50000x64, .f32⟩
  | 69 => ⟨S50000x256, .f32⟩
  | 70 => ⟨S_, .f32⟩
  | 71 => ⟨S256, .f32⟩
  | 72 => ⟨S_, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S50000x256, .f32⟩
  | 79 => ⟨S_, .f32⟩
  | 80 => ⟨S256, .f32⟩
  | 81 => ⟨S_, .f32⟩
  | 82 => ⟨S256, .f32⟩
  | 83 => ⟨S256, .f32⟩
  | 84 => ⟨S1x256, .f32⟩
  | 85 => ⟨S50000x256, .f32⟩
  | 86 => ⟨S50000x256, .f32⟩
  | 87 => ⟨S_, .f32⟩
  | 88 => ⟨S256, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S1x256, .f32⟩
  | 98 => ⟨S50000x256, .f32⟩
  | 99 => ⟨S50000x256, .f32⟩
  | 100 => ⟨S50000x200, .f32⟩
  | 101 => ⟨S1x200, .f32⟩
  | 102 => ⟨S50000x200, .f32⟩
  | 103 => ⟨S50000x200, .f32⟩
  | 104 => ⟨S_, .f32⟩
  | 105 => ⟨S50000x200, .f32⟩
  | 106 => ⟨S50000x200, .f32⟩
  | 107 => ⟨S50000x200, .f32⟩
  | 108 => ⟨S1x200, .f32⟩
  | 109 => ⟨S50000x200, .f32⟩
  | 110 => ⟨S50000x200, .f32⟩
  | 111 => ⟨S_, .f32⟩
  | 112 => ⟨S50000x200, .f32⟩
  | 113 => ⟨S50000x200, .f32⟩
  | 114 => ⟨S50000x200, .f32⟩
  | 115 => ⟨S1x200, .f32⟩
  | 116 => ⟨S50000x200, .f32⟩
  | 117 => ⟨S50000x200, .f32⟩
  | 118 => ⟨S_, .f32⟩
  | 119 => ⟨S50000x200, .f32⟩
  | 120 => ⟨S50000x200, .f32⟩
  | 121 => ⟨S50000x1, .f32⟩
  | 122 => ⟨S1x1, .f32⟩
  | 123 => ⟨S50000x1, .f32⟩
  | 124 => ⟨S50000x1, .f32⟩
  | 125 => ⟨S_, .f32⟩
  | 126 => ⟨S2048x1, .f32⟩
  | 127 => ⟨S50000x1, .i32⟩
  | _ => ⟨S50000, .i32⟩

abbrev hbmTy0_3 (i : Nat) : BufTy := match i % 128 with
  | 0 => ⟨S2048x1, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_1 : Ref sig .tc := ⟨.hbm, 46, rfl⟩
abbrev main_v18 : Ref sig .tc := ⟨.hbm, 47, rfl⟩
abbrev main_v19 : Ref sig .tc := ⟨.hbm, 48, rfl⟩
abbrev main_c_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_4 : Ref sig .tc := ⟨.hbm, 80, rfl⟩
abbrev main_v49 : Ref sig .tc := ⟨.hbm, 81, rfl⟩
abbrev main_cst_5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_6 : Ref sig .tc := ⟨.hbm, 89, rfl⟩
abbrev main_v56 : Ref sig .tc := ⟨.hbm, 90, rfl⟩
abbrev main_cst_7 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_8 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call0_cst : Ref sig .tc := ⟨.hbm, 114, rfl⟩
abbrev main_call0_v0 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call1_cst : Ref sig .tc := ⟨.hbm, 121, rfl⟩
abbrev main_call1_v0 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call2_cst : Ref sig .tc := ⟨.hbm, 128, rfl⟩
abbrev main_call2_v0 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_9 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_c_10 : Ref sig .tc := ⟨.hbm, 139, rfl⟩
abbrev main_v96 : Ref sig .tc := ⟨.hbm, 140, rfl⟩
abbrev main_v97 : Ref sig .tc := ⟨.hbm, 141, rfl⟩
abbrev main_c_11 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_12 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_13 : Ref sig .tc := ⟨.hbm, 173, rfl⟩
abbrev main_v127 : Ref sig .tc := ⟨.hbm, 174, rfl⟩
abbrev main_cst_14 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_15 : Ref sig .tc := ⟨.hbm, 182, rfl⟩
abbrev main_v134 : Ref sig .tc := ⟨.hbm, 183, rfl⟩
abbrev main_cst_16 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_17 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_call3_cst : Ref sig .tc := ⟨.hbm, 207, rfl⟩
abbrev main_call3_v0 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_call4_cst : Ref sig .tc := ⟨.hbm, 214, rfl⟩
abbrev main_call4_v0 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_call5_cst : Ref sig .tc := ⟨.hbm, 221, rfl⟩
abbrev main_call5_v0 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_18 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_c_19 : Ref sig .tc := ⟨.hbm, 232, rfl⟩
abbrev main_v174 : Ref sig .tc := ⟨.hbm, 233, rfl⟩
abbrev main_v175 : Ref sig .tc := ⟨.hbm, 234, rfl⟩
abbrev main_c_20 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_cst_21 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_cst_22 : Ref sig .tc := ⟨.hbm, 266, rfl⟩
abbrev main_v205 : Ref sig .tc := ⟨.hbm, 267, rfl⟩
abbrev main_cst_23 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_cst_24 : Ref sig .tc := ⟨.hbm, 275, rfl⟩
abbrev main_v212 : Ref sig .tc := ⟨.hbm, 276, rfl⟩
abbrev main_cst_25 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_cst_26 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_call6_cst : Ref sig .tc := ⟨.hbm, 300, rfl⟩
abbrev main_call6_v0 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_call7_cst : Ref sig .tc := ⟨.hbm, 307, rfl⟩
abbrev main_call7_v0 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_call8_cst : Ref sig .tc := ⟨.hbm, 314, rfl⟩
abbrev main_call8_v0 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_cst_27 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_cst_28 : Ref sig .tc := ⟨.hbm, 326, rfl⟩
abbrev main_v253 : Ref sig .tc := ⟨.hbm, 327, rfl⟩
abbrev main_cst_29 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_cst_30 : Ref sig .tc := ⟨.hbm, 335, rfl⟩
abbrev main_v260 : Ref sig .tc := ⟨.hbm, 336, rfl⟩
abbrev main_cst_31 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_cst_32 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_call9_cst : Ref sig .tc := ⟨.hbm, 360, rfl⟩
abbrev main_call9_v0 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_call10_cst : Ref sig .tc := ⟨.hbm, 367, rfl⟩
abbrev main_call10_v0 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_call11_cst : Ref sig .tc := ⟨.hbm, 374, rfl⟩
abbrev main_call11_v0 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_cst_33 : Ref sig .tc := ⟨.hbm, 381, rfl⟩
abbrev main_v297 : Ref sig .tc := ⟨.hbm, 382, rfl⟩
abbrev main_v298 : Ref sig .tc := ⟨.hbm, 383, rfl⟩
abbrev main_v299 : Ref sig .tc := ⟨.hbm, 384, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S23_S1x23_1 : S23.BroadcastsInDim S1x23 (![1] : Fin 1 → Fin S1x23.rank)
  bcast_S800000x1_S800000x23_0_1 : S800000x1.BroadcastsInDim S800000x23 (![0, 1] : Fin 2 → Fin S800000x23.rank)
  bcast_S1x23_S800000x23_0_1 : S1x23.BroadcastsInDim S800000x23 (![0, 1] : Fin 2 → Fin S800000x23.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x23_S800000x64_S800000x87_d1 : Shape.Concatenates [S800000x23, S800000x64] S800000x87 1
  bcast_S_S50000x87 : S_.BroadcastsInDim S50000x87 (![] : Fin 0 → Fin S50000x87.rank)
  slices_S3x87_S1x87_0_0 : S3x87.Slices ![0, 0] S1x87
  shapeCasts_S1x87_S87 : S1x87.ShapeCasts S87
  slices_S3x87x200_S1x87x200_0_0_0 : S3x87x200.Slices ![0, 0, 0] S1x87x200
  shapeCasts_S1x87x200_S87x200 : S1x87x200.ShapeCasts S87x200
  slices_S3x200_S1x200_0_0 : S3x200.Slices ![0, 0] S1x200
  shapeCasts_S1x200_S200 : S1x200.ShapeCasts S200
  slices_S3x200x200_S1x200x200_0_0_0 : S3x200x200.Slices ![0, 0, 0] S1x200x200
  shapeCasts_S1x200x200_S200x200 : S1x200x200.ShapeCasts S200x200
  slices_S3x200x64_S1x200x64_0_0_0 : S3x200x64.Slices ![0, 0, 0] S1x200x64
  shapeCasts_S1x200x64_S200x64 : S1x200x64.ShapeCasts S200x64
  slices_S3x64_S1x64_0_0 : S3x64.Slices ![0, 0] S1x64
  shapeCasts_S1x64_S64 : S1x64.ShapeCasts S64
  reducesTo_S50000x87_S87_d0 : S50000x87.ReducesTo [0] S87
  h_S_ : 0 < S_.numel
  bcast_S_S87 : S_.BroadcastsInDim S87 (![] : Fin 0 → Fin S87.rank)
  bcast_S87_S1x87_1 : S87.BroadcastsInDim S1x87 (![1] : Fin 1 → Fin S1x87.rank)
  bcast_S1x87_S50000x87_0_1 : S1x87.BroadcastsInDim S50000x87 (![0, 1] : Fin 2 → Fin S50000x87.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S50000x200 : S_.BroadcastsInDim S50000x200 (![] : Fin 0 → Fin S50000x200.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S3x87_S1x87_1_0 : S3x87.Slices ![1, 0] S1x87
  slices_S3x87x200_S1x87x200_1_0_0 : S3x87x200.Slices ![1, 0, 0] S1x87x200
  slices_S3x200_S1x200_1_0 : S3x200.Slices ![1, 0] S1x200
  slices_S3x200x200_S1x200x200_1_0_0 : S3x200x200.Slices ![1, 0, 0] S1x200x200
  slices_S3x200x64_S1x200x64_1_0_0 : S3x200x64.Slices ![1, 0, 0] S1x200x64
  slices_S3x64_S1x64_1_0 : S3x64.Slices ![1, 0] S1x64
  slices_S3x87_S1x87_2_0 : S3x87.Slices ![2, 0] S1x87
  slices_S3x87x200_S1x87x200_2_0_0 : S3x87x200.Slices ![2, 0, 0] S1x87x200
  slices_S3x200_S1x200_2_0 : S3x200.Slices ![2, 0] S1x200
  slices_S3x200x200_S1x200x200_2_0_0 : S3x200x200.Slices ![2, 0, 0] S1x200x200
  slices_S3x200x64_S1x200x64_2_0_0 : S3x200x64.Slices ![2, 0, 0] S1x200x64
  slices_S3x64_S1x64_2_0 : S3x64.Slices ![2, 0] S1x64
  concatenates_S50000x64_S50000x64_S50000x64_S50000x64_S50000x256_d1 : Shape.Concatenates [S50000x64, S50000x64, S50000x64, S50000x64] S50000x256 1
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S2048x1 : S_.BroadcastsInDim S2048x1 (![] : Fin 0 → Fin S2048x1.rank)
  gather_S10x64_S50000x1_S50000x64_1_0_n_n_0_1_164_wf : GatherDims.WF S10x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x87_S800000x1_S800000x87_1_0_0_1_wf : ScatterDims.WF S50000x87 S800000x1 S800000x87 [1] [0] [0] 1
  dot_S50000x87_S87x200_S50000x200_1_0_0_1_n_n_wf : DotDims.WF S50000x87 S87x200 S50000x200 [1] [0] [0] [1] [] []
  dot_S50000x200_S200x200_S50000x200_1_0_0_1_n_n_wf : DotDims.WF S50000x200 S200x200 S50000x200 [1] [0] [0] [1] [] []
  dot_S50000x200_S200x64_S50000x64_1_0_0_1_n_n_wf : DotDims.WF S50000x200 S200x64 S50000x64 [1] [0] [0] [1] [] []
  dot_S50000x256_S256x200_S50000x200_1_0_0_1_n_n_wf : DotDims.WF S50000x256 S256x200 S50000x200 [1] [0] [0] [1] [] []
  dot_S50000x200_S200x1_S50000x1_1_0_0_1_n_n_wf : DotDims.WF S50000x200 S200x1 S50000x1 [1] [0] [0] [1] [] []
  scatter_S2048x1_S50000x1_S50000x1_1_0_0_1_wf : ScatterDims.WF S2048x1 S50000x1 S50000x1 [1] [0] [0] 1

variable [Facts₀]

def gather_S10x64_S50000x1_S50000x64_1_0_n_n_0_1_164 : GatherDims S10x64 S50000x1 S50000x64 where
  offsetDims := [1]
  collapsedSliceDims := [0]
  operandBatchingDims := []
  startIndicesBatchingDims := []
  startIndexMap := [0]
  indexVectorDim := 1
  sliceSizes := ![1, 64]
  wf := gather_S10x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x87_S800000x1_S800000x87_1_0_0_1 : ScatterDims S50000x87 S800000x1 S800000x87 where
  updateWindowDims := [1]
  insertedWindowDims := [0]
  scatterDimsToOperandDims := [0]
  indexVectorDim := 1
  wf := scatter_S50000x87_S800000x1_S800000x87_1_0_0_1_wf
def dot_S50000x87_S87x200_S50000x200_1_0_0_1_n_n : DotDims S50000x87 S87x200 S50000x200 where
  lhsContracting := [1]
  rhsContracting := [0]
  lhsNonContracting := [0]
  rhsNonContracting := [1]
  lhsBatch := []
  rhsBatch := []
  wf := dot_S50000x87_S87x200_S50000x200_1_0_0_1_n_n_wf
def dot_S50000x200_S200x200_S50000x200_1_0_0_1_n_n : DotDims S50000x200 S200x200 S50000x200 where
  lhsContracting := [1]
  rhsContracting := [0]
  lhsNonContracting := [0]
  rhsNonContracting := [1]
  lhsBatch := []
  rhsBatch := []
  wf := dot_S50000x200_S200x200_S50000x200_1_0_0_1_n_n_wf
def dot_S50000x200_S200x64_S50000x64_1_0_0_1_n_n : DotDims S50000x200 S200x64 S50000x64 where
  lhsContracting := [1]
  rhsContracting := [0]
  lhsNonContracting := [0]
  rhsNonContracting := [1]
  lhsBatch := []
  rhsBatch := []
  wf := dot_S50000x200_S200x64_S50000x64_1_0_0_1_n_n_wf
def dot_S50000x256_S256x200_S50000x200_1_0_0_1_n_n : DotDims S50000x256 S256x200 S50000x200 where
  lhsContracting := [1]
  rhsContracting := [0]
  lhsNonContracting := [0]
  rhsNonContracting := [1]
  lhsBatch := []
  rhsBatch := []
  wf := dot_S50000x256_S256x200_S50000x200_1_0_0_1_n_n_wf
def dot_S50000x200_S200x1_S50000x1_1_0_0_1_n_n : DotDims S50000x200 S200x1 S50000x1 where
  lhsContracting := [1]
  rhsContracting := [0]
  lhsNonContracting := [0]
  rhsNonContracting := [1]
  lhsBatch := []
  rhsBatch := []
  wf := dot_S50000x200_S200x1_S50000x1_1_0_0_1_n_n_wf
def scatter_S2048x1_S50000x1_S50000x1_1_0_0_1 : ScatterDims S2048x1 S50000x1 S50000x1 where
  updateWindowDims := [1]
  insertedWindowDims := [0]
  scatterDimsToOperandDims := [0]
  indexVectorDim := 1
  wf := scatter_S2048x1_S50000x1_S50000x1_1_0_0_1_wf

class Facts : Prop extends Facts₀ where

variable [Facts]
-- ==== Proof.BitsLaunch0.lean ====
import proofs.«131956_j5523327942769_1_alg».proof.Proof.Gen.Kernel.Launch
import proofs.«131956_j5523327942769_1_alg».proof.Proof.Gen.Kernel.Skeleton
import proofs.«131956_j5523327942769_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Launch0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 0 (`cc0__update_kernel`), at the buffers' contents `V` when it is entered

Each window's block at a grid point; the value the body stores over its output buffer, as a function of the fourteen
input blocks; the body's triple; the launch's proof data; the body obligation. -/

variable (V : (c : Dev nD) → (b : Ref sig .tc) → Buf (Elt F) ((c : Thread nD τ).loc b))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body stores -/

/-- The value the body stores over the whole output buffer, from the input windows' blocks in window order: the
    second stage's value at the first stage's value and the blocks the first stage does not read. -/
def out (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) : Vec F S10000x64 .f32 :=
  k0_pay1 (k0_pay2 x0 x2 x3 x4 x5 x6 x7 x8 x9) x10 x11 x12 x13 x1

/-- The zero offsets, as a function. -/
theorem offs_zero : (![0, 0] : Fin 2 → Nat) = fun _ => 0 := funext fun a => by fin_cases a <;> rfl

/-! ## The body's triple -/

set_option maxHeartbeats 1000000 in
/-- The body on whole staging memrefs — each input's reading `xW`, the output's holding anything — runs to the
    continuation with the inputs' as they were and the output's reading `out` of the inputs': every load is through
    the whole buffer, so reads what the buffer reads; the one store is through the whole output buffer, so what the
    buffer reads afterwards is the stored value, whatever it held (the body's own load of it included). -/
theorem sound_kernel (c : Dev nD) (E : Set ℕ) (i : grid0.Coords)
    (arg1 : Memref sig .tc .vmem S10000x87 .f32) (harg1 : arg1.IsWhole)
    (arg2 : Memref sig .tc .vmem S10000x64 .f32) (harg2 : arg2.IsWhole)
    (arg3 : Memref sig .tc .vmem S1x87 .f32) (harg3 : arg3.IsWhole)
    (arg4 : Memref sig .tc .vmem S1x87 .f32) (harg4 : arg4.IsWhole)
    (arg5 : Memref sig .tc .vmem S1x87 .f32) (harg5 : arg5.IsWhole)
    (arg6 : Memref sig .tc .vmem S1x87 .f32) (harg6 : arg6.IsWhole)
    (arg7 : Memref sig .tc .vmem S87x200 .f32) (harg7 : arg7.IsWhole)
    (arg8 : Memref sig .tc .vmem S1x200 .f32) (harg8 : arg8.IsWhole)
    (arg9 : Memref sig .tc .vmem S200x200 .f32) (harg9 : arg9.IsWhole)
    (arg10 : Memref sig .tc .vmem S1x200 .f32) (harg10 : arg10.IsWhole)
    (arg11 : Memref sig .tc .vmem S200x200 .f32) (harg11 : arg11.IsWhole)
    (arg12 : Memref sig .tc .vmem S1x200 .f32) (harg12 : arg12.IsWhole)
    (arg13 : Memref sig .tc .vmem S200x64 .f32) (harg13 : arg13.IsWhole)
    (arg14 : Memref sig .tc .vmem S1x64 .f32) (harg14 : arg14.IsWhole)
    (arg15 : Memref sig .tc .vmem S10000x64 .f32) (harg15 : arg15.IsWhole)
    (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out x0 x1 x2 x3 x4 x5 x6 x7 x8 x9 x10 x11 x12 x13)) -∗ K ⟨⟩))
      ⊢ wp frame (wpE (defs₀ (F := F)) Variants.none c none) E (cc0__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__update_kernel_eq_skeleton]; unfold cc0__update_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  rw [View.read_writes_eq_canon _ _ _ (fun y => ⟨_, List.mem_singleton_self _, View.mem_set_unit_zero offs_zero inb_S10000x64_S10000x64_0_0 y⟩),
    View.canon_unit_zero offs_zero inb_S10000x64_S10000x64_0_0]
  simp only [View.readAt_eq_ld, View.ld_unit_zero (S := S10000x87) offs_zero, View.ld_unit_zero (S := S10000x64) offs_zero, View.ld_unit_zero (S := S1x87) offs_zero, View.ld_unit_zero (S := S87x200) offs_zero, View.ld_unit_zero (S := S1x200) offs_zero, View.ld_unit_zero (S := S200x200) offs_zero, View.ld_unit_zero (S := S200x64) offs_zero, View.ld_unit_zero (S := S1x64) offs_zero]
  rfl

/-! ## The launch's proof data -/

/-- The proof data on core `c`: the arrays as the launch finds them; after the body at point `t` each input's buffer
    at its block and the output's at `out` of the input blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves in each input window's buffer: its block. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = iblk V c 12 t := by dsimp only [dat]
theorem after_13 (c : Dev nD) (t : Fin cfg0.N) : (dat V c).after 13 t = iblk V c 13 t := by dsimp only [dat]

/-- What the body leaves in the output window's buffer: `out` of the input blocks. -/
theorem after_out (c : Dev nD) (t : Fin cfg0.N) :
    (dat V c).after 14 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) := by dsimp only [dat]

/-- Each input's current staging buffer holds its block at every point, fetched there or not: unfetched, the block
    index has not moved, and the body left the block in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)
theorem before_8 (c : Dev nD) (t : Fin cfg0.N) (d) : (dat V c).before 8 t d = iblk V c 8 t :=
  ((dat V c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)
theorem before_9 (c : Dev nD) (t : Fin cfg0.N) (d) : (dat V c).before 9 t d = iblk V c 9 t :=
  ((dat V c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)
theorem before_10 (c : Dev nD) (t : Fin cfg0.N) (d) : (dat V c).before 10 t d = iblk V c 10 t :=
  ((dat V c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)
theorem before_11 (c : Dev nD) (t : Fin cfg0.N) (d) : (dat V c).before 11 t d = iblk V c 11 t :=
  ((dat V c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)
theorem before_12 (c : Dev nD) (t : Fin cfg0.N) (d) : (dat V c).before 12 t d = iblk V c 12 t :=
  ((dat V c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)
theorem before_13 (c : Dev nD) (t : Fin cfg0.N) (d) : (dat V c).before 13 t d = iblk V c 13 t :=
  ((dat V c).before_in_eq_fetched 13 rfl (fun _ => rfl) (fun _ _ _ => rfl)
      (fun t => by rw [after_13]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d))
    ∗ (∃ d, owns (c : Thread nD τ) (st0_14 t) fullShare ((dat V c).before 14 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t)
    ∗ owns (c : Thread nD τ) (st0_13 t) fullShare ((dat V c).after 13 t)
    ∗ owns (c : Thread nD τ) (st0_14 t) fullShare ((dat V c).after 14 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11, before_12, before_13]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel (F := F) (c := c) (E := Set.univ) (x0 := iblk V c 0 t) (x1 := iblk V c 1 t) (x2 := iblk V c 2 t) (x3 := iblk V c 3 t) (x4 := iblk V c 4 t) (x5 := iblk V c 5 t) (x6 := iblk V c 6 t) (x7 := iblk V c 7 t) (x8 := iblk V c 8 t) (x9 := iblk V c 9 t) (x10 := iblk V c 10 t) (x11 := iblk V c 11 t) (x12 := iblk V c 12 t) (x13 := iblk V c 13 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Launch0

end
-- ==== Proof.BitsLaunch1.lean ====
import proofs.«131956_j5523327942769_1_alg».proof.Proof.Gen.Kernel.Launch
import proofs.«131956_j5523327942769_1_alg».proof.Proof.Gen.Kernel.Skeleton
import proofs.«131956_j5523327942769_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Launch1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 1 (`cc1__update_kernel`), at the buffers' contents `V` when it is entered

Each window's block at a grid point; the value the body stores over its output buffer, as a function of the fourteen
input blocks; the body's triple; the launch's proof data; the body obligation. -/

variable (V : (c : Dev nD) → (b : Ref sig .tc) → Buf (Elt F) ((c : Thread nD τ).loc b))

/-! ## The windows' blocks -/

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body stores -/

/-- The value the body stores over the whole output buffer, from the input windows' blocks in window order: the
    second stage's value at the first stage's value and the blocks the first stage does not read. -/
def out (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) : Vec F S10000x64 .f32 :=
  k1_pay1 (k1_pay2 x0 x2 x3 x4 x5 x6 x7 x8 x9) x10 x11 x12 x13 x1

/-- The zero offsets, as a function. -/
theorem offs_zero : (![0, 0] : Fin 2 → Nat) = fun _ => 0 := funext fun a => by fin_cases a <;> rfl

/-! ## The body's triple -/

set_option maxHeartbeats 1000000 in
/-- The body on whole staging memrefs — each input's reading `xW`, the output's holding anything — runs to the
    continuation with the inputs' as they were and the output's reading `out` of the inputs': every load is through
    the whole buffer, so reads what the buffer reads; the one store is through the whole output buffer, so what the
    buffer reads afterwards is the stored value, whatever it held (the body's own load of it included). -/
theorem sound_kernel (c : Dev nD) (E : Set ℕ) (i : grid1.Coords)
    (arg1 : Memref sig .tc .vmem S10000x87 .f32) (harg1 : arg1.IsWhole)
    (arg2 : Memref sig .tc .vmem S10000x64 .f32) (harg2 : arg2.IsWhole)
    (arg3 : Memref sig .tc .vmem S1x87 .f32) (harg3 : arg3.IsWhole)
    (arg4 : Memref sig .tc .vmem S1x87 .f32) (harg4 : arg4.IsWhole)
    (arg5 : Memref sig .tc .vmem S1x87 .f32) (harg5 : arg5.IsWhole)
    (arg6 : Memref sig .tc .vmem S1x87 .f32) (harg6 : arg6.IsWhole)
    (arg7 : Memref sig .tc .vmem S87x200 .f32) (harg7 : arg7.IsWhole)
    (arg8 : Memref sig .tc .vmem S1x200 .f32) (harg8 : arg8.IsWhole)
    (arg9 : Memref sig .tc .vmem S200x200 .f32) (harg9 : arg9.IsWhole)
    (arg10 : Memref sig .tc .vmem S1x200 .f32) (harg10 : arg10.IsWhole)
    (arg11 : Memref sig .tc .vmem S200x200 .f32) (harg11 : arg11.IsWhole)
    (arg12 : Memref sig .tc .vmem S1x200 .f32) (harg12 : arg12.IsWhole)
    (arg13 : Memref sig .tc .vmem S200x64 .f32) (harg13 : arg13.IsWhole)
    (arg14 : Memref sig .tc .vmem S1x64 .f32) (harg14 : arg14.IsWhole)
    (arg15 : Memref sig .tc .vmem S10000x64 .f32) (harg15 : arg15.IsWhole)
    (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out x0 x1 x2 x3 x4 x5 x6 x7 x8 x9 x10 x11 x12 x13)) -∗ K ⟨⟩))
      ⊢ wp frame (wpE (defs₀ (F := F)) Variants.none c none) E (cc1__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__update_kernel_eq_skeleton]; unfold cc1__update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  rw [View.read_writes_eq_canon _ _ _ (fun y => ⟨_, List.mem_singleton_self _, View.mem_set_unit_zero offs_zero inb_S10000x64_S10000x64_0_0 y⟩),
    View.canon_unit_zero offs_zero inb_S10000x64_S10000x64_0_0]
  simp only [View.readAt_eq_ld, View.ld_unit_zero (S := S10000x87) offs_zero, View.ld_unit_zero (S := S10000x64) offs_zero, View.ld_unit_zero (S := S1x87) offs_zero, View.ld_unit_zero (S := S87x200) offs_zero, View.ld_unit_zero (S := S1x200) offs_zero, View.ld_unit_zero (S := S200x200) offs_zero, View.ld_unit_zero (S := S200x64) offs_zero, View.ld_unit_zero (S := S1x64) offs_zero]
  rfl

/-! ## The launch's proof data -/

/-- The proof data on core `c`: the arrays as the launch finds them; after the body at point `t` each input's buffer
    at its block and the output's at `out` of the input blocks; the invariant the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)
  Φ _ := Pipeline.ΦA spec1 c
  q _ := fullShare
  owed _ := 0

/-- The proof data's arrays are the entry contents. -/
theorem A_eq (c : Dev nD) (w : Fin cfg1.W) : (dat V c).A w = V c (Pipeline.arrRef spec1 w) := by
  dsimp only [dat]

/-- What the body leaves in each input window's buffer: its block. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]

/-- What the body leaves in the output window's buffer: `out` of the input blocks. -/
theorem after_out (c : Dev nD) (t : Fin cfg1.N) :
    (dat V c).after 14 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) := by dsimp only [dat]

/-- Each input's current staging buffer holds its block at every point, fetched there or not: unfetched, the block
    index has not moved, and the body left the block in place. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)
theorem before_10 (c : Dev nD) (t : Fin cfg1.N) (d) : (dat V c).before 10 t d = iblk V c 10 t :=
  ((dat V c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)
theorem before_11 (c : Dev nD) (t : Fin cfg1.N) (d) : (dat V c).before 11 t d = iblk V c 11 t :=
  ((dat V c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)
theorem before_12 (c : Dev nD) (t : Fin cfg1.N) (d) : (dat V c).before 12 t d = iblk V c 12 t :=
  ((dat V c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)
theorem before_13 (c : Dev nD) (t : Fin cfg1.N) (d) : (dat V c).before 13 t d = iblk V c 13 t :=
  ((dat V c).before_in_eq_fetched 13 rfl (fun _ => rfl) (fun _ _ _ => rfl)
      (fun t => by rw [after_13]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel (F := F) (c := c) (E := Set.univ) (x0 := iblk V c 0 t) (x1 := iblk V c 1 t) (x2 := iblk V c 2 t) (x3 := iblk V c 3 t) (x4 := iblk V c 4 t) (x5 := iblk V c 5 t) (x6 := iblk V c 6 t) (x7 := iblk V c 7 t) (x8 := iblk V c 8 t) (x9 := iblk V c 9 t) (x10 := iblk V c 10 t) (x11 := iblk V c 11 t) (x12 := iblk V c 12 t) (x13 := iblk V c 13 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Launch1

end
-- ==== Proof.BitsLaunch2.lean ====
import proofs.«131956_j5523327942769_1_alg».proof.Proof.Gen.Kernel.Launch
import proofs.«131956_j5523327942769_1_alg».proof.Proof.Gen.Kernel.Skeleton
import proofs.«131956_j5523327942769_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Launch2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 2 (`cc2__update_kernel`), at the buffers' contents `V` when it is entered

Each window's block at a grid point; the value the body stores over its output buffer, as a function of the fourteen
input blocks; the body's triple; the launch's proof data; the body obligation. -/

variable (V : (c : Dev nD) → (b : Ref sig .tc) → Buf (Elt F) ((c : Thread nD τ).loc b))

/-! ## The windows' blocks -/

/-- Window `w`'s block at point `t`, read off its array as the launch finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body stores -/

/-- The value the body stores over the whole output buffer, from the input windows' blocks in window order: the
    second stage's value at the first stage's value and the blocks the first stage does not read. -/
def out (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) : Vec F S10000x64 .f32 :=
  k2_pay1 (k2_pay2 x0 x2 x3 x4 x5 x6 x7 x8 x9) x10 x11 x12 x13 x1

/-- The zero offsets, as a function. -/
theorem offs_zero : (![0, 0] : Fin 2 → Nat) = fun _ => 0 := funext fun a => by fin_cases a <;> rfl

/-! ## The body's triple -/

set_option maxHeartbeats 1000000 in
/-- The body on whole staging memrefs — each input's reading `xW`, the output's holding anything — runs to the
    continuation with the inputs' as they were and the output's reading `out` of the inputs': every load is through
    the whole buffer, so reads what the buffer reads; the one store is through the whole output buffer, so what the
    buffer reads afterwards is the stored value, whatever it held (the body's own load of it included). -/
theorem sound_kernel (c : Dev nD) (E : Set ℕ) (i : grid2.Coords)
    (arg1 : Memref sig .tc .vmem S10000x87 .f32) (harg1 : arg1.IsWhole)
    (arg2 : Memref sig .tc .vmem S10000x64 .f32) (harg2 : arg2.IsWhole)
    (arg3 : Memref sig .tc .vmem S1x87 .f32) (harg3 : arg3.IsWhole)
    (arg4 : Memref sig .tc .vmem S1x87 .f32) (harg4 : arg4.IsWhole)
    (arg5 : Memref sig .tc .vmem S1x87 .f32) (harg5 : arg5.IsWhole)
    (arg6 : Memref sig .tc .vmem S1x87 .f32) (harg6 : arg6.IsWhole)
    (arg7 : Memref sig .tc .vmem S87x200 .f32) (harg7 : arg7.IsWhole)
    (arg8 : Memref sig .tc .vmem S1x200 .f32) (harg8 : arg8.IsWhole)
    (arg9 : Memref sig .tc .vmem S200x200 .f32) (harg9 : arg9.IsWhole)
    (arg10 : Memref sig .tc .vmem S1x200 .f32) (harg10 : arg10.IsWhole)
    (arg11 : Memref sig .tc .vmem S200x200 .f32) (harg11 : arg11.IsWhole)
    (arg12 : Memref sig .tc .vmem S1x200 .f32) (harg12 : arg12.IsWhole)
    (arg13 : Memref sig .tc .vmem S200x64 .f32) (harg13 : arg13.IsWhole)
    (arg14 : Memref sig .tc .vmem S1x64 .f32) (harg14 : arg14.IsWhole)
    (arg15 : Memref sig .tc .vmem S10000x64 .f32) (harg15 : arg15.IsWhole)
    (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out x0 x1 x2 x3 x4 x5 x6 x7 x8 x9 x10 x11 x12 x13)) -∗ K ⟨⟩))
      ⊢ wp frame (wpE (defs₀ (F := F)) Variants.none c none) E (cc2__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__update_kernel_eq_skeleton]; unfold cc2__update_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  rw [View.read_writes_eq_canon _ _ _ (fun y => ⟨_, List.mem_singleton_self _, View.mem_set_unit_zero offs_zero inb_S10000x64_S10000x64_0_0 y⟩),
    View.canon_unit_zero offs_zero inb_S10000x64_S10000x64_0_0]
  simp only [View.readAt_eq_ld, View.ld_unit_zero (S := S10000x87) offs_zero, View.ld_unit_zero (S := S10000x64) offs_zero, View.ld_unit_zero (S := S1x87) offs_zero, View.ld_unit_zero (S := S87x200) offs_zero, View.ld_unit_zero (S := S1x200) offs_zero, View.ld_unit_zero (S := S200x200) offs_zero, View.ld_unit_zero (S := S200x64) offs_zero, View.ld_unit_zero (S := S1x64) offs_zero]
  rfl

/-! ## The launch's proof data -/

/-- The proof data on core `c`: the arrays as the launch finds them; after the body at point `t` each input's buffer
    at its block and the output's at `out` of the input blocks; the invariant the scoped rest and the generator
    register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)
  Φ _ := Pipeline.ΦA spec2 c
  q _ := fullShare
  owed _ := 0

/-- The proof data's arrays are the entry contents. -/
theorem A_eq (c : Dev nD) (w : Fin cfg2.W) : (dat V c).A w = V c (Pipeline.arrRef spec2 w) := by
  dsimp only [dat]

/-- What the body leaves in each input window's buffer: its block. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]
theorem after_13 (c : Dev nD) (t : Fin cfg2.N) : (dat V c).after 13 t = iblk V c 13 t := by dsimp only [dat]

/-- What the body leaves in the output window's buffer: `out` of the input blocks. -/
theorem after_out (c : Dev nD) (t : Fin cfg2.N) :
    (dat V c).after 14 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) := by dsimp only [dat]

/-- Each input's current staging buffer holds its block at every point, fetched there or not: unfetched, the block
    index has not moved, and the body left the block in place. -/
theorem before_0 (c : Dev nD) (t : Fin cfg2.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg2.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg2.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)
theorem before_8 (c : Dev nD) (t : Fin cfg2.N) (d) : (dat V c).before 8 t d = iblk V c 8 t :=
  ((dat V c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)
theorem before_9 (c : Dev nD) (t : Fin cfg2.N) (d) : (dat V c).before 9 t d = iblk V c 9 t :=
  ((dat V c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)
theorem before_10 (c : Dev nD) (t : Fin cfg2.N) (d) : (dat V c).before 10 t d = iblk V c 10 t :=
  ((dat V c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)
theorem before_11 (c : Dev nD) (t : Fin cfg2.N) (d) : (dat V c).before 11 t d = iblk V c 11 t :=
  ((dat V c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)
theorem before_12 (c : Dev nD) (t : Fin cfg2.N) (d) : (dat V c).before 12 t d = iblk V c 12 t :=
  ((dat V c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)
theorem before_13 (c : Dev nD) (t : Fin cfg2.N) (d) : (dat V c).before 13 t d = iblk V c 13 t :=
  ((dat V c).before_in_eq_fetched 13 rfl (fun _ => rfl) (fun _ _ _ => rfl)
      (fun t => by rw [after_13]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d))
    ∗ (∃ d, owns (c : Thread nD τ) (st2_14 t) fullShare ((dat V c).before 14 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t)
    ∗ owns (c : Thread nD τ) (st2_14 t) fullShare ((dat V c).after 14 t))

/-- The body at any point: the inputs' buffers hold their blocks, so the triple applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12, before_13]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel (F := F) (c := c) (E := Set.univ) (x0 := iblk V c 0 t) (x1 := iblk V c 1 t) (x2 := iblk V c 2 t) (x3 := iblk V c 3 t) (x4 := iblk V c 4 t) (x5 := iblk V c 5 t) (x6 := iblk V c 6 t) (x7 := iblk V c 7 t) (x8 := iblk V c 8 t) (x9 := iblk V c 9 t) (x10 := iblk V c 10 t) (x11 := iblk V c 11 t) (x12 := iblk V c 12 t) (x13 := iblk V c 13 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Launch2

end
-- ==== Proof.BitsLaunch3.lean ====
import proofs.«131956_j5523327942769_1_alg».proof.Proof.Gen.Kernel.Launch
import proofs.«131956_j5523327942769_1_alg».proof.Proof.Gen.Kernel.Skeleton
import proofs.«131956_j5523327942769_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Launch3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 3 (`cc3__readout_kernel`), at the buffers' contents `V` when it is entered

Each window's block at a grid point; the value the body stores over its output buffer, as a function of the thirteen
input blocks; the body's triple; the launch's proof data; the body obligation. -/

variable (V : (c : Dev nD) → (b : Ref sig .tc) → Buf (Elt F) ((c : Thread nD τ).loc b))

/-! ## The windows' blocks -/

/-- Window `w`'s block at point `t`, read off its array as the launch finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body stores -/

/-- The value the body stores over the whole output buffer, from the input windows' blocks in window order: the
    second stage's value at the first stage's two values (the second a constant block) and the blocks the first stage does not read. -/
def out (x0 : Vec F S10000x256 .f32) (x1 : Vec F S1x256 .f32) (x2 : Vec F S1x256 .f32) (x3 : Vec F S1x256 .f32) (x4 : Vec F S1x256 .f32) (x5 : Vec F S256x200 .f32) (x6 : Vec F S1x200 .f32) (x7 : Vec F S200x200 .f32) (x8 : Vec F S1x200 .f32) (x9 : Vec F S200x200 .f32) (x10 : Vec F S1x200 .f32) (x11 : Vec F S200x1 .f32) (x12 : Vec F S1x1 .f32) : Vec F S10000x1 .f32 :=
  k3_pay1 (k3_pay2 x0 x1 x2 x3 x4 x5 x6 x7 x8) (k3_pay3 (F := F)) x9 x10 x11 x12

/-- The zero offsets, as a function. -/
theorem offs_zero : (![0, 0] : Fin 2 → Nat) = fun _ => 0 := funext fun a => by fin_cases a <;> rfl

/-! ## The body's triple -/

set_option maxHeartbeats 1000000 in
/-- The body on whole staging memrefs — each input's reading `xW`, the output's holding anything — runs to the
    continuation with the inputs' as they were and the output's reading `out` of the inputs': every load is through
    the whole buffer, so reads what the buffer reads; the one store is through the whole output buffer, so what the
    buffer reads afterwards is the stored value, whatever it held (the body's own load of it included). -/
theorem sound_kernel (c : Dev nD) (E : Set ℕ) (i : grid3.Coords)
    (arg1 : Memref sig .tc .vmem S10000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S256x200 .f32) (harg6 : arg6.IsWhole)
    (arg7 : Memref sig .tc .vmem S1x200 .f32) (harg7 : arg7.IsWhole)
    (arg8 : Memref sig .tc .vmem S200x200 .f32) (harg8 : arg8.IsWhole)
    (arg9 : Memref sig .tc .vmem S1x200 .f32) (harg9 : arg9.IsWhole)
    (arg10 : Memref sig .tc .vmem S200x200 .f32) (harg10 : arg10.IsWhole)
    (arg11 : Memref sig .tc .vmem S1x200 .f32) (harg11 : arg11.IsWhole)
    (arg12 : Memref sig .tc .vmem S200x1 .f32) (harg12 : arg12.IsWhole)
    (arg13 : Memref sig .tc .vmem S1x1 .f32) (harg13 : arg13.IsWhole)
    (arg14 : Memref sig .tc .vmem S10000x1 .f32) (harg14 : arg14.IsWhole)
    (x0 : Vec F S10000x256 .f32) (x1 : Vec F S1x256 .f32) (x2 : Vec F S1x256 .f32) (x3 : Vec F S1x256 .f32) (x4 : Vec F S1x256 .f32) (x5 : Vec F S256x200 .f32) (x6 : Vec F S1x200 .f32) (x7 : Vec F S200x200 .f32) (x8 : Vec F S1x200 .f32) (x9 : Vec F S200x200 .f32) (x10 : Vec F S1x200 .f32) (x11 : Vec F S200x1 .f32) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out x0 x1 x2 x3 x4 x5 x6 x7 x8 x9 x10 x11 x12)) -∗ K ⟨⟩))
      ⊢ wp frame (wpE (defs₀ (F := F)) Variants.none c none) E (cc3__readout_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__readout_kernel_eq_skeleton]; unfold cc3__readout_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  rw [View.read_writes_eq_canon _ _ _ (fun y => ⟨_, List.mem_singleton_self _, View.mem_set_unit_zero offs_zero inb_S10000x1_S10000x1_0_0 y⟩),
    View.canon_unit_zero offs_zero inb_S10000x1_S10000x1_0_0]
  simp only [View.readAt_eq_ld, View.ld_unit_zero (S := S10000x256) offs_zero, View.ld_unit_zero (S := S1x256) offs_zero, View.ld_unit_zero (S := S256x200) offs_zero, View.ld_unit_zero (S := S1x200) offs_zero, View.ld_unit_zero (S := S200x200) offs_zero, View.ld_unit_zero (S := S200x1) offs_zero, View.ld_unit_zero (S := S1x1) offs_zero]
  rfl

/-! ## The launch's proof data -/

/-- The proof data on core `c`: the arrays as the launch finds them; after the body at point `t` each input's buffer
    at its block and the output's at `out` of the input blocks; the invariant the scoped rest and the generator
    register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec3 c
  q _ := fullShare
  owed _ := 0

/-- The proof data's arrays are the entry contents. -/
theorem A_eq (c : Dev nD) (w : Fin cfg3.W) : (dat V c).A w = V c (Pipeline.arrRef spec3 w) := by
  dsimp only [dat]

/-- What the body leaves in each input window's buffer: its block. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = iblk V c 8 t := by dsimp only [dat]
theorem after_9 (c : Dev nD) (t : Fin cfg3.N) : (dat V c).after 9 t = iblk V c 9 t := by dsimp only [dat]
theorem after_10 (c : Dev nD) (t : Fin cfg3.N) : (dat V c).after 10 t = iblk V c 10 t := by dsimp only [dat]
theorem after_11 (c : Dev nD) (t : Fin cfg3.N) : (dat V c).after 11 t = iblk V c 11 t := by dsimp only [dat]
theorem after_12 (c : Dev nD) (t : Fin cfg3.N) : (dat V c).after 12 t = iblk V c 12 t := by dsimp only [dat]

/-- What the body leaves in the output window's buffer: `out` of the input blocks. -/
theorem after_out (c : Dev nD) (t : Fin cfg3.N) :
    (dat V c).after 13 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

/-- Each input's current staging buffer holds its block at every point, fetched there or not: unfetched, the block
    index has not moved, and the body left the block in place. -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg3.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg3.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg3.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg3.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)
theorem before_8 (c : Dev nD) (t : Fin cfg3.N) (d) : (dat V c).before 8 t d = iblk V c 8 t :=
  ((dat V c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)
theorem before_9 (c : Dev nD) (t : Fin cfg3.N) (d) : (dat V c).before 9 t d = iblk V c 9 t :=
  ((dat V c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)
theorem before_10 (c : Dev nD) (t : Fin cfg3.N) (d) : (dat V c).before 10 t d = iblk V c 10 t :=
  ((dat V c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)
theorem before_11 (c : Dev nD) (t : Fin cfg3.N) (d) : (dat V c).before 11 t d = iblk V c 11 t :=
  ((dat V c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)
theorem before_12 (c : Dev nD) (t : Fin cfg3.N) (d) : (dat V c).before 12 t d = iblk V c 12 t :=
  ((dat V c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d))
    ∗ (∃ d, owns (c : Thread nD τ) (st3_13 t) fullShare ((dat V c).before 13 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t)
    ∗ owns (c : Thread nD τ) (st3_13 t) fullShare ((dat V c).after 13 t))

/-- The body at any point: the inputs' buffers hold their blocks, so the triple applies; the invariant and what the
    core owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel (F := F) (c := c) (E := Set.univ) (x0 := iblk V c 0 t) (x1 := iblk V c 1 t) (x2 := iblk V c 2 t) (x3 := iblk V c 3 t) (x4 := iblk V c 4 t) (x5 := iblk V c 5 t) (x6 := iblk V c 6 t) (x7 := iblk V c 7 t) (x8 := iblk V c 8 t) (x9 := iblk V c 9 t) (x10 := iblk V c 10 t) (x11 := iblk V c 11 t) (x12 := iblk V c 12 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.Launch3

end
-- ==== Proof.BitsRun.lean ====
/-
  The run of the program from its launch memory to its return, as twelve items: eight stretches of host operations and the
  four kernel launches between them.

  Between two items every unscoped buffer of a core is held whole at a valuation. A host stretch takes the valuation to
  its fold over the stretch's operations. A launch takes out the arrays of its windows, runs its pipeline over them, and
  puts them back: each input array as it was, the output array at what the grid's points wrote back into it; every other
  buffer keeps its contents. No host operation writes an argument array and no launch has one as its output, so an
  argument's buffer reads the same at every valuation, down to the launch memory; the result buffer ends at the last
  valuation's value.
-/
import proofs.«131956_j5523327942769_1_alg».proof.Proof.Gen.Kernel.Launch
import proofs.«131956_j5523327942769_1_alg».proof.Proof.Gen.Kernel.Points
import proofs.«131956_j5523327942769_1_alg».proof.Proof.BitsLaunch0
import proofs.«131956_j5523327942769_1_alg».proof.Proof.BitsLaunch1
import proofs.«131956_j5523327942769_1_alg».proof.Proof.BitsLaunch2
import proofs.«131956_j5523327942769_1_alg».proof.Proof.BitsLaunch3
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the host stretches write -/

/-- No operation of the stretch allocates a buffer. -/
theorem main_part0_ops0_fresh : (main_part0_ops0 : List (HloOp τ sig (Elt F))).Forall fun op => op.fresh = ∅ := by
  simp only [List.Forall]; repeat' constructor
/-- The result references of `main_part0_ops0`, in order. -/
abbrev main_part0_ops0_W : List (Ref sig .tc) := [main_cst, main_v0, main_v1, main_v2, main_v3, main_v4, main_v5, main_v6, main_v7, main_v8, main_v9, main_v10, main_c, main_v11, main_v12, main_c_0, main_v13, main_v14, main_v15, main_v16, main_v17, main_c_1, main_v18, main_v19, main_c_2, main_v20, main_v21, main_v22, main_v23, main_v24, main_v25, main_cst_3, main_v26, main_v27, main_v28, main_cst_4, main_v29, main_cst_5, main_v30, main_v31, main_v32, main_v33, main_v34, main_v35, main_cst_6, main_v36, main_cst_7, main_v37, main_v38, main_v39, main_v40, main_v41, main_v42, main_v43, main_v44, main_v45, main_v46, main_v47, main_v48, main_v49]
/-- Each operation of the stretch writes its own result reference and nothing else. -/
theorem main_part0_ops0_writes : (main_part0_ops0 : List (HloOp τ sig (Elt F))).Forall fun op => op.writes ⊆ (main_part0_ops0_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part1_ops0_fresh : (main_part1_ops0 : List (HloOp τ sig (Elt F))).Forall fun op => op.fresh = ∅ := by
  simp only [List.Forall]; repeat' constructor
/-- The result references of `main_part1_ops0`, in order. -/
abbrev main_part1_ops0_W : List (Ref sig .tc) := [main_v50, main_v51, main_v52, main_v53, main_v54, main_v55, main_v56, main_v57, main_v58, main_v59, main_v60, main_v61, main_v62, main_v63, main_v64, main_v65, main_v66]
/-- Each operation of the stretch writes its own result reference and nothing else. -/
theorem main_part1_ops0_writes : (main_part1_ops0 : List (HloOp τ sig (Elt F))).Forall fun op => op.writes ⊆ (main_part1_ops0_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part1_ops1_fresh : (main_part1_ops1 : List (HloOp τ sig (Elt F))).Forall fun op => op.fresh = ∅ := by
  simp only [List.Forall]; repeat' constructor
/-- The result references of `main_part1_ops1`, in order. -/
abbrev main_part1_ops1_W : List (Ref sig .tc) := [main_c_8, main_v68, main_v69, main_c_9, main_v70, main_v71, main_v72, main_v73, main_v74, main_v75, main_cst_10, main_v76, main_v77, main_v78, main_cst_11, main_v79, main_cst_12, main_v80, main_v81, main_v82, main_v83, main_v84, main_v85, main_cst_13, main_v86, main_cst_14, main_v87, main_v88, main_v89, main_v90, main_v91, main_v92, main_v93, main_v94, main_v95, main_v96, main_v97, main_v98, main_v99, main_v100, main_v101, main_v102]
/-- Each operation of the stretch writes its own result reference and nothing else. -/
theorem main_part1_ops1_writes : (main_part1_ops1 : List (HloOp τ sig (Elt F))).Forall fun op => op.writes ⊆ (main_part1_ops1_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part2_ops0_fresh : (main_part2_ops0 : List (HloOp τ sig (Elt F))).Forall fun op => op.fresh = ∅ := by
  simp only [List.Forall]; repeat' constructor
/-- The result references of `main_part2_ops0`, in order. -/
abbrev main_part2_ops0_W : List (Ref sig .tc) := [main_v103, main_v104, main_v105, main_v106, main_v107, main_v108, main_v109, main_v110, main_v111, main_v112, main_v113, main_v114, main_v115, main_v116]
/-- Each operation of the stretch writes its own result reference and nothing else. -/
theorem main_part2_ops0_writes : (main_part2_ops0 : List (HloOp τ sig (Elt F))).Forall fun op => op.writes ⊆ (main_part2_ops0_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part2_ops1_fresh : (main_part2_ops1 : List (HloOp τ sig (Elt F))).Forall fun op => op.fresh = ∅ := by
  simp only [List.Forall]; repeat' constructor
/-- The result references of `main_part2_ops1`, in order. -/
abbrev main_part2_ops1_W : List (Ref sig .tc) := [main_c_15, main_v118, main_v119, main_c_16, main_v120, main_v121, main_v122, main_v123, main_v124, main_v125, main_cst_17, main_v126, main_v127, main_v128, main_cst_18, main_v129, main_cst_19, main_v130, main_v131, main_v132, main_v133, main_v134, main_v135, main_cst_20, main_v136, main_cst_21, main_v137, main_v138, main_v139, main_v140, main_v141, main_v142, main_v143, main_v144, main_v145, main_v146, main_v147, main_v148, main_v149, main_v150, main_v151, main_v152, main_v153, main_v154, main_v155]
/-- Each operation of the stretch writes its own result reference and nothing else. -/
theorem main_part2_ops1_writes : (main_part2_ops1 : List (HloOp τ sig (Elt F))).Forall fun op => op.writes ⊆ (main_part2_ops1_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part3_ops0_fresh : (main_part3_ops0 : List (HloOp τ sig (Elt F))).Forall fun op => op.fresh = ∅ := by
  simp only [List.Forall]; repeat' constructor
/-- The result references of `main_part3_ops0`, in order. -/
abbrev main_part3_ops0_W : List (Ref sig .tc) := [main_v156, main_v157, main_v158, main_v159, main_v160, main_v161, main_v162, main_v163, main_v164, main_v165, main_v166]
/-- Each operation of the stretch writes its own result reference and nothing else. -/
theorem main_part3_ops0_writes : (main_part3_ops0 : List (HloOp τ sig (Elt F))).Forall fun op => op.writes ⊆ (main_part3_ops0_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part3_ops1_fresh : (main_part3_ops1 : List (HloOp τ sig (Elt F))).Forall fun op => op.fresh = ∅ := by
  simp only [List.Forall]; repeat' constructor
/-- The result references of `main_part3_ops1`, in order. -/
abbrev main_part3_ops1_W : List (Ref sig .tc) := [main_v168, main_cst_22, main_v169, main_cst_23, main_v170, main_v171, main_v172, main_v173, main_v174, main_v175, main_cst_24, main_v176, main_cst_25, main_v177, main_v178, main_v179, main_v180, main_v181, main_v182, main_v183, main_v184, main_v185, main_v186]
/-- Each operation of the stretch writes its own result reference and nothing else. -/
theorem main_part3_ops1_writes : (main_part3_ops1 : List (HloOp τ sig (Elt F))).Forall fun op => op.writes ⊆ (main_part3_ops1_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part3_ops2_fresh : (main_part3_ops2 : List (HloOp τ sig (Elt F))).Forall fun op => op.fresh = ∅ := by
  simp only [List.Forall]; repeat' constructor
/-- The result references of `main_part3_ops2`, in order. -/
abbrev main_part3_ops2_W : List (Ref sig .tc) := [main_cst_26, main_v188, main_v189, main_v190]
/-- Each operation of the stretch writes its own result reference and nothing else. -/
theorem main_part3_ops2_writes : (main_part3_ops2 : List (HloOp τ sig (Elt F))).Forall fun op => op.writes ⊆ (main_part3_ops2_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- Every reference some item may change: the host stretches' results and the four launches' output arrays, item by item. -/
abbrev written : List (Ref sig .tc) := main_part0_ops0_W ++ (main_part1_ops0_W ++ ([main_v67] ++ (main_part1_ops1_W ++ (main_part2_ops0_W ++ ([main_v117] ++ (main_part2_ops1_W ++ (main_part3_ops0_W ++ ([main_v167] ++ (main_part3_ops1_W ++ ([main_v187] ++ (main_part3_ops2_W)))))))))))

variable (m : (ℓ : Loc nD τ sig) → Buf (Elt F) ℓ)

/-! ## The buffers' contents between items -/

/-- Core `c`'s buffers at launch. -/
abbrev W0 (c : Dev nD) : Valuation τ sig (Elt F) := fun b => m (c, b)
/-- After item 0, the host stretch `main_part0_ops0`. -/
abbrev W1 (c : Dev nD) : Valuation τ sig (Elt F) := StableHlo.after main_part0_ops0 (W0 m c)
/-- After item 1, the host stretch `main_part1_ops0`. -/
abbrev W2 (c : Dev nD) : Valuation τ sig (Elt F) := StableHlo.after main_part1_ops0 (W1 m c)
/-- The contents launch 0 is entered at, read at the TensorCore's references. -/
abbrev B2 : (c : Dev nD) → (b : Ref sig .tc) → Buf (Elt F) ((c : Thread nD τ).loc b) := fun c b => W2 m c b
/-- After item 2, launch 0: its windows' arrays at what the pipeline leaves in them, every other buffer as entered. -/
def W3 (c : Dev nD) : Valuation τ sig (Elt F) :=
  Pipeline.withArrays spec0 c (W2 m c) fun w => (Launch0.dat (B2 m) c).arrAt w cfg0.N
theorem W3_arr (c : Dev nD) (w : Fin cfg0.W) :
    W3 m c (Proc.devRef .tc (Pipeline.arrRef spec0 w)) = (Launch0.dat (B2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- The contents launch 0 is left at, read at the TensorCore's references. -/
abbrev A3 : (c : Dev nD) → (b : Ref sig .tc) → Buf (Elt F) ((c : Thread nD τ).loc b) := fun c b => W3 m c b
/-- Only the output array's window is an output: every other window's array leaves the launch as it entered. -/
theorem inputs0 : ∀ w : Fin 15, Pipeline.arrRef spec0 w ≠ main_v67 → (cfg0.win w).isOut = false := by decide
/-- A buffer other than launch 0's output array reads after the launch what it read before it. -/
theorem W3_keep (c : Dev nD) (b : Ref sig .tc) (hb : b ≠ main_v67) :
    W3 m c (Proc.devRef .tc b) = W2 m c (Proc.devRef .tc b) := by
  by_cases h : ∃ w, Pipeline.arrRef spec0 w = b
  · obtain ⟨w, rfl⟩ := h
    exact (W3_arr m c w).trans (((Launch0.dat (B2 m) c).arrAt_in w (inputs0 w hb) _).trans (Launch0.A_eq (B2 m) c w))
  · exact W3_of_ne m c b fun w e => h ⟨w, e⟩
/-- After item 3, the host stretch `main_part1_ops1`. -/
abbrev W4 (c : Dev nD) : Valuation τ sig (Elt F) := StableHlo.after main_part1_ops1 (W3 m c)
/-- After item 4, the host stretch `main_part2_ops0`. -/
abbrev W5 (c : Dev nD) : Valuation τ sig (Elt F) := StableHlo.after main_part2_ops0 (W4 m c)
/-- The contents launch 1 is entered at, read at the TensorCore's references. -/
abbrev B5 : (c : Dev nD) → (b : Ref sig .tc) → Buf (Elt F) ((c : Thread nD τ).loc b) := fun c b => W5 m c b
/-- After item 5, launch 1: its windows' arrays at what the pipeline leaves in them, every other buffer as entered. -/
def W6 (c : Dev nD) : Valuation τ sig (Elt F) :=
  Pipeline.withArrays spec1 c (W5 m c) fun w => (Launch1.dat (B5 m) c).arrAt w cfg1.N
theorem W6_arr (c : Dev nD) (w : Fin cfg1.W) :
    W6 m c (Proc.devRef .tc (Pipeline.arrRef spec1 w)) = (Launch1.dat (B5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The contents launch 1 is left at, read at the TensorCore's references. -/
abbrev A6 : (c : Dev nD) → (b : Ref sig .tc) → Buf (Elt F) ((c : Thread nD τ).loc b) := fun c b => W6 m c b
/-- Only the output array's window is an output: every other window's array leaves the launch as it entered. -/
theorem inputs1 : ∀ w : Fin 15, Pipeline.arrRef spec1 w ≠ main_v117 → (cfg1.win w).isOut = false := by decide
/-- A buffer other than launch 1's output array reads after the launch what it read before it. -/
theorem W6_keep (c : Dev nD) (b : Ref sig .tc) (hb : b ≠ main_v117) :
    W6 m c (Proc.devRef .tc b) = W5 m c (Proc.devRef .tc b) := by
  by_cases h : ∃ w, Pipeline.arrRef spec1 w = b
  · obtain ⟨w, rfl⟩ := h
    exact (W6_arr m c w).trans (((Launch1.dat (B5 m) c).arrAt_in w (inputs1 w hb) _).trans (Launch1.A_eq (B5 m) c w))
  · exact W6_of_ne m c b fun w e => h ⟨w, e⟩
/-- After item 6, the host stretch `main_part2_ops1`. -/
abbrev W7 (c : Dev nD) : Valuation τ sig (Elt F) := StableHlo.after main_part2_ops1 (W6 m c)
/-- After item 7, the host stretch `main_part3_ops0`. -/
abbrev W8 (c : Dev nD) : Valuation τ sig (Elt F) := StableHlo.after main_part3_ops0 (W7 m c)
/-- The contents launch 2 is entered at, read at the TensorCore's references. -/
abbrev B8 : (c : Dev nD) → (b : Ref sig .tc) → Buf (Elt F) ((c : Thread nD τ).loc b) := fun c b => W8 m c b
/-- After item 8, launch 2: its windows' arrays at what the pipeline leaves in them, every other buffer as entered. -/
def W9 (c : Dev nD) : Valuation τ sig (Elt F) :=
  Pipeline.withArrays spec2 c (W8 m c) fun w => (Launch2.dat (B8 m) c).arrAt w cfg2.N
theorem W9_arr (c : Dev nD) (w : Fin cfg2.W) :
    W9 m c (Proc.devRef .tc (Pipeline.arrRef spec2 w)) = (Launch2.dat (B8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- The contents launch 2 is left at, read at the TensorCore's references. -/
abbrev A9 : (c : Dev nD) → (b : Ref sig .tc) → Buf (Elt F) ((c : Thread nD τ).loc b) := fun c b => W9 m c b
/-- Only the output array's window is an output: every other window's array leaves the launch as it entered. -/
theorem inputs2 : ∀ w : Fin 15, Pipeline.arrRef spec2 w ≠ main_v167 → (cfg2.win w).isOut = false := by decide
/-- A buffer other than launch 2's output array reads after the launch what it read before it. -/
theorem W9_keep (c : Dev nD) (b : Ref sig .tc) (hb : b ≠ main_v167) :
    W9 m c (Proc.devRef .tc b) = W8 m c (Proc.devRef .tc b) := by
  by_cases h : ∃ w, Pipeline.arrRef spec2 w = b
  · obtain ⟨w, rfl⟩ := h
    exact (W9_arr m c w).trans (((Launch2.dat (B8 m) c).arrAt_in w (inputs2 w hb) _).trans (Launch2.A_eq (B8 m) c w))
  · exact W9_of_ne m c b fun w e => h ⟨w, e⟩
/-- After item 9, the host stretch `main_part3_ops1`. -/
abbrev W10 (c : Dev nD) : Valuation τ sig (Elt F) := StableHlo.after main_part3_ops1 (W9 m c)
/-- The contents launch 3 is entered at, read at the TensorCore's references. -/
abbrev B10 : (c : Dev nD) → (b : Ref sig .tc) → Buf (Elt F) ((c : Thread nD τ).loc b) := fun c b => W10 m c b
/-- After item 10, launch 3: its windows' arrays at what the pipeline leaves in them, every other buffer as entered. -/
def W11 (c : Dev nD) : Valuation τ sig (Elt F) :=
  Pipeline.withArrays spec3 c (W10 m c) fun w => (Launch3.dat (B10 m) c).arrAt w cfg3.N
theorem W11_arr (c : Dev nD) (w : Fin cfg3.W) :
    W11 m c (Proc.devRef .tc (Pipeline.arrRef spec3 w)) = (Launch3.dat (B10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
/-- The contents launch 3 is left at, read at the TensorCore's references. -/
abbrev A11 : (c : Dev nD) → (b : Ref sig .tc) → Buf (Elt F) ((c : Thread nD τ).loc b) := fun c b => W11 m c b
/-- Only the output array's window is an output: every other window's array leaves the launch as it entered. -/
theorem inputs3 : ∀ w : Fin 14, Pipeline.arrRef spec3 w ≠ main_v187 → (cfg3.win w).isOut = false := by decide
/-- A buffer other than launch 3's output array reads after the launch what it read before it. -/
theorem W11_keep (c : Dev nD) (b : Ref sig .tc) (hb : b ≠ main_v187) :
    W11 m c (Proc.devRef .tc b) = W10 m c (Proc.devRef .tc b) := by
  by_cases h : ∃ w, Pipeline.arrRef spec3 w = b
  · obtain ⟨w, rfl⟩ := h
    exact (W11_arr m c w).trans (((Launch3.dat (B10 m) c).arrAt_in w (inputs3 w hb) _).trans (Launch3.A_eq (B10 m) c w))
  · exact W11_of_ne m c b fun w e => h ⟨w, e⟩
/-- After item 11, the host stretch `main_part3_ops2`. -/
abbrev W12 (c : Dev nD) : Valuation τ sig (Elt F) := StableHlo.after main_part3_ops2 (W11 m c)

/-! ## A reference no item changes reads at the end what the launch memory holds -/

theorem kept (c : Dev nD) (r : Ref sig .tc) (h : r ∉ written) :
    W12 m c (Proc.devRef .tc r) = m ((c : Thread nD τ).loc r) := by
  rw [show W12 m c (Proc.devRef .tc r) = W11 m c (Proc.devRef .tc r) from
    StableHlo.after_of_writes_sub main_part3_ops2 _ main_part3_ops2_writes fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (hm))))))))))))]
  rw [W11_keep m c r fun e => h (List.mem_append_right _ (List.mem_append_right _ (List.mem_append_right _ (List.mem_append_right _ (List.mem_append_right _ (List.mem_append_right _ (List.mem_append_right _ (List.mem_append_right _ (List.mem_append_right _ (List.mem_append_right _ (List.mem_append_left _ (List.mem_singleton.mpr e))))))))))))]
  rw [show W10 m c (Proc.devRef .tc r) = W9 m c (Proc.devRef .tc r) from
    StableHlo.after_of_writes_sub main_part3_ops1 _ main_part3_ops1_writes fun hm => h (List.mem_append_right _ (List.mem_append_right _ (List.mem_append_right _ (List.mem_append_right _ (List.mem_append_right _ (List.mem_append_right _ (List.mem_append_right _ (List.mem_append_right _ (List.mem_append_right _ (List.mem_append_left _ hm))))))))))]
  rw [W9_keep m c r fun e => h (List.mem_append_right _ (List.mem_append_right _ (List.mem_append_right _ (List.mem_append_right _ (List.mem_append_right _ (List.mem_append_right _ (List.mem_append_right _ (List.mem_append_right _ (List.mem_append_left _ (List.mem_singleton.mpr e))))))))))]
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 1. -/
theorem kept2 (c : Dev nD) (r : Ref sig .tc) (h : r ∉ written) :
    W2 m c (Proc.devRef .tc r) = m ((c : Thread nD τ).loc r) := by
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 2. -/
theorem kept3 (c : Dev nD) (r : Ref sig .tc) (h : r ∉ written) :
    W3 m c (Proc.devRef .tc r) = m ((c : Thread nD τ).loc r) := by
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 4. -/
theorem kept5 (c : Dev nD) (r : Ref sig .tc) (h : r ∉ written) :
    W5 m c (Proc.devRef .tc r) = m ((c : Thread nD τ).loc r) := by
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 5. -/
theorem kept6 (c : Dev nD) (r : Ref sig .tc) (h : r ∉ written) :
    W6 m c (Proc.devRef .tc r) = m ((c : Thread nD τ).loc r) := by
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 7. -/
theorem kept8 (c : Dev nD) (r : Ref sig .tc) (h : r ∉ written) :
    W8 m c (Proc.devRef .tc r) = m ((c : Thread nD τ).loc r) := by
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 8. -/
theorem kept9 (c : Dev nD) (r : Ref sig .tc) (h : r ∉ written) :
    W9 m c (Proc.devRef .tc r) = m ((c : Thread nD τ).loc r) := by
  rw [W9_keep m c r fun e => h (List.mem_append_right _ (List.mem_append_right _ (List.mem_append_right _ (List.mem_append_right _ (List.mem_append_right _ (List.mem_append_right _ (List.mem_append_right _ (List.mem_append_right _ (List.mem_append_left _ (List.mem_singleton.mpr e))))))))))]
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 9. -/
theorem kept10 (c : Dev nD) (r : Ref sig .tc) (h : r ∉ written) :
    W10 m c (Proc.devRef .tc r) = m ((c : Thread nD τ).loc r) := by
  rw [show W10 m c (Proc.devRef .tc r) = W9 m c (Proc.devRef .tc r) from
    StableHlo.after_of_writes_sub main_part3_ops1 _ main_part3_ops1_writes fun hm => h (List.mem_append_right _ (List.mem_append_right _ (List.mem_append_right _ (List.mem_append_right _ (List.mem_append_right _ (List.mem_append_right _ (List.mem_append_right _ (List.mem_append_right _ (List.mem_append_right _ (List.mem_append_left _ hm))))))))))]
  rw [W9_keep m c r fun e => h (List.mem_append_right _ (List.mem_append_right _ (List.mem_append_right _ (List.mem_append_right _ (List.mem_append_right _ (List.mem_append_right _ (List.mem_append_right _ (List.mem_append_right _ (List.mem_append_left _ (List.mem_singleton.mpr e))))))))))]
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 10. -/
theorem kept11 (c : Dev nD) (r : Ref sig .tc) (h : r ∉ written) :
    W11 m c (Proc.devRef .tc r) = m ((c : Thread nD τ).loc r) := by
  rw [W11_keep m c r fun e => h (List.mem_append_right _ (List.mem_append_right _ (List.mem_append_right _ (List.mem_append_right _ (List.mem_append_right _ (List.mem_append_right _ (List.mem_append_right _ (List.mem_append_right _ (List.mem_append_right _ (List.mem_append_right _ (List.mem_append_left _ (List.mem_singleton.mpr e))))))))))))]
  rw [show W10 m c (Proc.devRef .tc r) = W9 m c (Proc.devRef .tc r) from
    StableHlo.after_of_writes_sub main_part3_ops1 _ main_part3_ops1_writes fun hm => h (List.mem_append_right _ (List.mem_append_right _ (List.mem_append_right _ (List.mem_append_right _ (List.mem_append_right _ (List.mem_append_right _ (List.mem_append_right _ (List.mem_append_right _ (List.mem_append_right _ (List.mem_append_left _ hm))))))))))]
  rw [W9_keep m c r fun e => h (List.mem_append_right _ (List.mem_append_right _ (List.mem_append_right _ (List.mem_append_right _ (List.mem_append_right _ (List.mem_append_right _ (List.mem_append_right _ (List.mem_append_right _ (List.mem_append_left _ (List.mem_singleton.mpr e))))))))))]
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-! ## The thread state, the proof data, the launches as segments -/

/-- The prefetched tables' admissible contents: no launch has a table. -/
abbrev adm : (p : Fin 4) → (pcfgs (F := F) p).Adm := fun p => (cfgs p).toPCfg_adm
/-- Each pipeline's proof data at the contents its launch is entered at. -/
def pdats : (p : Fin 4) → (c : Dev nD) → Dat τ (Elt F) Unit ℕ (UR sig nD τ) ℕ (Pipeline.pin (pcfgs (F := F)) adm p) c
  | ⟨0, _⟩ => fun c => Launch0.dat (B2 m) c
  | ⟨1, _⟩ => fun c => Launch1.dat (B5 m) c
  | ⟨2, _⟩ => fun c => Launch2.dat (B8 m) c
  | ⟨3, _⟩ => fun c => Launch3.dat (B10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment: the unscoped buffers go from the valuation `W` to its fold over the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Launch 0 over the thread state: entered with every unscoped buffer at `W2`, left with them at `W3`. Its windows'
    arrays are taken out of the unscoped buffers on the way in and put back, at what the pipeline leaves, on the way out;
    the generator register goes into the pipeline's invariant and comes back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Launch0.body_obligation (B2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (B2 m c)
  hentry c := by
    rw [Pipeline.ownSems0_none]
    have take := Pipeline.arrays_of_unscopedBufs (p := 0) (pcfgs (F := F)) adm (pdats m) launch0.win launch0.arr_whole c
      ((pdats m 0 c).share_full fun _ => rfl) (B2 m c) fun _ => rfl
    rw [Pipeline.unscopedBufs_held] at take
    iintro ⟨⟨Hbufs, Hprng, Hdues⟩, -, -⟩
    ihave Hs := take $$ Hbufs
    icases Hs with ⟨Harr, Hother⟩
    imodintro
    isplitl [Harr]; · iexact Harr
    isplitr
    · unfold Pipeline.prefHeld; rw [show (Finset.univ : Finset (Fin 0)) = ∅ from rfl, BI.bigSep_empty]; iempintro
    isplitl [Hdues]
    · unfold Pipeline.Dat.owesAt Pipeline.owesWithin
      icases Hdues with ⟨%Wd, Hdues⟩
      iexists Wd
      isplitr; · ipureintro; exact fun _ _ => Or.inl trivial
      iexact Hdues
    isplitl [Hprng]; · iexact Hprng
    iexact Hother
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have put := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B2 m c) (A3 m c) ((pdats m 0 c).arrAt · cfg0.N) (fun w => (W3_arr m c w).symm)
      (fun b hb => W3_of_ne m c b fun w e => hb (Finset.mem_image.mpr ⟨w, Finset.mem_univ _, e⟩))
    rw [Pipeline.unscopedBufs_held] at put
    iintro ⟨Harr, Hdues, Hprng, Hother⟩
    imodintro
    isplitl [Harr Hother]
    · iapply put; isplitl [Harr] <;> iassumption
    isplitl [Hprng]; · iexact Hprng
    unfold Pipeline.Dat.owesAt Pipeline.owesWithin
    icases Hdues with ⟨%Wd, -, Hdues⟩
    iexists Wd; iexact Hdues

set_option backward.isDefEq.respectTransparency.types false in
/-- Launch 1 over the thread state: entered with every unscoped buffer at `W5`, left with them at `W6`. Its windows'
    arrays are taken out of the unscoped buffers on the way in and put back, at what the pipeline leaves, on the way out;
    the generator register goes into the pipeline's invariant and comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Launch1.body_obligation (B5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (B5 m c)
  hentry c := by
    rw [Pipeline.ownSems0_none]
    have take := Pipeline.arrays_of_unscopedBufs (p := 1) (pcfgs (F := F)) adm (pdats m) launch1.win launch1.arr_whole c
      ((pdats m 1 c).share_full fun _ => rfl) (B5 m c) fun _ => rfl
    rw [Pipeline.unscopedBufs_held] at take
    iintro ⟨⟨Hbufs, Hprng, Hdues⟩, -, -⟩
    ihave Hs := take $$ Hbufs
    icases Hs with ⟨Harr, Hother⟩
    imodintro
    isplitl [Harr]; · iexact Harr
    isplitr
    · unfold Pipeline.prefHeld; rw [show (Finset.univ : Finset (Fin 0)) = ∅ from rfl, BI.bigSep_empty]; iempintro
    isplitl [Hdues]
    · unfold Pipeline.Dat.owesAt Pipeline.owesWithin
      icases Hdues with ⟨%Wd, Hdues⟩
      iexists Wd
      isplitr; · ipureintro; exact fun _ _ => Or.inl trivial
      iexact Hdues
    isplitl [Hprng]; · iexact Hprng
    iexact Hother
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have put := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B5 m c) (A6 m c) ((pdats m 1 c).arrAt · cfg1.N) (fun w => (W6_arr m c w).symm)
      (fun b hb => W6_of_ne m c b fun w e => hb (Finset.mem_image.mpr ⟨w, Finset.mem_univ _, e⟩))
    rw [Pipeline.unscopedBufs_held] at put
    iintro ⟨Harr, Hdues, Hprng, Hother⟩
    imodintro
    isplitl [Harr Hother]
    · iapply put; isplitl [Harr] <;> iassumption
    isplitl [Hprng]; · iexact Hprng
    unfold Pipeline.Dat.owesAt Pipeline.owesWithin
    icases Hdues with ⟨%Wd, -, Hdues⟩
    iexists Wd; iexact Hdues

set_option backward.isDefEq.respectTransparency.types false in
/-- Launch 2 over the thread state: entered with every unscoped buffer at `W8`, left with them at `W9`. Its windows'
    arrays are taken out of the unscoped buffers on the way in and put back, at what the pipeline leaves, on the way out;
    the generator register goes into the pipeline's invariant and comes back; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Launch2.body_obligation (B8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (B8 m c)
  hentry c := by
    rw [Pipeline.ownSems0_none]
    have take := Pipeline.arrays_of_unscopedBufs (p := 2) (pcfgs (F := F)) adm (pdats m) launch2.win launch2.arr_whole c
      ((pdats m 2 c).share_full fun _ => rfl) (B8 m c) fun _ => rfl
    rw [Pipeline.unscopedBufs_held] at take
    iintro ⟨⟨Hbufs, Hprng, Hdues⟩, -, -⟩
    ihave Hs := take $$ Hbufs
    icases Hs with ⟨Harr, Hother⟩
    imodintro
    isplitl [Harr]; · iexact Harr
    isplitr
    · unfold Pipeline.prefHeld; rw [show (Finset.univ : Finset (Fin 0)) = ∅ from rfl, BI.bigSep_empty]; iempintro
    isplitl [Hdues]
    · unfold Pipeline.Dat.owesAt Pipeline.owesWithin
      icases Hdues with ⟨%Wd, Hdues⟩
      iexists Wd
      isplitr; · ipureintro; exact fun _ _ => Or.inl trivial
      iexact Hdues
    isplitl [Hprng]; · iexact Hprng
    iexact Hother
  hin c := by
    rw [show (pdats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have put := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B8 m c) (A9 m c) ((pdats m 2 c).arrAt · cfg2.N) (fun w => (W9_arr m c w).symm)
      (fun b hb => W9_of_ne m c b fun w e => hb (Finset.mem_image.mpr ⟨w, Finset.mem_univ _, e⟩))
    rw [Pipeline.unscopedBufs_held] at put
    iintro ⟨Harr, Hdues, Hprng, Hother⟩
    imodintro
    isplitl [Harr Hother]
    · iapply put; isplitl [Harr] <;> iassumption
    isplitl [Hprng]; · iexact Hprng
    unfold Pipeline.Dat.owesAt Pipeline.owesWithin
    icases Hdues with ⟨%Wd, -, Hdues⟩
    iexists Wd; iexact Hdues

set_option backward.isDefEq.respectTransparency.types false in
/-- Launch 3 over the thread state: entered with every unscoped buffer at `W10`, left with them at `W11`. Its windows'
    arrays are taken out of the unscoped buffers on the way in and put back, at what the pipeline leaves, on the way out;
    the generator register goes into the pipeline's invariant and comes back; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Launch3.body_obligation (B10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (B10 m c)
  hentry c := by
    rw [Pipeline.ownSems0_none]
    have take := Pipeline.arrays_of_unscopedBufs (p := 3) (pcfgs (F := F)) adm (pdats m) launch3.win launch3.arr_whole c
      ((pdats m 3 c).share_full fun _ => rfl) (B10 m c) fun _ => rfl
    rw [Pipeline.unscopedBufs_held] at take
    iintro ⟨⟨Hbufs, Hprng, Hdues⟩, -, -⟩
    ihave Hs := take $$ Hbufs
    icases Hs with ⟨Harr, Hother⟩
    imodintro
    isplitl [Harr]; · iexact Harr
    isplitr
    · unfold Pipeline.prefHeld; rw [show (Finset.univ : Finset (Fin 0)) = ∅ from rfl, BI.bigSep_empty]; iempintro
    isplitl [Hdues]
    · unfold Pipeline.Dat.owesAt Pipeline.owesWithin
      icases Hdues with ⟨%Wd, Hdues⟩
      iexists Wd
      isplitr; · ipureintro; exact fun _ _ => Or.inl trivial
      iexact Hdues
    isplitl [Hprng]; · iexact Hprng
    iexact Hother
  hin c := by
    rw [show (pdats m 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (pdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    have put := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B10 m c) (A11 m c) ((pdats m 3 c).arrAt · cfg3.N) (fun w => (W11_arr m c w).symm)
      (fun b hb => W11_of_ne m c b fun w e => hb (Finset.mem_image.mpr ⟨w, Finset.mem_univ _, e⟩))
    rw [Pipeline.unscopedBufs_held] at put
    iintro ⟨Harr, Hdues, Hprng, Hother⟩
    imodintro
    isplitl [Harr Hother]
    · iapply put; isplitl [Harr] <;> iassumption
    isplitl [Hprng]; · iexact Hprng
    unfold Pipeline.Dat.owesAt Pipeline.owesWithin
    icases Hdues with ⟨%Wd, -, Hdues⟩
    iexists Wd; iexact Hdues

/-! ## @main as the twelve items, and the run -/

abbrev segs : List (Pipeline.Seg (pcfgs (F := F)) adm (pdats m) () defs₀ 𝒱₀ L lv) :=
  [ .host (hseg main_part0_ops0 main_part0_ops0_sub main_part0_ops0_fresh (W0 m)),
    .host (hseg main_part1_ops0 main_part1_ops0_sub main_part1_ops0_fresh (W1 m)),
    .region (reg0 m),
    .host (hseg main_part1_ops1 main_part1_ops1_sub main_part1_ops1_fresh (W3 m)),
    .host (hseg main_part2_ops0 main_part2_ops0_sub main_part2_ops0_fresh (W4 m)),
    .region (reg1 m),
    .host (hseg main_part2_ops1 main_part2_ops1_sub main_part2_ops1_fresh (W6 m)),
    .host (hseg main_part3_ops0 main_part3_ops0_sub main_part3_ops0_fresh (W7 m)),
    .region (reg2 m),
    .host (hseg main_part3_ops1 main_part3_ops1_sub main_part3_ops1_fresh (W9 m)),
    .region (reg3 m),
    .host (hseg main_part3_ops2 main_part3_ops2_sub main_part3_ops2_fresh (W11 m)) ]

/-- @main is the run of the twelve items: both are the chain of the same fragments. -/
theorem main_run (c : Dev nD) : main (F := F) c = Pipeline.Seg.run (segs m) := by
  rw [Pipeline.Seg.run_eq_chain, main_chain_windows c]; rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- From any memory with zero counters every weakly fair execution of @main terminates, nothing faulting; the result
    buffer then holds the last valuation's value and every argument array what it held at launch. -/
theorem run_main : θ_run defs (onTc (τ := τ) (main (F := F))) ⟨m, fun _ => 0, ρ⟩ (fun r => ∀ c : Dev nD,
      r.2.mem ((c.tc : Thread nD τ).loc main_v190) = W12 m c (Proc.devRef .tc main_v190)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m c)
        ∗ ((∃ r, prngReg c r) ∗ ∃ W, owes (c : Thread nD τ) (0 : CellTallies nD τ sig Unit) W)) ⊢ _
      iintro ⟨Hbufs, Hprng, Hdues⟩
      isplitr [Hdues]
      · isplitl [Hbufs]; · iexact Hbufs
        iexact Hprng
      iexact Hdues⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdues, -, Hprng, -⟩, -⟩
      imodintro
      isplitl [Hbufs]; · iexact Hbufs
      isplitl [Hprng]; · iexists _; iexact Hprng
      iexists ∅; iexact Hdues)
    (QY := fun c s => ∀ b ∈ Pipeline.ucRefs τ sig, s.mem (((c : Thread nD τ)).1, b) = W12 m c b)
    (hfin := fun c s' => by
      iintro ⟨⟨Hbufs, -⟩, HSI⟩
      unfold StableHlo.held
      imodintro
      iapply (pointsTo_read_all (Pipeline.ucRefs τ sig) (fun b => (((c : Thread nD τ)).1, b)) (W12 m c) s')
      isplitl [Hbufs] <;> iassumption)
    (hQ := fun s h c =>
      ⟨h c _ (mem_uc main_v190 (by decide)),
       (h c _ (mem_uc main_arg0 (by decide))).trans (kept m c main_arg0 (by decide)),
       (h c _ (mem_uc main_arg1 (by decide))).trans (kept m c main_arg1 (by decide)),
       (h c _ (mem_uc main_arg2 (by decide))).trans (kept m c main_arg2 (by decide)),
       (h c _ (mem_uc main_arg3 (by decide))).trans (kept m c main_arg3 (by decide)),
       (h c _ (mem_uc main_arg4 (by decide))).trans (kept m c main_arg4 (by decide)),
       (h c _ (mem_uc main_arg5 (by decide))).trans (kept m c main_arg5 (by decide)),
       (h c _ (mem_uc main_arg6 (by decide))).trans (kept m c main_arg6 (by decide)),
       (h c _ (mem_uc main_arg7 (by decide))).trans (kept m c main_arg7 (by decide)),
       (h c _ (mem_uc main_arg8 (by decide))).trans (kept m c main_arg8 (by decide)),
       (h c _ (mem_uc main_arg9 (by decide))).trans (kept m c main_arg9 (by decide)),
       (h c _ (mem_uc main_arg10 (by decide))).trans (kept m c main_arg10 (by decide)),
       (h c _ (mem_uc main_arg11 (by decide))).trans (kept m c main_arg11 (by decide)),
       (h c _ (mem_uc main_arg12 (by decide))).trans (kept m c main_arg12 (by decide)),
       (h c _ (mem_uc main_arg13 (by decide))).trans (kept m c main_arg13 (by decide)),
       (h c _ (mem_uc main_arg14 (by decide))).trans (kept m c main_arg14 (by decide)),
       (h c _ (mem_uc main_arg15 (by decide))).trans (kept m c main_arg15 (by decide)),
       (h c _ (mem_uc main_arg16 (by decide))).trans (kept m c main_arg16 (by decide)),
       (h c _ (mem_uc main_arg17 (by decide))).trans (kept m c main_arg17 (by decide)),
       (h c _ (mem_uc main_arg18 (by decide))).trans (kept m c main_arg18 (by decide)),
       (h c _ (mem_uc main_arg19 (by decide))).trans (kept m c main_arg19 (by decide)),
       (h c _ (mem_uc main_arg20 (by decide))).trans (kept m c main_arg20 (by decide)),
       (h c _ (mem_uc main_arg21 (by decide))).trans (kept m c main_arg21 (by decide)),
       (h c _ (mem_uc main_arg22 (by decide))).trans (kept m c main_arg22 (by decide)),
       (h c _ (mem_uc main_arg23 (by decide))).trans (kept m c main_arg23 (by decide)),
       (h c _ (mem_uc main_arg24 (by decide))).trans (kept m c main_arg24 (by decide))⟩)

end Cert.Kernel.Run

end
-- ==== Proof.IdealLaunch0.lean ====
import proofs.«131956_j5523327942769_1_alg».proof.Proof.Gen.KernelIdeal.Launch
import proofs.«131956_j5523327942769_1_alg».proof.Proof.Gen.KernelIdeal.Skeleton
import proofs.«131956_j5523327942769_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Launch0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 0 (`cc0__update_kernel`), at the buffers' contents `V` when it is entered

Each window's block at a grid point; the value the body stores over its output buffer, as a function of the fourteen
input blocks; the body's triple; the launch's proof data; the body obligation. -/

variable (V : (c : Dev nD) → (b : Ref sig .tc) → Buf (Elt F) ((c : Thread nD τ).loc b))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body stores -/

/-- The value the body stores over the whole output buffer, from the input windows' blocks in window order: the
    second stage's value at the first stage's value and the blocks the first stage does not read. -/
def out (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) : Vec F S10000x64 .f32 :=
  k0_pay1 (k0_pay2 x0 x2 x3 x4 x5 x6 x7 x8 x9) x10 x11 x12 x13 x1

/-- The zero offsets, as a function. -/
theorem offs_zero : (![0, 0] : Fin 2 → Nat) = fun _ => 0 := funext fun a => by fin_cases a <;> rfl

/-! ## The body's triple -/

set_option maxHeartbeats 1000000 in
/-- The body on whole staging memrefs — each input's reading `xW`, the output's holding anything — runs to the
    continuation with the inputs' as they were and the output's reading `out` of the inputs': every load is through
    the whole buffer, so reads what the buffer reads; the one store is through the whole output buffer, so what the
    buffer reads afterwards is the stored value, whatever it held (the body's own load of it included). -/
theorem sound_kernel (c : Dev nD) (E : Set ℕ) (i : grid0.Coords)
    (arg1 : Memref sig .tc .vmem S10000x87 .f32) (harg1 : arg1.IsWhole)
    (arg2 : Memref sig .tc .vmem S10000x64 .f32) (harg2 : arg2.IsWhole)
    (arg3 : Memref sig .tc .vmem S1x87 .f32) (harg3 : arg3.IsWhole)
    (arg4 : Memref sig .tc .vmem S1x87 .f32) (harg4 : arg4.IsWhole)
    (arg5 : Memref sig .tc .vmem S1x87 .f32) (harg5 : arg5.IsWhole)
    (arg6 : Memref sig .tc .vmem S1x87 .f32) (harg6 : arg6.IsWhole)
    (arg7 : Memref sig .tc .vmem S87x200 .f32) (harg7 : arg7.IsWhole)
    (arg8 : Memref sig .tc .vmem S1x200 .f32) (harg8 : arg8.IsWhole)
    (arg9 : Memref sig .tc .vmem S200x200 .f32) (harg9 : arg9.IsWhole)
    (arg10 : Memref sig .tc .vmem S1x200 .f32) (harg10 : arg10.IsWhole)
    (arg11 : Memref sig .tc .vmem S200x200 .f32) (harg11 : arg11.IsWhole)
    (arg12 : Memref sig .tc .vmem S1x200 .f32) (harg12 : arg12.IsWhole)
    (arg13 : Memref sig .tc .vmem S200x64 .f32) (harg13 : arg13.IsWhole)
    (arg14 : Memref sig .tc .vmem S1x64 .f32) (harg14 : arg14.IsWhole)
    (arg15 : Memref sig .tc .vmem S10000x64 .f32) (harg15 : arg15.IsWhole)
    (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out x0 x1 x2 x3 x4 x5 x6 x7 x8 x9 x10 x11 x12 x13)) -∗ K ⟨⟩))
      ⊢ wp frame (wpE (defs₀ (F := F)) Variants.none c none) E (cc0__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__update_kernel_eq_skeleton]; unfold cc0__update_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  rw [View.read_writes_eq_canon _ _ _ (fun y => ⟨_, List.mem_singleton_self _, View.mem_set_unit_zero offs_zero inb_S10000x64_S10000x64_0_0 y⟩),
    View.canon_unit_zero offs_zero inb_S10000x64_S10000x64_0_0]
  simp only [View.readAt_eq_ld, View.ld_unit_zero (S := S10000x87) offs_zero, View.ld_unit_zero (S := S10000x64) offs_zero, View.ld_unit_zero (S := S1x87) offs_zero, View.ld_unit_zero (S := S87x200) offs_zero, View.ld_unit_zero (S := S1x200) offs_zero, View.ld_unit_zero (S := S200x200) offs_zero, View.ld_unit_zero (S := S200x64) offs_zero, View.ld_unit_zero (S := S1x64) offs_zero]
  rfl

/-! ## The launch's proof data -/

/-- The proof data on core `c`: the arrays as the launch finds them; after the body at point `t` each input's buffer
    at its block and the output's at `out` of the input blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves in each input window's buffer: its block. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = iblk V c 12 t := by dsimp only [dat]
theorem after_13 (c : Dev nD) (t : Fin cfg0.N) : (dat V c).after 13 t = iblk V c 13 t := by dsimp only [dat]

/-- What the body leaves in the output window's buffer: `out` of the input blocks. -/
theorem after_out (c : Dev nD) (t : Fin cfg0.N) :
    (dat V c).after 14 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) := by dsimp only [dat]

/-- Each input's current staging buffer holds its block at every point, fetched there or not: unfetched, the block
    index has not moved, and the body left the block in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)
theorem before_8 (c : Dev nD) (t : Fin cfg0.N) (d) : (dat V c).before 8 t d = iblk V c 8 t :=
  ((dat V c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)
theorem before_9 (c : Dev nD) (t : Fin cfg0.N) (d) : (dat V c).before 9 t d = iblk V c 9 t :=
  ((dat V c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)
theorem before_10 (c : Dev nD) (t : Fin cfg0.N) (d) : (dat V c).before 10 t d = iblk V c 10 t :=
  ((dat V c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)
theorem before_11 (c : Dev nD) (t : Fin cfg0.N) (d) : (dat V c).before 11 t d = iblk V c 11 t :=
  ((dat V c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)
theorem before_12 (c : Dev nD) (t : Fin cfg0.N) (d) : (dat V c).before 12 t d = iblk V c 12 t :=
  ((dat V c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)
theorem before_13 (c : Dev nD) (t : Fin cfg0.N) (d) : (dat V c).before 13 t d = iblk V c 13 t :=
  ((dat V c).before_in_eq_fetched 13 rfl (fun _ => rfl) (fun _ _ _ => rfl)
      (fun t => by rw [after_13]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d))
    ∗ (∃ d, owns (c : Thread nD τ) (st0_14 t) fullShare ((dat V c).before 14 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t)
    ∗ owns (c : Thread nD τ) (st0_13 t) fullShare ((dat V c).after 13 t)
    ∗ owns (c : Thread nD τ) (st0_14 t) fullShare ((dat V c).after 14 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11, before_12, before_13]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel (F := F) (c := c) (E := Set.univ) (x0 := iblk V c 0 t) (x1 := iblk V c 1 t) (x2 := iblk V c 2 t) (x3 := iblk V c 3 t) (x4 := iblk V c 4 t) (x5 := iblk V c 5 t) (x6 := iblk V c 6 t) (x7 := iblk V c 7 t) (x8 := iblk V c 8 t) (x9 := iblk V c 9 t) (x10 := iblk V c 10 t) (x11 := iblk V c 11 t) (x12 := iblk V c 12 t) (x13 := iblk V c 13 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Launch0

end
-- ==== Proof.IdealLaunch1.lean ====
import proofs.«131956_j5523327942769_1_alg».proof.Proof.Gen.KernelIdeal.Launch
import proofs.«131956_j5523327942769_1_alg».proof.Proof.Gen.KernelIdeal.Skeleton
import proofs.«131956_j5523327942769_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Launch1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 1 (`cc1__update_kernel`), at the buffers' contents `V` when it is entered

Each window's block at a grid point; the value the body stores over its output buffer, as a function of the fourteen
input blocks; the body's triple; the launch's proof data; the body obligation. -/

variable (V : (c : Dev nD) → (b : Ref sig .tc) → Buf (Elt F) ((c : Thread nD τ).loc b))

/-! ## The windows' blocks -/

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body stores -/

/-- The value the body stores over the whole output buffer, from the input windows' blocks in window order: the
    second stage's value at the first stage's value and the blocks the first stage does not read. -/
def out (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) : Vec F S10000x64 .f32 :=
  k1_pay1 (k1_pay2 x0 x2 x3 x4 x5 x6 x7 x8 x9) x10 x11 x12 x13 x1

/-- The zero offsets, as a function. -/
theorem offs_zero : (![0, 0] : Fin 2 → Nat) = fun _ => 0 := funext fun a => by fin_cases a <;> rfl

/-! ## The body's triple -/

set_option maxHeartbeats 1000000 in
/-- The body on whole staging memrefs — each input's reading `xW`, the output's holding anything — runs to the
    continuation with the inputs' as they were and the output's reading `out` of the inputs': every load is through
    the whole buffer, so reads what the buffer reads; the one store is through the whole output buffer, so what the
    buffer reads afterwards is the stored value, whatever it held (the body's own load of it included). -/
theorem sound_kernel (c : Dev nD) (E : Set ℕ) (i : grid1.Coords)
    (arg1 : Memref sig .tc .vmem S10000x87 .f32) (harg1 : arg1.IsWhole)
    (arg2 : Memref sig .tc .vmem S10000x64 .f32) (harg2 : arg2.IsWhole)
    (arg3 : Memref sig .tc .vmem S1x87 .f32) (harg3 : arg3.IsWhole)
    (arg4 : Memref sig .tc .vmem S1x87 .f32) (harg4 : arg4.IsWhole)
    (arg5 : Memref sig .tc .vmem S1x87 .f32) (harg5 : arg5.IsWhole)
    (arg6 : Memref sig .tc .vmem S1x87 .f32) (harg6 : arg6.IsWhole)
    (arg7 : Memref sig .tc .vmem S87x200 .f32) (harg7 : arg7.IsWhole)
    (arg8 : Memref sig .tc .vmem S1x200 .f32) (harg8 : arg8.IsWhole)
    (arg9 : Memref sig .tc .vmem S200x200 .f32) (harg9 : arg9.IsWhole)
    (arg10 : Memref sig .tc .vmem S1x200 .f32) (harg10 : arg10.IsWhole)
    (arg11 : Memref sig .tc .vmem S200x200 .f32) (harg11 : arg11.IsWhole)
    (arg12 : Memref sig .tc .vmem S1x200 .f32) (harg12 : arg12.IsWhole)
    (arg13 : Memref sig .tc .vmem S200x64 .f32) (harg13 : arg13.IsWhole)
    (arg14 : Memref sig .tc .vmem S1x64 .f32) (harg14 : arg14.IsWhole)
    (arg15 : Memref sig .tc .vmem S10000x64 .f32) (harg15 : arg15.IsWhole)
    (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out x0 x1 x2 x3 x4 x5 x6 x7 x8 x9 x10 x11 x12 x13)) -∗ K ⟨⟩))
      ⊢ wp frame (wpE (defs₀ (F := F)) Variants.none c none) E (cc1__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__update_kernel_eq_skeleton]; unfold cc1__update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  rw [View.read_writes_eq_canon _ _ _ (fun y => ⟨_, List.mem_singleton_self _, View.mem_set_unit_zero offs_zero inb_S10000x64_S10000x64_0_0 y⟩),
    View.canon_unit_zero offs_zero inb_S10000x64_S10000x64_0_0]
  simp only [View.readAt_eq_ld, View.ld_unit_zero (S := S10000x87) offs_zero, View.ld_unit_zero (S := S10000x64) offs_zero, View.ld_unit_zero (S := S1x87) offs_zero, View.ld_unit_zero (S := S87x200) offs_zero, View.ld_unit_zero (S := S1x200) offs_zero, View.ld_unit_zero (S := S200x200) offs_zero, View.ld_unit_zero (S := S200x64) offs_zero, View.ld_unit_zero (S := S1x64) offs_zero]
  rfl

/-! ## The launch's proof data -/

/-- The proof data on core `c`: the arrays as the launch finds them; after the body at point `t` each input's buffer
    at its block and the output's at `out` of the input blocks; the invariant the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)
  Φ _ := Pipeline.ΦA spec1 c
  q _ := fullShare
  owed _ := 0

/-- The proof data's arrays are the entry contents. -/
theorem A_eq (c : Dev nD) (w : Fin cfg1.W) : (dat V c).A w = V c (Pipeline.arrRef spec1 w) := by
  dsimp only [dat]

/-- What the body leaves in each input window's buffer: its block. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]

/-- What the body leaves in the output window's buffer: `out` of the input blocks. -/
theorem after_out (c : Dev nD) (t : Fin cfg1.N) :
    (dat V c).after 14 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) := by dsimp only [dat]

/-- Each input's current staging buffer holds its block at every point, fetched there or not: unfetched, the block
    index has not moved, and the body left the block in place. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)
theorem before_10 (c : Dev nD) (t : Fin cfg1.N) (d) : (dat V c).before 10 t d = iblk V c 10 t :=
  ((dat V c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)
theorem before_11 (c : Dev nD) (t : Fin cfg1.N) (d) : (dat V c).before 11 t d = iblk V c 11 t :=
  ((dat V c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)
theorem before_12 (c : Dev nD) (t : Fin cfg1.N) (d) : (dat V c).before 12 t d = iblk V c 12 t :=
  ((dat V c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)
theorem before_13 (c : Dev nD) (t : Fin cfg1.N) (d) : (dat V c).before 13 t d = iblk V c 13 t :=
  ((dat V c).before_in_eq_fetched 13 rfl (fun _ => rfl) (fun _ _ _ => rfl)
      (fun t => by rw [after_13]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel (F := F) (c := c) (E := Set.univ) (x0 := iblk V c 0 t) (x1 := iblk V c 1 t) (x2 := iblk V c 2 t) (x3 := iblk V c 3 t) (x4 := iblk V c 4 t) (x5 := iblk V c 5 t) (x6 := iblk V c 6 t) (x7 := iblk V c 7 t) (x8 := iblk V c 8 t) (x9 := iblk V c 9 t) (x10 := iblk V c 10 t) (x11 := iblk V c 11 t) (x12 := iblk V c 12 t) (x13 := iblk V c 13 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Launch1

end
-- ==== Proof.IdealLaunch2.lean ====
import proofs.«131956_j5523327942769_1_alg».proof.Proof.Gen.KernelIdeal.Launch
import proofs.«131956_j5523327942769_1_alg».proof.Proof.Gen.KernelIdeal.Skeleton
import proofs.«131956_j5523327942769_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Launch2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 2 (`cc2__update_kernel`), at the buffers' contents `V` when it is entered

Each window's block at a grid point; the value the body stores over its output buffer, as a function of the fourteen
input blocks; the body's triple; the launch's proof data; the body obligation. -/

variable (V : (c : Dev nD) → (b : Ref sig .tc) → Buf (Elt F) ((c : Thread nD τ).loc b))

/-! ## The windows' blocks -/

/-- Window `w`'s block at point `t`, read off its array as the launch finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body stores -/

/-- The value the body stores over the whole output buffer, from the input windows' blocks in window order: the
    second stage's value at the first stage's value and the blocks the first stage does not read. -/
def out (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) : Vec F S10000x64 .f32 :=
  k2_pay1 (k2_pay2 x0 x2 x3 x4 x5 x6 x7 x8 x9) x10 x11 x12 x13 x1

/-- The zero offsets, as a function. -/
theorem offs_zero : (![0, 0] : Fin 2 → Nat) = fun _ => 0 := funext fun a => by fin_cases a <;> rfl

/-! ## The body's triple -/

set_option maxHeartbeats 1000000 in
/-- The body on whole staging memrefs — each input's reading `xW`, the output's holding anything — runs to the
    continuation with the inputs' as they were and the output's reading `out` of the inputs': every load is through
    the whole buffer, so reads what the buffer reads; the one store is through the whole output buffer, so what the
    buffer reads afterwards is the stored value, whatever it held (the body's own load of it included). -/
theorem sound_kernel (c : Dev nD) (E : Set ℕ) (i : grid2.Coords)
    (arg1 : Memref sig .tc .vmem S10000x87 .f32) (harg1 : arg1.IsWhole)
    (arg2 : Memref sig .tc .vmem S10000x64 .f32) (harg2 : arg2.IsWhole)
    (arg3 : Memref sig .tc .vmem S1x87 .f32) (harg3 : arg3.IsWhole)
    (arg4 : Memref sig .tc .vmem S1x87 .f32) (harg4 : arg4.IsWhole)
    (arg5 : Memref sig .tc .vmem S1x87 .f32) (harg5 : arg5.IsWhole)
    (arg6 : Memref sig .tc .vmem S1x87 .f32) (harg6 : arg6.IsWhole)
    (arg7 : Memref sig .tc .vmem S87x200 .f32) (harg7 : arg7.IsWhole)
    (arg8 : Memref sig .tc .vmem S1x200 .f32) (harg8 : arg8.IsWhole)
    (arg9 : Memref sig .tc .vmem S200x200 .f32) (harg9 : arg9.IsWhole)
    (arg10 : Memref sig .tc .vmem S1x200 .f32) (harg10 : arg10.IsWhole)
    (arg11 : Memref sig .tc .vmem S200x200 .f32) (harg11 : arg11.IsWhole)
    (arg12 : Memref sig .tc .vmem S1x200 .f32) (harg12 : arg12.IsWhole)
    (arg13 : Memref sig .tc .vmem S200x64 .f32) (harg13 : arg13.IsWhole)
    (arg14 : Memref sig .tc .vmem S1x64 .f32) (harg14 : arg14.IsWhole)
    (arg15 : Memref sig .tc .vmem S10000x64 .f32) (harg15 : arg15.IsWhole)
    (x0 : Vec F S10000x87 .f32) (x1 : Vec F S10000x64 .f32) (x2 : Vec F S1x87 .f32) (x3 : Vec F S1x87 .f32) (x4 : Vec F S1x87 .f32) (x5 : Vec F S1x87 .f32) (x6 : Vec F S87x200 .f32) (x7 : Vec F S1x200 .f32) (x8 : Vec F S200x200 .f32) (x9 : Vec F S1x200 .f32) (x10 : Vec F S200x200 .f32) (x11 : Vec F S1x200 .f32) (x12 : Vec F S200x64 .f32) (x13 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out x0 x1 x2 x3 x4 x5 x6 x7 x8 x9 x10 x11 x12 x13)) -∗ K ⟨⟩))
      ⊢ wp frame (wpE (defs₀ (F := F)) Variants.none c none) E (cc2__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__update_kernel_eq_skeleton]; unfold cc2__update_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  rw [View.read_writes_eq_canon _ _ _ (fun y => ⟨_, List.mem_singleton_self _, View.mem_set_unit_zero offs_zero inb_S10000x64_S10000x64_0_0 y⟩),
    View.canon_unit_zero offs_zero inb_S10000x64_S10000x64_0_0]
  simp only [View.readAt_eq_ld, View.ld_unit_zero (S := S10000x87) offs_zero, View.ld_unit_zero (S := S10000x64) offs_zero, View.ld_unit_zero (S := S1x87) offs_zero, View.ld_unit_zero (S := S87x200) offs_zero, View.ld_unit_zero (S := S1x200) offs_zero, View.ld_unit_zero (S := S200x200) offs_zero, View.ld_unit_zero (S := S200x64) offs_zero, View.ld_unit_zero (S := S1x64) offs_zero]
  rfl

/-! ## The launch's proof data -/

/-- The proof data on core `c`: the arrays as the launch finds them; after the body at point `t` each input's buffer
    at its block and the output's at `out` of the input blocks; the invariant the scoped rest and the generator
    register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)
  Φ _ := Pipeline.ΦA spec2 c
  q _ := fullShare
  owed _ := 0

/-- The proof data's arrays are the entry contents. -/
theorem A_eq (c : Dev nD) (w : Fin cfg2.W) : (dat V c).A w = V c (Pipeline.arrRef spec2 w) := by
  dsimp only [dat]

/-- What the body leaves in each input window's buffer: its block. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]
theorem after_13 (c : Dev nD) (t : Fin cfg2.N) : (dat V c).after 13 t = iblk V c 13 t := by dsimp only [dat]

/-- What the body leaves in the output window's buffer: `out` of the input blocks. -/
theorem after_out (c : Dev nD) (t : Fin cfg2.N) :
    (dat V c).after 14 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) := by dsimp only [dat]

/-- Each input's current staging buffer holds its block at every point, fetched there or not: unfetched, the block
    index has not moved, and the body left the block in place. -/
theorem before_0 (c : Dev nD) (t : Fin cfg2.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg2.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg2.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)
theorem before_8 (c : Dev nD) (t : Fin cfg2.N) (d) : (dat V c).before 8 t d = iblk V c 8 t :=
  ((dat V c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)
theorem before_9 (c : Dev nD) (t : Fin cfg2.N) (d) : (dat V c).before 9 t d = iblk V c 9 t :=
  ((dat V c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)
theorem before_10 (c : Dev nD) (t : Fin cfg2.N) (d) : (dat V c).before 10 t d = iblk V c 10 t :=
  ((dat V c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)
theorem before_11 (c : Dev nD) (t : Fin cfg2.N) (d) : (dat V c).before 11 t d = iblk V c 11 t :=
  ((dat V c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)
theorem before_12 (c : Dev nD) (t : Fin cfg2.N) (d) : (dat V c).before 12 t d = iblk V c 12 t :=
  ((dat V c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)
theorem before_13 (c : Dev nD) (t : Fin cfg2.N) (d) : (dat V c).before 13 t d = iblk V c 13 t :=
  ((dat V c).before_in_eq_fetched 13 rfl (fun _ => rfl) (fun _ _ _ => rfl)
      (fun t => by rw [after_13]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d))
    ∗ (∃ d, owns (c : Thread nD τ) (st2_14 t) fullShare ((dat V c).before 14 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t)
    ∗ owns (c : Thread nD τ) (st2_14 t) fullShare ((dat V c).after 14 t))

/-- The body at any point: the inputs' buffers hold their blocks, so the triple applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12, before_13]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel (F := F) (c := c) (E := Set.univ) (x0 := iblk V c 0 t) (x1 := iblk V c 1 t) (x2 := iblk V c 2 t) (x3 := iblk V c 3 t) (x4 := iblk V c 4 t) (x5 := iblk V c 5 t) (x6 := iblk V c 6 t) (x7 := iblk V c 7 t) (x8 := iblk V c 8 t) (x9 := iblk V c 9 t) (x10 := iblk V c 10 t) (x11 := iblk V c 11 t) (x12 := iblk V c 12 t) (x13 := iblk V c 13 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Launch2

end
-- ==== Proof.IdealLaunch3.lean ====
import proofs.«131956_j5523327942769_1_alg».proof.Proof.Gen.KernelIdeal.Launch
import proofs.«131956_j5523327942769_1_alg».proof.Proof.Gen.KernelIdeal.Skeleton
import proofs.«131956_j5523327942769_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Launch3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 3 (`cc3__readout_kernel`), at the buffers' contents `V` when it is entered

Each window's block at a grid point; the value the body stores over its output buffer, as a function of the thirteen
input blocks; the body's triple; the launch's proof data; the body obligation. -/

variable (V : (c : Dev nD) → (b : Ref sig .tc) → Buf (Elt F) ((c : Thread nD τ).loc b))

/-! ## The windows' blocks -/

/-- Window `w`'s block at point `t`, read off its array as the launch finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body stores -/

/-- The value the body stores over the whole output buffer, from the input windows' blocks in window order: the
    second stage's value at the first stage's two values (the second a constant block) and the blocks the first stage does not read. -/
def out (x0 : Vec F S10000x256 .f32) (x1 : Vec F S1x256 .f32) (x2 : Vec F S1x256 .f32) (x3 : Vec F S1x256 .f32) (x4 : Vec F S1x256 .f32) (x5 : Vec F S256x200 .f32) (x6 : Vec F S1x200 .f32) (x7 : Vec F S200x200 .f32) (x8 : Vec F S1x200 .f32) (x9 : Vec F S200x200 .f32) (x10 : Vec F S1x200 .f32) (x11 : Vec F S200x1 .f32) (x12 : Vec F S1x1 .f32) : Vec F S10000x1 .f32 :=
  k3_pay1 (k3_pay2 x0 x1 x2 x3 x4 x5 x6 x7 x8) (k3_pay3 (F := F)) x9 x10 x11 x12

/-- The zero offsets, as a function. -/
theorem offs_zero : (![0, 0] : Fin 2 → Nat) = fun _ => 0 := funext fun a => by fin_cases a <;> rfl

/-! ## The body's triple -/

set_option maxHeartbeats 1000000 in
/-- The body on whole staging memrefs — each input's reading `xW`, the output's holding anything — runs to the
    continuation with the inputs' as they were and the output's reading `out` of the inputs': every load is through
    the whole buffer, so reads what the buffer reads; the one store is through the whole output buffer, so what the
    buffer reads afterwards is the stored value, whatever it held (the body's own load of it included). -/
theorem sound_kernel (c : Dev nD) (E : Set ℕ) (i : grid3.Coords)
    (arg1 : Memref sig .tc .vmem S10000x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S256x200 .f32) (harg6 : arg6.IsWhole)
    (arg7 : Memref sig .tc .vmem S1x200 .f32) (harg7 : arg7.IsWhole)
    (arg8 : Memref sig .tc .vmem S200x200 .f32) (harg8 : arg8.IsWhole)
    (arg9 : Memref sig .tc .vmem S1x200 .f32) (harg9 : arg9.IsWhole)
    (arg10 : Memref sig .tc .vmem S200x200 .f32) (harg10 : arg10.IsWhole)
    (arg11 : Memref sig .tc .vmem S1x200 .f32) (harg11 : arg11.IsWhole)
    (arg12 : Memref sig .tc .vmem S200x1 .f32) (harg12 : arg12.IsWhole)
    (arg13 : Memref sig .tc .vmem S1x1 .f32) (harg13 : arg13.IsWhole)
    (arg14 : Memref sig .tc .vmem S10000x1 .f32) (harg14 : arg14.IsWhole)
    (x0 : Vec F S10000x256 .f32) (x1 : Vec F S1x256 .f32) (x2 : Vec F S1x256 .f32) (x3 : Vec F S1x256 .f32) (x4 : Vec F S1x256 .f32) (x5 : Vec F S256x200 .f32) (x6 : Vec F S1x200 .f32) (x7 : Vec F S200x200 .f32) (x8 : Vec F S1x200 .f32) (x9 : Vec F S200x200 .f32) (x10 : Vec F S1x200 .f32) (x11 : Vec F S200x1 .f32) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out x0 x1 x2 x3 x4 x5 x6 x7 x8 x9 x10 x11 x12)) -∗ K ⟨⟩))
      ⊢ wp frame (wpE (defs₀ (F := F)) Variants.none c none) E (cc3__readout_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc3__readout_kernel_eq_skeleton]; unfold cc3__readout_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  rw [View.read_writes_eq_canon _ _ _ (fun y => ⟨_, List.mem_singleton_self _, View.mem_set_unit_zero offs_zero inb_S10000x1_S10000x1_0_0 y⟩),
    View.canon_unit_zero offs_zero inb_S10000x1_S10000x1_0_0]
  simp only [View.readAt_eq_ld, View.ld_unit_zero (S := S10000x256) offs_zero, View.ld_unit_zero (S := S1x256) offs_zero, View.ld_unit_zero (S := S256x200) offs_zero, View.ld_unit_zero (S := S1x200) offs_zero, View.ld_unit_zero (S := S200x200) offs_zero, View.ld_unit_zero (S := S200x1) offs_zero, View.ld_unit_zero (S := S1x1) offs_zero]
  rfl

/-! ## The launch's proof data -/

/-- The proof data on core `c`: the arrays as the launch finds them; after the body at point `t` each input's buffer
    at its block and the output's at `out` of the input blocks; the invariant the scoped rest and the generator
    register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec3 c
  q _ := fullShare
  owed _ := 0

/-- The proof data's arrays are the entry contents. -/
theorem A_eq (c : Dev nD) (w : Fin cfg3.W) : (dat V c).A w = V c (Pipeline.arrRef spec3 w) := by
  dsimp only [dat]

/-- What the body leaves in each input window's buffer: its block. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = iblk V c 8 t := by dsimp only [dat]
theorem after_9 (c : Dev nD) (t : Fin cfg3.N) : (dat V c).after 9 t = iblk V c 9 t := by dsimp only [dat]
theorem after_10 (c : Dev nD) (t : Fin cfg3.N) : (dat V c).after 10 t = iblk V c 10 t := by dsimp only [dat]
theorem after_11 (c : Dev nD) (t : Fin cfg3.N) : (dat V c).after 11 t = iblk V c 11 t := by dsimp only [dat]
theorem after_12 (c : Dev nD) (t : Fin cfg3.N) : (dat V c).after 12 t = iblk V c 12 t := by dsimp only [dat]

/-- What the body leaves in the output window's buffer: `out` of the input blocks. -/
theorem after_out (c : Dev nD) (t : Fin cfg3.N) :
    (dat V c).after 13 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

/-- Each input's current staging buffer holds its block at every point, fetched there or not: unfetched, the block
    index has not moved, and the body left the block in place. -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg3.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg3.N) (d) : (dat V c).before 5 t d = iblk V c 5 t :=
  ((dat V c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg3.N) (d) : (dat V c).before 6 t d = iblk V c 6 t :=
  ((dat V c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)
theorem before_7 (c : Dev nD) (t : Fin cfg3.N) (d) : (dat V c).before 7 t d = iblk V c 7 t :=
  ((dat V c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)
theorem before_8 (c : Dev nD) (t : Fin cfg3.N) (d) : (dat V c).before 8 t d = iblk V c 8 t :=
  ((dat V c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)
theorem before_9 (c : Dev nD) (t : Fin cfg3.N) (d) : (dat V c).before 9 t d = iblk V c 9 t :=
  ((dat V c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)
theorem before_10 (c : Dev nD) (t : Fin cfg3.N) (d) : (dat V c).before 10 t d = iblk V c 10 t :=
  ((dat V c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)
theorem before_11 (c : Dev nD) (t : Fin cfg3.N) (d) : (dat V c).before 11 t d = iblk V c 11 t :=
  ((dat V c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)
theorem before_12 (c : Dev nD) (t : Fin cfg3.N) (d) : (dat V c).before 12 t d = iblk V c 12 t :=
  ((dat V c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d))
    ∗ (∃ d, owns (c : Thread nD τ) (st3_13 t) fullShare ((dat V c).before 13 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t)
    ∗ owns (c : Thread nD τ) (st3_13 t) fullShare ((dat V c).after 13 t))

/-- The body at any point: the inputs' buffers hold their blocks, so the triple applies; the invariant and what the
    core owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel (F := F) (c := c) (E := Set.univ) (x0 := iblk V c 0 t) (x1 := iblk V c 1 t) (x2 := iblk V c 2 t) (x3 := iblk V c 3 t) (x4 := iblk V c 4 t) (x5 := iblk V c 5 t) (x6 := iblk V c 6 t) (x7 := iblk V c 7 t) (x8 := iblk V c 8 t) (x9 := iblk V c 9 t) (x10 := iblk V c 10 t) (x11 := iblk V c 11 t) (x12 := iblk V c 12 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.Launch3

end
-- ==== Proof.IdealRun.lean ====
/-
  The run of the program from its launch memory to its return, as twelve items: eight stretches of host operations and the
  four kernel launches between them.

  Between two items every unscoped buffer of a core is held whole at a valuation. A host stretch takes the valuation to
  its fold over the stretch's operations. A launch takes out the arrays of its windows, runs its pipeline over them, and
  puts them back: each input array as it was, the output array at what the grid's points wrote back into it; every other
  buffer keeps its contents. No host operation writes an argument array and no launch has one as its output, so an
  argument's buffer reads the same at every valuation, down to the launch memory; the result buffer ends at the last
  valuation's value.
-/
import proofs.«131956_j5523327942769_1_alg».proof.Proof.Gen.KernelIdeal.Launch
import proofs.«131956_j5523327942769_1_alg».proof.Proof.Gen.KernelIdeal.Points
import proofs.«131956_j5523327942769_1_alg».proof.Proof.IdealLaunch0
import proofs.«131956_j5523327942769_1_alg».proof.Proof.IdealLaunch1
import proofs.«131956_j5523327942769_1_alg».proof.Proof.IdealLaunch2
import proofs.«131956_j5523327942769_1_alg».proof.Proof.IdealLaunch3
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the host stretches write -/

/-- No operation of the stretch allocates a buffer. -/
theorem main_part0_ops0_fresh : (main_part0_ops0 : List (HloOp τ sig (Elt F))).Forall fun op => op.fresh = ∅ := by
  simp only [List.Forall]; repeat' constructor
/-- The result references of `main_part0_ops0`, in order. -/
abbrev main_part0_ops0_W : List (Ref sig .tc) := [main_cst, main_v0, main_v1, main_v2, main_v3, main_v4, main_v5, main_v6, main_v7, main_v8, main_v9, main_v10, main_c, main_v11, main_v12, main_c_0, main_v13, main_v14, main_v15, main_v16, main_v17, main_c_1, main_v18, main_v19, main_c_2, main_v20, main_v21, main_v22, main_v23, main_v24, main_v25, main_cst_3, main_v26, main_v27, main_v28, main_cst_4, main_v29, main_cst_5, main_v30, main_v31, main_v32, main_v33, main_v34, main_v35, main_cst_6, main_v36, main_cst_7, main_v37, main_v38, main_v39, main_v40, main_v41, main_v42, main_v43, main_v44, main_v45, main_v46, main_v47, main_v48, main_v49]
/-- Each operation of the stretch writes its own result reference and nothing else. -/
theorem main_part0_ops0_writes : (main_part0_ops0 : List (HloOp τ sig (Elt F))).Forall fun op => op.writes ⊆ (main_part0_ops0_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part1_ops0_fresh : (main_part1_ops0 : List (HloOp τ sig (Elt F))).Forall fun op => op.fresh = ∅ := by
  simp only [List.Forall]; repeat' constructor
/-- The result references of `main_part1_ops0`, in order. -/
abbrev main_part1_ops0_W : List (Ref sig .tc) := [main_v50, main_v51, main_v52, main_v53, main_v54, main_v55, main_v56, main_v57, main_v58, main_v59, main_v60, main_v61, main_v62, main_v63, main_v64, main_v65, main_v66]
/-- Each operation of the stretch writes its own result reference and nothing else. -/
theorem main_part1_ops0_writes : (main_part1_ops0 : List (HloOp τ sig (Elt F))).Forall fun op => op.writes ⊆ (main_part1_ops0_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part1_ops1_fresh : (main_part1_ops1 : List (HloOp τ sig (Elt F))).Forall fun op => op.fresh = ∅ := by
  simp only [List.Forall]; repeat' constructor
/-- The result references of `main_part1_ops1`, in order. -/
abbrev main_part1_ops1_W : List (Ref sig .tc) := [main_c_8, main_v68, main_v69, main_c_9, main_v70, main_v71, main_v72, main_v73, main_v74, main_v75, main_cst_10, main_v76, main_v77, main_v78, main_cst_11, main_v79, main_cst_12, main_v80, main_v81, main_v82, main_v83, main_v84, main_v85, main_cst_13, main_v86, main_cst_14, main_v87, main_v88, main_v89, main_v90, main_v91, main_v92, main_v93, main_v94, main_v95, main_v96, main_v97, main_v98, main_v99, main_v100, main_v101, main_v102]
/-- Each operation of the stretch writes its own result reference and nothing else. -/
theorem main_part1_ops1_writes : (main_part1_ops1 : List (HloOp τ sig (Elt F))).Forall fun op => op.writes ⊆ (main_part1_ops1_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part2_ops0_fresh : (main_part2_ops0 : List (HloOp τ sig (Elt F))).Forall fun op => op.fresh = ∅ := by
  simp only [List.Forall]; repeat' constructor
/-- The result references of `main_part2_ops0`, in order. -/
abbrev main_part2_ops0_W : List (Ref sig .tc) := [main_v103, main_v104, main_v105, main_v106, main_v107, main_v108, main_v109, main_v110, main_v111, main_v112, main_v113, main_v114, main_v115, main_v116]
/-- Each operation of the stretch writes its own result reference and nothing else. -/
theorem main_part2_ops0_writes : (main_part2_ops0 : List (HloOp τ sig (Elt F))).Forall fun op => op.writes ⊆ (main_part2_ops0_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part2_ops1_fresh : (main_part2_ops1 : List (HloOp τ sig (Elt F))).Forall fun op => op.fresh = ∅ := by
  simp only [List.Forall]; repeat' constructor
/-- The result references of `main_part2_ops1`, in order. -/
abbrev main_part2_ops1_W : List (Ref sig .tc) := [main_c_15, main_v118, main_v119, main_c_16, main_v120, main_v121, main_v122, main_v123, main_v124, main_v125, main_cst_17, main_v126, main_v127, main_v128, main_cst_18, main_v129, main_cst_19, main_v130, main_v131, main_v132, main_v133, main_v134, main_v135, main_cst_20, main_v136, main_cst_21, main_v137, main_v138, main_v139, main_v140, main_v141, main_v142, main_v143, main_v144, main_v145, main_v146, main_v147, main_v148, main_v149, main_v150, main_v151, main_v152, main_v153, main_v154, main_v155]
/-- Each operation of the stretch writes its own result reference and nothing else. -/
theorem main_part2_ops1_writes : (main_part2_ops1 : List (HloOp τ sig (Elt F))).Forall fun op => op.writes ⊆ (main_part2_ops1_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part3_ops0_fresh : (main_part3_ops0 : List (HloOp τ sig (Elt F))).Forall fun op => op.fresh = ∅ := by
  simp only [List.Forall]; repeat' constructor
/-- The result references of `main_part3_ops0`, in order. -/
abbrev main_part3_ops0_W : List (Ref sig .tc) := [main_v156, main_v157, main_v158, main_v159, main_v160, main_v161, main_v162, main_v163, main_v164, main_v165, main_v166]
/-- Each operation of the stretch writes its own result reference and nothing else. -/
theorem main_part3_ops0_writes : (main_part3_ops0 : List (HloOp τ sig (Elt F))).Forall fun op => op.writes ⊆ (main_part3_ops0_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part3_ops1_fresh : (main_part3_ops1 : List (HloOp τ sig (Elt F))).Forall fun op => op.fresh = ∅ := by
  simp only [List.Forall]; repeat' constructor
/-- The result references of `main_part3_ops1`, in order. -/
abbrev main_part3_ops1_W : List (Ref sig .tc) := [main_v168, main_cst_22, main_v169, main_cst_23, main_v170, main_v171, main_v172, main_v173, main_v174, main_v175, main_cst_24, main_v176, main_cst_25, main_v177, main_v178, main_v179, main_v180, main_v181, main_v182, main_v183, main_v184, main_v185, main_v186]
/-- Each operation of the stretch writes its own result reference and nothing else. -/
theorem main_part3_ops1_writes : (main_part3_ops1 : List (HloOp τ sig (Elt F))).Forall fun op => op.writes ⊆ (main_part3_ops1_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No operation of the stretch allocates a buffer. -/
theorem main_part3_ops2_fresh : (main_part3_ops2 : List (HloOp τ sig (Elt F))).Forall fun op => op.fresh = ∅ := by
  simp only [List.Forall]; repeat' constructor
/-- The result references of `main_part3_ops2`, in order. -/
abbrev main_part3_ops2_W : List (Ref sig .tc) := [main_cst_26, main_v188, main_v189, main_v190]
/-- Each operation of the stretch writes its own result reference and nothing else. -/
theorem main_part3_ops2_writes : (main_part3_ops2 : List (HloOp τ sig (Elt F))).Forall fun op => op.writes ⊆ (main_part3_ops2_W.map (Proc.devRef (τ := τ) .tc)).toFinset := by
  simp only [List.Forall]
  and_intros <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- Every reference some item may change: the host stretches' results and the four launches' output arrays, item by item. -/
abbrev written : List (Ref sig .tc) := main_part0_ops0_W ++ (main_part1_ops0_W ++ ([main_v67] ++ (main_part1_ops1_W ++ (main_part2_ops0_W ++ ([main_v117] ++ (main_part2_ops1_W ++ (main_part3_ops0_W ++ ([main_v167] ++ (main_part3_ops1_W ++ ([main_v187] ++ (main_part3_ops2_W)))))))))))

variable (m : (ℓ : Loc nD τ sig) → Buf (Elt F) ℓ)

/-! ## The buffers' contents between items -/

/-- Core `c`'s buffers at launch. -/
abbrev W0 (c : Dev nD) : Valuation τ sig (Elt F) := fun b => m (c, b)
/-- After item 0, the host stretch `main_part0_ops0`. -/
abbrev W1 (c : Dev nD) : Valuation τ sig (Elt F) := StableHlo.after main_part0_ops0 (W0 m c)
/-- After item 1, the host stretch `main_part1_ops0`. -/
abbrev W2 (c : Dev nD) : Valuation τ sig (Elt F) := StableHlo.after main_part1_ops0 (W1 m c)
/-- The contents launch 0 is entered at, read at the TensorCore's references. -/
abbrev B2 : (c : Dev nD) → (b : Ref sig .tc) → Buf (Elt F) ((c : Thread nD τ).loc b) := fun c b => W2 m c b
/-- After item 2, launch 0: its windows' arrays at what the pipeline leaves in them, every other buffer as entered. -/
def W3 (c : Dev nD) : Valuation τ sig (Elt F) :=
  Pipeline.withArrays spec0 c (W2 m c) fun w => (Launch0.dat (B2 m) c).arrAt w cfg0.N
theorem W3_arr (c : Dev nD) (w : Fin cfg0.W) :
    W3 m c (Proc.devRef .tc (Pipeline.arrRef spec0 w)) = (Launch0.dat (B2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- The contents launch 0 is left at, read at the TensorCore's references. -/
abbrev A3 : (c : Dev nD) → (b : Ref sig .tc) → Buf (Elt F) ((c : Thread nD τ).loc b) := fun c b => W3 m c b
/-- Only the output array's window is an output: every other window's array leaves the launch as it entered. -/
theorem inputs0 : ∀ w : Fin 15, Pipeline.arrRef spec0 w ≠ main_v67 → (cfg0.win w).isOut = false := by decide
/-- A buffer other than launch 0's output array reads after the launch what it read before it. -/
theorem W3_keep (c : Dev nD) (b : Ref sig .tc) (hb : b ≠ main_v67) :
    W3 m c (Proc.devRef .tc b) = W2 m c (Proc.devRef .tc b) := by
  by_cases h : ∃ w, Pipeline.arrRef spec0 w = b
  · obtain ⟨w, rfl⟩ := h
    exact (W3_arr m c w).trans (((Launch0.dat (B2 m) c).arrAt_in w (inputs0 w hb) _).trans (Launch0.A_eq (B2 m) c w))
  · exact W3_of_ne m c b fun w e => h ⟨w, e⟩
/-- After item 3, the host stretch `main_part1_ops1`. -/
abbrev W4 (c : Dev nD) : Valuation τ sig (Elt F) := StableHlo.after main_part1_ops1 (W3 m c)
/-- After item 4, the host stretch `main_part2_ops0`. -/
abbrev W5 (c : Dev nD) : Valuation τ sig (Elt F) := StableHlo.after main_part2_ops0 (W4 m c)
/-- The contents launch 1 is entered at, read at the TensorCore's references. -/
abbrev B5 : (c : Dev nD) → (b : Ref sig .tc) → Buf (Elt F) ((c : Thread nD τ).loc b) := fun c b => W5 m c b
/-- After item 5, launch 1: its windows' arrays at what the pipeline leaves in them, every other buffer as entered. -/
def W6 (c : Dev nD) : Valuation τ sig (Elt F) :=
  Pipeline.withArrays spec1 c (W5 m c) fun w => (Launch1.dat (B5 m) c).arrAt w cfg1.N
theorem W6_arr (c : Dev nD) (w : Fin cfg1.W) :
    W6 m c (Proc.devRef .tc (Pipeline.arrRef spec1 w)) = (Launch1.dat (B5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The contents launch 1 is left at, read at the TensorCore's references. -/
abbrev A6 : (c : Dev nD) → (b : Ref sig .tc) → Buf (Elt F) ((c : Thread nD τ).loc b) := fun c b => W6 m c b
/-- Only the output array's window is an output: every other window's array leaves the launch as it entered. -/
theorem inputs1 : ∀ w : Fin 15, Pipeline.arrRef spec1 w ≠ main_v117 → (cfg1.win w).isOut = false := by decide
/-- A buffer other than launch 1's output array reads after the launch what it read before it. -/
theorem W6_keep (c : Dev nD) (b : Ref sig .tc) (hb : b ≠ main_v117) :
    W6 m c (Proc.devRef .tc b) = W5 m c (Proc.devRef .tc b) := by
  by_cases h : ∃ w, Pipeline.arrRef spec1 w = b
  · obtain ⟨w, rfl⟩ := h
    exact (W6_arr m c w).trans (((Launch1.dat (B5 m) c).arrAt_in w (inputs1 w hb) _).trans (Launch1.A_eq (B5 m) c w))
  · exact W6_of_ne m c b fun w e => h ⟨w, e⟩
/-- After item 6, the host stretch `main_part2_ops1`. -/
abbrev W7 (c : Dev nD) : Valuation τ sig (Elt F) := StableHlo.after main_part2_ops1 (W6 m c)
/-- After item 7, the host stretch `main_part3_ops0`. -/
abbrev W8 (c : Dev nD) : Valuation τ sig (Elt F) := StableHlo.after main_part3_ops0 (W7 m c)
/-- The contents launch 2 is entered at, read at the TensorCore's references. -/
abbrev B8 : (c : Dev nD) → (b : Ref sig .tc) → Buf (Elt F) ((c : Thread nD τ).loc b) := fun c b => W8 m c b
/-- After item 8, launch 2: its windows' arrays at what the pipeline leaves in them, every other buffer as entered. -/
def W9 (c : Dev nD) : Valuation τ sig (Elt F) :=
  Pipeline.withArrays spec2 c (W8 m c) fun w => (Launch2.dat (B8 m) c).arrAt w cfg2.N
theorem W9_arr (c : Dev nD) (w : Fin cfg2.W) :
    W9 m c (Proc.devRef .tc (Pipeline.arrRef spec2 w)) = (Launch2.dat (B8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- The contents launch 2 is left at, read at the TensorCore's references. -/
abbrev A9 : (c : Dev nD) → (b : Ref sig .tc) → Buf (Elt F) ((c : Thread nD τ).loc b) := fun c b => W9 m c b
/-- Only the output array's window is an output: every other window's array leaves the launch as it entered. -/
theorem inputs2 : ∀ w : Fin 15, Pipeline.arrRef spec2 w ≠ main_v167 → (cfg2.win w).isOut = false := by decide
/-- A buffer other than launch 2's output array reads after the launch what it read before it. -/
theorem W9_keep (c : Dev nD) (b : Ref sig .tc) (hb : b ≠ main_v167) :
    W9 m c (Proc.devRef .tc b) = W8 m c (Proc.devRef .tc b) := by
  by_cases h : ∃ w, Pipeline.arrRef spec2 w = b
  · obtain ⟨w, rfl⟩ := h
    exact (W9_arr m c w).trans (((Launch2.dat (B8 m) c).arrAt_in w (inputs2 w hb) _).trans (Launch2.A_eq (B8 m) c w))
  · exact W9_of_ne m c b fun w e => h ⟨w, e⟩
/-- After item 9, the host stretch `main_part3_ops1`. -/
abbrev W10 (c : Dev nD) : Valuation τ sig (Elt F) := StableHlo.after main_part3_ops1 (W9 m c)
/-- The contents launch 3 is entered at, read at the TensorCore's references. -/
abbrev B10 : (c : Dev nD) → (b : Ref sig .tc) → Buf (Elt F) ((c : Thread nD τ).loc b) := fun c b => W10 m c b
/-- After item 10, launch 3: its windows' arrays at what the pipeline leaves in them, every other buffer as entered. -/
def W11 (c : Dev nD) : Valuation τ sig (Elt F) :=
  Pipeline.withArrays spec3 c (W10 m c) fun w => (Launch3.dat (B10 m) c).arrAt w cfg3.N
theorem W11_arr (c : Dev nD) (w : Fin cfg3.W) :
    W11 m c (Proc.devRef .tc (Pipeline.arrRef spec3 w)) = (Launch3.dat (B10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
/-- The contents launch 3 is left at, read at the TensorCore's references. -/
abbrev A11 : (c : Dev nD) → (b : Ref sig .tc) → Buf (Elt F) ((c : Thread nD τ).loc b) := fun c b => W11 m c b
/-- Only the output array's window is an output: every other window's array leaves the launch as it entered. -/
theorem inputs3 : ∀ w : Fin 14, Pipeline.arrRef spec3 w ≠ main_v187 → (cfg3.win w).isOut = false := by decide
/-- A buffer other than launch 3's output array reads after the launch what it read before it. -/
theorem W11_keep (c : Dev nD) (b : Ref sig .tc) (hb : b ≠ main_v187) :
    W11 m c (Proc.devRef .tc b) = W10 m c (Proc.devRef .tc b) := by
  by_cases h : ∃ w, Pipeline.arrRef spec3 w = b
  · obtain ⟨w, rfl⟩ := h
    exact (W11_arr m c w).trans (((Launch3.dat (B10 m) c).arrAt_in w (inputs3 w hb) _).trans (Launch3.A_eq (B10 m) c w))
  · exact W11_of_ne m c b fun w e => h ⟨w, e⟩
/-- After item 11, the host stretch `main_part3_ops2`. -/
abbrev W12 (c : Dev nD) : Valuation τ sig (Elt F) := StableHlo.after main_part3_ops2 (W11 m c)

/-! ## A reference no item changes reads at the end what the launch memory holds -/

theorem kept (c : Dev nD) (r : Ref sig .tc) (h : r ∉ written) :
    W12 m c (Proc.devRef .tc r) = m ((c : Thread nD τ).loc r) := by
  rw [show W12 m c (Proc.devRef .tc r) = W11 m c (Proc.devRef .tc r) from
    StableHlo.after_of_writes_sub main_part3_ops2 _ main_part3_ops2_writes fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (hm))))))))))))]
  rw [W11_keep m c r fun e => h (List.mem_append_right _ (List.mem_append_right _ (List.mem_append_right _ (List.mem_append_right _ (List.mem_append_right _ (List.mem_append_right _ (List.mem_append_right _ (List.mem_append_right _ (List.mem_append_right _ (List.mem_append_right _ (List.mem_append_left _ (List.mem_singleton.mpr e))))))))))))]
  rw [show W10 m c (Proc.devRef .tc r) = W9 m c (Proc.devRef .tc r) from
    StableHlo.after_of_writes_sub main_part3_ops1 _ main_part3_ops1_writes fun hm => h (List.mem_append_right _ (List.mem_append_right _ (List.mem_append_right _ (List.mem_append_right _ (List.mem_append_right _ (List.mem_append_right _ (List.mem_append_right _ (List.mem_append_right _ (List.mem_append_right _ (List.mem_append_left _ hm))))))))))]
  rw [W9_keep m c r fun e => h (List.mem_append_right _ (List.mem_append_right _ (List.mem_append_right _ (List.mem_append_right _ (List.mem_append_right _ (List.mem_append_right _ (List.mem_append_right _ (List.mem_append_right _ (List.mem_append_left _ (List.mem_singleton.mpr e))))))))))]
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 1. -/
theorem kept2 (c : Dev nD) (r : Ref sig .tc) (h : r ∉ written) :
    W2 m c (Proc.devRef .tc r) = m ((c : Thread nD τ).loc r) := by
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 2. -/
theorem kept3 (c : Dev nD) (r : Ref sig .tc) (h : r ∉ written) :
    W3 m c (Proc.devRef .tc r) = m ((c : Thread nD τ).loc r) := by
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 4. -/
theorem kept5 (c : Dev nD) (r : Ref sig .tc) (h : r ∉ written) :
    W5 m c (Proc.devRef .tc r) = m ((c : Thread nD τ).loc r) := by
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 5. -/
theorem kept6 (c : Dev nD) (r : Ref sig .tc) (h : r ∉ written) :
    W6 m c (Proc.devRef .tc r) = m ((c : Thread nD τ).loc r) := by
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 7. -/
theorem kept8 (c : Dev nD) (r : Ref sig .tc) (h : r ∉ written) :
    W8 m c (Proc.devRef .tc r) = m ((c : Thread nD τ).loc r) := by
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 8. -/
theorem kept9 (c : Dev nD) (r : Ref sig .tc) (h : r ∉ written) :
    W9 m c (Proc.devRef .tc r) = m ((c : Thread nD τ).loc r) := by
  rw [W9_keep m c r fun e => h (List.mem_append_right _ (List.mem_append_right _ (List.mem_append_right _ (List.mem_append_right _ (List.mem_append_right _ (List.mem_append_right _ (List.mem_append_right _ (List.mem_append_right _ (List.mem_append_left _ (List.mem_singleton.mpr e))))))))))]
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 9. -/
theorem kept10 (c : Dev nD) (r : Ref sig .tc) (h : r ∉ written) :
    W10 m c (Proc.devRef .tc r) = m ((c : Thread nD τ).loc r) := by
  rw [show W10 m c (Proc.devRef .tc r) = W9 m c (Proc.devRef .tc r) from
    StableHlo.after_of_writes_sub main_part3_ops1 _ main_part3_ops1_writes fun hm => h (List.mem_append_right _ (List.mem_append_right _ (List.mem_append_right _ (List.mem_append_right _ (List.mem_append_right _ (List.mem_append_right _ (List.mem_append_right _ (List.mem_append_right _ (List.mem_append_right _ (List.mem_append_left _ hm))))))))))]
  rw [W9_keep m c r fun e => h (List.mem_append_right _ (List.mem_append_right _ (List.mem_append_right _ (List.mem_append_right _ (List.mem_append_right _ (List.mem_append_right _ (List.mem_append_right _ (List.mem_append_right _ (List.mem_append_left _ (List.mem_singleton.mpr e))))))))))]
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-- The same at the valuation after item 10. -/
theorem kept11 (c : Dev nD) (r : Ref sig .tc) (h : r ∉ written) :
    W11 m c (Proc.devRef .tc r) = m ((c : Thread nD τ).loc r) := by
  rw [W11_keep m c r fun e => h (List.mem_append_right _ (List.mem_append_right _ (List.mem_append_right _ (List.mem_append_right _ (List.mem_append_right _ (List.mem_append_right _ (List.mem_append_right _ (List.mem_append_right _ (List.mem_append_right _ (List.mem_append_right _ (List.mem_append_left _ (List.mem_singleton.mpr e))))))))))))]
  rw [show W10 m c (Proc.devRef .tc r) = W9 m c (Proc.devRef .tc r) from
    StableHlo.after_of_writes_sub main_part3_ops1 _ main_part3_ops1_writes fun hm => h (List.mem_append_right _ (List.mem_append_right _ (List.mem_append_right _ (List.mem_append_right _ (List.mem_append_right _ (List.mem_append_right _ (List.mem_append_right _ (List.mem_append_right _ (List.mem_append_right _ (List.mem_append_left _ hm))))))))))]
  rw [W9_keep m c r fun e => h (List.mem_append_right _ (List.mem_append_right _ (List.mem_append_right _ (List.mem_append_right _ (List.mem_append_right _ (List.mem_append_right _ (List.mem_append_right _ (List.mem_append_right _ (List.mem_append_left _ (List.mem_singleton.mpr e))))))))))]
  rw [show W8 m c (Proc.devRef .tc r) = W7 m c (Proc.devRef .tc r) from
    StableHlo.after_of_writes_sub main_part3_ops0 _ main_part3_ops0_writes fun hm => h (List.mem_append_right _ (List.mem_append_right _ (List.mem_append_right _ (List.mem_append_right _ (List.mem_append_right _ (List.mem_append_right _ (List.mem_append_right _ (List.mem_append_left _ hm))))))))]
  rw [show W7 m c (Proc.devRef .tc r) = W6 m c (Proc.devRef .tc r) from
    StableHlo.after_of_writes_sub main_part2_ops1 _ main_part2_ops1_writes fun hm => h (List.mem_append_right _ (List.mem_append_right _ (List.mem_append_right _ (List.mem_append_right _ (List.mem_append_right _ (List.mem_append_right _ (List.mem_append_left _ hm)))))))]
  rw [W6_keep m c r fun e => h (List.mem_append_right _ (List.mem_append_right _ (List.mem_append_right _ (List.mem_append_right _ (List.mem_append_right _ (List.mem_append_left _ (List.mem_singleton.mpr e)))))))]
  rw [show W5 m c (Proc.devRef .tc r) = W4 m c (Proc.devRef .tc r) from
    StableHlo.after_of_writes_sub main_part2_ops0 _ main_part2_ops0_writes fun hm => h (List.mem_append_right _ (List.mem_append_right _ (List.mem_append_right _ (List.mem_append_right _ (List.mem_append_left _ hm)))))]
  rw [show W4 m c (Proc.devRef .tc r) = W3 m c (Proc.devRef .tc r) from
    StableHlo.after_of_writes_sub main_part1_ops1 _ main_part1_ops1_writes fun hm => h (List.mem_append_right _ (List.mem_append_right _ (List.mem_append_right _ (List.mem_append_left _ hm))))]
  rw [W3_keep m c r fun e => h (List.mem_append_right _ (List.mem_append_right _ (List.mem_append_left _ (List.mem_singleton.mpr e))))]
  rw [show W2 m c (Proc.devRef .tc r) = W1 m c (Proc.devRef .tc r) from
    StableHlo.after_of_writes_sub main_part1_ops0 _ main_part1_ops0_writes fun hm => h (List.mem_append_right _ (List.mem_append_left _ hm))]
  rw [show W1 m c (Proc.devRef .tc r) = W0 m c (Proc.devRef .tc r) from
    StableHlo.after_of_writes_sub main_part0_ops0 _ main_part0_ops0_writes fun hm => h (List.mem_append_left _ hm)]

/-! ## The thread state, the proof data, the launches as segments -/

/-- The prefetched tables' admissible contents: no launch has a table. -/
abbrev adm : (p : Fin 4) → (pcfgs (F := F) p).Adm := fun p => (cfgs p).toPCfg_adm
/-- Each pipeline's proof data at the contents its launch is entered at. -/
def pdats : (p : Fin 4) → (c : Dev nD) → Dat τ (Elt F) Unit ℕ (UR sig nD τ) ℕ (Pipeline.pin (pcfgs (F := F)) adm p) c
  | ⟨0, _⟩ => fun c => Launch0.dat (B2 m) c
  | ⟨1, _⟩ => fun c => Launch1.dat (B5 m) c
  | ⟨2, _⟩ => fun c => Launch2.dat (B8 m) c
  | ⟨3, _⟩ => fun c => Launch3.dat (B10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment: the unscoped buffers go from the valuation `W` to its fold over the stretch. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Launch 0 over the thread state: entered with every unscoped buffer at `W2`, left with them at `W3`. Its windows'
    arrays are taken out of the unscoped buffers on the way in and put back, at what the pipeline leaves, on the way out;
    the generator register goes into the pipeline's invariant and comes back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Launch0.body_obligation (B2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (B2 m c)
  hentry c := by
    rw [Pipeline.ownSems0_none]
    have take := Pipeline.arrays_of_unscopedBufs (p := 0) (pcfgs (F := F)) adm (pdats m) launch0.win launch0.arr_whole c
      ((pdats m 0 c).share_full fun _ => rfl) (B2 m c) fun _ => rfl
    rw [Pipeline.unscopedBufs_held] at take
    iintro ⟨⟨Hbufs, Hprng, Hdues⟩, -, -⟩
    ihave Hs := take $$ Hbufs
    icases Hs with ⟨Harr, Hother⟩
    imodintro
    isplitl [Harr]; · iexact Harr
    isplitr
    · unfold Pipeline.prefHeld; rw [show (Finset.univ : Finset (Fin 0)) = ∅ from rfl, BI.bigSep_empty]; iempintro
    isplitl [Hdues]
    · unfold Pipeline.Dat.owesAt Pipeline.owesWithin
      icases Hdues with ⟨%Wd, Hdues⟩
      iexists Wd
      isplitr; · ipureintro; exact fun _ _ => Or.inl trivial
      iexact Hdues
    isplitl [Hprng]; · iexact Hprng
    iexact Hother
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have put := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B2 m c) (A3 m c) ((pdats m 0 c).arrAt · cfg0.N) (fun w => (W3_arr m c w).symm)
      (fun b hb => W3_of_ne m c b fun w e => hb (Finset.mem_image.mpr ⟨w, Finset.mem_univ _, e⟩))
    rw [Pipeline.unscopedBufs_held] at put
    iintro ⟨Harr, Hdues, Hprng, Hother⟩
    imodintro
    isplitl [Harr Hother]
    · iapply put; isplitl [Harr] <;> iassumption
    isplitl [Hprng]; · iexact Hprng
    unfold Pipeline.Dat.owesAt Pipeline.owesWithin
    icases Hdues with ⟨%Wd, -, Hdues⟩
    iexists Wd; iexact Hdues

set_option backward.isDefEq.respectTransparency.types false in
/-- Launch 1 over the thread state: entered with every unscoped buffer at `W5`, left with them at `W6`. Its windows'
    arrays are taken out of the unscoped buffers on the way in and put back, at what the pipeline leaves, on the way out;
    the generator register goes into the pipeline's invariant and comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Launch1.body_obligation (B5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (B5 m c)
  hentry c := by
    rw [Pipeline.ownSems0_none]
    have take := Pipeline.arrays_of_unscopedBufs (p := 1) (pcfgs (F := F)) adm (pdats m) launch1.win launch1.arr_whole c
      ((pdats m 1 c).share_full fun _ => rfl) (B5 m c) fun _ => rfl
    rw [Pipeline.unscopedBufs_held] at take
    iintro ⟨⟨Hbufs, Hprng, Hdues⟩, -, -⟩
    ihave Hs := take $$ Hbufs
    icases Hs with ⟨Harr, Hother⟩
    imodintro
    isplitl [Harr]; · iexact Harr
    isplitr
    · unfold Pipeline.prefHeld; rw [show (Finset.univ : Finset (Fin 0)) = ∅ from rfl, BI.bigSep_empty]; iempintro
    isplitl [Hdues]
    · unfold Pipeline.Dat.owesAt Pipeline.owesWithin
      icases Hdues with ⟨%Wd, Hdues⟩
      iexists Wd
      isplitr; · ipureintro; exact fun _ _ => Or.inl trivial
      iexact Hdues
    isplitl [Hprng]; · iexact Hprng
    iexact Hother
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have put := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B5 m c) (A6 m c) ((pdats m 1 c).arrAt · cfg1.N) (fun w => (W6_arr m c w).symm)
      (fun b hb => W6_of_ne m c b fun w e => hb (Finset.mem_image.mpr ⟨w, Finset.mem_univ _, e⟩))
    rw [Pipeline.unscopedBufs_held] at put
    iintro ⟨Harr, Hdues, Hprng, Hother⟩
    imodintro
    isplitl [Harr Hother]
    · iapply put; isplitl [Harr] <;> iassumption
    isplitl [Hprng]; · iexact Hprng
    unfold Pipeline.Dat.owesAt Pipeline.owesWithin
    icases Hdues with ⟨%Wd, -, Hdues⟩
    iexists Wd; iexact Hdues

set_option backward.isDefEq.respectTransparency.types false in
/-- Launch 2 over the thread state: entered with every unscoped buffer at `W8`, left with them at `W9`. Its windows'
    arrays are taken out of the unscoped buffers on the way in and put back, at what the pipeline leaves, on the way out;
    the generator register goes into the pipeline's invariant and comes back; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Launch2.body_obligation (B8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (B8 m c)
  hentry c := by
    rw [Pipeline.ownSems0_none]
    have take := Pipeline.arrays_of_unscopedBufs (p := 2) (pcfgs (F := F)) adm (pdats m) launch2.win launch2.arr_whole c
      ((pdats m 2 c).share_full fun _ => rfl) (B8 m c) fun _ => rfl
    rw [Pipeline.unscopedBufs_held] at take
    iintro ⟨⟨Hbufs, Hprng, Hdues⟩, -, -⟩
    ihave Hs := take $$ Hbufs
    icases Hs with ⟨Harr, Hother⟩
    imodintro
    isplitl [Harr]; · iexact Harr
    isplitr
    · unfold Pipeline.prefHeld; rw [show (Finset.univ : Finset (Fin 0)) = ∅ from rfl, BI.bigSep_empty]; iempintro
    isplitl [Hdues]
    · unfold Pipeline.Dat.owesAt Pipeline.owesWithin
      icases Hdues with ⟨%Wd, Hdues⟩
      iexists Wd
      isplitr; · ipureintro; exact fun _ _ => Or.inl trivial
      iexact Hdues
    isplitl [Hprng]; · iexact Hprng
    iexact Hother
  hin c := by
    rw [show (pdats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have put := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B8 m c) (A9 m c) ((pdats m 2 c).arrAt · cfg2.N) (fun w => (W9_arr m c w).symm)
      (fun b hb => W9_of_ne m c b fun w e => hb (Finset.mem_image.mpr ⟨w, Finset.mem_univ _, e⟩))
    rw [Pipeline.unscopedBufs_held] at put
    iintro ⟨Harr, Hdues, Hprng, Hother⟩
    imodintro
    isplitl [Harr Hother]
    · iapply put; isplitl [Harr] <;> iassumption
    isplitl [Hprng]; · iexact Hprng
    unfold Pipeline.Dat.owesAt Pipeline.owesWithin
    icases Hdues with ⟨%Wd, -, Hdues⟩
    iexists Wd; iexact Hdues

set_option backward.isDefEq.respectTransparency.types false in
/-- Launch 3 over the thread state: entered with every unscoped buffer at `W10`, left with them at `W11`. Its windows'
    arrays are taken out of the unscoped buffers on the way in and put back, at what the pipeline leaves, on the way out;
    the generator register goes into the pipeline's invariant and comes back; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Launch3.body_obligation (B10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (B10 m c)
  hentry c := by
    rw [Pipeline.ownSems0_none]
    have take := Pipeline.arrays_of_unscopedBufs (p := 3) (pcfgs (F := F)) adm (pdats m) launch3.win launch3.arr_whole c
      ((pdats m 3 c).share_full fun _ => rfl) (B10 m c) fun _ => rfl
    rw [Pipeline.unscopedBufs_held] at take
    iintro ⟨⟨Hbufs, Hprng, Hdues⟩, -, -⟩
    ihave Hs := take $$ Hbufs
    icases Hs with ⟨Harr, Hother⟩
    imodintro
    isplitl [Harr]; · iexact Harr
    isplitr
    · unfold Pipeline.prefHeld; rw [show (Finset.univ : Finset (Fin 0)) = ∅ from rfl, BI.bigSep_empty]; iempintro
    isplitl [Hdues]
    · unfold Pipeline.Dat.owesAt Pipeline.owesWithin
      icases Hdues with ⟨%Wd, Hdues⟩
      iexists Wd
      isplitr; · ipureintro; exact fun _ _ => Or.inl trivial
      iexact Hdues
    isplitl [Hprng]; · iexact Hprng
    iexact Hother
  hin c := by
    rw [show (pdats m 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (pdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    have put := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B10 m c) (A11 m c) ((pdats m 3 c).arrAt · cfg3.N) (fun w => (W11_arr m c w).symm)
      (fun b hb => W11_of_ne m c b fun w e => hb (Finset.mem_image.mpr ⟨w, Finset.mem_univ _, e⟩))
    rw [Pipeline.unscopedBufs_held] at put
    iintro ⟨Harr, Hdues, Hprng, Hother⟩
    imodintro
    isplitl [Harr Hother]
    · iapply put; isplitl [Harr] <;> iassumption
    isplitl [Hprng]; · iexact Hprng
    unfold Pipeline.Dat.owesAt Pipeline.owesWithin
    icases Hdues with ⟨%Wd, -, Hdues⟩
    iexists Wd; iexact Hdues

/-! ## @main as the twelve items, and the run -/

abbrev segs : List (Pipeline.Seg (pcfgs (F := F)) adm (pdats m) () defs₀ 𝒱₀ L lv) :=
  [ .host (hseg main_part0_ops0 main_part0_ops0_sub main_part0_ops0_fresh (W0 m)),
    .host (hseg main_part1_ops0 main_part1_ops0_sub main_part1_ops0_fresh (W1 m)),
    .region (reg0 m),
    .host (hseg main_part1_ops1 main_part1_ops1_sub main_part1_ops1_fresh (W3 m)),
    .host (hseg main_part2_ops0 main_part2_ops0_sub main_part2_ops0_fresh (W4 m)),
    .region (reg1 m),
    .host (hseg main_part2_ops1 main_part2_ops1_sub main_part2_ops1_fresh (W6 m)),
    .host (hseg main_part3_ops0 main_part3_ops0_sub main_part3_ops0_fresh (W7 m)),
    .region (reg2 m),
    .host (hseg main_part3_ops1 main_part3_ops1_sub main_part3_ops1_fresh (W9 m)),
    .region (reg3 m),
    .host (hseg main_part3_ops2 main_part3_ops2_sub main_part3_ops2_fresh (W11 m)) ]

/-- @main is the run of the twelve items: both are the chain of the same fragments. -/
theorem main_run (c : Dev nD) : main (F := F) c = Pipeline.Seg.run (segs m) := by
  rw [Pipeline.Seg.run_eq_chain, main_chain_windows c]; rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- From any memory with zero counters every weakly fair execution of @main terminates, nothing faulting; the result
    buffer then holds the last valuation's value and every argument array what it held at launch. -/
theorem run_main : θ_run defs (onTc (τ := τ) (main (F := F))) ⟨m, fun _ => 0, ρ⟩ (fun r => ∀ c : Dev nD,
      r.2.mem ((c.tc : Thread nD τ).loc main_v190) = W12 m c (Proc.devRef .tc main_v190)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m c)
        ∗ ((∃ r, prngReg c r) ∗ ∃ W, owes (c : Thread nD τ) (0 : CellTallies nD τ sig Unit) W)) ⊢ _
      iintro ⟨Hbufs, Hprng, Hdues⟩
      isplitr [Hdues]
      · isplitl [Hbufs]; · iexact Hbufs
        iexact Hprng
      iexact Hdues⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdues, -, Hprng, -⟩, -⟩
      imodintro
      isplitl [Hbufs]; · iexact Hbufs
      isplitl [Hprng]; · iexists _; iexact Hprng
      iexists ∅; iexact Hdues)
    (QY := fun c s => ∀ b ∈ Pipeline.ucRefs τ sig, s.mem (((c : Thread nD τ)).1, b) = W12 m c b)
    (hfin := fun c s' => by
      iintro ⟨⟨Hbufs, -⟩, HSI⟩
      unfold StableHlo.held
      imodintro
      iapply (pointsTo_read_all (Pipeline.ucRefs τ sig) (fun b => (((c : Thread nD τ)).1, b)) (W12 m c) s')
      isplitl [Hbufs] <;> iassumption)
    (hQ := fun s h c =>
      ⟨h c _ (mem_uc main_v190 (by decide)),
       (h c _ (mem_uc main_arg0 (by decide))).trans (kept m c main_arg0 (by decide)),
       (h c _ (mem_uc main_arg1 (by decide))).trans (kept m c main_arg1 (by decide)),
       (h c _ (mem_uc main_arg2 (by decide))).trans (kept m c main_arg2 (by decide)),
       (h c _ (mem_uc main_arg3 (by decide))).trans (kept m c main_arg3 (by decide)),
       (h c _ (mem_uc main_arg4 (by decide))).trans (kept m c main_arg4 (by decide)),
       (h c _ (mem_uc main_arg5 (by decide))).trans (kept m c main_arg5 (by decide)),
       (h c _ (mem_uc main_arg6 (by decide))).trans (kept m c main_arg6 (by decide)),
       (h c _ (mem_uc main_arg7 (by decide))).trans (kept m c main_arg7 (by decide)),
       (h c _ (mem_uc main_arg8 (by decide))).trans (kept m c main_arg8 (by decide)),
       (h c _ (mem_uc main_arg9 (by decide))).trans (kept m c main_arg9 (by decide)),
       (h c _ (mem_uc main_arg10 (by decide))).trans (kept m c main_arg10 (by decide)),
       (h c _ (mem_uc main_arg11 (by decide))).trans (kept m c main_arg11 (by decide)),
       (h c _ (mem_uc main_arg12 (by decide))).trans (kept m c main_arg12 (by decide)),
       (h c _ (mem_uc main_arg13 (by decide))).trans (kept m c main_arg13 (by decide)),
       (h c _ (mem_uc main_arg14 (by decide))).trans (kept m c main_arg14 (by decide)),
       (h c _ (mem_uc main_arg15 (by decide))).trans (kept m c main_arg15 (by decide)),
       (h c _ (mem_uc main_arg16 (by decide))).trans (kept m c main_arg16 (by decide)),
       (h c _ (mem_uc main_arg17 (by decide))).trans (kept m c main_arg17 (by decide)),
       (h c _ (mem_uc main_arg18 (by decide))).trans (kept m c main_arg18 (by decide)),
       (h c _ (mem_uc main_arg19 (by decide))).trans (kept m c main_arg19 (by decide)),
       (h c _ (mem_uc main_arg20 (by decide))).trans (kept m c main_arg20 (by decide)),
       (h c _ (mem_uc main_arg21 (by decide))).trans (kept m c main_arg21 (by decide)),
       (h c _ (mem_uc main_arg22 (by decide))).trans (kept m c main_arg22 (by decide)),
       (h c _ (mem_uc main_arg23 (by decide))).trans (kept m c main_arg23 (by decide)),
       (h c _ (mem_uc main_arg24 (by decide))).trans (kept m c main_arg24 (by decide))⟩)

end Cert.KernelIdeal.Run

end
-- ==== Proof.IdealFinal0.lean ====
/-
  Launch 0's output array as one function of the arrays the launch is entered at.

  The grid has five points; point `t` reads rows `10000 t … 10000 t + 9999` of each row-blocked operand, every small operand
  whole, and writes back rows `10000 t …` of the output. So if the value the body stores, read at row `r` of its block, is a
  function `G` of the arrays read at row `10000 t + r`, the output array ends holding `G`: the five blocks tile its rows.
-/
import proofs.«131956_j5523327942769_1_alg».proof.Proof.IdealLaunch0
import Idealize.ShloMosaic.Lib.Pipeline.Value
import Idealize.ShloMosaic.Lib.ValueIdx

set_option maxRecDepth 16384

noncomputable section

namespace Cert.KernelIdeal.Final0

open Idealize.ShloMosaic Idealize.ShloMosaic.TcCoe Idealize.SL.Sem
open Idealize.ShloMosaic.Pipeline (Dat)
open Cert.KernelIdeal Cert.KernelIdeal.Gen Cert.KernelIdeal.Launch0

variable {F : FTy → Type} [FloatOps F]
variable (V : (c : Dev nD) → (b : Ref sig .tc) → Buf (Elt F) ((c : Thread nD τ).loc b))

/-- The printed index maps over the grid: a row-blocked window's block index is the point's number on the rows and 0 on
    the columns; a small window's is 0 on both. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = t.val
    ∧ win0_14.index t (1 : Fin 2) = 0 :=
  (by decide +kernel : ∀ t : Fin grid0.N, _)

/-- Window 0's block at point `t` is rows `10000 t …` of `main_v28`. -/
theorem blk0_apply (c : Dev nD) (t : Fin cfg0.N) (y : S10000x87.Idx) (i : S50000x87.Idx)
    (h0 : (i 0).val = 10000 * t.val + (y 0).val) (h1 : (i 1).val = (y 1).val) :
    iblk V c 0 t y = V c main_v28 i := by
  obtain ⟨e0, e1, e2, e3, e4, e5, e6, e7, e8, e9, e10, e11, e12, e13, e14, e15, e16, e17, e18, e19, e20, e21, e22, e23, e24, e25, e26, e27, e28, e29⟩ := idx_facts t
  show V c main_v28 (((cfg0.win 0).blk t).view.emb y) = V c main_v28 i
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 87 + 1 * (y 1).val = (i 1).val; omega
/-- Window 1's block at point `t` is rows `10000 t …` of `main_v17`. -/
theorem blk1_apply (c : Dev nD) (t : Fin cfg0.N) (y : S10000x64.Idx) (i : S50000x64.Idx)
    (h0 : (i 0).val = 10000 * t.val + (y 0).val) (h1 : (i 1).val = (y 1).val) :
    iblk V c 1 t y = V c main_v17 i := by
  obtain ⟨e0, e1, e2, e3, e4, e5, e6, e7, e8, e9, e10, e11, e12, e13, e14, e15, e16, e17, e18, e19, e20, e21, e22, e23, e24, e25, e26, e27, e28, e29⟩ := idx_facts t
  show V c main_v17 (((cfg0.win 1).blk t).view.emb y) = V c main_v17 i
  refine congrArg _ (funext fun a => Fin.ext ?_)
  match a with
  | ⟨0, _⟩ => show win0_1.index t (0 : Fin 2) * 10000 + 1 * (y 0).val = (i 0).val; omega
  | ⟨1, _⟩ => show win0_1.index t (1 : Fin 2) * 64 + 1 * (y 1).val = (i 1).val; omega
/-- Window 2's block at every point is the whole of `main_v59`. -/
theorem blk2_eq (c : Dev nD) (t : Fin cfg0.N) : iblk V c 2 t = (V c main_v59 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v59 (((cfg0.win 2).blk t).view.emb y) = V c main_v59 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 87 + 1 * (y 1).val = (y 1).val; omega
/-- Window 3's block at every point is the whole of `main_v60`. -/
theorem blk3_eq (c : Dev nD) (t : Fin cfg0.N) : iblk V c 3 t = (V c main_v60 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v60 (((cfg0.win 3).blk t).view.emb y) = V c main_v60 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 87 + 1 * (y 1).val = (y 1).val; omega
/-- Window 4's block at every point is the whole of `main_v61`. -/
theorem blk4_eq (c : Dev nD) (t : Fin cfg0.N) : iblk V c 4 t = (V c main_v61 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v61 (((cfg0.win 4).blk t).view.emb y) = V c main_v61 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 87 + 1 * (y 1).val = (y 1).val; omega
/-- Window 5's block at every point is the whole of `main_v62`. -/
theorem blk5_eq (c : Dev nD) (t : Fin cfg0.N) : iblk V c 5 t = (V c main_v62 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v62 (((cfg0.win 5).blk t).view.emb y) = V c main_v62 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 87 + 1 * (y 1).val = (y 1).val; omega
/-- Window 6's block at every point is the whole of `main_v44`. -/
theorem blk6_eq (c : Dev nD) (t : Fin cfg0.N) : iblk V c 6 t = (V c main_v44 : S87x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v44 (((cfg0.win 6).blk t).view.emb y) = V c main_v44 y
  refine congrArg _ (funext fun a => Fin.ext ?_)
  match a with
  | ⟨0, _⟩ => show win0_6.index t (0 : Fin 2) * 87 + 1 * (y 0).val = (y 0).val; omega
  | ⟨1, _⟩ => show win0_6.index t (1 : Fin 2) * 200 + 1 * (y 1).val = (y 1).val; omega
/-- Window 7's block at every point is the whole of `main_v63`. -/
theorem blk7_eq (c : Dev nD) (t : Fin cfg0.N) : iblk V c 7 t = (V c main_v63 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v63 (((cfg0.win 7).blk t).view.emb y) = V c main_v63 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 200 + 1 * (y 1).val = (y 1).val; omega
/-- Window 8's block at every point is the whole of `main_v48`. -/
theorem blk8_eq (c : Dev nD) (t : Fin cfg0.N) : iblk V c 8 t = (V c main_v48 : S200x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v48 (((cfg0.win 8).blk t).view.emb y) = V c main_v48 y
  refine congrArg _ (funext fun a => Fin.ext ?_)
  match a with
  | ⟨0, _⟩ => show win0_8.index t (0 : Fin 2) * 200 + 1 * (y 0).val = (y 0).val; omega
  | ⟨1, _⟩ => show win0_8.index t (1 : Fin 2) * 200 + 1 * (y 1).val = (y 1).val; omega
/-- Window 9's block at every point is the whole of `main_v64`. -/
theorem blk9_eq (c : Dev nD) (t : Fin cfg0.N) : iblk V c 9 t = (V c main_v64 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v64 (((cfg0.win 9).blk t).view.emb y) = V c main_v64 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 200 + 1 * (y 1).val = (y 1).val; omega
/-- Window 10's block at every point is the whole of `main_v52`. -/
theorem blk10_eq (c : Dev nD) (t : Fin cfg0.N) : iblk V c 10 t = (V c main_v52 : S200x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v52 (((cfg0.win 10).blk t).view.emb y) = V c main_v52 y
  refine congrArg _ (funext fun a => Fin.ext ?_)
  match a with
  | ⟨0, _⟩ => show win0_10.index t (0 : Fin 2) * 200 + 1 * (y 0).val = (y 0).val; omega
  | ⟨1, _⟩ => show win0_10.index t (1 : Fin 2) * 200 + 1 * (y 1).val = (y 1).val; omega
/-- Window 11's block at every point is the whole of `main_v65`. -/
theorem blk11_eq (c : Dev nD) (t : Fin cfg0.N) : iblk V c 11 t = (V c main_v65 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v65 (((cfg0.win 11).blk t).view.emb y) = V c main_v65 y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 200 + 1 * (y 1).val = (y 1).val; omega
/-- Window 12's block at every point is the whole of `main_v56`. -/
theorem blk12_eq (c : Dev nD) (t : Fin cfg0.N) : iblk V c 12 t = (V c main_v56 : S200x64.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v56 (((cfg0.win 12).blk t).view.emb y) = V c main_v56 y
  refine congrArg _ (funext fun a => Fin.ext ?_)
  match a with
  | ⟨0, _⟩ => show win0_12.index t (0 : Fin 2) * 200 + 1 * (y 0).val = (y 0).val; omega
  | ⟨1, _⟩ => show win0_12.index t (1 : Fin 2) * 64 + 1 * (y 1).val = (y 1).val; omega
/-- Window 13's block at every point is the whole of `main_v66`. -/
theorem blk13_eq (c : Dev nD) (t : Fin cfg0.N) : iblk V c 13 t = (V c main_v66 : S1x64.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v66 (((cfg0.win 13).blk t).view.emb y) = V c main_v66 y
  refine congrArg _ (funext fun a => Fin.ext ?_)
  match a with
  | ⟨0, _⟩ => show win0_13.index t (0 : Fin 2) * 1 + 1 * (y 0).val = (y 0).val; omega
  | ⟨1, _⟩ => show win0_13.index t (1 : Fin 2) * 64 + 1 * (y 1).val = (y 1).val; omega

/-- An index of the output array is in point `t`'s block iff its row is among the block's rows. -/
theorem mem_blk (t : Fin cfg0.N) (i : S50000x64.Idx) :
    i ∈ ((cfg0.win 14).blk t).view.set ↔ ∀ a : Fin 2, win0_14.index t a * S10000x64.size a ≤ (i a).val ∧ (i a).val < win0_14.index t a * S10000x64.size a + S10000x64.size a := by
  show i ∈ ((View.whole main_v67).slice (win0_14.rect t)).set ↔ _
  rw [View.set_slice_whole, Rect.mem_set_unit]
  exact Iff.rfl

/-- Every index of the output array is in the block of the point its row falls in. -/
theorem cover (i : S50000x64.Idx) : ∃ t : Fin cfg0.N, (cfg0.win 14).flush t = true ∧ i ∈ ((cfg0.win 14).blk t).view.set := by
  have hi0 : (i 0).val < 50000 := (i 0).isLt
  have hi1 : (i 1).val < 64 := (i 1).isLt
  have hN : cfg0.N = 5 := N_0
  let t : Fin cfg0.N := ⟨(i 0).val / 10000, by rw [hN]; omega⟩
  have ht : t.val = (i 0).val / 10000 := rfl
  obtain ⟨e0, e1, e2, e3, e4, e5, e6, e7, e8, e9, e10, e11, e12, e13, e14, e15, e16, e17, e18, e19, e20, e21, e22, e23, e24, e25, e26, e27, e28, e29⟩ := idx_facts t
  refine ⟨t, flush0_14 t, ?_⟩
  rw [mem_blk]
  intro a
  match a with
  | ⟨0, _⟩ => show win0_14.index t (0 : Fin 2) * 10000 ≤ (i 0).val ∧ (i 0).val < win0_14.index t (0 : Fin 2) * 10000 + 10000; omega
  | ⟨1, _⟩ => show win0_14.index t (1 : Fin 2) * 64 ≤ (i 1).val ∧ (i 1).val < win0_14.index t (1 : Fin 2) * 64 + 64; omega

/-- The row of the output array that row `y 0` of point `t`'s block is. -/
theorem emb_row (t : Fin cfg0.N) (y : S10000x64.Idx) :
    ((((cfg0.win 14).blk t).view.emb y : S50000x64.Idx) 0).val = 10000 * t.val + (y 0).val
    ∧ ((((cfg0.win 14).blk t).view.emb y : S50000x64.Idx) 1).val = (y 1).val := by
  obtain ⟨e0, e1, e2, e3, e4, e5, e6, e7, e8, e9, e10, e11, e12, e13, e14, e15, e16, e17, e18, e19, e20, e21, e22, e23, e24, e25, e26, e27, e28, e29⟩ := idx_facts t
  constructor
  · show win0_14.index t (0 : Fin 2) * 10000 + 1 * (y 0).val = _; omega
  · show win0_14.index t (1 : Fin 2) * 64 + 1 * (y 1).val = _; omega

/-- If what the body stores at point `t`, read inside the block, is `G` read at the array index the block embeds it at, for
    every point, then the output array ends holding `G`. -/
theorem final (c : Dev nD) (G : S50000x64.Idx → Elt F .f32)
    (hG : ∀ (t : Fin cfg0.N) (y : S10000x64.Idx),
      out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) y = G (((cfg0.win 14).blk t).view.emb y)) :
    (dat V c).arrAt 14 cfg0.N = G :=
  (dat V c).arrAt_eq_of_cover 14 G
    (fun t _ => by
      show (cfg0.win 14).cut (grid0.coords t) ((dat V c).after 14 t) = _
      rw [after_out]
      funext y
      exact hG t y)
    cover

end Cert.KernelIdeal.Final0

end
-- ==== Proof.UpdateLayer.lean ====
import proofs.«131956_j5523327942769_1_alg».proof.Proof.Gen.KernelIdeal.Skeleton
import proofs.«131956_j5523327942769_1_alg».proof.Proof.Gen.ReferenceIdeal
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.UpdateLayer

open Idealize.ShloMosaic Idealize.ShloMosaic.ValueIdx

/-! ## One entry of each step of a dense layer

Every step is read at the entry in row r and column j of a block of m rows, against the entry in row ρ r and column j
of an array of m' rows; ρ is any map of rows (below: row r of block t is row 10000 t + r). Nothing but reading
operations at an index is used: no law of arithmetic. -/

section Rows
variable {α : Type} {m m' K N : ℕ}

/-- A product with a weight matrix read at an entry: the sum over the contracted coordinate. -/
theorem dot_entry (D : DotDims ⟨2, ![m, K]⟩ ⟨2, ![K, N]⟩ ⟨2, ![m, N]⟩) (hD : D = DotDims.plain m K N)
    (A : FVec Ideal ⟨2, ![m, K]⟩ .f32) (W : FVec Ideal ⟨2, ![K, N]⟩ .f32) (r : Fin m) (j : Fin N) :
    Host.dotGeneral D none A W (ix2 r j) = ∑ k : Fin K, A (ix2 r k) * W (ix2 k j) := by
  subst hD
  exact StackMember.dotGeneral_plain_apply none A W r j

/-- The same product on the matrix unit, accumulated into zeros. -/
theorem matmul_entry (D : DotDims ⟨2, ![m, K]⟩ ⟨2, ![K, N]⟩ ⟨2, ![m, N]⟩) (hD : D = DotDims.plain m K N)
    (A : FVec Ideal ⟨2, ![m, K]⟩ .f32) (W : FVec Ideal ⟨2, ![K, N]⟩ .f32) (r : Fin m) (j : Fin N) :
    matmul D none A W (constant ⟨2, ![m, N]⟩ .f32 0x00000000#32) (ix2 r j) = ∑ k : Fin K, A (ix2 r k) * W (ix2 k j) := by
  rw [matmul_zero_eq_dotGeneral]
  exact dot_entry D hD A W r j

/-- One row laid under every row of a block (after a cast to its own shape): entry (r, j) is the row's entry j. -/
theorem rowTo_entry (v : (⟨2, ![1, N]⟩ : Shape).Idx → α) (h1 : (⟨2, ![1, N]⟩ : Shape).ShapeCasts ⟨2, ![1, N]⟩)
    (h2 : (⟨2, ![1, N]⟩ : Shape).Broadcasts ⟨2, ![m, N]⟩) (r : Fin m) (j : Fin N) :
    broadcastTo ⟨2, ![m, N]⟩ (shapeCast ⟨2, ![1, N]⟩ v h1) h2 (ix2 r j) = v (ix2 (0 : Fin 1) j) := by
  rw [shapeCast_self]
  exact broadcastTo_1b_ab_apply v h2 r j

/-- A vector made a one-row matrix and then laid under every row of an array: entry (r, j) is the vector's entry j. -/
theorem rowIn_entry (c : (⟨1, ![N]⟩ : Shape).Idx → α) (h3 : (⟨1, ![N]⟩ : Shape).BroadcastsInDim ⟨2, ![1, N]⟩ ![1])
    (h4 : (⟨2, ![1, N]⟩ : Shape).BroadcastsInDim ⟨2, ![m, N]⟩ ![0, 1]) (r : Fin m) (j : Fin N) :
    broadcastInDim ⟨2, ![m, N]⟩ ![0, 1] h4 (broadcastInDim ⟨2, ![1, N]⟩ ![1] h3 c) (ix2 r j) = c (ix1 j) := by
  rw [broadcastInDim_oneRow_apply]
  refine broadcastInDim_apply ![1] h3 c (ix2 (0 : Fin 1) j) (ix1 j) fun a => ?_
  match a with
  | ⟨0, _⟩ =>
    show j.val = if N = 1 then 0 else j.val
    split
    · have := j.isLt; omega
    · rfl

/-- A dense layer — a product with a weight matrix plus a bias row — of a block, read at an entry, is the same layer
    of the whole array at the corresponding row, when the block's rows are the array's. -/
theorem dense_row (ρ : Fin m → Fin m')
    (Dk : DotDims ⟨2, ![m, K]⟩ ⟨2, ![K, N]⟩ ⟨2, ![m, N]⟩) (Dr : DotDims ⟨2, ![m', K]⟩ ⟨2, ![K, N]⟩ ⟨2, ![m', N]⟩)
    (A : FVec Ideal ⟨2, ![m, K]⟩ .f32) (A' : FVec Ideal ⟨2, ![m', K]⟩ .f32)
    (W : FVec Ideal ⟨2, ![K, N]⟩ .f32) (hW : (⟨2, ![K, N]⟩ : Shape).ShapeCasts ⟨2, ![K, N]⟩)
    (cr : FVec Ideal ⟨2, ![1, N]⟩ .f32) (c : FVec Ideal ⟨1, ![N]⟩ .f32)
    (h1 : (⟨2, ![1, N]⟩ : Shape).ShapeCasts ⟨2, ![1, N]⟩) (h2 : (⟨2, ![1, N]⟩ : Shape).Broadcasts ⟨2, ![m, N]⟩)
    (h3 : (⟨1, ![N]⟩ : Shape).BroadcastsInDim ⟨2, ![1, N]⟩ ![1])
    (h4 : (⟨2, ![1, N]⟩ : Shape).BroadcastsInDim ⟨2, ![m', N]⟩ ![0, 1])
    (hDk : Dk = DotDims.plain m K N) (hDr : Dr = DotDims.plain m' K N)
    (hA : ∀ (r : Fin m) (k : Fin K), A (ix2 r k) = A' (ix2 (ρ r) k))
    (hc : ∀ j : Fin N, cr (ix2 (0 : Fin 1) j) = c (ix1 j)) (r : Fin m) (j : Fin N) :
    addf (matmul Dk none A (shapeCast ⟨2, ![K, N]⟩ W hW) (constant ⟨2, ![m, N]⟩ .f32 0x00000000#32))
        (broadcastTo ⟨2, ![m, N]⟩ (shapeCast ⟨2, ![1, N]⟩ cr h1) h2) (ix2 r j)
      = addf (Host.dotGeneral Dr none A' W)
        (broadcastInDim ⟨2, ![m', N]⟩ ![0, 1] h4 (broadcastInDim ⟨2, ![1, N]⟩ ![1] h3 c)) (ix2 (ρ r) j) := by
  rw [addf_apply, addf_apply, shapeCast_self, matmul_entry Dk hDk, dot_entry Dr hDr, rowTo_entry, rowIn_entry, hc]
  exact congrArg (· + c (ix1 j)) (Finset.sum_congr rfl fun k _ => by rw [hA])

/-- The rectifier — the maximum with a broadcast zero — of a block's entry is that of the array's entry. -/
theorem relu_row (ρ : Fin m → Fin m') (H : FVec Ideal ⟨2, ![m, N]⟩ .f32) (H' : FVec Ideal ⟨2, ![m', N]⟩ .f32)
    (h0 : (⟨0, ![]⟩ : Shape).BroadcastsInDim ⟨2, ![m', N]⟩ ![])
    (hH : ∀ (r : Fin m) (j : Fin N), H (ix2 r j) = H' (ix2 (ρ r) j)) (r : Fin m) (j : Fin N) :
    maximumf H (broadcast ⟨2, ![m, N]⟩ (Scalar.ofBits (F := Ideal) .f32 0x00000000#32)) (ix2 r j)
      = maximumf H' (broadcastInDim ⟨2, ![m', N]⟩ ![] h0 (constant (F := Ideal) ⟨0, ![]⟩ .f32 0x00000000#32)) (ix2 (ρ r) j) := by
  rw [maximumf_apply, maximumf_apply, hH]
  rfl

/-- The normalised rows: (x − mean) · rsqrt (variance + ε) · scale + shift, the four row vectors laid under every row. -/
theorem norm_row (ρ : Fin m → Fin m') (e : BitVec 32)
    (Mb : FVec Ideal ⟨2, ![m, K]⟩ .f32) (M : FVec Ideal ⟨2, ![m', K]⟩ .f32)
    (mu1 var1 g1 b1 : FVec Ideal ⟨2, ![1, K]⟩ .f32) (mu var g b : FVec Ideal ⟨1, ![K]⟩ .f32)
    (hs : (⟨2, ![m, K]⟩ : Shape).ShapeCasts ⟨2, ![m, K]⟩)
    (h1 : (⟨2, ![1, K]⟩ : Shape).ShapeCasts ⟨2, ![1, K]⟩) (h2 : (⟨2, ![1, K]⟩ : Shape).Broadcasts ⟨2, ![m, K]⟩)
    (h0 : (⟨0, ![]⟩ : Shape).BroadcastsInDim ⟨1, ![K]⟩ ![])
    (h3 : (⟨1, ![K]⟩ : Shape).BroadcastsInDim ⟨2, ![1, K]⟩ ![1])
    (h4 : (⟨2, ![1, K]⟩ : Shape).BroadcastsInDim ⟨2, ![m', K]⟩ ![0, 1])
    (hM : ∀ (r : Fin m) (k : Fin K), Mb (ix2 r k) = M (ix2 (ρ r) k))
    (hmu : ∀ k : Fin K, mu1 (ix2 (0 : Fin 1) k) = mu (ix1 k)) (hvar : ∀ k : Fin K, var1 (ix2 (0 : Fin 1) k) = var (ix1 k))
    (hg : ∀ k : Fin K, g1 (ix2 (0 : Fin 1) k) = g (ix1 k)) (hb : ∀ k : Fin K, b1 (ix2 (0 : Fin 1) k) = b (ix1 k))
    (r : Fin m) (k : Fin K) :
    addf (mulf (mulf (subf (shapeCast ⟨2, ![m, K]⟩ Mb hs) (broadcastTo ⟨2, ![m, K]⟩ (shapeCast ⟨2, ![1, K]⟩ mu1 h1) h2))
          (broadcastTo ⟨2, ![m, K]⟩
            (rsqrt (addf (shapeCast ⟨2, ![1, K]⟩ var1 h1) (broadcast ⟨2, ![1, K]⟩ (Scalar.ofBits (F := Ideal) .f32 e)))) h2))
        (broadcastTo ⟨2, ![m, K]⟩ (shapeCast ⟨2, ![1, K]⟩ g1 h1) h2))
      (broadcastTo ⟨2, ![m, K]⟩ (shapeCast ⟨2, ![1, K]⟩ b1 h1) h2) (ix2 r k)
    = addf (mulf (mulf (subf M (broadcastInDim ⟨2, ![m', K]⟩ ![0, 1] h4 (broadcastInDim ⟨2, ![1, K]⟩ ![1] h3 mu)))
          (broadcastInDim ⟨2, ![m', K]⟩ ![0, 1] h4 (broadcastInDim ⟨2, ![1, K]⟩ ![1] h3
            (Host.rsqrt (addf var (broadcastInDim ⟨1, ![K]⟩ ![] h0 (constant (F := Ideal) ⟨0, ![]⟩ .f32 e)))))))
        (broadcastInDim ⟨2, ![m', K]⟩ ![0, 1] h4 (broadcastInDim ⟨2, ![1, K]⟩ ![1] h3 g)))
      (broadcastInDim ⟨2, ![m', K]⟩ ![0, 1] h4 (broadcastInDim ⟨2, ![1, K]⟩ ![1] h3 b)) (ix2 (ρ r) k) := by
  rw [addf_apply, mulf_apply, mulf_apply, subf_apply, addf_apply, mulf_apply, mulf_apply, subf_apply]
  rw [shapeCast_self, rowTo_entry, rowTo_entry, rowTo_entry, broadcastTo_1b_ab_apply,
    rowIn_entry, rowIn_entry, rowIn_entry, rowIn_entry, hM, hmu, hg, hb]
  show _ * Ideal.rsqrt (shapeCast ⟨2, ![1, K]⟩ var1 h1 (ix2 (0 : Fin 1) k) + Ideal.ofBits .f32 e) * _ + _
    = _ * Ideal.rsqrt (var (ix1 k) + Ideal.ofBits .f32 e) * _ + _
  rw [shapeCast_self, hvar]

/-- The residual step x + c · y (c a broadcast constant) of a block's entry is that of the array's entry. -/
theorem resid_row (ρ : Fin m → Fin m') (e : BitVec 32)
    (Xb Y : FVec Ideal ⟨2, ![m, N]⟩ .f32) (X Y' : FVec Ideal ⟨2, ![m', N]⟩ .f32)
    (hs : (⟨2, ![m, N]⟩ : Shape).ShapeCasts ⟨2, ![m, N]⟩) (h0 : (⟨0, ![]⟩ : Shape).BroadcastsInDim ⟨2, ![m', N]⟩ ![])
    (hX : ∀ (r : Fin m) (j : Fin N), Xb (ix2 r j) = X (ix2 (ρ r) j))
    (hY : ∀ (r : Fin m) (j : Fin N), Y (ix2 r j) = Y' (ix2 (ρ r) j)) (r : Fin m) (j : Fin N) :
    addf (shapeCast ⟨2, ![m, N]⟩ Xb hs) (mulf (broadcast ⟨2, ![m, N]⟩ (Scalar.ofBits (F := Ideal) .f32 e)) Y) (ix2 r j)
      = addf X (mulf (broadcastInDim ⟨2, ![m', N]⟩ ![] h0 (constant (F := Ideal) ⟨0, ![]⟩ .f32 e)) Y') (ix2 (ρ r) j) := by
  rw [addf_apply, addf_apply, mulf_apply, mulf_apply, shapeCast_self, hX, hY]
  rfl

end Rows

/-! ## The reference's update of the node features, from the normalisation on

The operations of the reference between the subtraction of the mean and the updated node features, composed as the
reference prints them, with the mean and the variance vectors as arguments. -/

section Reference
open Cert.ReferenceIdeal Cert.ReferenceIdeal.Facts₀

/-- The hidden features after the second dense layer: normalise the aggregated messages, a dense layer 87 → 200, the
    rectifier, a dense layer 200 → 200. -/
def refHidden (M : FVec Ideal S50000x87 .f32) (mu var g b : FVec Ideal S87 .f32)
    (w1 : FVec Ideal S87x200 .f32) (c1 : FVec Ideal S200 .f32) (w2 : FVec Ideal S200x200 .f32) (c2 : FVec Ideal S200 .f32) :
    FVec Ideal S50000x200 .f32 :=
  have v59 : FVec Ideal S1x87 .f32 := broadcastInDim S1x87 ![1] bcast_S87_S1x87_1 mu
  have v60 : FVec Ideal S50000x87 .f32 := broadcastInDim S50000x87 ![0, 1] bcast_S1x87_S50000x87_0_1 v59
  have v61 : FVec Ideal S50000x87 .f32 := subf M v60
  have cst_8 : FVec Ideal S_ .f32 := constant (F := Ideal) S_ .f32 0x3727C5AC#32
  have v62 : FVec Ideal S87 .f32 := broadcastInDim S87 ![] bcast_S_S87 cst_8
  have v63 : FVec Ideal S87 .f32 := addf var v62
  have v64 : FVec Ideal S87 .f32 := Host.rsqrt v63
  have v65 : FVec Ideal S1x87 .f32 := broadcastInDim S1x87 ![1] bcast_S87_S1x87_1 v64
  have v66 : FVec Ideal S50000x87 .f32 := broadcastInDim S50000x87 ![0, 1] bcast_S1x87_S50000x87_0_1 v65
  have v67 : FVec Ideal S50000x87 .f32 := mulf v61 v66
  have v68 : FVec Ideal S1x87 .f32 := broadcastInDim S1x87 ![1] bcast_S87_S1x87_1 g
  have v69 : FVec Ideal S50000x87 .f32 := broadcastInDim S50000x87 ![0, 1] bcast_S1x87_S50000x87_0_1 v68
  have v70 : FVec Ideal S50000x87 .f32 := mulf v67 v69
  have v71 : FVec Ideal S1x87 .f32 := broadcastInDim S1x87 ![1] bcast_S87_S1x87_1 b
  have v72 : FVec Ideal S50000x87 .f32 := broadcastInDim S50000x87 ![0, 1] bcast_S1x87_S50000x87_0_1 v71
  have v73 : FVec Ideal S50000x87 .f32 := addf v70 v72
  have v74 : FVec Ideal S50000x200 .f32 := Host.dotGeneral dot_S50000x87_S87x200_S50000x200_1_0_0_1_n_n none v73 w1
  have v75 : FVec Ideal S1x200 .f32 := broadcastInDim S1x200 ![1] bcast_S200_S1x200_1 c1
  have v76 : FVec Ideal S50000x200 .f32 := broadcastInDim S50000x200 ![0, 1] bcast_S1x200_S50000x200_0_1 v75
  have v77 : FVec Ideal S50000x200 .f32 := addf v74 v76
  have call0_cst : FVec Ideal S_ .f32 := constant (F := Ideal) S_ .f32 0x00000000#32
  have call0_v0 : FVec Ideal S50000x200 .f32 := broadcastInDim S50000x200 ![] bcast_S_S50000x200 call0_cst
  have v78 : FVec Ideal S50000x200 .f32 := maximumf v77 call0_v0
  have v79 : FVec Ideal S50000x200 .f32 := Host.dotGeneral dot_S50000x200_S200x200_S50000x200_1_0_0_1_n_n none v78 w2
  have v80 : FVec Ideal S1x200 .f32 := broadcastInDim S1x200 ![1] bcast_S200_S1x200_1 c2
  have v81 : FVec Ideal S50000x200 .f32 := broadcastInDim S50000x200 ![0, 1] bcast_S1x200_S50000x200_0_1 v80
  have v82 : FVec Ideal S50000x200 .f32 := addf v79 v81
  v82

/-- From the hidden features to the updated node features: the rectifier, a dense layer 200 → 200, the rectifier, a
    dense layer 200 → 64, and the residual step x + 0.1 · that. -/
def refTail (H : FVec Ideal S50000x200 .f32) (X : FVec Ideal S50000x64 .f32)
    (w3 : FVec Ideal S200x200 .f32) (c3 : FVec Ideal S200 .f32) (w4 : FVec Ideal S200x64 .f32) (c4 : FVec Ideal S64 .f32) :
    FVec Ideal S50000x64 .f32 :=
  have call1_cst : FVec Ideal S_ .f32 := constant (F := Ideal) S_ .f32 0x00000000#32
  have call1_v0 : FVec Ideal S50000x200 .f32 := broadcastInDim S50000x200 ![] bcast_S_S50000x200 call1_cst
  have v83 : FVec Ideal S50000x200 .f32 := maximumf H call1_v0
  have v84 : FVec Ideal S50000x200 .f32 := Host.dotGeneral dot_S50000x200_S200x200_S50000x200_1_0_0_1_n_n none v83 w3
  have v85 : FVec Ideal S1x200 .f32 := broadcastInDim S1x200 ![1] bcast_S200_S1x200_1 c3
  have v86 : FVec Ideal S50000x200 .f32 := broadcastInDim S50000x200 ![0, 1] bcast_S1x200_S50000x200_0_1 v85
  have v87 : FVec Ideal S50000x200 .f32 := addf v84 v86
  have call2_cst : FVec Ideal S_ .f32 := constant (F := Ideal) S_ .f32 0x00000000#32
  have call2_v0 : FVec Ideal S50000x200 .f32 := broadcastInDim S50000x200 ![] bcast_S_S50000x200 call2_cst
  have v88 : FVec Ideal S50000x200 .f32 := maximumf v87 call2_v0
  have v89 : FVec Ideal S50000x64 .f32 := Host.dotGeneral dot_S50000x200_S200x64_S50000x64_1_0_0_1_n_n none v88 w4
  have v90 : FVec Ideal S1x64 .f32 := broadcastInDim S1x64 ![1] bcast_S64_S1x64_1 c4
  have v91 : FVec Ideal S50000x64 .f32 := broadcastInDim S50000x64 ![0, 1] bcast_S1x64_S50000x64_0_1 v90
  have v92 : FVec Ideal S50000x64 .f32 := addf v89 v91
  have cst_9 : FVec Ideal S_ .f32 := constant (F := Ideal) S_ .f32 0x3DCCCCCD#32
  have v93 : FVec Ideal S50000x64 .f32 := broadcastInDim S50000x64 ![] bcast_S_S50000x64 cst_9
  have v94 : FVec Ideal S50000x64 .f32 := mulf v93 v92
  have v95 : FVec Ideal S50000x64 .f32 := addf X v94
  v95

/-- The updated node features of one pass, from the aggregated messages M, the node features X, the mean and variance
    vectors of M's columns, and the pass's parameters. -/
def refUpdate (M : FVec Ideal S50000x87 .f32) (X : FVec Ideal S50000x64 .f32) (mu var g b : FVec Ideal S87 .f32)
    (w1 : FVec Ideal S87x200 .f32) (c1 : FVec Ideal S200 .f32) (w2 : FVec Ideal S200x200 .f32) (c2 : FVec Ideal S200 .f32)
    (w3 : FVec Ideal S200x200 .f32) (c3 : FVec Ideal S200 .f32) (w4 : FVec Ideal S200x64 .f32) (c4 : FVec Ideal S64 .f32) :
    FVec Ideal S50000x64 .f32 :=
  refTail (refHidden M mu var g b w1 c1 w2 c2) X w3 c3 w4 c4

end Reference

/-! ## A block of a launch against the reference -/

/-- Row r of block t of the five blocks of 10000 rows. -/
abbrev blockRow (t : Fin 5) (r : Fin 10000) : Fin 50000 := ⟨10000 * t.val + r.val, by have := t.isLt; have := r.isLt; omega⟩

section Block
open Cert.ReferenceIdeal

/-- The first part of a launch's arithmetic at an entry of block t is the reference's hidden features at the block's row. -/
theorem hidden_block (t : Fin 5) (M : FVec Ideal S50000x87 .f32) (mu var g b : FVec Ideal S87 .f32)
    (w1 : FVec Ideal S87x200 .f32) (c1 : FVec Ideal S200 .f32) (w2 : FVec Ideal S200x200 .f32) (c2 : FVec Ideal S200 .f32)
    (Mb : FVec Ideal KernelIdeal.S10000x87 .f32) (mu1 var1 g1 b1 : FVec Ideal KernelIdeal.S1x87 .f32)
    (c1r c2r : FVec Ideal KernelIdeal.S1x200 .f32)
    (hM : ∀ (r : Fin 10000) (k : Fin 87), Mb (ix2 r k) = M (ix2 (blockRow t r) k))
    (hmu : ∀ k : Fin 87, mu1 (ix2 (0 : Fin 1) k) = mu (ix1 k)) (hvar : ∀ k : Fin 87, var1 (ix2 (0 : Fin 1) k) = var (ix1 k))
    (hg : ∀ k : Fin 87, g1 (ix2 (0 : Fin 1) k) = g (ix1 k)) (hb : ∀ k : Fin 87, b1 (ix2 (0 : Fin 1) k) = b (ix1 k))
    (hc1 : ∀ k : Fin 200, c1r (ix2 (0 : Fin 1) k) = c1 (ix1 k)) (hc2 : ∀ k : Fin 200, c2r (ix2 (0 : Fin 1) k) = c2 (ix1 k))
    (r : Fin 10000) (j : Fin 200) :
    KernelIdeal.Gen.k0_pay2 Mb mu1 var1 g1 b1 w1 c1r w2 c2r (ix2 r j)
      = refHidden M mu var g b w1 c1 w2 c2 (ix2 (blockRow t r) j) := by
  unfold KernelIdeal.Gen.k0_pay2 refHidden
  exact dense_row (blockRow t) _ _ _ _ _ _ _ _ _ _ _ _ rfl rfl
    (fun r k => relu_row (blockRow t) _ _ _
      (fun r k => dense_row (blockRow t) _ _ _ _ _ _ _ _ _ _ _ _ rfl rfl
        (fun r k => norm_row (blockRow t) _ _ _ _ _ _ _ _ _ _ _ _ _ _ _ _ _ hM hmu hvar hg hb r k) hc1 r k) r k) hc2 r j

end Block

section Block2
open Cert.ReferenceIdeal

/-- The second part of a launch's arithmetic at an entry of block t, from hidden features that are the reference's at
    the block's rows, is the reference's updated node features at the block's row. -/
theorem tail_block (t : Fin 5) (H' : FVec Ideal S50000x200 .f32) (X : FVec Ideal S50000x64 .f32)
    (w3 : FVec Ideal S200x200 .f32) (c3 : FVec Ideal S200 .f32) (w4 : FVec Ideal S200x64 .f32) (c4 : FVec Ideal S64 .f32)
    (H : FVec Ideal KernelIdeal.S10000x200 .f32) (Xb : FVec Ideal KernelIdeal.S10000x64 .f32)
    (c3r : FVec Ideal KernelIdeal.S1x200 .f32) (c4r : FVec Ideal KernelIdeal.S1x64 .f32)
    (hH : ∀ (r : Fin 10000) (k : Fin 200), H (ix2 r k) = H' (ix2 (blockRow t r) k))
    (hX : ∀ (r : Fin 10000) (k : Fin 64), Xb (ix2 r k) = X (ix2 (blockRow t r) k))
    (hc3 : ∀ k : Fin 200, c3r (ix2 (0 : Fin 1) k) = c3 (ix1 k)) (hc4 : ∀ k : Fin 64, c4r (ix2 (0 : Fin 1) k) = c4 (ix1 k))
    (r : Fin 10000) (j : Fin 64) :
    KernelIdeal.Gen.k0_pay1 H w3 c3r w4 c4r Xb (ix2 r j) = refTail H' X w3 c3 w4 c4 (ix2 (blockRow t r) j) := by
  unfold KernelIdeal.Gen.k0_pay1 refTail
  exact resid_row (blockRow t) _ _ _ _ _ _ _ hX
    (fun r k => dense_row (blockRow t) _ _ _ _ _ _ _ _ _ _ _ _ rfl rfl
      (fun r k => relu_row (blockRow t) _ _ _
        (fun r k => dense_row (blockRow t) _ _ _ _ _ _ _ _ _ _ _ _ rfl rfl
          (fun r k => relu_row (blockRow t) _ _ _ hH r k) hc3 r k) r k) hc4 r k) r j

/-- WHAT A LAUNCH STORES FOR BLOCK t IS THE REFERENCE'S UPDATE AT THE BLOCK'S ROWS: entry (r, j) of the stored block is
    entry (10000 t + r, j) of the reference's updated node features, when the launch's blocks of the messages and of the
    node features are the arrays' rows 10000 t …, and its one-row blocks are the row vectors. -/
theorem update_block (t : Fin 5) (M : FVec Ideal S50000x87 .f32) (X : FVec Ideal S50000x64 .f32)
    (mu var g b : FVec Ideal S87 .f32)
    (w1 : FVec Ideal S87x200 .f32) (c1 : FVec Ideal S200 .f32) (w2 : FVec Ideal S200x200 .f32) (c2 : FVec Ideal S200 .f32)
    (w3 : FVec Ideal S200x200 .f32) (c3 : FVec Ideal S200 .f32) (w4 : FVec Ideal S200x64 .f32) (c4 : FVec Ideal S64 .f32)
    (Mb : FVec Ideal KernelIdeal.S10000x87 .f32) (Xb : FVec Ideal KernelIdeal.S10000x64 .f32)
    (mu1 var1 g1 b1 : FVec Ideal KernelIdeal.S1x87 .f32)
    (c1r c2r c3r : FVec Ideal KernelIdeal.S1x200 .f32) (c4r : FVec Ideal KernelIdeal.S1x64 .f32)
    (hM : ∀ (r : Fin 10000) (k : Fin 87), Mb (ix2 r k) = M (ix2 (blockRow t r) k))
    (hX : ∀ (r : Fin 10000) (k : Fin 64), Xb (ix2 r k) = X (ix2 (blockRow t r) k))
    (hmu : ∀ k : Fin 87, mu1 (ix2 (0 : Fin 1) k) = mu (ix1 k)) (hvar : ∀ k : Fin 87, var1 (ix2 (0 : Fin 1) k) = var (ix1 k))
    (hg : ∀ k : Fin 87, g1 (ix2 (0 : Fin 1) k) = g (ix1 k)) (hb : ∀ k : Fin 87, b1 (ix2 (0 : Fin 1) k) = b (ix1 k))
    (hc1 : ∀ k : Fin 200, c1r (ix2 (0 : Fin 1) k) = c1 (ix1 k)) (hc2 : ∀ k : Fin 200, c2r (ix2 (0 : Fin 1) k) = c2 (ix1 k))
    (hc3 : ∀ k : Fin 200, c3r (ix2 (0 : Fin 1) k) = c3 (ix1 k)) (hc4 : ∀ k : Fin 64, c4r (ix2 (0 : Fin 1) k) = c4 (ix1 k))
    (r : Fin 10000) (j : Fin 64) :
    KernelIdeal.Gen.k0_pay1 (KernelIdeal.Gen.k0_pay2 Mb mu1 var1 g1 b1 w1 c1r w2 c2r) w3 c3r w4 c4r Xb (ix2 r j)
      = refUpdate M X mu var g b w1 c1 w2 c2 w3 c3 w4 c4 (ix2 (blockRow t r) j) :=
  tail_block t _ X w3 c3 w4 c4 _ Xb c3r c4r
    (hidden_block t M mu var g b w1 c1 w2 c2 Mb mu1 var1 g1 b1 c1r c2r hM hmu hvar hg hb hc1 hc2) hX hc3 hc4 r j

/-- The other two update launches run the same arithmetic. -/
theorem k1_pay2_eq : @KernelIdeal.Gen.k1_pay2 = @KernelIdeal.Gen.k0_pay2 := rfl
theorem k1_pay1_eq : @KernelIdeal.Gen.k1_pay1 = @KernelIdeal.Gen.k0_pay1 := rfl
theorem k2_pay2_eq : @KernelIdeal.Gen.k2_pay2 = @KernelIdeal.Gen.k0_pay2 := rfl
theorem k2_pay1_eq : @KernelIdeal.Gen.k2_pay1 = @KernelIdeal.Gen.k0_pay1 := rfl

end Block2

end Cert.UpdateLayer
-- ==== Proof.IdealValue0.lean ====
/-
  What update launch 0 leaves in its output array: the reference's update layer of the arrays it is entered at.

  At grid point `t` the body stores, at row `r` of its block, the update layer's value at row `10000 t + r`: the block of the
  messages and of the node features are those rows, the weights are read whole, and each one-row operand is the row form of
  a vector. The five blocks tile the output's rows.
-/
import proofs.«131956_j5523327942769_1_alg».proof.Proof.IdealFinal0
import proofs.«131956_j5523327942769_1_alg».proof.Proof.UpdateLayer

set_option maxRecDepth 16384

noncomputable section

namespace Cert.KernelIdeal.Value0

open Idealize.ShloMosaic Idealize.ShloMosaic.TcCoe Idealize.SL.Sem Idealize.ShloMosaic.ValueIdx
open Cert.KernelIdeal Cert.KernelIdeal.Gen Cert.UpdateLayer

variable (V : (c : Dev nD) → (b : Ref sig .tc) → Buf (Elt Ideal) ((c : Thread nD τ).loc b))

theorem value (c : Dev nD) (mu var g b : FVec Ideal Cert.ReferenceIdeal.S87 .f32) (c1 c2 c3 : FVec Ideal Cert.ReferenceIdeal.S200 .f32) (c4 : FVec Ideal Cert.ReferenceIdeal.S64 .f32)
    (hmu : ∀ k : Fin 87, (V c main_v59 : FVec Ideal S1x87 .f32) (ix2 (0 : Fin 1) k) = mu (ix1 k))
    (hvar : ∀ k : Fin 87, (V c main_v60 : FVec Ideal S1x87 .f32) (ix2 (0 : Fin 1) k) = var (ix1 k))
    (hg : ∀ k : Fin 87, (V c main_v61 : FVec Ideal S1x87 .f32) (ix2 (0 : Fin 1) k) = g (ix1 k))
    (hb : ∀ k : Fin 87, (V c main_v62 : FVec Ideal S1x87 .f32) (ix2 (0 : Fin 1) k) = b (ix1 k))
    (hc1 : ∀ k : Fin 200, (V c main_v63 : FVec Ideal S1x200 .f32) (ix2 (0 : Fin 1) k) = c1 (ix1 k))
    (hc2 : ∀ k : Fin 200, (V c main_v64 : FVec Ideal S1x200 .f32) (ix2 (0 : Fin 1) k) = c2 (ix1 k))
    (hc3 : ∀ k : Fin 200, (V c main_v65 : FVec Ideal S1x200 .f32) (ix2 (0 : Fin 1) k) = c3 (ix1 k))
    (hc4 : ∀ k : Fin 64, (V c main_v66 : FVec Ideal S1x64 .f32) (ix2 (0 : Fin 1) k) = c4 (ix1 k)) :
    (Launch0.dat V c).arrAt 14 cfg0.N
      = (refUpdate (V c main_v28) (V c main_v17) mu var g b (V c main_v44) c1 (V c main_v48) c2 (V c main_v52) c3 (V c main_v56) c4 : S50000x64.Idx → Elt Ideal .f32) := by
  refine Final0.final V c _ fun t y => ?_
  obtain ⟨r, j, rfl⟩ : ∃ (r : Fin 10000) (j : Fin 64), y = ix2 r j := ⟨y 0, y 1, eq_ix2 y⟩
  have ht : t.val < 5 := N_0 ▸ t.isLt
  rw [Final0.blk2_eq V c t, Final0.blk3_eq V c t, Final0.blk4_eq V c t, Final0.blk5_eq V c t, Final0.blk6_eq V c t, Final0.blk7_eq V c t, Final0.blk8_eq V c t, Final0.blk9_eq V c t, Final0.blk10_eq V c t, Final0.blk11_eq V c t, Final0.blk12_eq V c t, Final0.blk13_eq V c t]
  unfold Launch0.out
  refine (update_block ⟨t.val, ht⟩ (V c main_v28) (V c main_v17) mu var g b (V c main_v44) c1 (V c main_v48) c2 (V c main_v52) c3 (V c main_v56) c4
    (Launch0.iblk V c 0 t) (Launch0.iblk V c 1 t) (V c main_v59) (V c main_v60) (V c main_v61) (V c main_v62) (V c main_v63) (V c main_v64) (V c main_v65) (V c main_v66)
    (fun r k => Final0.blk0_apply V c t (ix2 r k) (ix2 (blockRow ⟨t.val, ht⟩ r) k) rfl rfl)
    (fun r k => Final0.blk1_apply V c t (ix2 r k) (ix2 (blockRow ⟨t.val, ht⟩ r) k) rfl rfl)
    hmu hvar hg hb hc1 hc2 hc3 hc4 r j).trans ?_
  refine congrArg _ (funext fun a => Fin.ext ?_)
  obtain ⟨h0, h1⟩ := Final0.emb_row t (ix2 r j)
  match a with
  | ⟨0, _⟩ => exact h0.symm
  | ⟨1, _⟩ => exact h1.symm

end Cert.KernelIdeal.Value0

end
-- ==== Proof.IdealFinal1.lean ====
/-
  Launch 1's output array as one function of the arrays the launch is entered at.

  The grid has five points; point `t` reads rows `10000 t … 10000 t + 9999` of each row-blocked operand, every small operand
  whole, and writes back rows `10000 t …` of the output. So if the value the body stores, read at row `r` of its block, is a
  function `G` of the arrays read at row `10000 t + r`, the output array ends holding `G`: the five blocks tile its rows.
-/
import proofs.«131956_j5523327942769_1_alg».proof.Proof.IdealLaunch1
import Idealize.ShloMosaic.Lib.Pipeline.Value
import Idealize.ShloMosaic.Lib.ValueIdx

set_option maxRecDepth 16384

noncomputable section

namespace Cert.KernelIdeal.Final1

open Idealize.ShloMosaic Idealize.ShloMosaic.TcCoe Idealize.SL.Sem
open Idealize.ShloMosaic.Pipeline (Dat)
open Cert.KernelIdeal Cert.KernelIdeal.Gen Cert.KernelIdeal.Launch1

variable {F : FTy → Type} [FloatOps F]
variable (V : (c : Dev nD) → (b : Ref sig .tc) → Buf (Elt F) ((c : Thread nD τ).loc b))

/-- The printed index maps over the grid: a row-blocked window's block index is the point's number on the rows and 0 on
    the columns; a small window's is 0 on both. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = 0
    ∧ win1_13.index t (1 : Fin 2) = 0
    ∧ win1_14.index t (0 : Fin 2) = t.val
    ∧ win1_14.index t (1 : Fin 2) = 0 :=
  (by decide +kernel : ∀ t : Fin grid1.N, _)

/-- Window 0's block at point `t` is rows `10000 t …` of `main_v78`. -/
theorem blk0_apply (c : Dev nD) (t : Fin cfg1.N) (y : S10000x87.Idx) (i : S50000x87.Idx)
    (h0 : (i 0).val = 10000 * t.val + (y 0).val) (h1 : (i 1).val = (y 1).val) :
    iblk V c 0 t y = V c main_v78 i := by
  obtain ⟨e0, e1, e2, e3, e4, e5, e6, e7, e8, e9, e10, e11, e12, e13, e14, e15, e16, e17, e18, e19, e20, e21, e22, e23, e24, e25, e26, e27, e28, e29⟩ := idx_facts t
  show V c main_v78 (((cfg1.win 0).blk t).view.emb y) = V c main_v78 i
  refine congrArg _ (funext fun a => Fin.ext ?_)
  match a with
  | ⟨0, _⟩ => show win1_0.index t (0 : Fin 2) * 10000 + 1 * (y 0).val = (i 0).val; omega
  | ⟨1, _⟩ => show win1_0.index t (1 : Fin 2) * 87 + 1 * (y 1).val = (i 1).val; omega
/-- Window 1's block at point `t` is rows `10000 t …` of `main_v67`. -/
theorem blk1_apply (c : Dev nD) (t : Fin cfg1.N) (y : S10000x64.Idx) (i : S50000x64.Idx)
    (h0 : (i 0).val = 10000 * t.val + (y 0).val) (h1 : (i 1).val = (y 1).val) :
    iblk V c 1 t y = V c main_v67 i := by
  obtain ⟨e0, e1, e2, e3, e4, e5, e6, e7, e8, e9, e10, e11, e12, e13, e14, e15, e16, e17, e18, e19, e20, e21, e22, e23, e24, e25, e26, e27, e28, e29⟩ := idx_facts t
  show V c main_v67 (((cfg1.win 1).blk t).view.emb y) = V c main_v67 i
  refine congrArg _ (funext fun a => Fin.ext ?_)
  match a with
  | ⟨0, _⟩ => show win1_1.index t (0 : Fin 2) * 10000 + 1 * (y 0).val = (i 0).val; omega
  | ⟨1, _⟩ => show win1_1.index t (1 : Fin 2) * 64 + 1 * (y 1).val = (i 1).val; omega
/-- Window 2's block at every point is the whole of `main_v109`. -/
theorem blk2_eq (c : Dev nD) (t : Fin cfg1.N) : iblk V c 2 t = (V c main_v109 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v109 (((cfg1.win 2).blk t).view.emb y) = V c main_v109 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 87 + 1 * (y 1).val = (y 1).val; omega
/-- Window 3's block at every point is the whole of `main_v110`. -/
theorem blk3_eq (c : Dev nD) (t : Fin cfg1.N) : iblk V c 3 t = (V c main_v110 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v110 (((cfg1.win 3).blk t).view.emb y) = V c main_v110 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 87 + 1 * (y 1).val = (y 1).val; omega
/-- Window 4's block at every point is the whole of `main_v111`. -/
theorem blk4_eq (c : Dev nD) (t : Fin cfg1.N) : iblk V c 4 t = (V c main_v111 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v111 (((cfg1.win 4).blk t).view.emb y) = V c main_v111 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 87 + 1 * (y 1).val = (y 1).val; omega
/-- Window 5's block at every point is the whole of `main_v112`. -/
theorem blk5_eq (c : Dev nD) (t : Fin cfg1.N) : iblk V c 5 t = (V c main_v112 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v112 (((cfg1.win 5).blk t).view.emb y) = V c main_v112 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 87 + 1 * (y 1).val = (y 1).val; omega
/-- Window 6's block at every point is the whole of `main_v94`. -/
theorem blk6_eq (c : Dev nD) (t : Fin cfg1.N) : iblk V c 6 t = (V c main_v94 : S87x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v94 (((cfg1.win 6).blk t).view.emb y) = V c main_v94 y
  refine congrArg _ (funext fun a => Fin.ext ?_)
  match a with
  | ⟨0, _⟩ => show win1_6.index t (0 : Fin 2) * 87 + 1 * (y 0).val = (y 0).val; omega
  | ⟨1, _⟩ => show win1_6.index t (1 : Fin 2) * 200 + 1 * (y 1).val = (y 1).val; omega
/-- Window 7's block at every point is the whole of `main_v113`. -/
theorem blk7_eq (c : Dev nD) (t : Fin cfg1.N) : iblk V c 7 t = (V c main_v113 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v113 (((cfg1.win 7).blk t).view.emb y) = V c main_v113 y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 200 + 1 * (y 1).val = (y 1).val; omega
/-- Window 8's block at every point is the whole of `main_v98`. -/
theorem blk8_eq (c : Dev nD) (t : Fin cfg1.N) : iblk V c 8 t = (V c main_v98 : S200x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v98 (((cfg1.win 8).blk t).view.emb y) = V c main_v98 y
  refine congrArg _ (funext fun a => Fin.ext ?_)
  match a with
  | ⟨0, _⟩ => show win1_8.index t (0 : Fin 2) * 200 + 1 * (y 0).val = (y 0).val; omega
  | ⟨1, _⟩ => show win1_8.index t (1 : Fin 2) * 200 + 1 * (y 1).val = (y 1).val; omega
/-- Window 9's block at every point is the whole of `main_v114`. -/
theorem blk9_eq (c : Dev nD) (t : Fin cfg1.N) : iblk V c 9 t = (V c main_v114 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v114 (((cfg1.win 9).blk t).view.emb y) = V c main_v114 y
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 200 + 1 * (y 1).val = (y 1).val; omega
/-- Window 10's block at every point is the whole of `main_v102`. -/
theorem blk10_eq (c : Dev nD) (t : Fin cfg1.N) : iblk V c 10 t = (V c main_v102 : S200x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v102 (((cfg1.win 10).blk t).view.emb y) = V c main_v102 y
  refine congrArg _ (funext fun a => Fin.ext ?_)
  match a with
  | ⟨0, _⟩ => show win1_10.index t (0 : Fin 2) * 200 + 1 * (y 0).val = (y 0).val; omega
  | ⟨1, _⟩ => show win1_10.index t (1 : Fin 2) * 200 + 1 * (y 1).val = (y 1).val; omega
/-- Window 11's block at every point is the whole of `main_v115`. -/
theorem blk11_eq (c : Dev nD) (t : Fin cfg1.N) : iblk V c 11 t = (V c main_v115 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v115 (((cfg1.win 11).blk t).view.emb y) = V c main_v115 y
  refine congrArg _ (funext fun a => Fin.ext ?_)
  match a with
  | ⟨0, _⟩ => show win1_11.index t (0 : Fin 2) * 1 + 1 * (y 0).val = (y 0).val; omega
  | ⟨1, _⟩ => show win1_11.index t (1 : Fin 2) * 200 + 1 * (y 1).val = (y 1).val; omega
/-- Window 12's block at every point is the whole of `main_v106`. -/
theorem blk12_eq (c : Dev nD) (t : Fin cfg1.N) : iblk V c 12 t = (V c main_v106 : S200x64.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v106 (((cfg1.win 12).blk t).view.emb y) = V c main_v106 y
  refine congrArg _ (funext fun a => Fin.ext ?_)
  match a with
  | ⟨0, _⟩ => show win1_12.index t (0 : Fin 2) * 200 + 1 * (y 0).val = (y 0).val; omega
  | ⟨1, _⟩ => show win1_12.index t (1 : Fin 2) * 64 + 1 * (y 1).val = (y 1).val; omega
/-- Window 13's block at every point is the whole of `main_v116`. -/
theorem blk13_eq (c : Dev nD) (t : Fin cfg1.N) : iblk V c 13 t = (V c main_v116 : S1x64.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v116 (((cfg1.win 13).blk t).view.emb y) = V c main_v116 y
  refine congrArg _ (funext fun a => Fin.ext ?_)
  match a with
  | ⟨0, _⟩ => show win1_13.index t (0 : Fin 2) * 1 + 1 * (y 0).val = (y 0).val; omega
  | ⟨1, _⟩ => show win1_13.index t (1 : Fin 2) * 64 + 1 * (y 1).val = (y 1).val; omega

/-- An index of the output array is in point `t`'s block iff its row is among the block's rows. -/
theorem mem_blk (t : Fin cfg1.N) (i : S50000x64.Idx) :
    i ∈ ((cfg1.win 14).blk t).view.set ↔ ∀ a : Fin 2, win1_14.index t a * S10000x64.size a ≤ (i a).val ∧ (i a).val < win1_14.index t a * S10000x64.size a + S10000x64.size a := by
  show i ∈ ((View.whole main_v117).slice (win1_14.rect t)).set ↔ _
  rw [View.set_slice_whole, Rect.mem_set_unit]
  exact Iff.rfl

/-- Every index of the output array is in the block of the point its row falls in. -/
theorem cover (i : S50000x64.Idx) : ∃ t : Fin cfg1.N, (cfg1.win 14).flush t = true ∧ i ∈ ((cfg1.win 14).blk t).view.set := by
  have hi0 : (i 0).val < 50000 := (i 0).isLt
  have hi1 : (i 1).val < 64 := (i 1).isLt
  have hN : cfg1.N = 5 := N_1
  let t : Fin cfg1.N := ⟨(i 0).val / 10000, by rw [hN]; omega⟩
  have ht : t.val = (i 0).val / 10000 := rfl
  obtain ⟨e0, e1, e2, e3, e4, e5, e6, e7, e8, e9, e10, e11, e12, e13, e14, e15, e16, e17, e18, e19, e20, e21, e22, e23, e24, e25, e26, e27, e28, e29⟩ := idx_facts t
  refine ⟨t, flush1_14 t, ?_⟩
  rw [mem_blk]
  intro a
  match a with
  | ⟨0, _⟩ => show win1_14.index t (0 : Fin 2) * 10000 ≤ (i 0).val ∧ (i 0).val < win1_14.index t (0 : Fin 2) * 10000 + 10000; omega
  | ⟨1, _⟩ => show win1_14.index t (1 : Fin 2) * 64 ≤ (i 1).val ∧ (i 1).val < win1_14.index t (1 : Fin 2) * 64 + 64; omega

/-- The row of the output array that row `y 0` of point `t`'s block is. -/
theorem emb_row (t : Fin cfg1.N) (y : S10000x64.Idx) :
    ((((cfg1.win 14).blk t).view.emb y : S50000x64.Idx) 0).val = 10000 * t.val + (y 0).val
    ∧ ((((cfg1.win 14).blk t).view.emb y : S50000x64.Idx) 1).val = (y 1).val := by
  obtain ⟨e0, e1, e2, e3, e4, e5, e6, e7, e8, e9, e10, e11, e12, e13, e14, e15, e16, e17, e18, e19, e20, e21, e22, e23, e24, e25, e26, e27, e28, e29⟩ := idx_facts t
  constructor
  · show win1_14.index t (0 : Fin 2) * 10000 + 1 * (y 0).val = _; omega
  · show win1_14.index t (1 : Fin 2) * 64 + 1 * (y 1).val = _; omega

/-- If what the body stores at point `t`, read inside the block, is `G` read at the array index the block embeds it at, for
    every point, then the output array ends holding `G`. -/
theorem final (c : Dev nD) (G : S50000x64.Idx → Elt F .f32)
    (hG : ∀ (t : Fin cfg1.N) (y : S10000x64.Idx),
      out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) y = G (((cfg1.win 14).blk t).view.emb y)) :
    (dat V c).arrAt 14 cfg1.N = G :=
  (dat V c).arrAt_eq_of_cover 14 G
    (fun t _ => by
      show (cfg1.win 14).cut (grid1.coords t) ((dat V c).after 14 t) = _
      rw [after_out]
      funext y
      exact hG t y)
    cover

end Cert.KernelIdeal.Final1

end
-- ==== Proof.IdealValue1.lean ====
/-
  What update launch 1 leaves in its output array: the reference's update layer of the arrays it is entered at.

  At grid point `t` the body stores, at row `r` of its block, the update layer's value at row `10000 t + r`: the block of the
  messages and of the node features are those rows, the weights are read whole, and each one-row operand is the row form of
  a vector. The five blocks tile the output's rows.
-/
import proofs.«131956_j5523327942769_1_alg».proof.Proof.IdealFinal1
import proofs.«131956_j5523327942769_1_alg».proof.Proof.UpdateLayer

set_option maxRecDepth 16384

noncomputable section

namespace Cert.KernelIdeal.Value1

open Idealize.ShloMosaic Idealize.ShloMosaic.TcCoe Idealize.SL.Sem Idealize.ShloMosaic.ValueIdx
open Cert.KernelIdeal Cert.KernelIdeal.Gen Cert.UpdateLayer

variable (V : (c : Dev nD) → (b : Ref sig .tc) → Buf (Elt Ideal) ((c : Thread nD τ).loc b))

theorem value (c : Dev nD) (mu var g b : FVec Ideal Cert.ReferenceIdeal.S87 .f32) (c1 c2 c3 : FVec Ideal Cert.ReferenceIdeal.S200 .f32) (c4 : FVec Ideal Cert.ReferenceIdeal.S64 .f32)
    (hmu : ∀ k : Fin 87, (V c main_v109 : FVec Ideal S1x87 .f32) (ix2 (0 : Fin 1) k) = mu (ix1 k))
    (hvar : ∀ k : Fin 87, (V c main_v110 : FVec Ideal S1x87 .f32) (ix2 (0 : Fin 1) k) = var (ix1 k))
    (hg : ∀ k : Fin 87, (V c main_v111 : FVec Ideal S1x87 .f32) (ix2 (0 : Fin 1) k) = g (ix1 k))
    (hb : ∀ k : Fin 87, (V c main_v112 : FVec Ideal S1x87 .f32) (ix2 (0 : Fin 1) k) = b (ix1 k))
    (hc1 : ∀ k : Fin 200, (V c main_v113 : FVec Ideal S1x200 .f32) (ix2 (0 : Fin 1) k) = c1 (ix1 k))
    (hc2 : ∀ k : Fin 200, (V c main_v114 : FVec Ideal S1x200 .f32) (ix2 (0 : Fin 1) k) = c2 (ix1 k))
    (hc3 : ∀ k : Fin 200, (V c main_v115 : FVec Ideal S1x200 .f32) (ix2 (0 : Fin 1) k) = c3 (ix1 k))
    (hc4 : ∀ k : Fin 64, (V c main_v116 : FVec Ideal S1x64 .f32) (ix2 (0 : Fin 1) k) = c4 (ix1 k)) :
    (Launch1.dat V c).arrAt 14 cfg1.N
      = (refUpdate (V c main_v78) (V c main_v67) mu var g b (V c main_v94) c1 (V c main_v98) c2 (V c main_v102) c3 (V c main_v106) c4 : S50000x64.Idx → Elt Ideal .f32) := by
  refine Final1.final V c _ fun t y => ?_
  obtain ⟨r, j, rfl⟩ : ∃ (r : Fin 10000) (j : Fin 64), y = ix2 r j := ⟨y 0, y 1, eq_ix2 y⟩
  have ht : t.val < 5 := N_1 ▸ t.isLt
  rw [Final1.blk2_eq V c t, Final1.blk3_eq V c t, Final1.blk4_eq V c t, Final1.blk5_eq V c t, Final1.blk6_eq V c t, Final1.blk7_eq V c t, Final1.blk8_eq V c t, Final1.blk9_eq V c t, Final1.blk10_eq V c t, Final1.blk11_eq V c t, Final1.blk12_eq V c t, Final1.blk13_eq V c t]
  unfold Launch1.out
  rw [k1_pay1_eq, k1_pay2_eq]
  refine (update_block ⟨t.val, ht⟩ (V c main_v78) (V c main_v67) mu var g b (V c main_v94) c1 (V c main_v98) c2 (V c main_v102) c3 (V c main_v106) c4
    (Launch1.iblk V c 0 t) (Launch1.iblk V c 1 t) (V c main_v109) (V c main_v110) (V c main_v111) (V c main_v112) (V c main_v113) (V c main_v114) (V c main_v115) (V c main_v116)
    (fun r k => Final1.blk0_apply V c t (ix2 r k) (ix2 (blockRow ⟨t.val, ht⟩ r) k) rfl rfl)
    (fun r k => Final1.blk1_apply V c t (ix2 r k) (ix2 (blockRow ⟨t.val, ht⟩ r) k) rfl rfl)
    hmu hvar hg hb hc1 hc2 hc3 hc4 r j).trans ?_
  refine congrArg _ (funext fun a => Fin.ext ?_)
  obtain ⟨h0, h1⟩ := Final1.emb_row t (ix2 r j)
  match a with
  | ⟨0, _⟩ => exact h0.symm
  | ⟨1, _⟩ => exact h1.symm

end Cert.KernelIdeal.Value1

end
-- ==== Proof.IdealFinal2.lean ====
/-
  Launch 2's output array as one function of the arrays the launch is entered at.

  The grid has five points; point `t` reads rows `10000 t … 10000 t + 9999` of each row-blocked operand, every small operand
  whole, and writes back rows `10000 t …` of the output. So if the value the body stores, read at row `r` of its block, is a
  function `G` of the arrays read at row `10000 t + r`, the output array ends holding `G`: the five blocks tile its rows.
-/
import proofs.«131956_j5523327942769_1_alg».proof.Proof.IdealLaunch2
import Idealize.ShloMosaic.Lib.Pipeline.Value
import Idealize.ShloMosaic.Lib.ValueIdx

set_option maxRecDepth 16384

noncomputable section

namespace Cert.KernelIdeal.Final2

open Idealize.ShloMosaic Idealize.ShloMosaic.TcCoe Idealize.SL.Sem
open Idealize.ShloMosaic.Pipeline (Dat)
open Cert.KernelIdeal Cert.KernelIdeal.Gen Cert.KernelIdeal.Launch2

variable {F : FTy → Type} [FloatOps F]
variable (V : (c : Dev nD) → (b : Ref sig .tc) → Buf (Elt F) ((c : Thread nD τ).loc b))

/-- The printed index maps over the grid: a row-blocked window's block index is the point's number on the rows and 0 on
    the columns; a small window's is 0 on both. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0
    ∧ win2_14.index t (0 : Fin 2) = t.val
    ∧ win2_14.index t (1 : Fin 2) = 0 :=
  (by decide +kernel : ∀ t : Fin grid2.N, _)

/-- Window 0's block at point `t` is rows `10000 t …` of `main_v128`. -/
theorem blk0_apply (c : Dev nD) (t : Fin cfg2.N) (y : S10000x87.Idx) (i : S50000x87.Idx)
    (h0 : (i 0).val = 10000 * t.val + (y 0).val) (h1 : (i 1).val = (y 1).val) :
    iblk V c 0 t y = V c main_v128 i := by
  obtain ⟨e0, e1, e2, e3, e4, e5, e6, e7, e8, e9, e10, e11, e12, e13, e14, e15, e16, e17, e18, e19, e20, e21, e22, e23, e24, e25, e26, e27, e28, e29⟩ := idx_facts t
  show V c main_v128 (((cfg2.win 0).blk t).view.emb y) = V c main_v128 i
  refine congrArg _ (funext fun a => Fin.ext ?_)
  match a with
  | ⟨0, _⟩ => show win2_0.index t (0 : Fin 2) * 10000 + 1 * (y 0).val = (i 0).val; omega
  | ⟨1, _⟩ => show win2_0.index t (1 : Fin 2) * 87 + 1 * (y 1).val = (i 1).val; omega
/-- Window 1's block at point `t` is rows `10000 t …` of `main_v117`. -/
theorem blk1_apply (c : Dev nD) (t : Fin cfg2.N) (y : S10000x64.Idx) (i : S50000x64.Idx)
    (h0 : (i 0).val = 10000 * t.val + (y 0).val) (h1 : (i 1).val = (y 1).val) :
    iblk V c 1 t y = V c main_v117 i := by
  obtain ⟨e0, e1, e2, e3, e4, e5, e6, e7, e8, e9, e10, e11, e12, e13, e14, e15, e16, e17, e18, e19, e20, e21, e22, e23, e24, e25, e26, e27, e28, e29⟩ := idx_facts t
  show V c main_v117 (((cfg2.win 1).blk t).view.emb y) = V c main_v117 i
  refine congrArg _ (funext fun a => Fin.ext ?_)
  match a with
  | ⟨0, _⟩ => show win2_1.index t (0 : Fin 2) * 10000 + 1 * (y 0).val = (i 0).val; omega
  | ⟨1, _⟩ => show win2_1.index t (1 : Fin 2) * 64 + 1 * (y 1).val = (i 1).val; omega
/-- Window 2's block at every point is the whole of `main_v159`. -/
theorem blk2_eq (c : Dev nD) (t : Fin cfg2.N) : iblk V c 2 t = (V c main_v159 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v159 (((cfg2.win 2).blk t).view.emb y) = V c main_v159 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 87 + 1 * (y 1).val = (y 1).val; omega
/-- Window 3's block at every point is the whole of `main_v160`. -/
theorem blk3_eq (c : Dev nD) (t : Fin cfg2.N) : iblk V c 3 t = (V c main_v160 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v160 (((cfg2.win 3).blk t).view.emb y) = V c main_v160 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 87 + 1 * (y 1).val = (y 1).val; omega
/-- Window 4's block at every point is the whole of `main_v161`. -/
theorem blk4_eq (c : Dev nD) (t : Fin cfg2.N) : iblk V c 4 t = (V c main_v161 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v161 (((cfg2.win 4).blk t).view.emb y) = V c main_v161 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 87 + 1 * (y 1).val = (y 1).val; omega
/-- Window 5's block at every point is the whole of `main_v162`. -/
theorem blk5_eq (c : Dev nD) (t : Fin cfg2.N) : iblk V c 5 t = (V c main_v162 : S1x87.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v162 (((cfg2.win 5).blk t).view.emb y) = V c main_v162 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 87 + 1 * (y 1).val = (y 1).val; omega
/-- Window 6's block at every point is the whole of `main_v144`. -/
theorem blk6_eq (c : Dev nD) (t : Fin cfg2.N) : iblk V c 6 t = (V c main_v144 : S87x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v144 (((cfg2.win 6).blk t).view.emb y) = V c main_v144 y
  refine congrArg _ (funext fun a => Fin.ext ?_)
  match a with
  | ⟨0, _⟩ => show win2_6.index t (0 : Fin 2) * 87 + 1 * (y 0).val = (y 0).val; omega
  | ⟨1, _⟩ => show win2_6.index t (1 : Fin 2) * 200 + 1 * (y 1).val = (y 1).val; omega
/-- Window 7's block at every point is the whole of `main_v163`. -/
theorem blk7_eq (c : Dev nD) (t : Fin cfg2.N) : iblk V c 7 t = (V c main_v163 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v163 (((cfg2.win 7).blk t).view.emb y) = V c main_v163 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 200 + 1 * (y 1).val = (y 1).val; omega
/-- Window 8's block at every point is the whole of `main_v148`. -/
theorem blk8_eq (c : Dev nD) (t : Fin cfg2.N) : iblk V c 8 t = (V c main_v148 : S200x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v148 (((cfg2.win 8).blk t).view.emb y) = V c main_v148 y
  refine congrArg _ (funext fun a => Fin.ext ?_)
  match a with
  | ⟨0, _⟩ => show win2_8.index t (0 : Fin 2) * 200 + 1 * (y 0).val = (y 0).val; omega
  | ⟨1, _⟩ => show win2_8.index t (1 : Fin 2) * 200 + 1 * (y 1).val = (y 1).val; omega
/-- Window 9's block at every point is the whole of `main_v164`. -/
theorem blk9_eq (c : Dev nD) (t : Fin cfg2.N) : iblk V c 9 t = (V c main_v164 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v164 (((cfg2.win 9).blk t).view.emb y) = V c main_v164 y
  refine congrArg _ (funext fun a => Fin.ext ?_)
  match a with
  | ⟨0, _⟩ => show win2_9.index t (0 : Fin 2) * 1 + 1 * (y 0).val = (y 0).val; omega
  | ⟨1, _⟩ => show win2_9.index t (1 : Fin 2) * 200 + 1 * (y 1).val = (y 1).val; omega
/-- Window 10's block at every point is the whole of `main_v152`. -/
theorem blk10_eq (c : Dev nD) (t : Fin cfg2.N) : iblk V c 10 t = (V c main_v152 : S200x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v152 (((cfg2.win 10).blk t).view.emb y) = V c main_v152 y
  refine congrArg _ (funext fun a => Fin.ext ?_)
  match a with
  | ⟨0, _⟩ => show win2_10.index t (0 : Fin 2) * 200 + 1 * (y 0).val = (y 0).val; omega
  | ⟨1, _⟩ => show win2_10.index t (1 : Fin 2) * 200 + 1 * (y 1).val = (y 1).val; omega
/-- Window 11's block at every point is the whole of `main_v165`. -/
theorem blk11_eq (c : Dev nD) (t : Fin cfg2.N) : iblk V c 11 t = (V c main_v165 : S1x200.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v165 (((cfg2.win 11).blk t).view.emb y) = V c main_v165 y
  refine congrArg _ (funext fun a => Fin.ext ?_)
  match a with
  | ⟨0, _⟩ => show win2_11.index t (0 : Fin 2) * 1 + 1 * (y 0).val = (y 0).val; omega
  | ⟨1, _⟩ => show win2_11.index t (1 : Fin 2) * 200 + 1 * (y 1).val = (y 1).val; omega
/-- Window 12's block at every point is the whole of `main_v156`. -/
theorem blk12_eq (c : Dev nD) (t : Fin cfg2.N) : iblk V c 12 t = (V c main_v156 : S200x64.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v156 (((cfg2.win 12).blk t).view.emb y) = V c main_v156 y
  refine congrArg _ (funext fun a => Fin.ext ?_)
  match a with
  | ⟨0, _⟩ => show win2_12.index t (0 : Fin 2) * 200 + 1 * (y 0).val = (y 0).val; omega
  | ⟨1, _⟩ => show win2_12.index t (1 : Fin 2) * 64 + 1 * (y 1).val = (y 1).val; omega
/-- Window 13's block at every point is the whole of `main_v166`. -/
theorem blk13_eq (c : Dev nD) (t : Fin cfg2.N) : iblk V c 13 t = (V c main_v166 : S1x64.Idx → Elt F .f32) := by
  obtain ⟨e0, e1, e2, e3, e4, e5, e6, e7, e8, e9, e10, e11, e12, e13, e14, e15, e16, e17, e18, e19, e20, e21, e22, e23, e24, e25, e26, e27, e28, e29⟩ := idx_facts t
  funext y
  show V c main_v166 (((cfg2.win 13).blk t).view.emb y) = V c main_v166 y
  refine congrArg _ (funext fun a => Fin.ext ?_)
  match a with
  | ⟨0, _⟩ => show win2_13.index t (0 : Fin 2) * 1 + 1 * (y 0).val = (y 0).val; omega
  | ⟨1, _⟩ => show win2_13.index t (1 : Fin 2) * 64 + 1 * (y 1).val = (y 1).val; omega

/-- An index of the output array is in point `t`'s block iff its row is among the block's rows. -/
theorem mem_blk (t : Fin cfg2.N) (i : S50000x64.Idx) :
    i ∈ ((cfg2.win 14).blk t).view.set ↔ ∀ a : Fin 2, win2_14.index t a * S10000x64.size a ≤ (i a).val ∧ (i a).val < win2_14.index t a * S10000x64.size a + S10000x64.size a := by
  show i ∈ ((View.whole main_v167).slice (win2_14.rect t)).set ↔ _
  rw [View.set_slice_whole, Rect.mem_set_unit]
  exact Iff.rfl

/-- Every index of the output array is in the block of the point its row falls in. -/
theorem cover (i : S50000x64.Idx) : ∃ t : Fin cfg2.N, (cfg2.win 14).flush t = true ∧ i ∈ ((cfg2.win 14).blk t).view.set := by
  have hi0 : (i 0).val < 50000 := (i 0).isLt
  have hi1 : (i 1).val < 64 := (i 1).isLt
  have hN : cfg2.N = 5 := N_2
  let t : Fin cfg2.N := ⟨(i 0).val / 10000, by rw [hN]; omega⟩
  have ht : t.val = (i 0).val / 10000 := rfl
  obtain ⟨e0, e1, e2, e3, e4, e5, e6, e7, e8, e9, e10, e11, e12, e13, e14, e15, e16, e17, e18, e19, e20, e21, e22, e23, e24, e25, e26, e27, e28, e29⟩ := idx_facts t
  refine ⟨t, flush2_14 t, ?_⟩
  rw [mem_blk]
  intro a
  match a with
  | ⟨0, _⟩ => show win2_14.index t (0 : Fin 2) * 10000 ≤ (i 0).val ∧ (i 0).val < win2_14.index t (0 : Fin 2) * 10000 + 10000; omega
  | ⟨1, _⟩ => show win2_14.index t (1 : Fin 2) * 64 ≤ (i 1).val ∧ (i 1).val < win2_14.index t (1 : Fin 2) * 64 + 64; omega

/-- The row of the output array that row `y 0` of point `t`'s block is. -/
theorem emb_row (t : Fin cfg2.N) (y : S10000x64.Idx) :
    ((((cfg2.win 14).blk t).view.emb y : S50000x64.Idx) 0).val = 10000 * t.val + (y 0).val
    ∧ ((((cfg2.win 14).blk t).view.emb y : S50000x64.Idx) 1).val = (y 1).val := by
  obtain ⟨e0, e1, e2, e3, e4, e5, e6, e7, e8, e9, e10, e11, e12, e13, e14, e15, e16, e17, e18, e19, e20, e21, e22, e23, e24, e25, e26, e27, e28, e29⟩ := idx_facts t
  constructor
  · show win2_14.index t (0 : Fin 2) * 10000 + 1 * (y 0).val = _; omega
  · show win2_14.index t (1 : Fin 2) * 64 + 1 * (y 1).val = _; omega

/-- If what the body stores at point `t`, read inside the block, is `G` read at the array index the block embeds it at, for
    every point, then the output array ends holding `G`. -/
theorem final (c : Dev nD) (G : S50000x64.Idx → Elt F .f32)
    (hG : ∀ (t : Fin cfg2.N) (y : S10000x64.Idx),
      out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) y = G (((cfg2.win 14).blk t).view.emb y)) :
    (dat V c).arrAt 14 cfg2.N = G :=
  (dat V c).arrAt_eq_of_cover 14 G
    (fun t _ => by
      show (cfg2.win 14).cut (grid2.coords t) ((dat V c).after 14 t) = _
      rw [after_out]
      funext y
      exact hG t y)
    cover

end Cert.KernelIdeal.Final2

end
-- ==== Proof.IdealValue2.lean ====
/-
  What update launch 2 leaves in its output array: the reference's update layer of the arrays it is entered at.

  At grid point `t` the body stores, at row `r` of its block, the update layer's value at row `10000 t + r`: the block of the
  messages and of the node features are those rows, the weights are read whole, and each one-row operand is the row form of
  a vector. The five blocks tile the output's rows.
-/
import proofs.«131956_j5523327942769_1_alg».proof.Proof.IdealFinal2
import proofs.«131956_j5523327942769_1_alg».proof.Proof.UpdateLayer

set_option maxRecDepth 16384

noncomputable section

namespace Cert.KernelIdeal.Value2

open Idealize.ShloMosaic Idealize.ShloMosaic.TcCoe Idealize.SL.Sem Idealize.ShloMosaic.ValueIdx
open Cert.KernelIdeal Cert.KernelIdeal.Gen Cert.UpdateLayer

variable (V : (c : Dev nD) → (b : Ref sig .tc) → Buf (Elt Ideal) ((c : Thread nD τ).loc b))

theorem value (c : Dev nD) (mu var g b : FVec Ideal Cert.ReferenceIdeal.S87 .f32) (c1 c2 c3 : FVec Ideal Cert.ReferenceIdeal.S200 .f32) (c4 : FVec Ideal Cert.ReferenceIdeal.S64 .f32)
    (hmu : ∀ k : Fin 87, (V c main_v159 : FVec Ideal S1x87 .f32) (ix2 (0 : Fin 1) k) = mu (ix1 k))
    (hvar : ∀ k : Fin 87, (V c main_v160 : FVec Ideal S1x87 .f32) (ix2 (0 : Fin 1) k) = var (ix1 k))
    (hg : ∀ k : Fin 87, (V c main_v161 : FVec Ideal S1x87 .f32) (ix2 (0 : Fin 1) k) = g (ix1 k))
    (hb : ∀ k : Fin 87, (V c main_v162 : FVec Ideal S1x87 .f32) (ix2 (0 : Fin 1) k) = b (ix1 k))
    (hc1 : ∀ k : Fin 200, (V c main_v163 : FVec Ideal S1x200 .f32) (ix2 (0 : Fin 1) k) = c1 (ix1 k))
    (hc2 : ∀ k : Fin 200, (V c main_v164 : FVec Ideal S1x200 .f32) (ix2 (0 : Fin 1) k) = c2 (ix1 k))
    (hc3 : ∀ k : Fin 200, (V c main_v165 : FVec Ideal S1x200 .f32) (ix2 (0 : Fin 1) k) = c3 (ix1 k))
    (hc4 : ∀ k : Fin 64, (V c main_v166 : FVec Ideal S1x64 .f32) (ix2 (0 : Fin 1) k) = c4 (ix1 k)) :
    (Launch2.dat V c).arrAt 14 cfg2.N
      = (refUpdate (V c main_v128) (V c main_v117) mu var g b (V c main_v144) c1 (V c main_v148) c2 (V c main_v152) c3 (V c main_v156) c4 : S50000x64.Idx → Elt Ideal .f32) := by
  refine Final2.final V c _ fun t y => ?_
  obtain ⟨r, j, rfl⟩ : ∃ (r : Fin 10000) (j : Fin 64), y = ix2 r j := ⟨y 0, y 1, eq_ix2 y⟩
  have ht : t.val < 5 := N_2 ▸ t.isLt
  rw [Final2.blk2_eq V c t, Final2.blk3_eq V c t, Final2.blk4_eq V c t, Final2.blk5_eq V c t, Final2.blk6_eq V c t, Final2.blk7_eq V c t, Final2.blk8_eq V c t, Final2.blk9_eq V c t, Final2.blk10_eq V c t, Final2.blk11_eq V c t, Final2.blk12_eq V c t, Final2.blk13_eq V c t]
  unfold Launch2.out
  rw [k2_pay1_eq, k2_pay2_eq]
  refine (update_block ⟨t.val, ht⟩ (V c main_v128) (V c main_v117) mu var g b (V c main_v144) c1 (V c main_v148) c2 (V c main_v152) c3 (V c main_v156) c4
    (Launch2.iblk V c 0 t) (Launch2.iblk V c 1 t) (V c main_v159) (V c main_v160) (V c main_v161) (V c main_v162) (V c main_v163) (V c main_v164) (V c main_v165) (V c main_v166)
    (fun r k => Final2.blk0_apply V c t (ix2 r k) (ix2 (blockRow ⟨t.val, ht⟩ r) k) rfl rfl)
    (fun r k => Final2.blk1_apply V c t (ix2 r k) (ix2 (blockRow ⟨t.val, ht⟩ r) k) rfl rfl)
    hmu hvar hg hb hc1 hc2 hc3 hc4 r j).trans ?_
  refine congrArg _ (funext fun a => Fin.ext ?_)
  obtain ⟨h0, h1⟩ := Final2.emb_row t (ix2 r j)
  match a with
  | ⟨0, _⟩ => exact h0.symm
  | ⟨1, _⟩ => exact h1.symm

end Cert.KernelIdeal.Value2

end
-- ==== Proof.IdealFinal3.lean ====
/-
  Launch 3's output array as one function of the arrays the launch is entered at.

  The grid has five points; point `t` reads rows `10000 t … 10000 t + 9999` of each row-blocked operand, every small operand
  whole, and writes back rows `10000 t …` of the output. So if the value the body stores, read at row `r` of its block, is a
  function `G` of the arrays read at row `10000 t + r`, the output array ends holding `G`: the five blocks tile its rows.
-/
import proofs.«131956_j5523327942769_1_alg».proof.Proof.IdealLaunch3
import Idealize.ShloMosaic.Lib.Pipeline.Value
import Idealize.ShloMosaic.Lib.ValueIdx

set_option maxRecDepth 16384

noncomputable section

namespace Cert.KernelIdeal.Final3

open Idealize.ShloMosaic Idealize.ShloMosaic.TcCoe Idealize.SL.Sem
open Idealize.ShloMosaic.Pipeline (Dat)
open Cert.KernelIdeal Cert.KernelIdeal.Gen Cert.KernelIdeal.Launch3

variable {F : FTy → Type} [FloatOps F]
variable (V : (c : Dev nD) → (b : Ref sig .tc) → Buf (Elt F) ((c : Thread nD τ).loc b))

/-- The printed index maps over the grid: a row-blocked window's block index is the point's number on the rows and 0 on
    the columns; a small window's is 0 on both. -/
theorem idx_facts : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = 0
    ∧ win3_11.index t (1 : Fin 2) = 0
    ∧ win3_12.index t (0 : Fin 2) = 0
    ∧ win3_12.index t (1 : Fin 2) = 0
    ∧ win3_13.index t (0 : Fin 2) = t.val
    ∧ win3_13.index t (1 : Fin 2) = 0 :=
  (by decide +kernel : ∀ t : Fin grid3.N, _)

/-- Window 0's block at point `t` is rows `10000 t …` of `main_v168`. -/
theorem blk0_apply (c : Dev nD) (t : Fin cfg3.N) (y : S10000x256.Idx) (i : S50000x256.Idx)
    (h0 : (i 0).val = 10000 * t.val + (y 0).val) (h1 : (i 1).val = (y 1).val) :
    iblk V c 0 t y = V c main_v168 i := by
  obtain ⟨e0, e1, e2, e3, e4, e5, e6, e7, e8, e9, e10, e11, e12, e13, e14, e15, e16, e17, e18, e19, e20, e21, e22, e23, e24, e25, e26, e27⟩ := idx_facts t
  show V c main_v168 (((cfg3.win 0).blk t).view.emb y) = V c main_v168 i
  refine congrArg _ (funext fun a => Fin.ext ?_)
  match a with
  | ⟨0, _⟩ => show win3_0.index t (0 : Fin 2) * 10000 + 1 * (y 0).val = (i 0).val; omega
  | ⟨1, _⟩ => show win3_0.index t (1 : Fin 2) * 256 + 1 * (y 1).val = (i 1).val; omega
/-- Window 1's block at every point is the whole of `main_v179`. -/
theorem blk1_eq (c : Dev nD) (t : Fin cfg3.N) : iblk V c 1 t = (V c main_v179 : S1x256.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_v179 (((cfg3.win 1).blk t).view.emb y) = V c main_v179 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 256 + 1 * (y 1).val = (y 1).val; omega
/-- Window 2's block at every point is the whole of `main_v180`. -/
theorem blk2_eq (c : Dev nD) (t : Fin cfg3.N) : iblk V c 2 t = (V c main_v180 : S1x256.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_v180 (((cfg3.win 2).blk t).view.emb y) = V c main_v180 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega
/-- Window 3's block at every point is the whole of `main_v181`. -/
theorem blk3_eq (c : Dev nD) (t : Fin cfg3.N) : iblk V c 3 t = (V c main_v181 : S1x256.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_v181 (((cfg3.win 3).blk t).view.emb y) = V c main_v181 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega
/-- Window 4's block at every point is the whole of `main_v182`. -/
theorem blk4_eq (c : Dev nD) (t : Fin cfg3.N) : iblk V c 4 t = (V c main_v182 : S1x256.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_v182 (((cfg3.win 4).blk t).view.emb y) = V c main_v182 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega
/-- Window 5's block at every point is the whole of `main_arg17`. -/
theorem blk5_eq (c : Dev nD) (t : Fin cfg3.N) : iblk V c 5 t = (V c main_arg17 : S256x200.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_arg17 (((cfg3.win 5).blk t).view.emb y) = V c main_arg17 y
  refine congrArg _ (funext fun a => Fin.ext ?_)
  match a with
  | ⟨0, _⟩ => show win3_5.index t (0 : Fin 2) * 256 + 1 * (y 0).val = (y 0).val; omega
  | ⟨1, _⟩ => show win3_5.index t (1 : Fin 2) * 200 + 1 * (y 1).val = (y 1).val; omega
/-- Window 6's block at every point is the whole of `main_v183`. -/
theorem blk6_eq (c : Dev nD) (t : Fin cfg3.N) : iblk V c 6 t = (V c main_v183 : S1x200.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_v183 (((cfg3.win 6).blk t).view.emb y) = V c main_v183 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 200 + 1 * (y 1).val = (y 1).val; omega
/-- Window 7's block at every point is the whole of `main_arg19`. -/
theorem blk7_eq (c : Dev nD) (t : Fin cfg3.N) : iblk V c 7 t = (V c main_arg19 : S200x200.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_arg19 (((cfg3.win 7).blk t).view.emb y) = V c main_arg19 y
  refine congrArg _ (funext fun a => Fin.ext ?_)
  match a with
  | ⟨0, _⟩ => show win3_7.index t (0 : Fin 2) * 200 + 1 * (y 0).val = (y 0).val; omega
  | ⟨1, _⟩ => show win3_7.index t (1 : Fin 2) * 200 + 1 * (y 1).val = (y 1).val; omega
/-- Window 8's block at every point is the whole of `main_v184`. -/
theorem blk8_eq (c : Dev nD) (t : Fin cfg3.N) : iblk V c 8 t = (V c main_v184 : S1x200.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_v184 (((cfg3.win 8).blk t).view.emb y) = V c main_v184 y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 200 + 1 * (y 1).val = (y 1).val; omega
/-- Window 9's block at every point is the whole of `main_arg21`. -/
theorem blk9_eq (c : Dev nD) (t : Fin cfg3.N) : iblk V c 9 t = (V c main_arg21 : S200x200.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_arg21 (((cfg3.win 9).blk t).view.emb y) = V c main_arg21 y
  refine congrArg _ (funext fun a => Fin.ext ?_)
  match a with
  | ⟨0, _⟩ => show win3_9.index t (0 : Fin 2) * 200 + 1 * (y 0).val = (y 0).val; omega
  | ⟨1, _⟩ => show win3_9.index t (1 : Fin 2) * 200 + 1 * (y 1).val = (y 1).val; omega
/-- Window 10's block at every point is the whole of `main_v185`. -/
theorem blk10_eq (c : Dev nD) (t : Fin cfg3.N) : iblk V c 10 t = (V c main_v185 : S1x200.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_v185 (((cfg3.win 10).blk t).view.emb y) = V c main_v185 y
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 200 + 1 * (y 1).val = (y 1).val; omega
/-- Window 11's block at every point is the whole of `main_arg23`. -/
theorem blk11_eq (c : Dev nD) (t : Fin cfg3.N) : iblk V c 11 t = (V c main_arg23 : S200x1.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_arg23 (((cfg3.win 11).blk t).view.emb y) = V c main_arg23 y
  refine congrArg _ (funext fun a => Fin.ext ?_)
  match a with
  | ⟨0, _⟩ => show win3_11.index t (0 : Fin 2) * 200 + 1 * (y 0).val = (y 0).val; omega
  | ⟨1, _⟩ => show win3_11.index t (1 : Fin 2) * 1 + 1 * (y 1).val = (y 1).val; omega
/-- Window 12's block at every point is the whole of `main_v186`. -/
theorem blk12_eq (c : Dev nD) (t : Fin cfg3.N) : iblk V c 12 t = (V c main_v186 : S1x1.Idx → Elt F .f32) := by
  obtain ⟨e0, e1, e2, e3, e4, e5, e6, e7, e8, e9, e10, e11, e12, e13, e14, e15, e16, e17, e18, e19, e20, e21, e22, e23, e24, e25, e26, e27⟩ := idx_facts t
  funext y
  show V c main_v186 (((cfg3.win 12).blk t).view.emb y) = V c main_v186 y
  refine congrArg _ (funext fun a => Fin.ext ?_)
  match a with
  | ⟨0, _⟩ => show win3_12.index t (0 : Fin 2) * 1 + 1 * (y 0).val = (y 0).val; omega
  | ⟨1, _⟩ => show win3_12.index t (1 : Fin 2) * 1 + 1 * (y 1).val = (y 1).val; omega

/-- An index of the output array is in point `t`'s block iff its row is among the block's rows. -/
theorem mem_blk (t : Fin cfg3.N) (i : S50000x1.Idx) :
    i ∈ ((cfg3.win 13).blk t).view.set ↔ ∀ a : Fin 2, win3_13.index t a * S10000x1.size a ≤ (i a).val ∧ (i a).val < win3_13.index t a * S10000x1.size a + S10000x1.size a := by
  show i ∈ ((View.whole main_v187).slice (win3_13.rect t)).set ↔ _
  rw [View.set_slice_whole, Rect.mem_set_unit]
  exact Iff.rfl

/-- Every index of the output array is in the block of the point its row falls in. -/
theorem cover (i : S50000x1.Idx) : ∃ t : Fin cfg3.N, (cfg3.win 13).flush t = true ∧ i ∈ ((cfg3.win 13).blk t).view.set := by
  have hi0 : (i 0).val < 50000 := (i 0).isLt
  have hi1 : (i 1).val < 1 := (i 1).isLt
  have hN : cfg3.N = 5 := N_3
  let t : Fin cfg3.N := ⟨(i 0).val / 10000, by rw [hN]; omega⟩
  have ht : t.val = (i 0).val / 10000 := rfl
  obtain ⟨e0, e1, e2, e3, e4, e5, e6, e7, e8, e9, e10, e11, e12, e13, e14, e15, e16, e17, e18, e19, e20, e21, e22, e23, e24, e25, e26, e27⟩ := idx_facts t
  refine ⟨t, flush3_13 t, ?_⟩
  rw [mem_blk]
  intro a
  match a with
  | ⟨0, _⟩ => show win3_13.index t (0 : Fin 2) * 10000 ≤ (i 0).val ∧ (i 0).val < win3_13.index t (0 : Fin 2) * 10000 + 10000; omega
  | ⟨1, _⟩ => show win3_13.index t (1 : Fin 2) * 1 ≤ (i 1).val ∧ (i 1).val < win3_13.index t (1 : Fin 2) * 1 + 1; omega

/-- The row of the output array that row `y 0` of point `t`'s block is. -/
theorem emb_row (t : Fin cfg3.N) (y : S10000x1.Idx) :
    ((((cfg3.win 13).blk t).view.emb y : S50000x1.Idx) 0).val = 10000 * t.val + (y 0).val
    ∧ ((((cfg3.win 13).blk t).view.emb y : S50000x1.Idx) 1).val = (y 1).val := by
  obtain ⟨e0, e1, e2, e3, e4, e5, e6, e7, e8, e9, e10, e11, e12, e13, e14, e15, e16, e17, e18, e19, e20, e21, e22, e23, e24, e25, e26, e27⟩ := idx_facts t
  constructor
  · show win3_13.index t (0 : Fin 2) * 10000 + 1 * (y 0).val = _; omega
  · show win3_13.index t (1 : Fin 2) * 1 + 1 * (y 1).val = _; omega

/-- If what the body stores at point `t`, read inside the block, is `G` read at the array index the block embeds it at, for
    every point, then the output array ends holding `G`. -/
theorem final (c : Dev nD) (G : S50000x1.Idx → Elt F .f32)
    (hG : ∀ (t : Fin cfg3.N) (y : S10000x1.Idx),
      out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) y = G (((cfg3.win 13).blk t).view.emb y)) :
    (dat V c).arrAt 13 cfg3.N = G :=
  (dat V c).arrAt_eq_of_cover 13 G
    (fun t _ => by
      show (cfg3.win 13).cut (grid3.coords t) ((dat V c).after 13 t) = _
      rw [after_out]
      funext y
      exact hG t y)
    cover

end Cert.KernelIdeal.Final3

end
-- ==== Proof.ReadoutLayer.lean ====
import proofs.«131956_j5523327942769_1_alg».proof.Proof.UpdateLayer

noncomputable section

namespace Cert.UpdateLayer

open Idealize.ShloMosaic Idealize.ShloMosaic.ValueIdx

section Rows
variable {m m' K N : ℕ}

/-- A dense layer of a block read at an entry, the weight matrix taken as it is loaded (no cast to its own shape), is
    the same layer of the whole array at the corresponding row. -/
theorem dense_row_plain (ρ : Fin m → Fin m')
    (Dk : DotDims ⟨2, ![m, K]⟩ ⟨2, ![K, N]⟩ ⟨2, ![m, N]⟩) (Dr : DotDims ⟨2, ![m', K]⟩ ⟨2, ![K, N]⟩ ⟨2, ![m', N]⟩)
    (A : FVec Ideal ⟨2, ![m, K]⟩ .f32) (A' : FVec Ideal ⟨2, ![m', K]⟩ .f32) (W : FVec Ideal ⟨2, ![K, N]⟩ .f32)
    (cr : FVec Ideal ⟨2, ![1, N]⟩ .f32) (c : FVec Ideal ⟨1, ![N]⟩ .f32)
    (h1 : (⟨2, ![1, N]⟩ : Shape).ShapeCasts ⟨2, ![1, N]⟩) (h2 : (⟨2, ![1, N]⟩ : Shape).Broadcasts ⟨2, ![m, N]⟩)
    (h3 : (⟨1, ![N]⟩ : Shape).BroadcastsInDim ⟨2, ![1, N]⟩ ![1])
    (h4 : (⟨2, ![1, N]⟩ : Shape).BroadcastsInDim ⟨2, ![m', N]⟩ ![0, 1])
    (hDk : Dk = DotDims.plain m K N) (hDr : Dr = DotDims.plain m' K N)
    (hA : ∀ (r : Fin m) (k : Fin K), A (ix2 r k) = A' (ix2 (ρ r) k))
    (hc : ∀ j : Fin N, cr (ix2 (0 : Fin 1) j) = c (ix1 j)) (r : Fin m) (j : Fin N) :
    addf (matmul Dk none A W (constant ⟨2, ![m, N]⟩ .f32 0x00000000#32))
        (broadcastTo ⟨2, ![m, N]⟩ (shapeCast ⟨2, ![1, N]⟩ cr h1) h2) (ix2 r j)
      = addf (Host.dotGeneral Dr none A' W)
        (broadcastInDim ⟨2, ![m', N]⟩ ![0, 1] h4 (broadcastInDim ⟨2, ![1, N]⟩ ![1] h3 c)) (ix2 (ρ r) j) := by
  rw [addf_apply, addf_apply, matmul_entry Dk hDk, dot_entry Dr hDr, rowTo_entry, rowIn_entry, hc]
  exact congrArg (· + c (ix1 j)) (Finset.sum_congr rfl fun k _ => by rw [hA])

end Rows

/-! ## The reference's readout, from the normalisation on -/

section Reference
open Cert.ReferenceIdeal Cert.ReferenceIdeal.Facts₀

/-- The readout's hidden features after its second dense layer: normalise the concatenated node features, a dense
    layer 256 → 200, the rectifier, a dense layer 200 → 200. -/
def refReadoutHidden (Z : FVec Ideal S50000x256 .f32) (mu var g b : FVec Ideal S256 .f32)
    (w1 : FVec Ideal S256x200 .f32) (c1 : FVec Ideal S200 .f32) (w2 : FVec Ideal S200x200 .f32) (c2 : FVec Ideal S200 .f32) :
    FVec Ideal S50000x200 .f32 :=
  have v263 : FVec Ideal S1x256 .f32 := broadcastInDim S1x256 ![1] bcast_S256_S1x256_1 mu
  have v264 : FVec Ideal S50000x256 .f32 := broadcastInDim S50000x256 ![0, 1] bcast_S1x256_S50000x256_0_1 v263
  have v265 : FVec Ideal S50000x256 .f32 := subf Z v264
  have cst_32 : FVec Ideal S_ .f32 := constant (F := Ideal) S_ .f32 0x3727C5AC#32
  have v266 : FVec Ideal S256 .f32 := broadcastInDim S256 ![] bcast_S_S256 cst_32
  have v267 : FVec Ideal S256 .f32 := addf var v266
  have v268 : FVec Ideal S256 .f32 := Host.rsqrt v267
  have v269 : FVec Ideal S1x256 .f32 := broadcastInDim S1x256 ![1] bcast_S256_S1x256_1 v268
  have v270 : FVec Ideal S50000x256 .f32 := broadcastInDim S50000x256 ![0, 1] bcast_S1x256_S50000x256_0_1 v269
  have v271 : FVec Ideal S50000x256 .f32 := mulf v265 v270
  have v272 : FVec Ideal S1x256 .f32 := broadcastInDim S1x256 ![1] bcast_S256_S1x256_1 g
  have v273 : FVec Ideal S50000x256 .f32 := broadcastInDim S50000x256 ![0, 1] bcast_S1x256_S50000x256_0_1 v272
  have v274 : FVec Ideal S50000x256 .f32 := mulf v271 v273
  have v275 : FVec Ideal S1x256 .f32 := broadcastInDim S1x256 ![1] bcast_S256_S1x256_1 b
  have v276 : FVec Ideal S50000x256 .f32 := broadcastInDim S50000x256 ![0, 1] bcast_S1x256_S50000x256_0_1 v275
  have v277 : FVec Ideal S50000x256 .f32 := addf v274 v276
  have v278 : FVec Ideal S50000x200 .f32 := Host.dotGeneral dot_S50000x256_S256x200_S50000x200_1_0_0_1_n_n none v277 w1
  have v279 : FVec Ideal S1x200 .f32 := broadcastInDim S1x200 ![1] bcast_S200_S1x200_1 c1
  have v280 : FVec Ideal S50000x200 .f32 := broadcastInDim S50000x200 ![0, 1] bcast_S1x200_S50000x200_0_1 v279
  have v281 : FVec Ideal S50000x200 .f32 := addf v278 v280
  have call9_cst : FVec Ideal S_ .f32 := constant (F := Ideal) S_ .f32 0x00000000#32
  have call9_v0 : FVec Ideal S50000x200 .f32 := broadcastInDim S50000x200 ![] bcast_S_S50000x200 call9_cst
  have v282 : FVec Ideal S50000x200 .f32 := maximumf v281 call9_v0
  have v283 : FVec Ideal S50000x200 .f32 := Host.dotGeneral dot_S50000x200_S200x200_S50000x200_1_0_0_1_n_n none v282 w2
  have v284 : FVec Ideal S1x200 .f32 := broadcastInDim S1x200 ![1] bcast_S200_S1x200_1 c2
  have v285 : FVec Ideal S50000x200 .f32 := broadcastInDim S50000x200 ![0, 1] bcast_S1x200_S50000x200_0_1 v284
  have v286 : FVec Ideal S50000x200 .f32 := addf v283 v285
  v286

/-- From the readout's hidden features to the per-node outputs: the rectifier, a dense layer 200 → 200, the rectifier,
    a dense layer 200 → 1. -/
def refReadoutTail (H : FVec Ideal S50000x200 .f32)
    (w3 : FVec Ideal S200x200 .f32) (c3 : FVec Ideal S200 .f32) (w4 : FVec Ideal S200x1 .f32) (c4 : FVec Ideal S1 .f32) :
    FVec Ideal S50000x1 .f32 :=
  have call10_cst : FVec Ideal S_ .f32 := constant (F := Ideal) S_ .f32 0x00000000#32
  have call10_v0 : FVec Ideal S50000x200 .f32 := broadcastInDim S50000x200 ![] bcast_S_S50000x200 call10_cst
  have v287 : FVec Ideal S50000x200 .f32 := maximumf H call10_v0
  have v288 : FVec Ideal S50000x200 .f32 := Host.dotGeneral dot_S50000x200_S200x200_S50000x200_1_0_0_1_n_n none v287 w3
  have v289 : FVec Ideal S1x200 .f32 := broadcastInDim S1x200 ![1] bcast_S200_S1x200_1 c3
  have v290 : FVec Ideal S50000x200 .f32 := broadcastInDim S50000x200 ![0, 1] bcast_S1x200_S50000x200_0_1 v289
  have v291 : FVec Ideal S50000x200 .f32 := addf v288 v290
  have call11_cst : FVec Ideal S_ .f32 := constant (F := Ideal) S_ .f32 0x00000000#32
  have call11_v0 : FVec Ideal S50000x200 .f32 := broadcastInDim S50000x200 ![] bcast_S_S50000x200 call11_cst
  have v292 : FVec Ideal S50000x200 .f32 := maximumf v291 call11_v0
  have v293 : FVec Ideal S50000x1 .f32 := Host.dotGeneral dot_S50000x200_S200x1_S50000x1_1_0_0_1_n_n none v292 w4
  have v294 : FVec Ideal S1x1 .f32 := broadcastInDim S1x1 ![1] bcast_S1_S1x1_1 c4
  have v295 : FVec Ideal S50000x1 .f32 := broadcastInDim S50000x1 ![0, 1] bcast_S1x1_S50000x1_0_1 v294
  have v296 : FVec Ideal S50000x1 .f32 := addf v293 v295
  v296

/-- The per-node outputs of the readout, from the concatenated node features Z, the mean and variance vectors of Z's
    columns, and the readout's parameters. -/
def refReadout (Z : FVec Ideal S50000x256 .f32) (mu var g b : FVec Ideal S256 .f32)
    (w1 : FVec Ideal S256x200 .f32) (c1 : FVec Ideal S200 .f32) (w2 : FVec Ideal S200x200 .f32) (c2 : FVec Ideal S200 .f32)
    (w3 : FVec Ideal S200x200 .f32) (c3 : FVec Ideal S200 .f32) (w4 : FVec Ideal S200x1 .f32) (c4 : FVec Ideal S1 .f32) :
    FVec Ideal S50000x1 .f32 :=
  refReadoutTail (refReadoutHidden Z mu var g b w1 c1 w2 c2) w3 c3 w4 c4

end Reference

/-! ## A block of the readout launch against the reference -/

section Block
open Cert.ReferenceIdeal

/-- The first part of the readout launch's arithmetic at an entry of block t is the reference's hidden features at the
    block's row. -/
theorem readout_hidden_block (t : Fin 5) (Z : FVec Ideal S50000x256 .f32) (mu var g b : FVec Ideal S256 .f32)
    (w1 : FVec Ideal S256x200 .f32) (c1 : FVec Ideal S200 .f32) (w2 : FVec Ideal S200x200 .f32) (c2 : FVec Ideal S200 .f32)
    (Zb : FVec Ideal KernelIdeal.S10000x256 .f32) (mu1 var1 g1 b1 : FVec Ideal KernelIdeal.S1x256 .f32)
    (c1r c2r : FVec Ideal KernelIdeal.S1x200 .f32)
    (hZ : ∀ (r : Fin 10000) (k : Fin 256), Zb (ix2 r k) = Z (ix2 (blockRow t r) k))
    (hmu : ∀ k : Fin 256, mu1 (ix2 (0 : Fin 1) k) = mu (ix1 k)) (hvar : ∀ k : Fin 256, var1 (ix2 (0 : Fin 1) k) = var (ix1 k))
    (hg : ∀ k : Fin 256, g1 (ix2 (0 : Fin 1) k) = g (ix1 k)) (hb : ∀ k : Fin 256, b1 (ix2 (0 : Fin 1) k) = b (ix1 k))
    (hc1 : ∀ k : Fin 200, c1r (ix2 (0 : Fin 1) k) = c1 (ix1 k)) (hc2 : ∀ k : Fin 200, c2r (ix2 (0 : Fin 1) k) = c2 (ix1 k))
    (r : Fin 10000) (j : Fin 200) :
    KernelIdeal.Gen.k3_pay2 Zb mu1 var1 g1 b1 w1 c1r w2 c2r (ix2 r j)
      = refReadoutHidden Z mu var g b w1 c1 w2 c2 (ix2 (blockRow t r) j) := by
  unfold KernelIdeal.Gen.k3_pay2 refReadoutHidden
  exact dense_row_plain (blockRow t) _ _ _ _ _ _ _ _ _ _ _ rfl rfl
    (fun r k => relu_row (blockRow t) _ _ _
      (fun r k => dense_row_plain (blockRow t) _ _ _ _ _ _ _ _ _ _ _ rfl rfl
        (fun r k => norm_row (blockRow t) _ _ _ _ _ _ _ _ _ _ _ _ _ _ _ _ _ hZ hmu hvar hg hb r k) hc1 r k) r k) hc2 r j

/-- The second part of the readout launch's arithmetic at an entry of block t, from hidden features that are the
    reference's at the block's rows, is the reference's output at the block's row. -/
theorem readout_tail_block (t : Fin 5) (H' : FVec Ideal S50000x200 .f32)
    (w3 : FVec Ideal S200x200 .f32) (c3 : FVec Ideal S200 .f32) (w4 : FVec Ideal S200x1 .f32) (c4 : FVec Ideal S1 .f32)
    (H : FVec Ideal KernelIdeal.S10000x200 .f32)
    (c3r : FVec Ideal KernelIdeal.S1x200 .f32) (c4r : FVec Ideal KernelIdeal.S1x1 .f32)
    (hH : ∀ (r : Fin 10000) (k : Fin 200), H (ix2 r k) = H' (ix2 (blockRow t r) k))
    (hc3 : ∀ k : Fin 200, c3r (ix2 (0 : Fin 1) k) = c3 (ix1 k)) (hc4 : ∀ k : Fin 1, c4r (ix2 (0 : Fin 1) k) = c4 (ix1 k))
    (r : Fin 10000) (j : Fin 1) :
    KernelIdeal.Gen.k3_pay1 H (KernelIdeal.Gen.k3_pay3 (F := Ideal)) w3 c3r w4 c4r (ix2 r j)
      = refReadoutTail H' w3 c3 w4 c4 (ix2 (blockRow t r) j) := by
  unfold KernelIdeal.Gen.k3_pay1 KernelIdeal.Gen.k3_pay3 refReadoutTail
  exact dense_row_plain (blockRow t) _ _ _ _ _ _ _ _ _ _ _ rfl rfl
    (fun r k => relu_row (blockRow t) _ _ _
      (fun r k => dense_row_plain (blockRow t) _ _ _ _ _ _ _ _ _ _ _ rfl rfl
        (fun r k => relu_row (blockRow t) _ _ _ hH r k) hc3 r k) r k) hc4 r j

/-- WHAT THE READOUT LAUNCH STORES FOR BLOCK t IS THE REFERENCE'S READOUT AT THE BLOCK'S ROWS: entry (r, 0) of the stored
    block is entry (10000 t + r, 0) of the reference's per-node outputs, when the launch's block of the concatenated
    features is the array's rows 10000 t …, and its one-row blocks are the row vectors. -/
theorem readout_block (t : Fin 5) (Z : FVec Ideal S50000x256 .f32) (mu var g b : FVec Ideal S256 .f32)
    (w1 : FVec Ideal S256x200 .f32) (c1 : FVec Ideal S200 .f32) (w2 : FVec Ideal S200x200 .f32) (c2 : FVec Ideal S200 .f32)
    (w3 : FVec Ideal S200x200 .f32) (c3 : FVec Ideal S200 .f32) (w4 : FVec Ideal S200x1 .f32) (c4 : FVec Ideal S1 .f32)
    (Zb : FVec Ideal KernelIdeal.S10000x256 .f32) (mu1 var1 g1 b1 : FVec Ideal KernelIdeal.S1x256 .f32)
    (c1r c2r c3r : FVec Ideal KernelIdeal.S1x200 .f32) (c4r : FVec Ideal KernelIdeal.S1x1 .f32)
    (hZ : ∀ (r : Fin 10000) (k : Fin 256), Zb (ix2 r k) = Z (ix2 (blockRow t r) k))
    (hmu : ∀ k : Fin 256, mu1 (ix2 (0 : Fin 1) k) = mu (ix1 k)) (hvar : ∀ k : Fin 256, var1 (ix2 (0 : Fin 1) k) = var (ix1 k))
    (hg : ∀ k : Fin 256, g1 (ix2 (0 : Fin 1) k) = g (ix1 k)) (hb : ∀ k : Fin 256, b1 (ix2 (0 : Fin 1) k) = b (ix1 k))
    (hc1 : ∀ k : Fin 200, c1r (ix2 (0 : Fin 1) k) = c1 (ix1 k)) (hc2 : ∀ k : Fin 200, c2r (ix2 (0 : Fin 1) k) = c2 (ix1 k))
    (hc3 : ∀ k : Fin 200, c3r (ix2 (0 : Fin 1) k) = c3 (ix1 k)) (hc4 : ∀ k : Fin 1, c4r (ix2 (0 : Fin 1) k) = c4 (ix1 k))
    (r : Fin 10000) (j : Fin 1) :
    KernelIdeal.Gen.k3_pay1 (KernelIdeal.Gen.k3_pay2 Zb mu1 var1 g1 b1 w1 c1r w2 c2r) (KernelIdeal.Gen.k3_pay3 (F := Ideal))
        w3 c3r w4 c4r (ix2 r j)
      = refReadout Z mu var g b w1 c1 w2 c2 w3 c3 w4 c4 (ix2 (blockRow t r) j) :=
  readout_tail_block t _ w3 c3 w4 c4 _ c3r c4r
    (readout_hidden_block t Z mu var g b w1 c1 w2 c2 Zb mu1 var1 g1 b1 c1r c2r hZ hmu hvar hg hb hc1 hc2) hc3 hc4 r j

end Block

end Cert.UpdateLayer
-- ==== Proof.IdealValue3.lean ====
/-
  What the readout launch leaves in its output array: the reference's readout layer of the arrays it is entered at.

  At grid point `t` the body stores, at row `r` of its block, the readout layer's value at row `10000 t + r` of the
  concatenated node features; the weights are read whole and each one-row operand is the row form of a vector. The five
  blocks tile the output's rows.
-/
import proofs.«131956_j5523327942769_1_alg».proof.Proof.IdealFinal3
import proofs.«131956_j5523327942769_1_alg».proof.Proof.ReadoutLayer

set_option maxRecDepth 16384

noncomputable section

namespace Cert.KernelIdeal.Value3

open Idealize.ShloMosaic Idealize.ShloMosaic.TcCoe Idealize.SL.Sem Idealize.ShloMosaic.ValueIdx
open Cert.KernelIdeal Cert.KernelIdeal.Gen Cert.UpdateLayer

variable (V : (c : Dev nD) → (b : Ref sig .tc) → Buf (Elt Ideal) ((c : Thread nD τ).loc b))

theorem value (c : Dev nD) (mu var g b : FVec Ideal Cert.ReferenceIdeal.S256 .f32) (c1 c2 c3 : FVec Ideal Cert.ReferenceIdeal.S200 .f32) (c4 : FVec Ideal Cert.ReferenceIdeal.S1 .f32)
    (hmu : ∀ k : Fin 256, (V c main_v179 : FVec Ideal S1x256 .f32) (ix2 (0 : Fin 1) k) = mu (ix1 k))
    (hvar : ∀ k : Fin 256, (V c main_v180 : FVec Ideal S1x256 .f32) (ix2 (0 : Fin 1) k) = var (ix1 k))
    (hg : ∀ k : Fin 256, (V c main_v181 : FVec Ideal S1x256 .f32) (ix2 (0 : Fin 1) k) = g (ix1 k))
    (hb : ∀ k : Fin 256, (V c main_v182 : FVec Ideal S1x256 .f32) (ix2 (0 : Fin 1) k) = b (ix1 k))
    (hc1 : ∀ k : Fin 200, (V c main_v183 : FVec Ideal S1x200 .f32) (ix2 (0 : Fin 1) k) = c1 (ix1 k))
    (hc2 : ∀ k : Fin 200, (V c main_v184 : FVec Ideal S1x200 .f32) (ix2 (0 : Fin 1) k) = c2 (ix1 k))
    (hc3 : ∀ k : Fin 200, (V c main_v185 : FVec Ideal S1x200 .f32) (ix2 (0 : Fin 1) k) = c3 (ix1 k))
    (hc4 : ∀ k : Fin 1, (V c main_v186 : FVec Ideal S1x1 .f32) (ix2 (0 : Fin 1) k) = c4 (ix1 k)) :
    (Launch3.dat V c).arrAt 13 cfg3.N
      = (refReadout (V c main_v168) mu var g b (V c main_arg17) c1 (V c main_arg19) c2 (V c main_arg21) c3 (V c main_arg23) c4 : S50000x1.Idx → Elt Ideal .f32) := by
  refine Final3.final V c _ fun t y => ?_
  obtain ⟨r, j, rfl⟩ : ∃ (r : Fin 10000) (j : Fin 1), y = ix2 r j := ⟨y 0, y 1, eq_ix2 y⟩
  have ht : t.val < 5 := N_3 ▸ t.isLt
  rw [Final3.blk1_eq V c t, Final3.blk2_eq V c t, Final3.blk3_eq V c t, Final3.blk4_eq V c t, Final3.blk5_eq V c t, Final3.blk6_eq V c t, Final3.blk7_eq V c t, Final3.blk8_eq V c t, Final3.blk9_eq V c t, Final3.blk10_eq V c t, Final3.blk11_eq V c t, Final3.blk12_eq V c t]
  unfold Launch3.out
  refine (readout_block ⟨t.val, ht⟩ (V c main_v168) mu var g b (V c main_arg17) c1 (V c main_arg19) c2 (V c main_arg21) c3 (V c main_arg23) c4
    (Launch3.iblk V c 0 t) (V c main_v179) (V c main_v180) (V c main_v181) (V c main_v182) (V c main_v183) (V c main_v184) (V c main_v185) (V c main_v186)
    (fun r k => Final3.blk0_apply V c t (ix2 r k) (ix2 (blockRow ⟨t.val, ht⟩ r) k) rfl rfl)
    hmu hvar hg hb hc1 hc2 hc3 hc4 r j).trans ?_
  refine congrArg _ (funext fun a => Fin.ext ?_)
  obtain ⟨h0, h1⟩ := Final3.emb_row t (ix2 r j)
  match a with
  | ⟨0, _⟩ => exact h0.symm
  | ⟨1, _⟩ => exact h1.symm

end Cert.KernelIdeal.Value3

end
-- ==== Proof.HostFns.lean ====
import proofs.«131956_j5523327942769_1_alg».proof.Proof.Gen.KernelIdeal

/-!
# The host side of the program as plain functions

Between its kernel launches the program computes, with whole-array host operations, what each launch reads:
the radial features of the edge lengths, the embedding lookup, and then — once per message-passing pass — the
sum over incoming edges of the concatenated edge and neighbour features, that sum's per-column mean and
variance over the nodes, and the pass's slices of the stacked parameters; before the readout, the four node
feature arrays side by side with their column statistics; and at the end the sum of the per-node outputs over
the nodes of each molecule.

Each of these is stated here once, as a function of arrays alone, generic in the float instance. Nothing here
names a buffer of any program: a program's run is read against these functions by saying which of its buffers
hold the arguments.
-/

noncomputable section

namespace Cert.HostStages

open Cert.KernelIdeal Cert.KernelIdeal.Gen Idealize.ShloMosaic Idealize.SL.Sem

variable {F : FTy → Type} [FloatOps F]

/-- An array of shape `s` and element type `e`: a value at every multi-index. -/
abbrev Arr (F : FTy → Type) (s : Shape) (e : EltTy) : Type := (⟨s, e⟩ : BufTy).Contents (Elt F)

/-! ## Edges, radial features, embeddings -/

/-- Row `0` of the edge list, as a vector: the node each edge's message is summed at. -/
def edgeRow0 (ei : Arr F S2x800000 .i32) : Arr F S800000 .i32 :=
  shapeCast S800000 (extractStridedSlice S1x800000 ![0, 0] ei slices_S2x800000_S1x800000_0_0) shapeCasts_S1x800000_S800000

/-- Row `1` of the edge list, as a vector: the node each edge reads its neighbour features from. -/
def edgeRow1 (ei : Arr F S2x800000 .i32) : Arr F S800000 .i32 :=
  shapeCast S800000 (extractStridedSlice S1x800000 ![1, 0] ei slices_S2x800000_S1x800000_1_0) shapeCasts_S1x800000_S800000

/-- The 23 centres `0.8, 0.9, …, 3.0` of the radial basis. -/
def centres : Arr F S23 .f32 := fun i => FloatOps.ofBits .f32 (lit0 (S23.rowMajor i))

/-- The radial features of the edge lengths: `exp (−(d e − centre k)²)` at edge `e` and centre `k`. -/
def rbf (d : Arr F S800000x1 .f32) : Arr F S800000x23 .f32 :=
  Host.exp (Host.negf (mulf
    (subf (broadcastInDim S800000x23 ![0, 1] bcast_S800000x1_S800000x23_0_1 d)
      (broadcastInDim S800000x23 ![0, 1] bcast_S1x23_S800000x23_0_1 (broadcastInDim S1x23 ![1] bcast_S23_S1x23_1 (centres (F := F)))))
    (subf (broadcastInDim S800000x23 ![0, 1] bcast_S800000x1_S800000x23_0_1 d)
      (broadcastInDim S800000x23 ![0, 1] bcast_S1x23_S800000x23_0_1 (broadcastInDim S1x23 ![1] bcast_S23_S1x23_1 (centres (F := F)))))))

/-- The initial node features: row `z n` of the embedding table at node `n` (a negative `z n` counted from the
    table's end, as the lookup is printed). -/
def embed (emb : Arr F S10x64 .f32) (z : Arr F S50000 .i32) : Arr F S50000x64 .f32 :=
  Host.gather gather_S10x64_S50000x1_S50000x64_1_0_n_n_0_1_164 emb
    (broadcastInDim S50000x1 ![0] bcast_S50000_S50000x1_0
      (select (cmpi .slt z (broadcastInDim S50000 ![] bcast_S_S50000 (constantI S_ 32 0#32)))
        (addi z (broadcastInDim S50000 ![] bcast_S_S50000 (constantI S_ 32 10#32)))
        z))

/-! ## One pass's message sum and its statistics -/

/-- The messages summed at each node: edge `e` carries its 23 radial features beside the 64 features of node
    `esink e` (a negative index counted from the end), and the 87-wide rows are added up at node `esrc e`,
    from zero. -/
def msg (r : Arr F S800000x23 .f32) (x : Arr F S50000x64 .f32) (esink esrc : Arr F S800000 .i32) : Arr F S50000x87 .f32 :=
  Host.scatterAdd scatter_S50000x87_S800000x1_S800000x87_1_0_0_1
    (broadcastInDim S50000x87 ![] bcast_S_S50000x87 (constant (F := F) S_ .f32 0x00000000#32))
    (broadcastInDim S800000x1 ![0] bcast_S800000_S800000x1_0 esrc)
    (concatenate S800000x87 1
      [⟨S800000x23, r⟩,
       ⟨S800000x64, Host.gather gather_S50000x64_S800000x1_S800000x64_1_0_n_n_0_1_164 x
          (broadcastInDim S800000x1 ![0] bcast_S800000_S800000x1_0
            (select (cmpi .slt esink (broadcastInDim S800000 ![] bcast_S_S800000 (constantI S_ 32 0#32)))
              (addi esink (broadcastInDim S800000 ![] bcast_S_S800000 (constantI S_ 32 50000#32)))
              esink))⟩]
      concatenates_S800000x23_S800000x64_S800000x87_d1)

/-- The column means of a message array over the 50000 nodes. -/
def meanOf (m : Arr F S50000x87 .f32) : Arr F S87 .f32 :=
  Host.divf (Host.reduceAdd m (constant (F := F) S_ .f32 0x00000000#32) reducesTo_S50000x87_S87_d0 h_S_)
    (broadcastInDim S87 ![] bcast_S_S87 (constant (F := F) S_ .f32 0x47435000#32))

/-- The column variances of a message array over the 50000 nodes: the mean of the squared deviations from
    the column means. -/
def varOf (m : Arr F S50000x87 .f32) : Arr F S87 .f32 :=
  Host.divf
    (Host.reduceAdd
      (mulf
        (subf m (broadcastInDim S50000x87 ![0, 1] bcast_S1x87_S50000x87_0_1 (broadcastInDim S1x87 ![1] bcast_S87_S1x87_1 (meanOf m))))
        (subf m (broadcastInDim S50000x87 ![0, 1] bcast_S1x87_S50000x87_0_1 (broadcastInDim S1x87 ![1] bcast_S87_S1x87_1 (meanOf m)))))
      (constant (F := F) S_ .f32 0x00000000#32) reducesTo_S50000x87_S87_d0 h_S_)
    (broadcastInDim S87 ![] bcast_S_S87 (constant (F := F) S_ .f32 0x47435000#32))

/-! ## Vectors as one-row matrices -/

/-- An 87-vector as a `[1, 87]` row. -/
def rowOf (v : Arr F S87 .f32) : Arr F S1x87 .f32 := shapeCast S1x87 v shapeCasts_S87_S1x87
/-- A 200-vector as a `[1, 200]` row. -/
def rowOf200 (v : Arr F S200 .f32) : Arr F S1x200 .f32 := shapeCast S1x200 v shapeCasts_S200_S1x200
/-- A 64-vector as a `[1, 64]` row. -/
def rowOf64 (v : Arr F S64 .f32) : Arr F S1x64 .f32 := shapeCast S1x64 v shapeCasts_S64_S1x64
/-- A 256-vector as a `[1, 256]` row. -/
def rowOf256 (v : Arr F S256 .f32) : Arr F S1x256 .f32 := shapeCast S1x256 v shapeCasts_S256_S1x256
/-- A 1-vector as a `[1, 1]` matrix. -/
def rowOf1 (v : Arr F S1 .f32) : Arr F S1x1 .f32 := shapeCast S1x1 v shapeCasts_S1_S1x1

/-! ## A pass's slice of the stacked parameters

Every parameter of the three passes is stored stacked along a leading axis of extent three; pass `p` reads
the block at offset `p` of that axis with the axis dropped. -/

theorem slices3x87 (p : Fin 3) : S3x87.Slices ![p.val, 0] S1x87 := by revert p; decide
theorem slices3x87x200 (p : Fin 3) : S3x87x200.Slices ![p.val, 0, 0] S1x87x200 := by revert p; decide
theorem slices3x200 (p : Fin 3) : S3x200.Slices ![p.val, 0] S1x200 := by revert p; decide
theorem slices3x200x200 (p : Fin 3) : S3x200x200.Slices ![p.val, 0, 0] S1x200x200 := by revert p; decide
theorem slices3x200x64 (p : Fin 3) : S3x200x64.Slices ![p.val, 0, 0] S1x200x64 := by revert p; decide
theorem slices3x64 (p : Fin 3) : S3x64.Slices ![p.val, 0] S1x64 := by revert p; decide

/-- Pass `p`'s 87-vector (a scale or a shift of the normalisation). -/
def vec87 (p : Fin 3) (a : Arr F S3x87 .f32) : Arr F S87 .f32 :=
  shapeCast S87 (extractStridedSlice S1x87 ![p.val, 0] a (slices3x87 p)) shapeCasts_S1x87_S87
/-- Pass `p`'s `[87, 200]` weight matrix. -/
def mat87x200 (p : Fin 3) (a : Arr F S3x87x200 .f32) : Arr F S87x200 .f32 :=
  shapeCast S87x200 (extractStridedSlice S1x87x200 ![p.val, 0, 0] a (slices3x87x200 p)) shapeCasts_S1x87x200_S87x200
/-- Pass `p`'s 200-vector (a bias). -/
def vec200 (p : Fin 3) (a : Arr F S3x200 .f32) : Arr F S200 .f32 :=
  shapeCast S200 (extractStridedSlice S1x200 ![p.val, 0] a (slices3x200 p)) shapeCasts_S1x200_S200
/-- Pass `p`'s `[200, 200]` weight matrix. -/
def mat200x200 (p : Fin 3) (a : Arr F S3x200x200 .f32) : Arr F S200x200 .f32 :=
  shapeCast S200x200 (extractStridedSlice S1x200x200 ![p.val, 0, 0] a (slices3x200x200 p)) shapeCasts_S1x200x200_S200x200
/-- Pass `p`'s `[200, 64]` weight matrix. -/
def mat200x64 (p : Fin 3) (a : Arr F S3x200x64 .f32) : Arr F S200x64 .f32 :=
  shapeCast S200x64 (extractStridedSlice S1x200x64 ![p.val, 0, 0] a (slices3x200x64 p)) shapeCasts_S1x200x64_S200x64
/-- Pass `p`'s 64-vector (the last bias). -/
def vec64 (p : Fin 3) (a : Arr F S3x64 .f32) : Arr F S64 .f32 :=
  shapeCast S64 (extractStridedSlice S1x64 ![p.val, 0] a (slices3x64 p)) shapeCasts_S1x64_S64

/-! ## The readout's input and its statistics -/

/-- The four node-feature arrays side by side: `[50000, 256]`. -/
def catAll (x0 x1 x2 x3 : Arr F S50000x64 .f32) : Arr F S50000x256 .f32 :=
  concatenate S50000x256 1 [⟨S50000x64, x0⟩, ⟨S50000x64, x1⟩, ⟨S50000x64, x2⟩, ⟨S50000x64, x3⟩]
    concatenates_S50000x64_S50000x64_S50000x64_S50000x64_S50000x256_d1

/-- The column means of the readout's input over the 50000 nodes. -/
def meanOf256 (x : Arr F S50000x256 .f32) : Arr F S256 .f32 :=
  Host.divf (Host.reduceAdd x (constant (F := F) S_ .f32 0x00000000#32) reducesTo_S50000x256_S256_d0 h_S_)
    (broadcastInDim S256 ![] bcast_S_S256 (constant (F := F) S_ .f32 0x47435000#32))

/-- The column variances of the readout's input over the 50000 nodes. -/
def varOf256 (x : Arr F S50000x256 .f32) : Arr F S256 .f32 :=
  Host.divf
    (Host.reduceAdd
      (mulf
        (subf x (broadcastInDim S50000x256 ![0, 1] bcast_S1x256_S50000x256_0_1 (broadcastInDim S1x256 ![1] bcast_S256_S1x256_1 (meanOf256 x))))
        (subf x (broadcastInDim S50000x256 ![0, 1] bcast_S1x256_S50000x256_0_1 (broadcastInDim S1x256 ![1] bcast_S256_S1x256_1 (meanOf256 x)))))
      (constant (F := F) S_ .f32 0x00000000#32) reducesTo_S50000x256_S256_d0 h_S_)
    (broadcastInDim S256 ![] bcast_S_S256 (constant (F := F) S_ .f32 0x47435000#32))

/-! ## The sum over each molecule -/

/-- The per-node outputs added up over the nodes of each of the 2048 molecules, from zero: node `n` belongs to
    molecule `mol n`. -/
def graphSum (mol : Arr F S50000 .i32) (y : Arr F S50000x1 .f32) : Arr F S2048x1 .f32 :=
  Host.scatterAdd scatter_S2048x1_S50000x1_S50000x1_1_0_0_1
    (broadcastInDim S2048x1 ![] bcast_S_S2048x1 (constant (F := F) S_ .f32 0x00000000#32))
    (broadcastInDim S50000x1 ![0] bcast_S50000_S50000x1_0 mol) y

end Cert.HostStages
-- ==== Proof.HostFnsApply.lean ====
import proofs.«131956_j5523327942769_1_alg».proof.Proof.HostFns
import Idealize.ShloMosaic.Lib.ValueLayout

/-!
# The one-row reshapes read at an index

A vector laid out as a one-row matrix holds, at row `0` and column `k`, the vector's entry `k`.
-/

noncomputable section

namespace Cert.HostStages

open Cert.KernelIdeal Idealize.ShloMosaic Idealize.ShloMosaic.ValueIdx Idealize.SL.Sem

variable {F : FTy → Type} [FloatOps F]

theorem rowOf_apply (v : Arr F S87 .f32) (k : Fin 87) : rowOf v (ix2 (0 : Fin 1) k) = v (ix1 k) :=
  shapeCast_a_1a_apply v _ 0 k

theorem rowOf200_apply (v : Arr F S200 .f32) (k : Fin 200) : rowOf200 v (ix2 (0 : Fin 1) k) = v (ix1 k) :=
  shapeCast_a_1a_apply v _ 0 k

theorem rowOf64_apply (v : Arr F S64 .f32) (k : Fin 64) : rowOf64 v (ix2 (0 : Fin 1) k) = v (ix1 k) :=
  shapeCast_a_1a_apply v _ 0 k

theorem rowOf256_apply (v : Arr F S256 .f32) (k : Fin 256) : rowOf256 v (ix2 (0 : Fin 1) k) = v (ix1 k) :=
  shapeCast_a_1a_apply v _ 0 k

theorem rowOf1_apply (v : Arr F S1 .f32) (k : Fin 1) : rowOf1 v (ix2 (0 : Fin 1) k) = v (ix1 k) :=
  shapeCast_a_1a_apply v _ 0 k

end Cert.HostStages
-- ==== Proof.HostKeep.lean ====
import proofs.«131956_j5523327942769_1_alg».proof.Proof.Gen.KernelIdeal.Launch

/-!
# What the host stretches leave untouched

Each stretch of host operations writes the result buffers of its own operations and nothing else. The lists of
those buffers, and, for the arrays a later stretch still reads — the radial features, the two rows of the edge
list, the node features of the earlier passes — that they come through a group of stretches unchanged.
-/

set_option maxRecDepth 4096

noncomputable section

namespace Cert.HostStages

open Cert.KernelIdeal Cert.KernelIdeal.Gen Idealize.ShloMosaic Idealize.ShloMosaic.TcCoe Idealize.SL.Sem Idealize.ShloMosaic.StableHlo

variable {F : FTy → Type} [FloatOps F]

/-- The references the operations of `main_part0_ops0` write. -/
abbrev main_part0_ops0_W : List (Ref sig .tc) :=
  [main_cst, main_v0, main_v1, main_v2, main_v3, main_v4, main_v5, main_v6, main_v7, main_v8, main_v9, main_v10,
   main_c, main_v11, main_v12, main_c_0, main_v13, main_v14, main_v15, main_v16, main_v17, main_c_1, main_v18,
   main_v19, main_c_2, main_v20, main_v21, main_v22, main_v23, main_v24, main_v25, main_cst_3, main_v26, main_v27,
   main_v28, main_cst_4, main_v29, main_cst_5, main_v30, main_v31, main_v32, main_v33, main_v34, main_v35,
   main_cst_6, main_v36, main_cst_7, main_v37, main_v38, main_v39, main_v40, main_v41, main_v42, main_v43, main_v44,
   main_v45, main_v46, main_v47, main_v48, main_v49]
theorem main_part0_ops0_writes : (main_part0_ops0 : List (HloOp τ sig (Elt F))).Forall fun op => op.writes ⊆ ((main_part0_ops0_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the operations of `main_part1_ops0` write. -/
abbrev main_part1_ops0_W : List (Ref sig .tc) :=
  [main_v50, main_v51, main_v52, main_v53, main_v54, main_v55, main_v56, main_v57, main_v58, main_v59, main_v60,
   main_v61, main_v62, main_v63, main_v64, main_v65, main_v66]
theorem main_part1_ops0_writes : (main_part1_ops0 : List (HloOp τ sig (Elt F))).Forall fun op => op.writes ⊆ ((main_part1_ops0_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the operations of `main_part1_ops1` write. -/
abbrev main_part1_ops1_W : List (Ref sig .tc) :=
  [main_c_8, main_v68, main_v69, main_c_9, main_v70, main_v71, main_v72, main_v73, main_v74, main_v75, main_cst_10,
   main_v76, main_v77, main_v78, main_cst_11, main_v79, main_cst_12, main_v80, main_v81, main_v82, main_v83,
   main_v84, main_v85, main_cst_13, main_v86, main_cst_14, main_v87, main_v88, main_v89, main_v90, main_v91,
   main_v92, main_v93, main_v94, main_v95, main_v96, main_v97, main_v98, main_v99, main_v100, main_v101, main_v102]
theorem main_part1_ops1_writes : (main_part1_ops1 : List (HloOp τ sig (Elt F))).Forall fun op => op.writes ⊆ ((main_part1_ops1_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the operations of `main_part2_ops0` write. -/
abbrev main_part2_ops0_W : List (Ref sig .tc) :=
  [main_v103, main_v104, main_v105, main_v106, main_v107, main_v108, main_v109, main_v110, main_v111, main_v112,
   main_v113, main_v114, main_v115, main_v116]
theorem main_part2_ops0_writes : (main_part2_ops0 : List (HloOp τ sig (Elt F))).Forall fun op => op.writes ⊆ ((main_part2_ops0_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the operations of `main_part2_ops1` write. -/
abbrev main_part2_ops1_W : List (Ref sig .tc) :=
  [main_c_15, main_v118, main_v119, main_c_16, main_v120, main_v121, main_v122, main_v123, main_v124, main_v125,
   main_cst_17, main_v126, main_v127, main_v128, main_cst_18, main_v129, main_cst_19, main_v130, main_v131,
   main_v132, main_v133, main_v134, main_v135, main_cst_20, main_v136, main_cst_21, main_v137, main_v138, main_v139,
   main_v140, main_v141, main_v142, main_v143, main_v144, main_v145, main_v146, main_v147, main_v148, main_v149,
   main_v150, main_v151, main_v152, main_v153, main_v154, main_v155]
theorem main_part2_ops1_writes : (main_part2_ops1 : List (HloOp τ sig (Elt F))).Forall fun op => op.writes ⊆ ((main_part2_ops1_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the operations of `main_part3_ops0` write. -/
abbrev main_part3_ops0_W : List (Ref sig .tc) :=
  [main_v156, main_v157, main_v158, main_v159, main_v160, main_v161, main_v162, main_v163, main_v164, main_v165,
   main_v166]
theorem main_part3_ops0_writes : (main_part3_ops0 : List (HloOp τ sig (Elt F))).Forall fun op => op.writes ⊆ ((main_part3_ops0_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the operations of `main_part3_ops1` write. -/
abbrev main_part3_ops1_W : List (Ref sig .tc) :=
  [main_v168, main_cst_22, main_v169, main_cst_23, main_v170, main_v171, main_v172, main_v173, main_v174, main_v175,
   main_cst_24, main_v176, main_cst_25, main_v177, main_v178, main_v179, main_v180, main_v181, main_v182, main_v183,
   main_v184, main_v185, main_v186]
theorem main_part3_ops1_writes : (main_part3_ops1 : List (HloOp τ sig (Elt F))).Forall fun op => op.writes ⊆ ((main_part3_ops1_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the operations of `main_part3_ops2` write. -/
abbrev main_part3_ops2_W : List (Ref sig .tc) :=
  [main_cst_26, main_v188, main_v189, main_v190]
theorem main_part3_ops2_writes : (main_part3_ops2 : List (HloOp τ sig (Elt F))).Forall fun op => op.writes ⊆ ((main_part3_ops2_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-! ## The groups of stretches -/

/-- A reference neither stretch writes holds after the two what it held before. -/
theorem g01_keep {r : Ref sig .tc} (W : Valuation τ sig (Elt F)) (h1 : r ∉ main_part0_ops0_W) (h2 : r ∉ main_part1_ops0_W) :
    StableHlo.after main_part1_ops0 (StableHlo.after main_part0_ops0 W) (Proc.devRef .tc r) = W (Proc.devRef .tc r) :=
  (after_of_writes_sub main_part1_ops0 _ main_part1_ops0_writes h2).trans (after_of_writes_sub main_part0_ops0 _ main_part0_ops0_writes h1)

/-- A reference neither stretch writes holds after the two what it held before. -/
theorem g23_keep {r : Ref sig .tc} (W : Valuation τ sig (Elt F)) (h1 : r ∉ main_part1_ops1_W) (h2 : r ∉ main_part2_ops0_W) :
    StableHlo.after main_part2_ops0 (StableHlo.after main_part1_ops1 W) (Proc.devRef .tc r) = W (Proc.devRef .tc r) :=
  (after_of_writes_sub main_part2_ops0 _ main_part2_ops0_writes h2).trans (after_of_writes_sub main_part1_ops1 _ main_part1_ops1_writes h1)
theorem g23_v67 (W : Valuation τ sig (Elt F)) :
    StableHlo.after main_part2_ops0 (StableHlo.after main_part1_ops1 W) (Proc.devRef .tc main_v67) = W (Proc.devRef .tc main_v67) :=
  g23_keep W (by decide) (by decide)
theorem g23_v10 (W : Valuation τ sig (Elt F)) :
    StableHlo.after main_part2_ops0 (StableHlo.after main_part1_ops1 W) (Proc.devRef .tc main_v10) = W (Proc.devRef .tc main_v10) :=
  g23_keep W (by decide) (by decide)
theorem g23_v1 (W : Valuation τ sig (Elt F)) :
    StableHlo.after main_part2_ops0 (StableHlo.after main_part1_ops1 W) (Proc.devRef .tc main_v1) = W (Proc.devRef .tc main_v1) :=
  g23_keep W (by decide) (by decide)
theorem g23_v3 (W : Valuation τ sig (Elt F)) :
    StableHlo.after main_part2_ops0 (StableHlo.after main_part1_ops1 W) (Proc.devRef .tc main_v3) = W (Proc.devRef .tc main_v3) :=
  g23_keep W (by decide) (by decide)
theorem g23_v17 (W : Valuation τ sig (Elt F)) :
    StableHlo.after main_part2_ops0 (StableHlo.after main_part1_ops1 W) (Proc.devRef .tc main_v17) = W (Proc.devRef .tc main_v17) :=
  g23_keep W (by decide) (by decide)

/-- A reference neither stretch writes holds after the two what it held before. -/
theorem g45_keep {r : Ref sig .tc} (W : Valuation τ sig (Elt F)) (h1 : r ∉ main_part2_ops1_W) (h2 : r ∉ main_part3_ops0_W) :
    StableHlo.after main_part3_ops0 (StableHlo.after main_part2_ops1 W) (Proc.devRef .tc r) = W (Proc.devRef .tc r) :=
  (after_of_writes_sub main_part3_ops0 _ main_part3_ops0_writes h2).trans (after_of_writes_sub main_part2_ops1 _ main_part2_ops1_writes h1)
theorem g45_v117 (W : Valuation τ sig (Elt F)) :
    StableHlo.after main_part3_ops0 (StableHlo.after main_part2_ops1 W) (Proc.devRef .tc main_v117) = W (Proc.devRef .tc main_v117) :=
  g45_keep W (by decide) (by decide)
theorem g45_v67 (W : Valuation τ sig (Elt F)) :
    StableHlo.after main_part3_ops0 (StableHlo.after main_part2_ops1 W) (Proc.devRef .tc main_v67) = W (Proc.devRef .tc main_v67) :=
  g45_keep W (by decide) (by decide)
theorem g45_v10 (W : Valuation τ sig (Elt F)) :
    StableHlo.after main_part3_ops0 (StableHlo.after main_part2_ops1 W) (Proc.devRef .tc main_v10) = W (Proc.devRef .tc main_v10) :=
  g45_keep W (by decide) (by decide)
theorem g45_v1 (W : Valuation τ sig (Elt F)) :
    StableHlo.after main_part3_ops0 (StableHlo.after main_part2_ops1 W) (Proc.devRef .tc main_v1) = W (Proc.devRef .tc main_v1) :=
  g45_keep W (by decide) (by decide)
theorem g45_v3 (W : Valuation τ sig (Elt F)) :
    StableHlo.after main_part3_ops0 (StableHlo.after main_part2_ops1 W) (Proc.devRef .tc main_v3) = W (Proc.devRef .tc main_v3) :=
  g45_keep W (by decide) (by decide)
theorem g45_v17 (W : Valuation τ sig (Elt F)) :
    StableHlo.after main_part3_ops0 (StableHlo.after main_part2_ops1 W) (Proc.devRef .tc main_v17) = W (Proc.devRef .tc main_v17) :=
  g45_keep W (by decide) (by decide)

/-- A reference the stretch does not write holds after it what it held before. -/
theorem g6_keep {r : Ref sig .tc} (W : Valuation τ sig (Elt F)) (h1 : r ∉ main_part3_ops1_W) :
    StableHlo.after main_part3_ops1 W (Proc.devRef .tc r) = W (Proc.devRef .tc r) :=
  after_of_writes_sub main_part3_ops1 _ main_part3_ops1_writes h1
theorem g6_v167 (W : Valuation τ sig (Elt F)) :
    StableHlo.after main_part3_ops1 W (Proc.devRef .tc main_v167) = W (Proc.devRef .tc main_v167) :=
  g6_keep W (by decide)
theorem g6_v117 (W : Valuation τ sig (Elt F)) :
    StableHlo.after main_part3_ops1 W (Proc.devRef .tc main_v117) = W (Proc.devRef .tc main_v117) :=
  g6_keep W (by decide)
theorem g6_v67 (W : Valuation τ sig (Elt F)) :
    StableHlo.after main_part3_ops1 W (Proc.devRef .tc main_v67) = W (Proc.devRef .tc main_v67) :=
  g6_keep W (by decide)
theorem g6_v17 (W : Valuation τ sig (Elt F)) :
    StableHlo.after main_part3_ops1 W (Proc.devRef .tc main_v17) = W (Proc.devRef .tc main_v17) :=
  g6_keep W (by decide)
theorem g6_arg17 (W : Valuation τ sig (Elt F)) :
    StableHlo.after main_part3_ops1 W (Proc.devRef .tc main_arg17) = W (Proc.devRef .tc main_arg17) :=
  g6_keep W (by decide)
theorem g6_arg19 (W : Valuation τ sig (Elt F)) :
    StableHlo.after main_part3_ops1 W (Proc.devRef .tc main_arg19) = W (Proc.devRef .tc main_arg19) :=
  g6_keep W (by decide)
theorem g6_arg21 (W : Valuation τ sig (Elt F)) :
    StableHlo.after main_part3_ops1 W (Proc.devRef .tc main_arg21) = W (Proc.devRef .tc main_arg21) :=
  g6_keep W (by decide)
theorem g6_arg23 (W : Valuation τ sig (Elt F)) :
    StableHlo.after main_part3_ops1 W (Proc.devRef .tc main_arg23) = W (Proc.devRef .tc main_arg23) :=
  g6_keep W (by decide)

/-- A reference the stretch does not write holds after it what it held before. -/
theorem g7_keep {r : Ref sig .tc} (W : Valuation τ sig (Elt F)) (h1 : r ∉ main_part3_ops2_W) :
    StableHlo.after main_part3_ops2 W (Proc.devRef .tc r) = W (Proc.devRef .tc r) :=
  after_of_writes_sub main_part3_ops2 _ main_part3_ops2_writes h1
theorem g7_v187 (W : Valuation τ sig (Elt F)) :
    StableHlo.after main_part3_ops2 W (Proc.devRef .tc main_v187) = W (Proc.devRef .tc main_v187) :=
  g7_keep W (by decide)

end Cert.HostStages
-- ==== Proof.HostStagesA.lean ====
import proofs.«131956_j5523327942769_1_alg».proof.Proof.Gen.KernelIdeal.Launch
import proofs.«131956_j5523327942769_1_alg».proof.Proof.HostFns

/-!
# What the host operations leave for the first launch, and the final sum

The first two stretches of host operations, read from the program's arguments: the radial features, the two rows
of the edge list, the embedded node features, the first pass's message sum with its column statistics, and the
first pass's parameters. The last stretch: the per-molecule sum of the readout's output.
-/

set_option maxRecDepth 4096

noncomputable section

namespace Cert.HostStages

open Cert.KernelIdeal Cert.KernelIdeal.Gen Idealize.ShloMosaic Idealize.ShloMosaic.TcCoe Idealize.SL.Sem Idealize.ShloMosaic.StableHlo

variable {F : FTy → Type} [FloatOps F]

/-! ## The last stretch -/

/-- The program's result: the readout's per-node outputs summed over each molecule. -/
theorem g7_v190 (W : Valuation τ sig (Elt F)) :
    (StableHlo.after main_part3_ops2 W (Proc.devRef .tc main_v190) : Arr F S2048x1 .f32)
      = graphSum (W (Proc.devRef .tc main_arg3)) (W (Proc.devRef .tc main_v187)) := by
  dsimp only [main_part3_ops2]; after_results; rfl

/-! ## The first two stretches -/

/-- The radial features of the edge lengths. -/
theorem g01_v10 (W : Valuation τ sig (Elt F)) :
    (StableHlo.after main_part1_ops0 (StableHlo.after main_part0_ops0 W) (Proc.devRef .tc main_v10) : Arr F S800000x23 .f32)
      = rbf (W (Proc.devRef .tc main_arg2)) := by
  dsimp only [main_part1_ops0, main_part0_ops0]; after_results_simp; rfl

/-- Row 0 of the edge list. -/
theorem g01_v1 (W : Valuation τ sig (Elt F)) :
    (StableHlo.after main_part1_ops0 (StableHlo.after main_part0_ops0 W) (Proc.devRef .tc main_v1) : Arr F S800000 .i32)
      = edgeRow0 (W (Proc.devRef .tc main_arg1)) := by
  dsimp only [main_part1_ops0, main_part0_ops0]; after_results_simp; rfl

/-- Row 1 of the edge list. -/
theorem g01_v3 (W : Valuation τ sig (Elt F)) :
    (StableHlo.after main_part1_ops0 (StableHlo.after main_part0_ops0 W) (Proc.devRef .tc main_v3) : Arr F S800000 .i32)
      = edgeRow1 (W (Proc.devRef .tc main_arg1)) := by
  dsimp only [main_part1_ops0, main_part0_ops0]; after_results_simp; rfl

/-- The initial node features. -/
theorem g01_v17 (W : Valuation τ sig (Elt F)) :
    (StableHlo.after main_part1_ops0 (StableHlo.after main_part0_ops0 W) (Proc.devRef .tc main_v17) : Arr F S50000x64 .f32)
      = embed (W (Proc.devRef .tc main_arg4)) (W (Proc.devRef .tc main_arg0)) := by
  dsimp only [main_part1_ops0, main_part0_ops0]; after_results_simp; rfl

/-- The first pass's message sum. -/
theorem g01_v28 (W : Valuation τ sig (Elt F)) :
    (StableHlo.after main_part1_ops0 (StableHlo.after main_part0_ops0 W) (Proc.devRef .tc main_v28) : Arr F S50000x87 .f32)
      = msg (rbf (W (Proc.devRef .tc main_arg2))) (embed (W (Proc.devRef .tc main_arg4)) (W (Proc.devRef .tc main_arg0))) (edgeRow1 (W (Proc.devRef .tc main_arg1))) (edgeRow0 (W (Proc.devRef .tc main_arg1))) := by
  dsimp only [main_part1_ops0, main_part0_ops0]; after_results_simp; rfl

/-- The column means of the first pass's message sum, as a row. -/
theorem g01_v59 (W : Valuation τ sig (Elt F)) :
    (StableHlo.after main_part1_ops0 (StableHlo.after main_part0_ops0 W) (Proc.devRef .tc main_v59) : Arr F S1x87 .f32)
      = rowOf (meanOf (msg (rbf (W (Proc.devRef .tc main_arg2))) (embed (W (Proc.devRef .tc main_arg4)) (W (Proc.devRef .tc main_arg0))) (edgeRow1 (W (Proc.devRef .tc main_arg1))) (edgeRow0 (W (Proc.devRef .tc main_arg1))))) := by
  dsimp only [main_part1_ops0, main_part0_ops0]; after_results_simp; rfl

/-- The column variances of the first pass's message sum, as a row. -/
theorem g01_v60 (W : Valuation τ sig (Elt F)) :
    (StableHlo.after main_part1_ops0 (StableHlo.after main_part0_ops0 W) (Proc.devRef .tc main_v60) : Arr F S1x87 .f32)
      = rowOf (varOf (msg (rbf (W (Proc.devRef .tc main_arg2))) (embed (W (Proc.devRef .tc main_arg4)) (W (Proc.devRef .tc main_arg0))) (edgeRow1 (W (Proc.devRef .tc main_arg1))) (edgeRow0 (W (Proc.devRef .tc main_arg1))))) := by
  dsimp only [main_part1_ops0, main_part0_ops0]; after_results_simp; rfl

/-- The first pass's normalisation scale, as a row. -/
theorem g01_v61 (W : Valuation τ sig (Elt F)) :
    (StableHlo.after main_part1_ops0 (StableHlo.after main_part0_ops0 W) (Proc.devRef .tc main_v61) : Arr F S1x87 .f32)
      = rowOf (vec87 0 (W (Proc.devRef .tc main_arg5))) := by
  dsimp only [main_part1_ops0, main_part0_ops0]; after_results_simp; rfl

/-- The first pass's normalisation shift, as a row. -/
theorem g01_v62 (W : Valuation τ sig (Elt F)) :
    (StableHlo.after main_part1_ops0 (StableHlo.after main_part0_ops0 W) (Proc.devRef .tc main_v62) : Arr F S1x87 .f32)
      = rowOf (vec87 0 (W (Proc.devRef .tc main_arg6))) := by
  dsimp only [main_part1_ops0, main_part0_ops0]; after_results_simp; rfl

/-- The first pass's first weight matrix. -/
theorem g01_v44 (W : Valuation τ sig (Elt F)) :
    (StableHlo.after main_part1_ops0 (StableHlo.after main_part0_ops0 W) (Proc.devRef .tc main_v44) : Arr F S87x200 .f32)
      = mat87x200 0 (W (Proc.devRef .tc main_arg7)) := by
  dsimp only [main_part1_ops0, main_part0_ops0]; after_results_simp; rfl

/-- The first pass's first bias, as a row. -/
theorem g01_v63 (W : Valuation τ sig (Elt F)) :
    (StableHlo.after main_part1_ops0 (StableHlo.after main_part0_ops0 W) (Proc.devRef .tc main_v63) : Arr F S1x200 .f32)
      = rowOf200 (vec200 0 (W (Proc.devRef .tc main_arg8))) := by
  dsimp only [main_part1_ops0, main_part0_ops0]; after_results_simp; rfl

/-- The first pass's second weight matrix. -/
theorem g01_v48 (W : Valuation τ sig (Elt F)) :
    (StableHlo.after main_part1_ops0 (StableHlo.after main_part0_ops0 W) (Proc.devRef .tc main_v48) : Arr F S200x200 .f32)
      = mat200x200 0 (W (Proc.devRef .tc main_arg9)) := by
  dsimp only [main_part1_ops0, main_part0_ops0]; after_results_simp; rfl

/-- The first pass's second bias, as a row. -/
theorem g01_v64 (W : Valuation τ sig (Elt F)) :
    (StableHlo.after main_part1_ops0 (StableHlo.after main_part0_ops0 W) (Proc.devRef .tc main_v64) : Arr F S1x200 .f32)
      = rowOf200 (vec200 0 (W (Proc.devRef .tc main_arg10))) := by
  dsimp only [main_part1_ops0, main_part0_ops0]; after_results_simp; rfl

/-- The first pass's third weight matrix. -/
theorem g01_v52 (W : Valuation τ sig (Elt F)) :
    (StableHlo.after main_part1_ops0 (StableHlo.after main_part0_ops0 W) (Proc.devRef .tc main_v52) : Arr F S200x200 .f32)
      = mat200x200 0 (W (Proc.devRef .tc main_arg11)) := by
  dsimp only [main_part1_ops0, main_part0_ops0]; after_results_simp; rfl

/-- The first pass's third bias, as a row. -/
theorem g01_v65 (W : Valuation τ sig (Elt F)) :
    (StableHlo.after main_part1_ops0 (StableHlo.after main_part0_ops0 W) (Proc.devRef .tc main_v65) : Arr F S1x200 .f32)
      = rowOf200 (vec200 0 (W (Proc.devRef .tc main_arg12))) := by
  dsimp only [main_part1_ops0, main_part0_ops0]; after_results_simp; rfl

/-- The first pass's last weight matrix. -/
theorem g01_v56 (W : Valuation τ sig (Elt F)) :
    (StableHlo.after main_part1_ops0 (StableHlo.after main_part0_ops0 W) (Proc.devRef .tc main_v56) : Arr F S200x64 .f32)
      = mat200x64 0 (W (Proc.devRef .tc main_arg13)) := by
  dsimp only [main_part1_ops0, main_part0_ops0]; after_results_simp; rfl

/-- The first pass's last bias, as a row. -/
theorem g01_v66 (W : Valuation τ sig (Elt F)) :
    (StableHlo.after main_part1_ops0 (StableHlo.after main_part0_ops0 W) (Proc.devRef .tc main_v66) : Arr F S1x64 .f32)
      = rowOf64 (vec64 0 (W (Proc.devRef .tc main_arg14))) := by
  dsimp only [main_part1_ops0, main_part0_ops0]; after_results_simp; rfl

end Cert.HostStages
-- ==== Proof.HostStagesB.lean ====
import proofs.«131956_j5523327942769_1_alg».proof.Proof.Gen.KernelIdeal.Launch
import proofs.«131956_j5523327942769_1_alg».proof.Proof.HostFns

/-!
# What the host operations leave for the second launch

The third and fourth stretches, read from the node features the first launch produced, the radial features, the
two rows of the edge list and the program's arguments: the second pass's message sum with its column statistics,
and the second pass's parameters.
-/

set_option maxRecDepth 4096

noncomputable section

namespace Cert.HostStages

open Cert.KernelIdeal Cert.KernelIdeal.Gen Idealize.ShloMosaic Idealize.ShloMosaic.TcCoe Idealize.SL.Sem Idealize.ShloMosaic.StableHlo

variable {F : FTy → Type} [FloatOps F]

/-- The second pass's message sum. -/
theorem g23_v78 (W : Valuation τ sig (Elt F)) :
    (StableHlo.after main_part2_ops0 (StableHlo.after main_part1_ops1 W) (Proc.devRef .tc main_v78) : Arr F S50000x87 .f32)
      = msg (W (Proc.devRef .tc main_v10)) (W (Proc.devRef .tc main_v67)) (W (Proc.devRef .tc main_v3)) (W (Proc.devRef .tc main_v1)) := by
  dsimp only [main_part2_ops0, main_part1_ops1]; after_results_simp; rfl

/-- The column means of the second pass's message sum, as a row. -/
theorem g23_v109 (W : Valuation τ sig (Elt F)) :
    (StableHlo.after main_part2_ops0 (StableHlo.after main_part1_ops1 W) (Proc.devRef .tc main_v109) : Arr F S1x87 .f32)
      = rowOf (meanOf (msg (W (Proc.devRef .tc main_v10)) (W (Proc.devRef .tc main_v67)) (W (Proc.devRef .tc main_v3)) (W (Proc.devRef .tc main_v1)))) := by
  dsimp only [main_part2_ops0, main_part1_ops1]; after_results_simp; rfl

/-- The column variances of the second pass's message sum, as a row. -/
theorem g23_v110 (W : Valuation τ sig (Elt F)) :
    (StableHlo.after main_part2_ops0 (StableHlo.after main_part1_ops1 W) (Proc.devRef .tc main_v110) : Arr F S1x87 .f32)
      = rowOf (varOf (msg (W (Proc.devRef .tc main_v10)) (W (Proc.devRef .tc main_v67)) (W (Proc.devRef .tc main_v3)) (W (Proc.devRef .tc main_v1)))) := by
  dsimp only [main_part2_ops0, main_part1_ops1]; after_results_simp; rfl

/-- The second pass's normalisation scale, as a row. -/
theorem g23_v111 (W : Valuation τ sig (Elt F)) :
    (StableHlo.after main_part2_ops0 (StableHlo.after main_part1_ops1 W) (Proc.devRef .tc main_v111) : Arr F S1x87 .f32)
      = rowOf (vec87 1 (W (Proc.devRef .tc main_arg5))) := by
  dsimp only [main_part2_ops0, main_part1_ops1]; after_results_simp; rfl

/-- The second pass's normalisation shift, as a row. -/
theorem g23_v112 (W : Valuation τ sig (Elt F)) :
    (StableHlo.after main_part2_ops0 (StableHlo.after main_part1_ops1 W) (Proc.devRef .tc main_v112) : Arr F S1x87 .f32)
      = rowOf (vec87 1 (W (Proc.devRef .tc main_arg6))) := by
  dsimp only [main_part2_ops0, main_part1_ops1]; after_results_simp; rfl

/-- The second pass's first weight matrix. -/
theorem g23_v94 (W : Valuation τ sig (Elt F)) :
    (StableHlo.after main_part2_ops0 (StableHlo.after main_part1_ops1 W) (Proc.devRef .tc main_v94) : Arr F S87x200 .f32)
      = mat87x200 1 (W (Proc.devRef .tc main_arg7)) := by
  dsimp only [main_part2_ops0, main_part1_ops1]; after_results_simp; rfl

/-- The second pass's first bias, as a row. -/
theorem g23_v113 (W : Valuation τ sig (Elt F)) :
    (StableHlo.after main_part2_ops0 (StableHlo.after main_part1_ops1 W) (Proc.devRef .tc main_v113) : Arr F S1x200 .f32)
      = rowOf200 (vec200 1 (W (Proc.devRef .tc main_arg8))) := by
  dsimp only [main_part2_ops0, main_part1_ops1]; after_results_simp; rfl

/-- The second pass's second weight matrix. -/
theorem g23_v98 (W : Valuation τ sig (Elt F)) :
    (StableHlo.after main_part2_ops0 (StableHlo.after main_part1_ops1 W) (Proc.devRef .tc main_v98) : Arr F S200x200 .f32)
      = mat200x200 1 (W (Proc.devRef .tc main_arg9)) := by
  dsimp only [main_part2_ops0, main_part1_ops1]; after_results_simp; rfl

/-- The second pass's second bias, as a row. -/
theorem g23_v114 (W : Valuation τ sig (Elt F)) :
    (StableHlo.after main_part2_ops0 (StableHlo.after main_part1_ops1 W) (Proc.devRef .tc main_v114) : Arr F S1x200 .f32)
      = rowOf200 (vec200 1 (W (Proc.devRef .tc main_arg10))) := by
  dsimp only [main_part2_ops0, main_part1_ops1]; after_results_simp; rfl

/-- The second pass's third weight matrix. -/
theorem g23_v102 (W : Valuation τ sig (Elt F)) :
    (StableHlo.after main_part2_ops0 (StableHlo.after main_part1_ops1 W) (Proc.devRef .tc main_v102) : Arr F S200x200 .f32)
      = mat200x200 1 (W (Proc.devRef .tc main_arg11)) := by
  dsimp only [main_part2_ops0, main_part1_ops1]; after_results_simp; rfl

/-- The second pass's third bias, as a row. -/
theorem g23_v115 (W : Valuation τ sig (Elt F)) :
    (StableHlo.after main_part2_ops0 (StableHlo.after main_part1_ops1 W) (Proc.devRef .tc main_v115) : Arr F S1x200 .f32)
      = rowOf200 (vec200 1 (W (Proc.devRef .tc main_arg12))) := by
  dsimp only [main_part2_ops0, main_part1_ops1]; after_results_simp; rfl

/-- The second pass's last weight matrix. -/
theorem g23_v106 (W : Valuation τ sig (Elt F)) :
    (StableHlo.after main_part2_ops0 (StableHlo.after main_part1_ops1 W) (Proc.devRef .tc main_v106) : Arr F S200x64 .f32)
      = mat200x64 1 (W (Proc.devRef .tc main_arg13)) := by
  dsimp only [main_part2_ops0, main_part1_ops1]; after_results_simp; rfl

/-- The second pass's last bias, as a row. -/
theorem g23_v116 (W : Valuation τ sig (Elt F)) :
    (StableHlo.after main_part2_ops0 (StableHlo.after main_part1_ops1 W) (Proc.devRef .tc main_v116) : Arr F S1x64 .f32)
      = rowOf64 (vec64 1 (W (Proc.devRef .tc main_arg14))) := by
  dsimp only [main_part2_ops0, main_part1_ops1]; after_results_simp; rfl

end Cert.HostStages
-- ==== Proof.HostStagesC.lean ====
import proofs.«131956_j5523327942769_1_alg».proof.Proof.Gen.KernelIdeal.Launch
import proofs.«131956_j5523327942769_1_alg».proof.Proof.HostFns

/-!
# What the host operations leave for the third launch

The fifth and sixth stretches, read from the node features the second launch produced, the radial features, the
two rows of the edge list and the program's arguments: the third pass's message sum with its column statistics,
and the third pass's parameters.
-/

set_option maxRecDepth 4096

noncomputable section

namespace Cert.HostStages

open Cert.KernelIdeal Cert.KernelIdeal.Gen Idealize.ShloMosaic Idealize.ShloMosaic.TcCoe Idealize.SL.Sem Idealize.ShloMosaic.StableHlo

variable {F : FTy → Type} [FloatOps F]

/-- The third pass's message sum. -/
theorem g45_v128 (W : Valuation τ sig (Elt F)) :
    (StableHlo.after main_part3_ops0 (StableHlo.after main_part2_ops1 W) (Proc.devRef .tc main_v128) : Arr F S50000x87 .f32)
      = msg (W (Proc.devRef .tc main_v10)) (W (Proc.devRef .tc main_v117)) (W (Proc.devRef .tc main_v3)) (W (Proc.devRef .tc main_v1)) := by
  dsimp only [main_part3_ops0, main_part2_ops1]; after_results_simp; rfl

/-- The column means of the third pass's message sum, as a row. -/
theorem g45_v159 (W : Valuation τ sig (Elt F)) :
    (StableHlo.after main_part3_ops0 (StableHlo.after main_part2_ops1 W) (Proc.devRef .tc main_v159) : Arr F S1x87 .f32)
      = rowOf (meanOf (msg (W (Proc.devRef .tc main_v10)) (W (Proc.devRef .tc main_v117)) (W (Proc.devRef .tc main_v3)) (W (Proc.devRef .tc main_v1)))) := by
  dsimp only [main_part3_ops0, main_part2_ops1]; after_results_simp; rfl

/-- The column variances of the third pass's message sum, as a row. -/
theorem g45_v160 (W : Valuation τ sig (Elt F)) :
    (StableHlo.after main_part3_ops0 (StableHlo.after main_part2_ops1 W) (Proc.devRef .tc main_v160) : Arr F S1x87 .f32)
      = rowOf (varOf (msg (W (Proc.devRef .tc main_v10)) (W (Proc.devRef .tc main_v117)) (W (Proc.devRef .tc main_v3)) (W (Proc.devRef .tc main_v1)))) := by
  dsimp only [main_part3_ops0, main_part2_ops1]; after_results_simp; rfl

/-- The third pass's normalisation scale, as a row. -/
theorem g45_v161 (W : Valuation τ sig (Elt F)) :
    (StableHlo.after main_part3_ops0 (StableHlo.after main_part2_ops1 W) (Proc.devRef .tc main_v161) : Arr F S1x87 .f32)
      = rowOf (vec87 2 (W (Proc.devRef .tc main_arg5))) := by
  dsimp only [main_part3_ops0, main_part2_ops1]; after_results_simp; rfl

/-- The third pass's normalisation shift, as a row. -/
theorem g45_v162 (W : Valuation τ sig (Elt F)) :
    (StableHlo.after main_part3_ops0 (StableHlo.after main_part2_ops1 W) (Proc.devRef .tc main_v162) : Arr F S1x87 .f32)
      = rowOf (vec87 2 (W (Proc.devRef .tc main_arg6))) := by
  dsimp only [main_part3_ops0, main_part2_ops1]; after_results_simp; rfl

/-- The third pass's first weight matrix. -/
theorem g45_v144 (W : Valuation τ sig (Elt F)) :
    (StableHlo.after main_part3_ops0 (StableHlo.after main_part2_ops1 W) (Proc.devRef .tc main_v144) : Arr F S87x200 .f32)
      = mat87x200 2 (W (Proc.devRef .tc main_arg7)) := by
  dsimp only [main_part3_ops0, main_part2_ops1]; after_results_simp; rfl

/-- The third pass's first bias, as a row. -/
theorem g45_v163 (W : Valuation τ sig (Elt F)) :
    (StableHlo.after main_part3_ops0 (StableHlo.after main_part2_ops1 W) (Proc.devRef .tc main_v163) : Arr F S1x200 .f32)
      = rowOf200 (vec200 2 (W (Proc.devRef .tc main_arg8))) := by
  dsimp only [main_part3_ops0, main_part2_ops1]; after_results_simp; rfl

/-- The third pass's second weight matrix. -/
theorem g45_v148 (W : Valuation τ sig (Elt F)) :
    (StableHlo.after main_part3_ops0 (StableHlo.after main_part2_ops1 W) (Proc.devRef .tc main_v148) : Arr F S200x200 .f32)
      = mat200x200 2 (W (Proc.devRef .tc main_arg9)) := by
  dsimp only [main_part3_ops0, main_part2_ops1]; after_results_simp; rfl

/-- The third pass's second bias, as a row. -/
theorem g45_v164 (W : Valuation τ sig (Elt F)) :
    (StableHlo.after main_part3_ops0 (StableHlo.after main_part2_ops1 W) (Proc.devRef .tc main_v164) : Arr F S1x200 .f32)
      = rowOf200 (vec200 2 (W (Proc.devRef .tc main_arg10))) := by
  dsimp only [main_part3_ops0, main_part2_ops1]; after_results_simp; rfl

/-- The third pass's third weight matrix. -/
theorem g45_v152 (W : Valuation τ sig (Elt F)) :
    (StableHlo.after main_part3_ops0 (StableHlo.after main_part2_ops1 W) (Proc.devRef .tc main_v152) : Arr F S200x200 .f32)
      = mat200x200 2 (W (Proc.devRef .tc main_arg11)) := by
  dsimp only [main_part3_ops0, main_part2_ops1]; after_results_simp; rfl

/-- The third pass's third bias, as a row. -/
theorem g45_v165 (W : Valuation τ sig (Elt F)) :
    (StableHlo.after main_part3_ops0 (StableHlo.after main_part2_ops1 W) (Proc.devRef .tc main_v165) : Arr F S1x200 .f32)
      = rowOf200 (vec200 2 (W (Proc.devRef .tc main_arg12))) := by
  dsimp only [main_part3_ops0, main_part2_ops1]; after_results_simp; rfl

/-- The third pass's last weight matrix. -/
theorem g45_v156 (W : Valuation τ sig (Elt F)) :
    (StableHlo.after main_part3_ops0 (StableHlo.after main_part2_ops1 W) (Proc.devRef .tc main_v156) : Arr F S200x64 .f32)
      = mat200x64 2 (W (Proc.devRef .tc main_arg13)) := by
  dsimp only [main_part3_ops0, main_part2_ops1]; after_results_simp; rfl

/-- The third pass's last bias, as a row. -/
theorem g45_v166 (W : Valuation τ sig (Elt F)) :
    (StableHlo.after main_part3_ops0 (StableHlo.after main_part2_ops1 W) (Proc.devRef .tc main_v166) : Arr F S1x64 .f32)
      = rowOf64 (vec64 2 (W (Proc.devRef .tc main_arg14))) := by
  dsimp only [main_part3_ops0, main_part2_ops1]; after_results_simp; rfl

end Cert.HostStages
-- ==== Proof.HostStagesD.lean ====
import proofs.«131956_j5523327942769_1_alg».proof.Proof.Gen.KernelIdeal.Launch
import proofs.«131956_j5523327942769_1_alg».proof.Proof.HostFns

/-!
# What the host operations leave for the readout launch

The seventh stretch, read from the four node-feature arrays and the program's arguments: the arrays side by side,
that array's column statistics, and the readout's scale, shift and bias rows.
-/

set_option maxRecDepth 4096

noncomputable section

namespace Cert.HostStages

open Cert.KernelIdeal Cert.KernelIdeal.Gen Idealize.ShloMosaic Idealize.ShloMosaic.TcCoe Idealize.SL.Sem Idealize.ShloMosaic.StableHlo

variable {F : FTy → Type} [FloatOps F]

/-- The four node-feature arrays side by side. -/
theorem g6_v168 (W : Valuation τ sig (Elt F)) :
    (StableHlo.after main_part3_ops1 W (Proc.devRef .tc main_v168) : Arr F S50000x256 .f32)
      = catAll (W (Proc.devRef .tc main_v17)) (W (Proc.devRef .tc main_v67)) (W (Proc.devRef .tc main_v117)) (W (Proc.devRef .tc main_v167)) := by
  dsimp only [main_part3_ops1]; after_results; rfl

/-- The column means of the readout's input, as a row. -/
theorem g6_v179 (W : Valuation τ sig (Elt F)) :
    (StableHlo.after main_part3_ops1 W (Proc.devRef .tc main_v179) : Arr F S1x256 .f32)
      = rowOf256 (meanOf256 (catAll (W (Proc.devRef .tc main_v17)) (W (Proc.devRef .tc main_v67)) (W (Proc.devRef .tc main_v117)) (W (Proc.devRef .tc main_v167)))) := by
  dsimp only [main_part3_ops1]; after_results; rfl

/-- The column variances of the readout's input, as a row. -/
theorem g6_v180 (W : Valuation τ sig (Elt F)) :
    (StableHlo.after main_part3_ops1 W (Proc.devRef .tc main_v180) : Arr F S1x256 .f32)
      = rowOf256 (varOf256 (catAll (W (Proc.devRef .tc main_v17)) (W (Proc.devRef .tc main_v67)) (W (Proc.devRef .tc main_v117)) (W (Proc.devRef .tc main_v167)))) := by
  dsimp only [main_part3_ops1]; after_results; rfl

/-- The readout's normalisation scale, as a row. -/
theorem g6_v181 (W : Valuation τ sig (Elt F)) :
    (StableHlo.after main_part3_ops1 W (Proc.devRef .tc main_v181) : Arr F S1x256 .f32)
      = rowOf256 (W (Proc.devRef .tc main_arg15)) := by
  dsimp only [main_part3_ops1]; after_results; rfl

/-- The readout's normalisation shift, as a row. -/
theorem g6_v182 (W : Valuation τ sig (Elt F)) :
    (StableHlo.after main_part3_ops1 W (Proc.devRef .tc main_v182) : Arr F S1x256 .f32)
      = rowOf256 (W (Proc.devRef .tc main_arg16)) := by
  dsimp only [main_part3_ops1]; after_results; rfl

/-- The readout's first bias, as a row. -/
theorem g6_v183 (W : Valuation τ sig (Elt F)) :
    (StableHlo.after main_part3_ops1 W (Proc.devRef .tc main_v183) : Arr F S1x200 .f32)
      = rowOf200 (W (Proc.devRef .tc main_arg18)) := by
  dsimp only [main_part3_ops1]; after_results; rfl

/-- The readout's second bias, as a row. -/
theorem g6_v184 (W : Valuation τ sig (Elt F)) :
    (StableHlo.after main_part3_ops1 W (Proc.devRef .tc main_v184) : Arr F S1x200 .f32)
      = rowOf200 (W (Proc.devRef .tc main_arg20)) := by
  dsimp only [main_part3_ops1]; after_results; rfl

/-- The readout's third bias, as a row. -/
theorem g6_v185 (W : Valuation τ sig (Elt F)) :
    (StableHlo.after main_part3_ops1 W (Proc.devRef .tc main_v185) : Arr F S1x200 .f32)
      = rowOf200 (W (Proc.devRef .tc main_arg22)) := by
  dsimp only [main_part3_ops1]; after_results; rfl

/-- The readout's last bias, as a one-by-one matrix. -/
theorem g6_v186 (W : Valuation τ sig (Elt F)) :
    (StableHlo.after main_part3_ops1 W (Proc.devRef .tc main_v186) : Arr F S1x1 .f32)
      = rowOf1 (W (Proc.devRef .tc main_arg24)) := by
  dsimp only [main_part3_ops1]; after_results; rfl

end Cert.HostStages
-- ==== Proof.HostStages.lean ====
import proofs.«131956_j5523327942769_1_alg».proof.Proof.HostFnsApply
import proofs.«131956_j5523327942769_1_alg».proof.Proof.HostKeep
import proofs.«131956_j5523327942769_1_alg».proof.Proof.HostStagesA
import proofs.«131956_j5523327942769_1_alg».proof.Proof.HostStagesB
import proofs.«131956_j5523327942769_1_alg».proof.Proof.HostStagesC
import proofs.«131956_j5523327942769_1_alg».proof.Proof.HostStagesD

/-!
# The host side of the program, stretch by stretch

Everything the eight stretches of host operations compute that a launch (or the program's result) reads, as the
functions of `HostFns` applied to the contents the stretches start from; what they leave untouched; and the one-row
reshapes read at an index.
-/
-- ==== Proof.Spec.lean ====
/-
  The function both programs compute, of the 25 argument arrays, over the extended reals.

  The radial features of the distances and the embeddings of the atom types; three passes, each forming the messages along
  the edges, their column means and variances, and the update layer on them; then the four stages of node features side by
  side, their column statistics, the readout layer, and the sum of its output over each molecule's nodes.
-/
import proofs.«131956_j5523327942769_1_alg».proof.Proof.HostFns
import proofs.«131956_j5523327942769_1_alg».proof.Proof.UpdateLayer
import proofs.«131956_j5523327942769_1_alg».proof.Proof.ReadoutLayer

noncomputable section

namespace Cert.Spec

open Idealize.ShloMosaic Cert.HostStages Cert.UpdateLayer
open Cert.KernelIdeal (S50000 S2x800000 S800000x1 S10x64 S3x87 S3x87x200 S3x200 S3x200x200 S3x200x64 S3x64 S256 S256x200 S200 S200x200 S200x1 S1 S800000x23 S800000 S50000x64 S50000x87 S2048x1)

/-- One pass: the messages along the edges, then the update layer with the messages' column statistics and pass `p`'s
    parameters. -/
def pass (p : Fin 3) (r : Arr Ideal S800000x23 .f32) (x : Arr Ideal S50000x64 .f32) (esink esrc : Arr Ideal S800000 .i32)
    (a5 a6 : Arr Ideal S3x87 .f32) (a7 : Arr Ideal S3x87x200 .f32) (a8 : Arr Ideal S3x200 .f32) (a9 : Arr Ideal S3x200x200 .f32)
    (a10 : Arr Ideal S3x200 .f32) (a11 : Arr Ideal S3x200x200 .f32) (a12 : Arr Ideal S3x200 .f32) (a13 : Arr Ideal S3x200x64 .f32)
    (a14 : Arr Ideal S3x64 .f32) : Arr Ideal S50000x64 .f32 :=
  refUpdate (msg r x esink esrc) x (meanOf (msg r x esink esrc)) (varOf (msg r x esink esrc))
    (vec87 p a5) (vec87 p a6) (mat87x200 p a7) (vec200 p a8) (mat200x200 p a9) (vec200 p a10) (mat200x200 p a11) (vec200 p a12)
    (mat200x64 p a13) (vec64 p a14)

/-- The whole computation. -/
def spec (a0 : Arr Ideal S50000 .i32) (a1 : Arr Ideal S2x800000 .i32) (a2 : Arr Ideal S800000x1 .f32) (a3 : Arr Ideal S50000 .i32)
    (a4 : Arr Ideal S10x64 .f32) (a5 a6 : Arr Ideal S3x87 .f32) (a7 : Arr Ideal S3x87x200 .f32) (a8 : Arr Ideal S3x200 .f32)
    (a9 : Arr Ideal S3x200x200 .f32) (a10 : Arr Ideal S3x200 .f32) (a11 : Arr Ideal S3x200x200 .f32) (a12 : Arr Ideal S3x200 .f32)
    (a13 : Arr Ideal S3x200x64 .f32) (a14 : Arr Ideal S3x64 .f32) (a15 a16 : Arr Ideal S256 .f32) (a17 : Arr Ideal S256x200 .f32)
    (a18 : Arr Ideal S200 .f32) (a19 : Arr Ideal S200x200 .f32) (a20 : Arr Ideal S200 .f32) (a21 : Arr Ideal S200x200 .f32)
    (a22 : Arr Ideal S200 .f32) (a23 : Arr Ideal S200x1 .f32) (a24 : Arr Ideal S1 .f32) : Arr Ideal S2048x1 .f32 :=
  let x0 := embed a4 a0
  let x1 := pass 0 (rbf a2) x0 (edgeRow1 a1) (edgeRow0 a1) a5 a6 a7 a8 a9 a10 a11 a12 a13 a14
  let x2 := pass 1 (rbf a2) x1 (edgeRow1 a1) (edgeRow0 a1) a5 a6 a7 a8 a9 a10 a11 a12 a13 a14
  let x3 := pass 2 (rbf a2) x2 (edgeRow1 a1) (edgeRow0 a1) a5 a6 a7 a8 a9 a10 a11 a12 a13 a14
  let xa := catAll x0 x1 x2 x3
  graphSum a3 (refReadout xa (meanOf256 xa) (varOf256 xa) a15 a16 a17 a18 a19 a20 a21 a22 a23 a24)

end Cert.Spec

end
-- ==== Proof.IdealSteps.lean ====
import proofs.«131956_j5523327942769_1_alg».proof.Proof.IdealValue0
import proofs.«131956_j5523327942769_1_alg».proof.Proof.IdealValue1
import proofs.«131956_j5523327942769_1_alg».proof.Proof.IdealValue2
import proofs.«131956_j5523327942769_1_alg».proof.Proof.IdealValue3
import proofs.«131956_j5523327942769_1_alg».proof.Proof.HostStages
import proofs.«131956_j5523327942769_1_alg».proof.Proof.Spec

set_option maxRecDepth 16384

noncomputable section

namespace Cert.KernelIdeal.Steps

open Idealize.ShloMosaic Idealize.ShloMosaic.TcCoe Idealize.SL.Sem Idealize.ShloMosaic.ValueIdx Idealize.ShloMosaic.StableHlo
open Cert.KernelIdeal Cert.KernelIdeal.Gen Cert.UpdateLayer Cert.HostStages

/-! ## Each launch's output array as the specification's function of what the preceding host operations start from

A launch is entered at the contents the host operations before it leave. Its output array is then the update layer
(or the readout layer) of the arrays it reads; those arrays are the host functions of the contents the host operations
started from, and each one-row operand is the row form of a vector. -/

/-- The update layer takes equal arguments to equal values. -/
theorem refUpdate_congr {M M' : FVec Ideal ReferenceIdeal.S50000x87 .f32} {X X' : FVec Ideal ReferenceIdeal.S50000x64 .f32}
    {mu var g b : FVec Ideal ReferenceIdeal.S87 .f32}
    {w1 w1' : FVec Ideal ReferenceIdeal.S87x200 .f32} {c1 c2 c3 : FVec Ideal ReferenceIdeal.S200 .f32}
    {w2 w2' w3 w3' : FVec Ideal ReferenceIdeal.S200x200 .f32} {w4 w4' : FVec Ideal ReferenceIdeal.S200x64 .f32}
    {c4 : FVec Ideal ReferenceIdeal.S64 .f32}
    (hM : M = M') (hX : X = X') (h1 : w1 = w1') (h2 : w2 = w2') (h3 : w3 = w3') (h4 : w4 = w4') :
    refUpdate M X mu var g b w1 c1 w2 c2 w3 c3 w4 c4 = refUpdate M' X' mu var g b w1' c1 w2' c2 w3' c3 w4' c4 := by
  subst hM hX h1 h2 h3 h4; rfl

variable (Wc : Dev nD → Valuation τ sig (Elt Ideal)) (c : Dev nD)

/-- Launch 0, entered after the first two stretches of host operations: its output array is the first pass of the
    specification on the radial features, the embedded node features and the two rows of the edge list. -/
theorem step0 :
    (Launch0.dat (F := Ideal) (fun c b => StableHlo.after main_part1_ops0 (StableHlo.after main_part0_ops0 (Wc c)) (Proc.devRef .tc b)) c).arrAt 14 cfg0.N
      = Cert.Spec.pass 0 (rbf (Wc c (Proc.devRef .tc main_arg2)))
          (embed (Wc c (Proc.devRef .tc main_arg4)) (Wc c (Proc.devRef .tc main_arg0)))
          (edgeRow1 (Wc c (Proc.devRef .tc main_arg1))) (edgeRow0 (Wc c (Proc.devRef .tc main_arg1)))
          (Wc c (Proc.devRef .tc main_arg5)) (Wc c (Proc.devRef .tc main_arg6)) (Wc c (Proc.devRef .tc main_arg7))
          (Wc c (Proc.devRef .tc main_arg8)) (Wc c (Proc.devRef .tc main_arg9)) (Wc c (Proc.devRef .tc main_arg10))
          (Wc c (Proc.devRef .tc main_arg11)) (Wc c (Proc.devRef .tc main_arg12)) (Wc c (Proc.devRef .tc main_arg13))
          (Wc c (Proc.devRef .tc main_arg14)) := by
  refine (Value0.value (fun c b => StableHlo.after main_part1_ops0 (StableHlo.after main_part0_ops0 (Wc c)) (Proc.devRef .tc b)) c
    (meanOf (msg (rbf (Wc c (Proc.devRef .tc main_arg2))) (embed (Wc c (Proc.devRef .tc main_arg4)) (Wc c (Proc.devRef .tc main_arg0))) (edgeRow1 (Wc c (Proc.devRef .tc main_arg1))) (edgeRow0 (Wc c (Proc.devRef .tc main_arg1)))))
    (varOf (msg (rbf (Wc c (Proc.devRef .tc main_arg2))) (embed (Wc c (Proc.devRef .tc main_arg4)) (Wc c (Proc.devRef .tc main_arg0))) (edgeRow1 (Wc c (Proc.devRef .tc main_arg1))) (edgeRow0 (Wc c (Proc.devRef .tc main_arg1)))))
    (vec87 0 (Wc c (Proc.devRef .tc main_arg5))) (vec87 0 (Wc c (Proc.devRef .tc main_arg6)))
    (vec200 0 (Wc c (Proc.devRef .tc main_arg8))) (vec200 0 (Wc c (Proc.devRef .tc main_arg10))) (vec200 0 (Wc c (Proc.devRef .tc main_arg12)))
    (vec64 0 (Wc c (Proc.devRef .tc main_arg14)))
    (fun k => (congrFun (g01_v59 (Wc c)) (ix2 (0 : Fin 1) k)).trans (rowOf_apply _ k))
    (fun k => (congrFun (g01_v60 (Wc c)) (ix2 (0 : Fin 1) k)).trans (rowOf_apply _ k))
    (fun k => (congrFun (g01_v61 (Wc c)) (ix2 (0 : Fin 1) k)).trans (rowOf_apply _ k))
    (fun k => (congrFun (g01_v62 (Wc c)) (ix2 (0 : Fin 1) k)).trans (rowOf_apply _ k))
    (fun k => (congrFun (g01_v63 (Wc c)) (ix2 (0 : Fin 1) k)).trans (rowOf200_apply _ k))
    (fun k => (congrFun (g01_v64 (Wc c)) (ix2 (0 : Fin 1) k)).trans (rowOf200_apply _ k))
    (fun k => (congrFun (g01_v65 (Wc c)) (ix2 (0 : Fin 1) k)).trans (rowOf200_apply _ k))
    (fun k => (congrFun (g01_v66 (Wc c)) (ix2 (0 : Fin 1) k)).trans (rowOf64_apply _ k))).trans ?_
  exact refUpdate_congr (g01_v28 (Wc c)) (g01_v17 (Wc c)) (g01_v44 (Wc c)) (g01_v48 (Wc c)) (g01_v52 (Wc c)) (g01_v56 (Wc c))

/-- Launch 1, entered after the next two stretches of host operations: its output array is the second pass of the
    specification on the radial features, the node features the launch before it left, and the two rows of the edge list,
    as those stretches find them. -/
theorem step1 :
    (Launch1.dat (F := Ideal) (fun c b => StableHlo.after main_part2_ops0 (StableHlo.after main_part1_ops1 (Wc c)) (Proc.devRef .tc b)) c).arrAt 14 cfg1.N
      = Cert.Spec.pass 1 (Wc c (Proc.devRef .tc main_v10) : Arr Ideal S800000x23 .f32) (Wc c (Proc.devRef .tc main_v67) : Arr Ideal S50000x64 .f32)
          (Wc c (Proc.devRef .tc main_v3) : Arr Ideal S800000 .i32) (Wc c (Proc.devRef .tc main_v1) : Arr Ideal S800000 .i32)
          (Wc c (Proc.devRef .tc main_arg5)) (Wc c (Proc.devRef .tc main_arg6)) (Wc c (Proc.devRef .tc main_arg7))
          (Wc c (Proc.devRef .tc main_arg8)) (Wc c (Proc.devRef .tc main_arg9)) (Wc c (Proc.devRef .tc main_arg10))
          (Wc c (Proc.devRef .tc main_arg11)) (Wc c (Proc.devRef .tc main_arg12)) (Wc c (Proc.devRef .tc main_arg13))
          (Wc c (Proc.devRef .tc main_arg14)) := by
  refine (Value1.value (fun c b => StableHlo.after main_part2_ops0 (StableHlo.after main_part1_ops1 (Wc c)) (Proc.devRef .tc b)) c
    (meanOf (msg (Wc c (Proc.devRef .tc main_v10)) (Wc c (Proc.devRef .tc main_v67)) (Wc c (Proc.devRef .tc main_v3)) (Wc c (Proc.devRef .tc main_v1))))
    (varOf (msg (Wc c (Proc.devRef .tc main_v10)) (Wc c (Proc.devRef .tc main_v67)) (Wc c (Proc.devRef .tc main_v3)) (Wc c (Proc.devRef .tc main_v1))))
    (vec87 1 (Wc c (Proc.devRef .tc main_arg5))) (vec87 1 (Wc c (Proc.devRef .tc main_arg6)))
    (vec200 1 (Wc c (Proc.devRef .tc main_arg8))) (vec200 1 (Wc c (Proc.devRef .tc main_arg10))) (vec200 1 (Wc c (Proc.devRef .tc main_arg12)))
    (vec64 1 (Wc c (Proc.devRef .tc main_arg14)))
    (fun k => (congrFun (g23_v109 (Wc c)) (ix2 (0 : Fin 1) k)).trans (rowOf_apply _ k))
    (fun k => (congrFun (g23_v110 (Wc c)) (ix2 (0 : Fin 1) k)).trans (rowOf_apply _ k))
    (fun k => (congrFun (g23_v111 (Wc c)) (ix2 (0 : Fin 1) k)).trans (rowOf_apply _ k))
    (fun k => (congrFun (g23_v112 (Wc c)) (ix2 (0 : Fin 1) k)).trans (rowOf_apply _ k))
    (fun k => (congrFun (g23_v113 (Wc c)) (ix2 (0 : Fin 1) k)).trans (rowOf200_apply _ k))
    (fun k => (congrFun (g23_v114 (Wc c)) (ix2 (0 : Fin 1) k)).trans (rowOf200_apply _ k))
    (fun k => (congrFun (g23_v115 (Wc c)) (ix2 (0 : Fin 1) k)).trans (rowOf200_apply _ k))
    (fun k => (congrFun (g23_v116 (Wc c)) (ix2 (0 : Fin 1) k)).trans (rowOf64_apply _ k))).trans ?_
  exact refUpdate_congr (g23_v78 (Wc c)) (g23_v67 (Wc c)) (g23_v94 (Wc c)) (g23_v98 (Wc c)) (g23_v102 (Wc c)) (g23_v106 (Wc c))

/-- Launch 2, entered after the next two stretches of host operations: its output array is the third pass of the
    specification on the radial features, the node features the launch before it left, and the two rows of the edge list,
    as those stretches find them. -/
theorem step2 :
    (Launch2.dat (F := Ideal) (fun c b => StableHlo.after main_part3_ops0 (StableHlo.after main_part2_ops1 (Wc c)) (Proc.devRef .tc b)) c).arrAt 14 cfg2.N
      = Cert.Spec.pass 2 (Wc c (Proc.devRef .tc main_v10) : Arr Ideal S800000x23 .f32) (Wc c (Proc.devRef .tc main_v117) : Arr Ideal S50000x64 .f32)
          (Wc c (Proc.devRef .tc main_v3) : Arr Ideal S800000 .i32) (Wc c (Proc.devRef .tc main_v1) : Arr Ideal S800000 .i32)
          (Wc c (Proc.devRef .tc main_arg5)) (Wc c (Proc.devRef .tc main_arg6)) (Wc c (Proc.devRef .tc main_arg7))
          (Wc c (Proc.devRef .tc main_arg8)) (Wc c (Proc.devRef .tc main_arg9)) (Wc c (Proc.devRef .tc main_arg10))
          (Wc c (Proc.devRef .tc main_arg11)) (Wc c (Proc.devRef .tc main_arg12)) (Wc c (Proc.devRef .tc main_arg13))
          (Wc c (Proc.devRef .tc main_arg14)) := by
  refine (Value2.value (fun c b => StableHlo.after main_part3_ops0 (StableHlo.after main_part2_ops1 (Wc c)) (Proc.devRef .tc b)) c
    (meanOf (msg (Wc c (Proc.devRef .tc main_v10)) (Wc c (Proc.devRef .tc main_v117)) (Wc c (Proc.devRef .tc main_v3)) (Wc c (Proc.devRef .tc main_v1))))
    (varOf (msg (Wc c (Proc.devRef .tc main_v10)) (Wc c (Proc.devRef .tc main_v117)) (Wc c (Proc.devRef .tc main_v3)) (Wc c (Proc.devRef .tc main_v1))))
    (vec87 2 (Wc c (Proc.devRef .tc main_arg5))) (vec87 2 (Wc c (Proc.devRef .tc main_arg6)))
    (vec200 2 (Wc c (Proc.devRef .tc main_arg8))) (vec200 2 (Wc c (Proc.devRef .tc main_arg10))) (vec200 2 (Wc c (Proc.devRef .tc main_arg12)))
    (vec64 2 (Wc c (Proc.devRef .tc main_arg14)))
    (fun k => (congrFun (g45_v159 (Wc c)) (ix2 (0 : Fin 1) k)).trans (rowOf_apply _ k))
    (fun k => (congrFun (g45_v160 (Wc c)) (ix2 (0 : Fin 1) k)).trans (rowOf_apply _ k))
    (fun k => (congrFun (g45_v161 (Wc c)) (ix2 (0 : Fin 1) k)).trans (rowOf_apply _ k))
    (fun k => (congrFun (g45_v162 (Wc c)) (ix2 (0 : Fin 1) k)).trans (rowOf_apply _ k))
    (fun k => (congrFun (g45_v163 (Wc c)) (ix2 (0 : Fin 1) k)).trans (rowOf200_apply _ k))
    (fun k => (congrFun (g45_v164 (Wc c)) (ix2 (0 : Fin 1) k)).trans (rowOf200_apply _ k))
    (fun k => (congrFun (g45_v165 (Wc c)) (ix2 (0 : Fin 1) k)).trans (rowOf200_apply _ k))
    (fun k => (congrFun (g45_v166 (Wc c)) (ix2 (0 : Fin 1) k)).trans (rowOf64_apply _ k))).trans ?_
  exact refUpdate_congr (g45_v128 (Wc c)) (g45_v117 (Wc c)) (g45_v144 (Wc c)) (g45_v148 (Wc c)) (g45_v152 (Wc c)) (g45_v156 (Wc c))

/-- The readout layer takes equal arguments to equal values. -/
theorem refReadout_congr {Z Z' : FVec Ideal ReferenceIdeal.S50000x256 .f32} {mu var g b : FVec Ideal ReferenceIdeal.S256 .f32}
    {w1 w1' : FVec Ideal ReferenceIdeal.S256x200 .f32} {c1 c2 c3 : FVec Ideal ReferenceIdeal.S200 .f32}
    {w2 w2' w3 w3' : FVec Ideal ReferenceIdeal.S200x200 .f32} {w4 w4' : FVec Ideal ReferenceIdeal.S200x1 .f32}
    {c4 : FVec Ideal ReferenceIdeal.S1 .f32}
    (hZ : Z = Z') (h1 : w1 = w1') (h2 : w2 = w2') (h3 : w3 = w3') (h4 : w4 = w4') :
    refReadout Z mu var g b w1 c1 w2 c2 w3 c3 w4 c4 = refReadout Z' mu var g b w1' c1 w2' c2 w3' c3 w4' c4 := by
  subst hZ h1 h2 h3 h4; rfl

/-- The readout launch, entered after the stretch of host operations that lays the four stages of node features side by
    side: its output array is the readout layer of that array, its column statistics and the readout's parameters. -/
theorem step3 :
    (Launch3.dat (F := Ideal) (fun c b => StableHlo.after main_part3_ops1 (Wc c) (Proc.devRef .tc b)) c).arrAt 13 cfg3.N
      = refReadout (catAll (Wc c (Proc.devRef .tc main_v17)) (Wc c (Proc.devRef .tc main_v67)) (Wc c (Proc.devRef .tc main_v117)) (Wc c (Proc.devRef .tc main_v167)))
          (meanOf256 (catAll (Wc c (Proc.devRef .tc main_v17)) (Wc c (Proc.devRef .tc main_v67)) (Wc c (Proc.devRef .tc main_v117)) (Wc c (Proc.devRef .tc main_v167))))
          (varOf256 (catAll (Wc c (Proc.devRef .tc main_v17)) (Wc c (Proc.devRef .tc main_v67)) (Wc c (Proc.devRef .tc main_v117)) (Wc c (Proc.devRef .tc main_v167))))
          (Wc c (Proc.devRef .tc main_arg15)) (Wc c (Proc.devRef .tc main_arg16)) (Wc c (Proc.devRef .tc main_arg17)) (Wc c (Proc.devRef .tc main_arg18)) (Wc c (Proc.devRef .tc main_arg19))
          (Wc c (Proc.devRef .tc main_arg20)) (Wc c (Proc.devRef .tc main_arg21)) (Wc c (Proc.devRef .tc main_arg22)) (Wc c (Proc.devRef .tc main_arg23)) (Wc c (Proc.devRef .tc main_arg24)) := by
  refine (Value3.value (fun c b => StableHlo.after main_part3_ops1 (Wc c) (Proc.devRef .tc b)) c
    (meanOf256 (catAll (Wc c (Proc.devRef .tc main_v17)) (Wc c (Proc.devRef .tc main_v67)) (Wc c (Proc.devRef .tc main_v117)) (Wc c (Proc.devRef .tc main_v167))))
    (varOf256 (catAll (Wc c (Proc.devRef .tc main_v17)) (Wc c (Proc.devRef .tc main_v67)) (Wc c (Proc.devRef .tc main_v117)) (Wc c (Proc.devRef .tc main_v167))))
    (Wc c (Proc.devRef .tc main_arg15)) (Wc c (Proc.devRef .tc main_arg16)) (Wc c (Proc.devRef .tc main_arg18)) (Wc c (Proc.devRef .tc main_arg20)) (Wc c (Proc.devRef .tc main_arg22)) (Wc c (Proc.devRef .tc main_arg24))
    (fun k => (congrFun (g6_v179 (Wc c)) (ix2 (0 : Fin 1) k)).trans (rowOf256_apply _ k))
    (fun k => (congrFun (g6_v180 (Wc c)) (ix2 (0 : Fin 1) k)).trans (rowOf256_apply _ k))
    (fun k => (congrFun (g6_v181 (Wc c)) (ix2 (0 : Fin 1) k)).trans (rowOf256_apply _ k))
    (fun k => (congrFun (g6_v182 (Wc c)) (ix2 (0 : Fin 1) k)).trans (rowOf256_apply _ k))
    (fun k => (congrFun (g6_v183 (Wc c)) (ix2 (0 : Fin 1) k)).trans (rowOf200_apply _ k))
    (fun k => (congrFun (g6_v184 (Wc c)) (ix2 (0 : Fin 1) k)).trans (rowOf200_apply _ k))
    (fun k => (congrFun (g6_v185 (Wc c)) (ix2 (0 : Fin 1) k)).trans (rowOf200_apply _ k))
    (fun k => (congrFun (g6_v186 (Wc c)) (ix2 (0 : Fin 1) k)).trans (rowOf1_apply _ k))).trans ?_
  exact refReadout_congr (g6_v168 (Wc c)) (g6_keep (Wc c) (by decide)) (g6_keep (Wc c) (by decide)) (g6_keep (Wc c) (by decide))
    (g6_keep (Wc c) (by decide))

end Cert.KernelIdeal.Steps
-- ==== Proof.IdealChain.lean ====
/-
  The kernel program's result is the common function of its argument arrays.

  Follow the run's valuations from the launch memory: the host operations before the first launch form the radial features,
  the embeddings and the first messages; each update launch leaves the pass's update layer of what it was entered at; the
  radial features, the index vectors and the earlier stages of node features are not written in between, so they read the
  same at every later valuation; the last host operations concatenate the four stages and the readout launch and the final
  sum finish it.
-/
import proofs.«131956_j5523327942769_1_alg».proof.Proof.IdealRun
import proofs.«131956_j5523327942769_1_alg».proof.Proof.IdealSteps
import proofs.«131956_j5523327942769_1_alg».proof.Proof.HostStages
import proofs.«131956_j5523327942769_1_alg».proof.Proof.Spec

set_option maxRecDepth 16384

noncomputable section

namespace Cert.KernelIdeal.Chain

open Idealize.ShloMosaic Idealize.ShloMosaic.TcCoe Idealize.SL.Sem
open Cert.KernelIdeal Cert.KernelIdeal.Gen Cert.KernelIdeal.Run Cert.HostStages Cert.UpdateLayer

variable (m : (ℓ : Loc nD τ sig) → Buf (Elt Ideal) ℓ) (c : Dev nD)

/-! ## Before and after the first launch -/

theorem rbf2 : W2 m c (Proc.devRef .tc main_v10) = rbf (m ((c : Thread nD τ).loc main_arg2)) := g01_v10 (W0 m c)
theorem esrc2 : W2 m c (Proc.devRef .tc main_v1) = edgeRow0 (m ((c : Thread nD τ).loc main_arg1)) := g01_v1 (W0 m c)
theorem esink2 : W2 m c (Proc.devRef .tc main_v3) = edgeRow1 (m ((c : Thread nD τ).loc main_arg1)) := g01_v3 (W0 m c)
theorem x0_2 : W2 m c (Proc.devRef .tc main_v17) = embed (m ((c : Thread nD τ).loc main_arg4)) (m ((c : Thread nD τ).loc main_arg0)) := g01_v17 (W0 m c)

/-- The node features after the first pass. -/
def X1 : Arr Ideal S50000x64 .f32 :=
  Cert.Spec.pass 0 (rbf (m ((c : Thread nD τ).loc main_arg2))) (embed (m ((c : Thread nD τ).loc main_arg4)) (m ((c : Thread nD τ).loc main_arg0))) (edgeRow1 (m ((c : Thread nD τ).loc main_arg1))) (edgeRow0 (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem x1_3 : W3 m c (Proc.devRef .tc main_v67) = X1 m c :=
  (W3_arr m c 14).trans (Cert.KernelIdeal.Steps.step0 (W0 m) c)

theorem rbf3 : W3 m c (Proc.devRef .tc main_v10) = rbf (m ((c : Thread nD τ).loc main_arg2)) := (W3_keep m c main_v10 (by decide)).trans (rbf2 m c)
theorem esrc3 : W3 m c (Proc.devRef .tc main_v1) = edgeRow0 (m ((c : Thread nD τ).loc main_arg1)) := (W3_keep m c main_v1 (by decide)).trans (esrc2 m c)
theorem esink3 : W3 m c (Proc.devRef .tc main_v3) = edgeRow1 (m ((c : Thread nD τ).loc main_arg1)) := (W3_keep m c main_v3 (by decide)).trans (esink2 m c)
theorem x0_3 : W3 m c (Proc.devRef .tc main_v17) = embed (m ((c : Thread nD τ).loc main_arg4)) (m ((c : Thread nD τ).loc main_arg0)) := (W3_keep m c main_v17 (by decide)).trans (x0_2 m c)

/-! ## The second pass -/

/-- The node features after the second pass. -/
def X2 : Arr Ideal S50000x64 .f32 :=
  Cert.Spec.pass 1 (rbf (m ((c : Thread nD τ).loc main_arg2))) (X1 m c) (edgeRow1 (m ((c : Thread nD τ).loc main_arg1))) (edgeRow0 (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem x2_6 : W6 m c (Proc.devRef .tc main_v117) = X2 m c := by
  refine ((W6_arr m c 14).trans (Cert.KernelIdeal.Steps.step1 (W3 m) c)).trans ?_
  rw [rbf3 m c, x1_3 m c, esink3 m c, esrc3 m c, kept3 m c main_arg5 (by decide), kept3 m c main_arg6 (by decide), kept3 m c main_arg7 (by decide), kept3 m c main_arg8 (by decide), kept3 m c main_arg9 (by decide), kept3 m c main_arg10 (by decide), kept3 m c main_arg11 (by decide), kept3 m c main_arg12 (by decide), kept3 m c main_arg13 (by decide), kept3 m c main_arg14 (by decide)]
  rfl

theorem rbf6 : W6 m c (Proc.devRef .tc main_v10) = rbf (m ((c : Thread nD τ).loc main_arg2)) :=
  (W6_keep m c main_v10 (by decide)).trans ((g23_v10 (W3 m c)).trans (rbf3 m c))
theorem esrc6 : W6 m c (Proc.devRef .tc main_v1) = edgeRow0 (m ((c : Thread nD τ).loc main_arg1)) :=
  (W6_keep m c main_v1 (by decide)).trans ((g23_v1 (W3 m c)).trans (esrc3 m c))
theorem esink6 : W6 m c (Proc.devRef .tc main_v3) = edgeRow1 (m ((c : Thread nD τ).loc main_arg1)) :=
  (W6_keep m c main_v3 (by decide)).trans ((g23_v3 (W3 m c)).trans (esink3 m c))
theorem x0_6 : W6 m c (Proc.devRef .tc main_v17) = embed (m ((c : Thread nD τ).loc main_arg4)) (m ((c : Thread nD τ).loc main_arg0)) :=
  (W6_keep m c main_v17 (by decide)).trans ((g23_v17 (W3 m c)).trans (x0_3 m c))
theorem x1_6 : W6 m c (Proc.devRef .tc main_v67) = X1 m c :=
  (W6_keep m c main_v67 (by decide)).trans ((g23_v67 (W3 m c)).trans (x1_3 m c))

/-! ## The third pass -/

/-- The node features after the third pass. -/
def X3 : Arr Ideal S50000x64 .f32 :=
  Cert.Spec.pass 2 (rbf (m ((c : Thread nD τ).loc main_arg2))) (X2 m c) (edgeRow1 (m ((c : Thread nD τ).loc main_arg1))) (edgeRow0 (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem x3_9 : W9 m c (Proc.devRef .tc main_v167) = X3 m c := by
  refine ((W9_arr m c 14).trans (Cert.KernelIdeal.Steps.step2 (W6 m) c)).trans ?_
  rw [rbf6 m c, x2_6 m c, esink6 m c, esrc6 m c, kept6 m c main_arg5 (by decide), kept6 m c main_arg6 (by decide), kept6 m c main_arg7 (by decide), kept6 m c main_arg8 (by decide), kept6 m c main_arg9 (by decide), kept6 m c main_arg10 (by decide), kept6 m c main_arg11 (by decide), kept6 m c main_arg12 (by decide), kept6 m c main_arg13 (by decide), kept6 m c main_arg14 (by decide)]
  rfl

theorem x0_9 : W9 m c (Proc.devRef .tc main_v17) = embed (m ((c : Thread nD τ).loc main_arg4)) (m ((c : Thread nD τ).loc main_arg0)) :=
  (W9_keep m c main_v17 (by decide)).trans ((g45_v17 (W6 m c)).trans (x0_6 m c))
theorem x1_9 : W9 m c (Proc.devRef .tc main_v67) = X1 m c :=
  (W9_keep m c main_v67 (by decide)).trans ((g45_v67 (W6 m c)).trans (x1_6 m c))
theorem x2_9 : W9 m c (Proc.devRef .tc main_v117) = X2 m c :=
  (W9_keep m c main_v117 (by decide)).trans ((g45_v117 (W6 m c)).trans (x2_6 m c))

/-! ## The readout and the final sum -/

/-- The four stages of node features side by side. -/
def XA : Arr Ideal S50000x256 .f32 := catAll (embed (m ((c : Thread nD τ).loc main_arg4)) (m ((c : Thread nD τ).loc main_arg0))) (X1 m c) (X2 m c) (X3 m c)

/-- The readout layer's output per node. -/
def Y : Arr Ideal S50000x1 .f32 :=
  refReadout (XA m c) (meanOf256 (XA m c)) (varOf256 (XA m c)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

theorem y_11 : W11 m c (Proc.devRef .tc main_v187) = Y m c := by
  refine ((W11_arr m c 13).trans (Cert.KernelIdeal.Steps.step3 (W9 m) c)).trans ?_
  rw [x0_9 m c, x1_9 m c, x2_9 m c, x3_9 m c, kept9 m c main_arg15 (by decide), kept9 m c main_arg16 (by decide), kept9 m c main_arg17 (by decide), kept9 m c main_arg18 (by decide), kept9 m c main_arg19 (by decide), kept9 m c main_arg20 (by decide), kept9 m c main_arg21 (by decide), kept9 m c main_arg22 (by decide), kept9 m c main_arg23 (by decide), kept9 m c main_arg24 (by decide)]
  rfl

/-- The result buffer at the end of the run is the common function of the argument arrays. -/
theorem kernel_value : W12 m c (Proc.devRef .tc main_v190)
    = Cert.Spec.spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (g7_v190 (W11 m c)).trans ?_
  rw [kept11 m c main_arg3 (by decide), y_11 m c]
  rfl

end Cert.KernelIdeal.Chain

end
-- ==== Proof.RefRun.lean ====
import proofs.«131956_j5523327942769_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Two general facts about a straight line of operations -/

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- The fold of a concatenation is the fold of the second line from the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The buffers written

The 25 arguments are the references 0 … 24 of the device's main memory; every value the program computes has a
buffer of its own at a later index. So "index at least 25" separates what is written from what is not, one
comparison of numbers per reference. -/

/-- The references whose index is at least 25: every buffer that is not an argument. -/
abbrev late : List (Ref sig .tc) := (Finset.univ.filter fun r : Ref sig .tc => 25 ≤ r.idx.val).toList

/-- An operation that writes exactly the buffer `y`, of index at least 25, writes inside `late`. -/
theorem late_sub {y : Ref sig .tc} (h : 25 ≤ y.idx.val) :
    ({Proc.devRef (τ := τ) .tc y} : Finset (DevRef τ sig)) ⊆ (late.map (Proc.devRef (τ := τ) .tc)).toFinset :=
  Finset.singleton_subset_iff.2 (List.mem_toFinset.2 (List.mem_map_of_mem
    (Finset.mem_toList.2 (Finset.mem_filter.2 ⟨Finset.mem_univ _, h⟩))))

/-- A reference of index below 25 is not in `late`. -/
theorem not_mem_late {r : Ref sig .tc} (h : r.idx.val < 25) : r ∉ late := fun hm =>
  absurd (Finset.mem_filter.1 (Finset.mem_toList.1 hm)).2 (Nat.not_le.2 h)

/-! ## Window 0 -/

/-- The operations of window 0, in order (the calls of the rectifier unfolded at their sites): the shift table and the radial basis of the distances, the embedding lookup, the first pass's gather and scatter-add, the first pass's parameter rows, and the mean of the first aggregate. -/
abbrev w0 : List (HloOp τ sig (Elt F)) :=
  [ StableHlo.nullary main_cst (fun i => FloatOps.ofBits .f32 (lit0 (S23.rowMajor i))),
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_cst main_v4 (broadcastInDim S1x23 ![1] bcast_S23_S1x23_1 : (⟨S23, .f32⟩ : BufTy).Contents (Elt F) → (⟨S1x23, .f32⟩ : BufTy).Contents (Elt F)),
    StableHlo.unary main_arg2 main_v5 (broadcastInDim S800000x23 ![0, 1] bcast_S800000x1_S800000x23_0_1 : (⟨S800000x1, .f32⟩ : BufTy).Contents (Elt F) → (⟨S800000x23, .f32⟩ : BufTy).Contents (Elt F)),
    StableHlo.unary main_v4 main_v6 (broadcastInDim S800000x23 ![0, 1] bcast_S1x23_S800000x23_0_1 : (⟨S1x23, .f32⟩ : BufTy).Contents (Elt F) → (⟨S800000x23, .f32⟩ : BufTy).Contents (Elt F)),
    StableHlo.binary main_v5 main_v6 main_v7 (subf : (⟨S800000x23, .f32⟩ : BufTy).Contents (Elt F) → (⟨S800000x23, .f32⟩ : BufTy).Contents (Elt F) → (⟨S800000x23, .f32⟩ : BufTy).Contents (Elt F)),
    StableHlo.binary main_v7 main_v7 main_v8 (mulf : (⟨S800000x23, .f32⟩ : BufTy).Contents (Elt F) → (⟨S800000x23, .f32⟩ : BufTy).Contents (Elt F) → (⟨S800000x23, .f32⟩ : BufTy).Contents (Elt F)),
    StableHlo.unary main_v8 main_v9 (Host.negf : (⟨S800000x23, .f32⟩ : BufTy).Contents (Elt F) → (⟨S800000x23, .f32⟩ : BufTy).Contents (Elt F)),
    StableHlo.unary main_v9 main_v10 (Host.exp : (⟨S800000x23, .f32⟩ : BufTy).Contents (Elt F) → (⟨S800000x23, .f32⟩ : BufTy).Contents (Elt F)),
    StableHlo.nullary main_c (constantI S_ 32 0#32),
    StableHlo.unary main_c main_v11 (broadcastInDim S50000 ![] bcast_S_S50000 : (⟨S_, .i32⟩ : BufTy).Contents (Elt F) → (⟨S50000, .i32⟩ : BufTy).Contents (Elt F)),
    StableHlo.binary main_arg0 main_v11 main_v12 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 10#32),
    StableHlo.unary main_c_0 main_v13 (broadcastInDim S50000 ![] bcast_S_S50000 : (⟨S_, .i32⟩ : BufTy).Contents (Elt F) → (⟨S50000, .i32⟩ : BufTy).Contents (Elt F)),
    StableHlo.binary main_arg0 main_v13 main_v14 (addi : (⟨S50000, .i32⟩ : BufTy).Contents (Elt F) → (⟨S50000, .i32⟩ : BufTy).Contents (Elt F) → (⟨S50000, .i32⟩ : BufTy).Contents (Elt F)),
    StableHlo.ternary main_v12 main_v14 main_arg0 main_v15 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v15 main_v16 (broadcastInDim S50000x1 ![0] bcast_S50000_S50000x1_0 : (⟨S50000, .i32⟩ : BufTy).Contents (Elt F) → (⟨S50000x1, .i32⟩ : BufTy).Contents (Elt F)),
    StableHlo.binary main_arg4 main_v16 main_v17 ((fun x i => Host.gather gather_S10x64_S50000x1_S50000x64_1_0_n_n_0_1_164 x i) : (⟨S10x64, .f32⟩ : BufTy).Contents (Elt F) → (⟨S50000x1, .i32⟩ : BufTy).Contents (Elt F) → (⟨S50000x64, .f32⟩ : BufTy).Contents (Elt F)),
    StableHlo.nullary main_c_1 (constantI S_ 32 0#32),
    StableHlo.unary main_c_1 main_v18 (broadcastInDim S800000 ![] bcast_S_S800000 : (⟨S_, .i32⟩ : BufTy).Contents (Elt F) → (⟨S800000, .i32⟩ : BufTy).Contents (Elt F)),
    StableHlo.binary main_v3 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v20 (broadcastInDim S800000 ![] bcast_S_S800000 : (⟨S_, .i32⟩ : BufTy).Contents (Elt F) → (⟨S800000, .i32⟩ : BufTy).Contents (Elt F)),
    StableHlo.binary main_v3 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v17 main_v23 main_v24 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v10 main_v24 main_v25 ((fun a b => concatenate S800000x87 1 [⟨S800000x23, a⟩, ⟨S800000x64, b⟩] concatenates_S800000x23_S800000x64_S800000x87_d1) : (⟨S800000x23, .f32⟩ : BufTy).Contents (Elt F) → (⟨S800000x64, .f32⟩ : BufTy).Contents (Elt F) → (⟨S800000x87, .f32⟩ : BufTy).Contents (Elt F)),
    StableHlo.nullary main_cst_3 (constant S_ .f32 0x00000000#32),
    StableHlo.unary main_cst_3 main_v26 (broadcastInDim S50000x87 ![] bcast_S_S50000x87 : (⟨S_, .f32⟩ : BufTy).Contents (Elt F) → (⟨S50000x87, .f32⟩ : BufTy).Contents (Elt F)),
    StableHlo.unary main_v1 main_v27 (broadcastInDim S800000x1 ![0] bcast_S800000_S800000x1_0 : (⟨S800000, .i32⟩ : BufTy).Contents (Elt F) → (⟨S800000x1, .i32⟩ : BufTy).Contents (Elt F)),
    StableHlo.ternary main_v26 main_v27 main_v25 main_v28 ((fun x i u => Host.scatterAdd scatter_S50000x87_S800000x1_S800000x87_1_0_0_1 x i u) : (⟨S50000x87, .f32⟩ : BufTy).Contents (Elt F) → (⟨S800000x1, .i32⟩ : BufTy).Contents (Elt F) → (⟨S800000x87, .f32⟩ : BufTy).Contents (Elt F) → (⟨S50000x87, .f32⟩ : BufTy).Contents (Elt F)),
    StableHlo.unary main_arg5 main_v29 ((extractStridedSlice S1x87 ![0, 0] · slices_S3x87_S1x87_0_0) : (⟨S3x87, .f32⟩ : BufTy).Contents (Elt F) → (⟨S1x87, .f32⟩ : BufTy).Contents (Elt F)),
    StableHlo.reshape main_v29 main_v30 rfl shapeCasts_S1x87_S87,
    StableHlo.unary main_arg6 main_v31 ((extractStridedSlice S1x87 ![0, 0] · slices_S3x87_S1x87_0_0) : (⟨S3x87, .f32⟩ : BufTy).Contents (Elt F) → (⟨S1x87, .f32⟩ : BufTy).Contents (Elt F)),
    StableHlo.reshape main_v31 main_v32 rfl shapeCasts_S1x87_S87,
    StableHlo.unary main_arg7 main_v33 ((extractStridedSlice S1x87x200 ![0, 0, 0] · slices_S3x87x200_S1x87x200_0_0_0) : (⟨S3x87x200, .f32⟩ : BufTy).Contents (Elt F) → (⟨S1x87x200, .f32⟩ : BufTy).Contents (Elt F)),
    StableHlo.reshape main_v33 main_v34 rfl shapeCasts_S1x87x200_S87x200,
    StableHlo.unary main_arg8 main_v35 ((extractStridedSlice S1x200 ![0, 0] · slices_S3x200_S1x200_0_0) : (⟨S3x200, .f32⟩ : BufTy).Contents (Elt F) → (⟨S1x200, .f32⟩ : BufTy).Contents (Elt F)),
    StableHlo.reshape main_v35 main_v36 rfl shapeCasts_S1x200_S200,
    StableHlo.unary main_arg9 main_v37 ((extractStridedSlice S1x200x200 ![0, 0, 0] · slices_S3x200x200_S1x200x200_0_0_0) : (⟨S3x200x200, .f32⟩ : BufTy).Contents (Elt F) → (⟨S1x200x200, .f32⟩ : BufTy).Contents (Elt F)),
    StableHlo.reshape main_v37 main_v38 rfl shapeCasts_S1x200x200_S200x200,
    StableHlo.unary main_arg10 main_v39 ((extractStridedSlice S1x200 ![0, 0] · slices_S3x200_S1x200_0_0) : (⟨S3x200, .f32⟩ : BufTy).Contents (Elt F) → (⟨S1x200, .f32⟩ : BufTy).Contents (Elt F)),
    StableHlo.reshape main_v39 main_v40 rfl shapeCasts_S1x200_S200,
    StableHlo.unary main_arg11 main_v41 ((extractStridedSlice S1x200x200 ![0, 0, 0] · slices_S3x200x200_S1x200x200_0_0_0) : (⟨S3x200x200, .f32⟩ : BufTy).Contents (Elt F) → (⟨S1x200x200, .f32⟩ : BufTy).Contents (Elt F)),
    StableHlo.reshape main_v41 main_v42 rfl shapeCasts_S1x200x200_S200x200,
    StableHlo.unary main_arg12 main_v43 ((extractStridedSlice S1x200 ![0, 0] · slices_S3x200_S1x200_0_0) : (⟨S3x200, .f32⟩ : BufTy).Contents (Elt F) → (⟨S1x200, .f32⟩ : BufTy).Contents (Elt F)),
    StableHlo.reshape main_v43 main_v44 rfl shapeCasts_S1x200_S200,
    StableHlo.unary main_arg13 main_v45 ((extractStridedSlice S1x200x64 ![0, 0, 0] · slices_S3x200x64_S1x200x64_0_0_0) : (⟨S3x200x64, .f32⟩ : BufTy).Contents (Elt F) → (⟨S1x200x64, .f32⟩ : BufTy).Contents (Elt F)),
    StableHlo.reshape main_v45 main_v46 rfl shapeCasts_S1x200x64_S200x64,
    StableHlo.unary main_arg14 main_v47 ((extractStridedSlice S1x64 ![0, 0] · slices_S3x64_S1x64_0_0) : (⟨S3x64, .f32⟩ : BufTy).Contents (Elt F) → (⟨S1x64, .f32⟩ : BufTy).Contents (Elt F)),
    StableHlo.reshape main_v47 main_v48 rfl shapeCasts_S1x64_S64,
    StableHlo.nullary main_cst_4 (constant S_ .f32 0x00000000#32),
    StableHlo.binary main_v28 main_cst_4 main_v49 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_5 (constant S_ .f32 0x47435000#32),
    StableHlo.unary main_cst_5 main_v50 (broadcastInDim S87 ![] bcast_S_S87 : (⟨S_, .f32⟩ : BufTy).Contents (Elt F) → (⟨S87, .f32⟩ : BufTy).Contents (Elt F)),
    StableHlo.binary main_v49 main_v50 main_v51 (Host.divf : (⟨S87, .f32⟩ : BufTy).Contents (Elt F) → (⟨S87, .f32⟩ : BufTy).Contents (Elt F) → (⟨S87, .f32⟩ : BufTy).Contents (Elt F)) ]

/-- Window 0 of the program is that straight line. -/
theorem part0_eq (c : Dev nD) : main_part0 (F := F) c = seq w0 := rfl

/-- Every operation of window 0 touches TensorCore references only. -/
theorem w0_sub : (w0 : List (HloOp τ sig (Elt F))).Forall fun op => op.bufs ⊆ tcRefs τ sig :=
  ⟨nullary_bufs_sub .., unary_bufs_sub .., reshape_bufs_sub .., unary_bufs_sub .., reshape_bufs_sub .., unary_bufs_sub ..,
    unary_bufs_sub .., unary_bufs_sub .., binary_bufs_sub .., binary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., unary_bufs_sub .., ternary_bufs_sub .., unary_bufs_sub ..,
    reshape_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub .., nullary_bufs_sub .., binary_bufs_sub .., nullary_bufs_sub .., unary_bufs_sub .., binary_bufs_sub ..⟩

/-- Every operation of window 0 determines all it writes. -/
theorem w0_fresh : (w0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- Every operation of window 0 writes one buffer, of index at least 25. -/
theorem w0_writes : (w0 : List (HloOp τ sig (Elt F))).Forall fun op => op.writes ⊆ (late.map (Proc.devRef (τ := τ) .tc)).toFinset :=
  ⟨late_sub (y := main_cst) (by decide), late_sub (y := main_v0) (by decide), late_sub (y := main_v1) (by decide),
    late_sub (y := main_v2) (by decide), late_sub (y := main_v3) (by decide), late_sub (y := main_v4) (by decide),
    late_sub (y := main_v5) (by decide), late_sub (y := main_v6) (by decide), late_sub (y := main_v7) (by decide),
    late_sub (y := main_v8) (by decide), late_sub (y := main_v9) (by decide), late_sub (y := main_v10) (by decide),
    late_sub (y := main_c) (by decide), late_sub (y := main_v11) (by decide), late_sub (y := main_v12) (by decide),
    late_sub (y := main_c_0) (by decide), late_sub (y := main_v13) (by decide), late_sub (y := main_v14) (by decide),
    late_sub (y := main_v15) (by decide), late_sub (y := main_v16) (by decide), late_sub (y := main_v17) (by decide),
    late_sub (y := main_c_1) (by decide), late_sub (y := main_v18) (by decide), late_sub (y := main_v19) (by decide),
    late_sub (y := main_c_2) (by decide), late_sub (y := main_v20) (by decide), late_sub (y := main_v21) (by decide),
    late_sub (y := main_v22) (by decide), late_sub (y := main_v23) (by decide), late_sub (y := main_v24) (by decide),
    late_sub (y := main_v25) (by decide), late_sub (y := main_cst_3) (by decide), late_sub (y := main_v26) (by decide),
    late_sub (y := main_v27) (by decide), late_sub (y := main_v28) (by decide), late_sub (y := main_v29) (by decide),
    late_sub (y := main_v30) (by decide), late_sub (y := main_v31) (by decide), late_sub (y := main_v32) (by decide),
    late_sub (y := main_v33) (by decide), late_sub (y := main_v34) (by decide), late_sub (y := main_v35) (by decide),
    late_sub (y := main_v36) (by decide), late_sub (y := main_v37) (by decide), late_sub (y := main_v38) (by decide),
    late_sub (y := main_v39) (by decide), late_sub (y := main_v40) (by decide), late_sub (y := main_v41) (by decide),
    late_sub (y := main_v42) (by decide), late_sub (y := main_v43) (by decide), late_sub (y := main_v44) (by decide),
    late_sub (y := main_v45) (by decide), late_sub (y := main_v46) (by decide), late_sub (y := main_v47) (by decide),
    late_sub (y := main_v48) (by decide), late_sub (y := main_cst_4) (by decide), late_sub (y := main_v49) (by decide),
    late_sub (y := main_cst_5) (by decide), late_sub (y := main_v50) (by decide), late_sub (y := main_v51) (by decide)⟩

/-! ## Window 1 -/

/-- The operations of window 1, in order (the calls of the rectifier unfolded at their sites): the rest of the first pass: variance, normalisation, the four affine layers with their three rectifications, the update of the node features; then the second pass's gather, scatter-add and parameter rows. -/
abbrev w1 : List (HloOp τ sig (Elt F)) :=
  [ StableHlo.unary main_v51 main_v52 (broadcastInDim S1x87 ![1] bcast_S87_S1x87_1 : (⟨S87, .f32⟩ : BufTy).Contents (Elt F) → (⟨S1x87, .f32⟩ : BufTy).Contents (Elt F)),
    StableHlo.unary main_v52 main_v53 (broadcastInDim S50000x87 ![0, 1] bcast_S1x87_S50000x87_0_1 : (⟨S1x87, .f32⟩ : BufTy).Contents (Elt F) → (⟨S50000x87, .f32⟩ : BufTy).Contents (Elt F)),
    StableHlo.binary main_v28 main_v53 main_v54 (subf : (⟨S50000x87, .f32⟩ : BufTy).Contents (Elt F) → (⟨S50000x87, .f32⟩ : BufTy).Contents (Elt F) → (⟨S50000x87, .f32⟩ : BufTy).Contents (Elt F)),
    StableHlo.binary main_v54 main_v54 main_v55 (mulf : (⟨S50000x87, .f32⟩ : BufTy).Contents (Elt F) → (⟨S50000x87, .f32⟩ : BufTy).Contents (Elt F) → (⟨S50000x87, .f32⟩ : BufTy).Contents (Elt F)),
    StableHlo.nullary main_cst_6 (constant S_ .f32 0x00000000#32),
    StableHlo.binary main_v55 main_cst_6 main_v56 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_7 (constant S_ .f32 0x47435000#32),
    StableHlo.unary main_cst_7 main_v57 (broadcastInDim S87 ![] bcast_S_S87 : (⟨S_, .f32⟩ : BufTy).Contents (Elt F) → (⟨S87, .f32⟩ : BufTy).Contents (Elt F)),
    StableHlo.binary main_v56 main_v57 main_v58 (Host.divf : (⟨S87, .f32⟩ : BufTy).Contents (Elt F) → (⟨S87, .f32⟩ : BufTy).Contents (Elt F) → (⟨S87, .f32⟩ : BufTy).Contents (Elt F)),
    StableHlo.unary main_v51 main_v59 (broadcastInDim S1x87 ![1] bcast_S87_S1x87_1 : (⟨S87, .f32⟩ : BufTy).Contents (Elt F) → (⟨S1x87, .f32⟩ : BufTy).Contents (Elt F)),
    StableHlo.unary main_v59 main_v60 (broadcastInDim S50000x87 ![0, 1] bcast_S1x87_S50000x87_0_1 : (⟨S1x87, .f32⟩ : BufTy).Contents (Elt F) → (⟨S50000x87, .f32⟩ : BufTy).Contents (Elt F)),
    StableHlo.binary main_v28 main_v60 main_v61 (subf : (⟨S50000x87, .f32⟩ : BufTy).Contents (Elt F) → (⟨S50000x87, .f32⟩ : BufTy).Contents (Elt F) → (⟨S50000x87, .f32⟩ : BufTy).Contents (Elt F)),
    StableHlo.nullary main_cst_8 (constant S_ .f32 0x3727C5AC#32),
    StableHlo.unary main_cst_8 main_v62 (broadcastInDim S87 ![] bcast_S_S87 : (⟨S_, .f32⟩ : BufTy).Contents (Elt F) → (⟨S87, .f32⟩ : BufTy).Contents (Elt F)),
    StableHlo.binary main_v58 main_v62 main_v63 (addf : (⟨S87, .f32⟩ : BufTy).Contents (Elt F) → (⟨S87, .f32⟩ : BufTy).Contents (Elt F) → (⟨S87, .f32⟩ : BufTy).Contents (Elt F)),
    StableHlo.unary main_v63 main_v64 (Host.rsqrt : (⟨S87, .f32⟩ : BufTy).Contents (Elt F) → (⟨S87, .f32⟩ : BufTy).Contents (Elt F)),
    StableHlo.unary main_v64 main_v65 (broadcastInDim S1x87 ![1] bcast_S87_S1x87_1 : (⟨S87, .f32⟩ : BufTy).Contents (Elt F) → (⟨S1x87, .f32⟩ : BufTy).Contents (Elt F)),
    StableHlo.unary main_v65 main_v66 (broadcastInDim S50000x87 ![0, 1] bcast_S1x87_S50000x87_0_1 : (⟨S1x87, .f32⟩ : BufTy).Contents (Elt F) → (⟨S50000x87, .f32⟩ : BufTy).Contents (Elt F)),
    StableHlo.binary main_v61 main_v66 main_v67 (mulf : (⟨S50000x87, .f32⟩ : BufTy).Contents (Elt F) → (⟨S50000x87, .f32⟩ : BufTy).Contents (Elt F) → (⟨S50000x87, .f32⟩ : BufTy).Contents (Elt F)),
    StableHlo.unary main_v30 main_v68 (broadcastInDim S1x87 ![1] bcast_S87_S1x87_1 : (⟨S87, .f32⟩ : BufTy).Contents (Elt F) → (⟨S1x87, .f32⟩ : BufTy).Contents (Elt F)),
    StableHlo.unary main_v68 main_v69 (broadcastInDim S50000x87 ![0, 1] bcast_S1x87_S50000x87_0_1 : (⟨S1x87, .f32⟩ : BufTy).Contents (Elt F) → (⟨S50000x87, .f32⟩ : BufTy).Contents (Elt F)),
    StableHlo.binary main_v67 main_v69 main_v70 (mulf : (⟨S50000x87, .f32⟩ : BufTy).Contents (Elt F) → (⟨S50000x87, .f32⟩ : BufTy).Contents (Elt F) → (⟨S50000x87, .f32⟩ : BufTy).Contents (Elt F)),
    StableHlo.unary main_v32 main_v71 (broadcastInDim S1x87 ![1] bcast_S87_S1x87_1 : (⟨S87, .f32⟩ : BufTy).Contents (Elt F) → (⟨S1x87, .f32⟩ : BufTy).Contents (Elt F)),
    StableHlo.unary main_v71 main_v72 (broadcastInDim S50000x87 ![0, 1] bcast_S1x87_S50000x87_0_1 : (⟨S1x87, .f32⟩ : BufTy).Contents (Elt F) → (⟨S50000x87, .f32⟩ : BufTy).Contents (Elt F)),
    StableHlo.binary main_v70 main_v72 main_v73 (addf : (⟨S50000x87, .f32⟩ : BufTy).Contents (Elt F) → (⟨S50000x87, .f32⟩ : BufTy).Contents (Elt F) → (⟨S50000x87, .f32⟩ : BufTy).Contents (Elt F)),
    StableHlo.binary main_v73 main_v34 main_v74 ((fun l r => Host.dotGeneral dot_S50000x87_S87x200_S50000x200_1_0_0_1_n_n none l r) : (⟨S50000x87, .f32⟩ : BufTy).Contents (Elt F) → (⟨S87x200, .f32⟩ : BufTy).Contents (Elt F) → (⟨S50000x200, .f32⟩ : BufTy).Contents (Elt F)),
    StableHlo.unary main_v36 main_v75 (broadcastInDim S1x200 ![1] bcast_S200_S1x200_1 : (⟨S200, .f32⟩ : BufTy).Contents (Elt F) → (⟨S1x200, .f32⟩ : BufTy).Contents (Elt F)),
    StableHlo.unary main_v75 main_v76 (broadcastInDim S50000x200 ![0, 1] bcast_S1x200_S50000x200_0_1 : (⟨S1x200, .f32⟩ : BufTy).Contents (Elt F) → (⟨S50000x200, .f32⟩ : BufTy).Contents (Elt F)),
    StableHlo.binary main_v74 main_v76 main_v77 (addf : (⟨S50000x200, .f32⟩ : BufTy).Contents (Elt F) → (⟨S50000x200, .f32⟩ : BufTy).Contents (Elt F) → (⟨S50000x200, .f32⟩ : BufTy).Contents (Elt F)),
    StableHlo.TRef.nullary main_call0.cst (constant S_ .f32 0x00000000#32),
    StableHlo.TRef.unary main_call0.cst main_call0.v0 (broadcastInDim S50000x200 ![] bcast_S_S50000x200),
    StableHlo.TRef.binary (.of main_v77 : StableHlo.TRef sig ⟨S50000x200, .f32⟩) main_call0.v0 main_call0.v1 maximumf,
    StableHlo.binary main_v78 main_v38 main_v79 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v40 main_v80 (broadcastInDim S1x200 ![1] bcast_S200_S1x200_1 : (⟨S200, .f32⟩ : BufTy).Contents (Elt F) → (⟨S1x200, .f32⟩ : BufTy).Contents (Elt F)),
    StableHlo.unary main_v80 main_v81 (broadcastInDim S50000x200 ![0, 1] bcast_S1x200_S50000x200_0_1 : (⟨S1x200, .f32⟩ : BufTy).Contents (Elt F) → (⟨S50000x200, .f32⟩ : BufTy).Contents (Elt F)),
    StableHlo.binary main_v79 main_v81 main_v82 (addf : (⟨S50000x200, .f32⟩ : BufTy).Contents (Elt F) → (⟨S50000x200, .f32⟩ : BufTy).Contents (Elt F) → (⟨S50000x200, .f32⟩ : BufTy).Contents (Elt F)),
    StableHlo.TRef.nullary main_call1.cst (constant S_ .f32 0x00000000#32),
    StableHlo.TRef.unary main_call1.cst main_call1.v0 (broadcastInDim S50000x200 ![] bcast_S_S50000x200),
    StableHlo.TRef.binary (.of main_v82 : StableHlo.TRef sig ⟨S50000x200, .f32⟩) main_call1.v0 main_call1.v1 maximumf,
    StableHlo.binary main_v83 main_v42 main_v84 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v44 main_v85 (broadcastInDim S1x200 ![1] bcast_S200_S1x200_1 : (⟨S200, .f32⟩ : BufTy).Contents (Elt F) → (⟨S1x200, .f32⟩ : BufTy).Contents (Elt F)),
    StableHlo.unary main_v85 main_v86 (broadcastInDim S50000x200 ![0, 1] bcast_S1x200_S50000x200_0_1 : (⟨S1x200, .f32⟩ : BufTy).Contents (Elt F) → (⟨S50000x200, .f32⟩ : BufTy).Contents (Elt F)),
    StableHlo.binary main_v84 main_v86 main_v87 (addf : (⟨S50000x200, .f32⟩ : BufTy).Contents (Elt F) → (⟨S50000x200, .f32⟩ : BufTy).Contents (Elt F) → (⟨S50000x200, .f32⟩ : BufTy).Contents (Elt F)),
    StableHlo.TRef.nullary main_call2.cst (constant S_ .f32 0x00000000#32),
    StableHlo.TRef.unary main_call2.cst main_call2.v0 (broadcastInDim S50000x200 ![] bcast_S_S50000x200),
    StableHlo.TRef.binary (.of main_v87 : StableHlo.TRef sig ⟨S50000x200, .f32⟩) main_call2.v0 main_call2.v1 maximumf,
    StableHlo.binary main_v88 main_v46 main_v89 ((fun l r => Host.dotGeneral dot_S50000x200_S200x64_S50000x64_1_0_0_1_n_n none l r) : (⟨S50000x200, .f32⟩ : BufTy).Contents (Elt F) → (⟨S200x64, .f32⟩ : BufTy).Contents (Elt F) → (⟨S50000x64, .f32⟩ : BufTy).Contents (Elt F)),
    StableHlo.unary main_v48 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S50000x64 ![0, 1] bcast_S1x64_S50000x64_0_1 : (⟨S1x64, .f32⟩ : BufTy).Contents (Elt F) → (⟨S50000x64, .f32⟩ : BufTy).Contents (Elt F)),
    StableHlo.binary main_v89 main_v91 main_v92 (addf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3DCCCCCD#32),
    StableHlo.unary main_cst_9 main_v93 (broadcastInDim S50000x64 ![] bcast_S_S50000x64 : (⟨S_, .f32⟩ : BufTy).Contents (Elt F) → (⟨S50000x64, .f32⟩ : BufTy).Contents (Elt F)),
    StableHlo.binary main_v93 main_v92 main_v94 (mulf : (⟨S50000x64, .f32⟩ : BufTy).Contents (Elt F) → (⟨S50000x64, .f32⟩ : BufTy).Contents (Elt F) → (⟨S50000x64, .f32⟩ : BufTy).Contents (Elt F)),
    StableHlo.binary main_v17 main_v94 main_v95 (addf : (⟨S50000x64, .f32⟩ : BufTy).Contents (Elt F) → (⟨S50000x64, .f32⟩ : BufTy).Contents (Elt F) → (⟨S50000x64, .f32⟩ : BufTy).Contents (Elt F)),
    StableHlo.nullary main_c_10 (constantI S_ 32 0#32),
    StableHlo.unary main_c_10 main_v96 (broadcastInDim S800000 ![] bcast_S_S800000 : (⟨S_, .i32⟩ : BufTy).Contents (Elt F) → (⟨S800000, .i32⟩ : BufTy).Contents (Elt F)),
    StableHlo.binary main_v3 main_v96 main_v97 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v98 (broadcastInDim S800000 ![] bcast_S_S800000 : (⟨S_, .i32⟩ : BufTy).Contents (Elt F) → (⟨S800000, .i32⟩ : BufTy).Contents (Elt F)),
    StableHlo.binary main_v3 main_v98 main_v99 (addi : (⟨S800000, .i32⟩ : BufTy).Contents (Elt F) → (⟨S800000, .i32⟩ : BufTy).Contents (Elt F) → (⟨S800000, .i32⟩ : BufTy).Contents (Elt F)),
    StableHlo.ternary main_v97 main_v99 main_v3 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v100 main_v101 (broadcastInDim S800000x1 ![0] bcast_S800000_S800000x1_0 : (⟨S800000, .i32⟩ : BufTy).Contents (Elt F) → (⟨S800000x1, .i32⟩ : BufTy).Contents (Elt F)),
    StableHlo.binary main_v95 main_v101 main_v102 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v10 main_v102 main_v103 ((fun a b => concatenate S800000x87 1 [⟨S800000x23, a⟩, ⟨S800000x64, b⟩] concatenates_S800000x23_S800000x64_S800000x87_d1) : (⟨S800000x23, .f32⟩ : BufTy).Contents (Elt F) → (⟨S800000x64, .f32⟩ : BufTy).Contents (Elt F) → (⟨S800000x87, .f32⟩ : BufTy).Contents (Elt F)),
    StableHlo.nullary main_cst_12 (constant S_ .f32 0x00000000#32),
    StableHlo.unary main_cst_12 main_v104 (broadcastInDim S50000x87 ![] bcast_S_S50000x87 : (⟨S_, .f32⟩ : BufTy).Contents (Elt F) → (⟨S50000x87, .f32⟩ : BufTy).Contents (Elt F)) ]

/-- Window 1 of the program is that straight line. -/
theorem part1_eq (c : Dev nD) : main_part1 (F := F) c = seq w1 := rfl

/-- Every operation of window 1 touches TensorCore references only. -/
theorem w1_sub : (w1 : List (HloOp τ sig (Elt F))).Forall fun op => op.bufs ⊆ tcRefs τ sig :=
  ⟨unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..⟩

/-- Every operation of window 1 determines all it writes. -/
theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- Every operation of window 1 writes one buffer, of index at least 25. -/
theorem w1_writes : (w1 : List (HloOp τ sig (Elt F))).Forall fun op => op.writes ⊆ (late.map (Proc.devRef (τ := τ) .tc)).toFinset :=
  ⟨late_sub (y := main_v52) (by decide), late_sub (y := main_v53) (by decide), late_sub (y := main_v54) (by decide),
    late_sub (y := main_v55) (by decide), late_sub (y := main_cst_6) (by decide), late_sub (y := main_v56) (by decide),
    late_sub (y := main_cst_7) (by decide), late_sub (y := main_v57) (by decide), late_sub (y := main_v58) (by decide),
    late_sub (y := main_v59) (by decide), late_sub (y := main_v60) (by decide), late_sub (y := main_v61) (by decide),
    late_sub (y := main_cst_8) (by decide), late_sub (y := main_v62) (by decide), late_sub (y := main_v63) (by decide),
    late_sub (y := main_v64) (by decide), late_sub (y := main_v65) (by decide), late_sub (y := main_v66) (by decide),
    late_sub (y := main_v67) (by decide), late_sub (y := main_v68) (by decide), late_sub (y := main_v69) (by decide),
    late_sub (y := main_v70) (by decide), late_sub (y := main_v71) (by decide), late_sub (y := main_v72) (by decide),
    late_sub (y := main_v73) (by decide), late_sub (y := main_v74) (by decide), late_sub (y := main_v75) (by decide),
    late_sub (y := main_v76) (by decide), late_sub (y := main_v77) (by decide), late_sub (y := main_call0_cst) (by decide),
    late_sub (y := main_call0_v0) (by decide), late_sub (y := main_v78) (by decide), late_sub (y := main_v79) (by decide),
    late_sub (y := main_v80) (by decide), late_sub (y := main_v81) (by decide), late_sub (y := main_v82) (by decide),
    late_sub (y := main_call1_cst) (by decide), late_sub (y := main_call1_v0) (by decide), late_sub (y := main_v83) (by decide),
    late_sub (y := main_v84) (by decide), late_sub (y := main_v85) (by decide), late_sub (y := main_v86) (by decide),
    late_sub (y := main_v87) (by decide), late_sub (y := main_call2_cst) (by decide), late_sub (y := main_call2_v0) (by decide),
    late_sub (y := main_v88) (by decide), late_sub (y := main_v89) (by decide), late_sub (y := main_v90) (by decide),
    late_sub (y := main_v91) (by decide), late_sub (y := main_v92) (by decide), late_sub (y := main_cst_9) (by decide),
    late_sub (y := main_v93) (by decide), late_sub (y := main_v94) (by decide), late_sub (y := main_v95) (by decide),
    late_sub (y := main_c_10) (by decide), late_sub (y := main_v96) (by decide), late_sub (y := main_v97) (by decide),
    late_sub (y := main_c_11) (by decide), late_sub (y := main_v98) (by decide), late_sub (y := main_v99) (by decide),
    late_sub (y := main_v100) (by decide), late_sub (y := main_v101) (by decide), late_sub (y := main_v102) (by decide),
    late_sub (y := main_v103) (by decide), late_sub (y := main_cst_12) (by decide), late_sub (y := main_v104) (by decide)⟩

/-! ## Window 2 -/

/-- The operations of window 2, in order (the calls of the rectifier unfolded at their sites): the second pass's statistics, normalisation and first affine layer with its rectification, and the second layer's product. -/
abbrev w2 : List (HloOp τ sig (Elt F)) :=
  [ StableHlo.unary main_v1 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x87_S800000x1_S800000x87_1_0_0_1 x i u) : (⟨S50000x87, .f32⟩ : BufTy).Contents (Elt F) → (⟨S800000x1, .i32⟩ : BufTy).Contents (Elt F) → (⟨S800000x87, .f32⟩ : BufTy).Contents (Elt F) → (⟨S50000x87, .f32⟩ : BufTy).Contents (Elt F)),
    StableHlo.unary main_arg5 main_v107 ((extractStridedSlice S1x87 ![1, 0] · slices_S3x87_S1x87_1_0) : (⟨S3x87, .f32⟩ : BufTy).Contents (Elt F) → (⟨S1x87, .f32⟩ : BufTy).Contents (Elt F)),
    StableHlo.reshape main_v107 main_v108 rfl shapeCasts_S1x87_S87,
    StableHlo.unary main_arg6 main_v109 ((extractStridedSlice S1x87 ![1, 0] · slices_S3x87_S1x87_1_0) : (⟨S3x87, .f32⟩ : BufTy).Contents (Elt F) → (⟨S1x87, .f32⟩ : BufTy).Contents (Elt F)),
    StableHlo.reshape main_v109 main_v110 rfl shapeCasts_S1x87_S87,
    StableHlo.unary main_arg7 main_v111 ((extractStridedSlice S1x87x200 ![1, 0, 0] · slices_S3x87x200_S1x87x200_1_0_0) : (⟨S3x87x200, .f32⟩ : BufTy).Contents (Elt F) → (⟨S1x87x200, .f32⟩ : BufTy).Contents (Elt F)),
    StableHlo.reshape main_v111 main_v112 rfl shapeCasts_S1x87x200_S87x200,
    StableHlo.unary main_arg8 main_v113 ((extractStridedSlice S1x200 ![1, 0] · slices_S3x200_S1x200_1_0) : (⟨S3x200, .f32⟩ : BufTy).Contents (Elt F) → (⟨S1x200, .f32⟩ : BufTy).Contents (Elt F)),
    StableHlo.reshape main_v113 main_v114 rfl shapeCasts_S1x200_S200,
    StableHlo.unary main_arg9 main_v115 ((extractStridedSlice S1x200x200 ![1, 0, 0] · slices_S3x200x200_S1x200x200_1_0_0) : (⟨S3x200x200, .f32⟩ : BufTy).Contents (Elt F) → (⟨S1x200x200, .f32⟩ : BufTy).Contents (Elt F)),
    StableHlo.reshape main_v115 main_v116 rfl shapeCasts_S1x200x200_S200x200,
    StableHlo.unary main_arg10 main_v117 ((extractStridedSlice S1x200 ![1, 0] · slices_S3x200_S1x200_1_0) : (⟨S3x200, .f32⟩ : BufTy).Contents (Elt F) → (⟨S1x200, .f32⟩ : BufTy).Contents (Elt F)),
    StableHlo.reshape main_v117 main_v118 rfl shapeCasts_S1x200_S200,
    StableHlo.unary main_arg11 main_v119 ((extractStridedSlice S1x200x200 ![1, 0, 0] · slices_S3x200x200_S1x200x200_1_0_0) : (⟨S3x200x200, .f32⟩ : BufTy).Contents (Elt F) → (⟨S1x200x200, .f32⟩ : BufTy).Contents (Elt F)),
    StableHlo.reshape main_v119 main_v120 rfl shapeCasts_S1x200x200_S200x200,
    StableHlo.unary main_arg12 main_v121 ((extractStridedSlice S1x200 ![1, 0] · slices_S3x200_S1x200_1_0) : (⟨S3x200, .f32⟩ : BufTy).Contents (Elt F) → (⟨S1x200, .f32⟩ : BufTy).Contents (Elt F)),
    StableHlo.reshape main_v121 main_v122 rfl shapeCasts_S1x200_S200,
    StableHlo.unary main_arg13 main_v123 ((extractStridedSlice S1x200x64 ![1, 0, 0] · slices_S3x200x64_S1x200x64_1_0_0) : (⟨S3x200x64, .f32⟩ : BufTy).Contents (Elt F) → (⟨S1x200x64, .f32⟩ : BufTy).Contents (Elt F)),
    StableHlo.reshape main_v123 main_v124 rfl shapeCasts_S1x200x64_S200x64,
    StableHlo.unary main_arg14 main_v125 ((extractStridedSlice S1x64 ![1, 0] · slices_S3x64_S1x64_1_0) : (⟨S3x64, .f32⟩ : BufTy).Contents (Elt F) → (⟨S1x64, .f32⟩ : BufTy).Contents (Elt F)),
    StableHlo.reshape main_v125 main_v126 rfl shapeCasts_S1x64_S64,
    StableHlo.nullary main_cst_13 (constant S_ .f32 0x00000000#32),
    StableHlo.binary main_v106 main_cst_13 main_v127 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_14 (constant S_ .f32 0x47435000#32),
    StableHlo.unary main_cst_14 main_v128 (broadcastInDim S87 ![] bcast_S_S87 : (⟨S_, .f32⟩ : BufTy).Contents (Elt F) → (⟨S87, .f32⟩ : BufTy).Contents (Elt F)),
    StableHlo.binary main_v127 main_v128 main_v129 (Host.divf : (⟨S87, .f32⟩ : BufTy).Contents (Elt F) → (⟨S87, .f32⟩ : BufTy).Contents (Elt F) → (⟨S87, .f32⟩ : BufTy).Contents (Elt F)),
    StableHlo.unary main_v129 main_v130 (broadcastInDim S1x87 ![1] bcast_S87_S1x87_1 : (⟨S87, .f32⟩ : BufTy).Contents (Elt F) → (⟨S1x87, .f32⟩ : BufTy).Contents (Elt F)),
    StableHlo.unary main_v130 main_v131 (broadcastInDim S50000x87 ![0, 1] bcast_S1x87_S50000x87_0_1 : (⟨S1x87, .f32⟩ : BufTy).Contents (Elt F) → (⟨S50000x87, .f32⟩ : BufTy).Contents (Elt F)),
    StableHlo.binary main_v106 main_v131 main_v132 (subf : (⟨S50000x87, .f32⟩ : BufTy).Contents (Elt F) → (⟨S50000x87, .f32⟩ : BufTy).Contents (Elt F) → (⟨S50000x87, .f32⟩ : BufTy).Contents (Elt F)),
    StableHlo.binary main_v132 main_v132 main_v133 (mulf : (⟨S50000x87, .f32⟩ : BufTy).Contents (Elt F) → (⟨S50000x87, .f32⟩ : BufTy).Contents (Elt F) → (⟨S50000x87, .f32⟩ : BufTy).Contents (Elt F)),
    StableHlo.nullary main_cst_15 (constant S_ .f32 0x00000000#32),
    StableHlo.binary main_v133 main_cst_15 main_v134 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_16 (constant S_ .f32 0x47435000#32),
    StableHlo.unary main_cst_16 main_v135 (broadcastInDim S87 ![] bcast_S_S87 : (⟨S_, .f32⟩ : BufTy).Contents (Elt F) → (⟨S87, .f32⟩ : BufTy).Contents (Elt F)),
    StableHlo.binary main_v134 main_v135 main_v136 (Host.divf : (⟨S87, .f32⟩ : BufTy).Contents (Elt F) → (⟨S87, .f32⟩ : BufTy).Contents (Elt F) → (⟨S87, .f32⟩ : BufTy).Contents (Elt F)),
    StableHlo.unary main_v129 main_v137 (broadcastInDim S1x87 ![1] bcast_S87_S1x87_1 : (⟨S87, .f32⟩ : BufTy).Contents (Elt F) → (⟨S1x87, .f32⟩ : BufTy).Contents (Elt F)),
    StableHlo.unary main_v137 main_v138 (broadcastInDim S50000x87 ![0, 1] bcast_S1x87_S50000x87_0_1 : (⟨S1x87, .f32⟩ : BufTy).Contents (Elt F) → (⟨S50000x87, .f32⟩ : BufTy).Contents (Elt F)),
    StableHlo.binary main_v106 main_v138 main_v139 (subf : (⟨S50000x87, .f32⟩ : BufTy).Contents (Elt F) → (⟨S50000x87, .f32⟩ : BufTy).Contents (Elt F) → (⟨S50000x87, .f32⟩ : BufTy).Contents (Elt F)),
    StableHlo.nullary main_cst_17 (constant S_ .f32 0x3727C5AC#32),
    StableHlo.unary main_cst_17 main_v140 (broadcastInDim S87 ![] bcast_S_S87 : (⟨S_, .f32⟩ : BufTy).Contents (Elt F) → (⟨S87, .f32⟩ : BufTy).Contents (Elt F)),
    StableHlo.binary main_v136 main_v140 main_v141 (addf : (⟨S87, .f32⟩ : BufTy).Contents (Elt F) → (⟨S87, .f32⟩ : BufTy).Contents (Elt F) → (⟨S87, .f32⟩ : BufTy).Contents (Elt F)),
    StableHlo.unary main_v141 main_v142 (Host.rsqrt : (⟨S87, .f32⟩ : BufTy).Contents (Elt F) → (⟨S87, .f32⟩ : BufTy).Contents (Elt F)),
    StableHlo.unary main_v142 main_v143 (broadcastInDim S1x87 ![1] bcast_S87_S1x87_1 : (⟨S87, .f32⟩ : BufTy).Contents (Elt F) → (⟨S1x87, .f32⟩ : BufTy).Contents (Elt F)),
    StableHlo.unary main_v143 main_v144 (broadcastInDim S50000x87 ![0, 1] bcast_S1x87_S50000x87_0_1 : (⟨S1x87, .f32⟩ : BufTy).Contents (Elt F) → (⟨S50000x87, .f32⟩ : BufTy).Contents (Elt F)),
    StableHlo.binary main_v139 main_v144 main_v145 (mulf : (⟨S50000x87, .f32⟩ : BufTy).Contents (Elt F) → (⟨S50000x87, .f32⟩ : BufTy).Contents (Elt F) → (⟨S50000x87, .f32⟩ : BufTy).Contents (Elt F)),
    StableHlo.unary main_v108 main_v146 (broadcastInDim S1x87 ![1] bcast_S87_S1x87_1 : (⟨S87, .f32⟩ : BufTy).Contents (Elt F) → (⟨S1x87, .f32⟩ : BufTy).Contents (Elt F)),
    StableHlo.unary main_v146 main_v147 (broadcastInDim S50000x87 ![0, 1] bcast_S1x87_S50000x87_0_1 : (⟨S1x87, .f32⟩ : BufTy).Contents (Elt F) → (⟨S50000x87, .f32⟩ : BufTy).Contents (Elt F)),
    StableHlo.binary main_v145 main_v147 main_v148 (mulf : (⟨S50000x87, .f32⟩ : BufTy).Contents (Elt F) → (⟨S50000x87, .f32⟩ : BufTy).Contents (Elt F) → (⟨S50000x87, .f32⟩ : BufTy).Contents (Elt F)),
    StableHlo.unary main_v110 main_v149 (broadcastInDim S1x87 ![1] bcast_S87_S1x87_1 : (⟨S87, .f32⟩ : BufTy).Contents (Elt F) → (⟨S1x87, .f32⟩ : BufTy).Contents (Elt F)),
    StableHlo.unary main_v149 main_v150 (broadcastInDim S50000x87 ![0, 1] bcast_S1x87_S50000x87_0_1 : (⟨S1x87, .f32⟩ : BufTy).Contents (Elt F) → (⟨S50000x87, .f32⟩ : BufTy).Contents (Elt F)),
    StableHlo.binary main_v148 main_v150 main_v151 (addf : (⟨S50000x87, .f32⟩ : BufTy).Contents (Elt F) → (⟨S50000x87, .f32⟩ : BufTy).Contents (Elt F) → (⟨S50000x87, .f32⟩ : BufTy).Contents (Elt F)),
    StableHlo.binary main_v151 main_v112 main_v152 ((fun l r => Host.dotGeneral dot_S50000x87_S87x200_S50000x200_1_0_0_1_n_n none l r) : (⟨S50000x87, .f32⟩ : BufTy).Contents (Elt F) → (⟨S87x200, .f32⟩ : BufTy).Contents (Elt F) → (⟨S50000x200, .f32⟩ : BufTy).Contents (Elt F)),
    StableHlo.unary main_v114 main_v153 (broadcastInDim S1x200 ![1] bcast_S200_S1x200_1 : (⟨S200, .f32⟩ : BufTy).Contents (Elt F) → (⟨S1x200, .f32⟩ : BufTy).Contents (Elt F)),
    StableHlo.unary main_v153 main_v154 (broadcastInDim S50000x200 ![0, 1] bcast_S1x200_S50000x200_0_1 : (⟨S1x200, .f32⟩ : BufTy).Contents (Elt F) → (⟨S50000x200, .f32⟩ : BufTy).Contents (Elt F)),
    StableHlo.binary main_v152 main_v154 main_v155 (addf : (⟨S50000x200, .f32⟩ : BufTy).Contents (Elt F) → (⟨S50000x200, .f32⟩ : BufTy).Contents (Elt F) → (⟨S50000x200, .f32⟩ : BufTy).Contents (Elt F)),
    StableHlo.TRef.nullary main_call3.cst (constant S_ .f32 0x00000000#32),
    StableHlo.TRef.unary main_call3.cst main_call3.v0 (broadcastInDim S50000x200 ![] bcast_S_S50000x200),
    StableHlo.TRef.binary (.of main_v155 : StableHlo.TRef sig ⟨S50000x200, .f32⟩) main_call3.v0 main_call3.v1 maximumf,
    StableHlo.binary main_v156 main_v116 main_v157 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v118 main_v158 (broadcastInDim S1x200 ![1] bcast_S200_S1x200_1 : (⟨S200, .f32⟩ : BufTy).Contents (Elt F) → (⟨S1x200, .f32⟩ : BufTy).Contents (Elt F)),
    StableHlo.unary main_v158 main_v159 (broadcastInDim S50000x200 ![0, 1] bcast_S1x200_S50000x200_0_1 : (⟨S1x200, .f32⟩ : BufTy).Contents (Elt F) → (⟨S50000x200, .f32⟩ : BufTy).Contents (Elt F)) ]

/-- Window 2 of the program is that straight line. -/
theorem part2_eq (c : Dev nD) : main_part2 (F := F) c = seq w2 := rfl

/-- Every operation of window 2 touches TensorCore references only. -/
theorem w2_sub : (w2 : List (HloOp τ sig (Elt F))).Forall fun op => op.bufs ⊆ tcRefs τ sig :=
  ⟨unary_bufs_sub .., ternary_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub ..⟩

/-- Every operation of window 2 determines all it writes. -/
theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- Every operation of window 2 writes one buffer, of index at least 25. -/
theorem w2_writes : (w2 : List (HloOp τ sig (Elt F))).Forall fun op => op.writes ⊆ (late.map (Proc.devRef (τ := τ) .tc)).toFinset :=
  ⟨late_sub (y := main_v105) (by decide), late_sub (y := main_v106) (by decide), late_sub (y := main_v107) (by decide),
    late_sub (y := main_v108) (by decide), late_sub (y := main_v109) (by decide), late_sub (y := main_v110) (by decide),
    late_sub (y := main_v111) (by decide), late_sub (y := main_v112) (by decide), late_sub (y := main_v113) (by decide),
    late_sub (y := main_v114) (by decide), late_sub (y := main_v115) (by decide), late_sub (y := main_v116) (by decide),
    late_sub (y := main_v117) (by decide), late_sub (y := main_v118) (by decide), late_sub (y := main_v119) (by decide),
    late_sub (y := main_v120) (by decide), late_sub (y := main_v121) (by decide), late_sub (y := main_v122) (by decide),
    late_sub (y := main_v123) (by decide), late_sub (y := main_v124) (by decide), late_sub (y := main_v125) (by decide),
    late_sub (y := main_v126) (by decide), late_sub (y := main_cst_13) (by decide), late_sub (y := main_v127) (by decide),
    late_sub (y := main_cst_14) (by decide), late_sub (y := main_v128) (by decide), late_sub (y := main_v129) (by decide),
    late_sub (y := main_v130) (by decide), late_sub (y := main_v131) (by decide), late_sub (y := main_v132) (by decide),
    late_sub (y := main_v133) (by decide), late_sub (y := main_cst_15) (by decide), late_sub (y := main_v134) (by decide),
    late_sub (y := main_cst_16) (by decide), late_sub (y := main_v135) (by decide), late_sub (y := main_v136) (by decide),
    late_sub (y := main_v137) (by decide), late_sub (y := main_v138) (by decide), late_sub (y := main_v139) (by decide),
    late_sub (y := main_cst_17) (by decide), late_sub (y := main_v140) (by decide), late_sub (y := main_v141) (by decide),
    late_sub (y := main_v142) (by decide), late_sub (y := main_v143) (by decide), late_sub (y := main_v144) (by decide),
    late_sub (y := main_v145) (by decide), late_sub (y := main_v146) (by decide), late_sub (y := main_v147) (by decide),
    late_sub (y := main_v148) (by decide), late_sub (y := main_v149) (by decide), late_sub (y := main_v150) (by decide),
    late_sub (y := main_v151) (by decide), late_sub (y := main_v152) (by decide), late_sub (y := main_v153) (by decide),
    late_sub (y := main_v154) (by decide), late_sub (y := main_v155) (by decide), late_sub (y := main_call3_cst) (by decide),
    late_sub (y := main_call3_v0) (by decide), late_sub (y := main_v156) (by decide), late_sub (y := main_v157) (by decide),
    late_sub (y := main_v158) (by decide), late_sub (y := main_v159) (by decide)⟩

/-! ## Window 3 -/

/-- The operations of window 3, in order (the calls of the rectifier unfolded at their sites): the rest of the second pass, the third pass's gather, scatter-add, parameter rows, statistics and normalisation. -/
abbrev w3 : List (HloOp τ sig (Elt F)) :=
  [ StableHlo.binary main_v157 main_v159 main_v160 (addf : (⟨S50000x200, .f32⟩ : BufTy).Contents (Elt F) → (⟨S50000x200, .f32⟩ : BufTy).Contents (Elt F) → (⟨S50000x200, .f32⟩ : BufTy).Contents (Elt F)),
    StableHlo.TRef.nullary main_call4.cst (constant S_ .f32 0x00000000#32),
    StableHlo.TRef.unary main_call4.cst main_call4.v0 (broadcastInDim S50000x200 ![] bcast_S_S50000x200),
    StableHlo.TRef.binary (.of main_v160 : StableHlo.TRef sig ⟨S50000x200, .f32⟩) main_call4.v0 main_call4.v1 maximumf,
    StableHlo.binary main_v161 main_v120 main_v162 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v122 main_v163 (broadcastInDim S1x200 ![1] bcast_S200_S1x200_1 : (⟨S200, .f32⟩ : BufTy).Contents (Elt F) → (⟨S1x200, .f32⟩ : BufTy).Contents (Elt F)),
    StableHlo.unary main_v163 main_v164 (broadcastInDim S50000x200 ![0, 1] bcast_S1x200_S50000x200_0_1 : (⟨S1x200, .f32⟩ : BufTy).Contents (Elt F) → (⟨S50000x200, .f32⟩ : BufTy).Contents (Elt F)),
    StableHlo.binary main_v162 main_v164 main_v165 (addf : (⟨S50000x200, .f32⟩ : BufTy).Contents (Elt F) → (⟨S50000x200, .f32⟩ : BufTy).Contents (Elt F) → (⟨S50000x200, .f32⟩ : BufTy).Contents (Elt F)),
    StableHlo.TRef.nullary main_call5.cst (constant S_ .f32 0x00000000#32),
    StableHlo.TRef.unary main_call5.cst main_call5.v0 (broadcastInDim S50000x200 ![] bcast_S_S50000x200),
    StableHlo.TRef.binary (.of main_v165 : StableHlo.TRef sig ⟨S50000x200, .f32⟩) main_call5.v0 main_call5.v1 maximumf,
    StableHlo.binary main_v166 main_v124 main_v167 ((fun l r => Host.dotGeneral dot_S50000x200_S200x64_S50000x64_1_0_0_1_n_n none l r) : (⟨S50000x200, .f32⟩ : BufTy).Contents (Elt F) → (⟨S200x64, .f32⟩ : BufTy).Contents (Elt F) → (⟨S50000x64, .f32⟩ : BufTy).Contents (Elt F)),
    StableHlo.unary main_v126 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v169 main_v170 (addf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3DCCCCCD#32),
    StableHlo.unary main_cst_18 main_v171 (broadcastInDim S50000x64 ![] bcast_S_S50000x64 : (⟨S_, .f32⟩ : BufTy).Contents (Elt F) → (⟨S50000x64, .f32⟩ : BufTy).Contents (Elt F)),
    StableHlo.binary main_v171 main_v170 main_v172 (mulf : (⟨S50000x64, .f32⟩ : BufTy).Contents (Elt F) → (⟨S50000x64, .f32⟩ : BufTy).Contents (Elt F) → (⟨S50000x64, .f32⟩ : BufTy).Contents (Elt F)),
    StableHlo.binary main_v95 main_v172 main_v173 (addf : (⟨S50000x64, .f32⟩ : BufTy).Contents (Elt F) → (⟨S50000x64, .f32⟩ : BufTy).Contents (Elt F) → (⟨S50000x64, .f32⟩ : BufTy).Contents (Elt F)),
    StableHlo.nullary main_c_19 (constantI S_ 32 0#32),
    StableHlo.unary main_c_19 main_v174 (broadcastInDim S800000 ![] bcast_S_S800000 : (⟨S_, .i32⟩ : BufTy).Contents (Elt F) → (⟨S800000, .i32⟩ : BufTy).Contents (Elt F)),
    StableHlo.binary main_v3 main_v174 main_v175 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v176 (broadcastInDim S800000 ![] bcast_S_S800000 : (⟨S_, .i32⟩ : BufTy).Contents (Elt F) → (⟨S800000, .i32⟩ : BufTy).Contents (Elt F)),
    StableHlo.binary main_v3 main_v176 main_v177 (addi : (⟨S800000, .i32⟩ : BufTy).Contents (Elt F) → (⟨S800000, .i32⟩ : BufTy).Contents (Elt F) → (⟨S800000, .i32⟩ : BufTy).Contents (Elt F)),
    StableHlo.ternary main_v175 main_v177 main_v3 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v178 main_v179 (broadcastInDim S800000x1 ![0] bcast_S800000_S800000x1_0 : (⟨S800000, .i32⟩ : BufTy).Contents (Elt F) → (⟨S800000x1, .i32⟩ : BufTy).Contents (Elt F)),
    StableHlo.binary main_v173 main_v179 main_v180 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v10 main_v180 main_v181 ((fun a b => concatenate S800000x87 1 [⟨S800000x23, a⟩, ⟨S800000x64, b⟩] concatenates_S800000x23_S800000x64_S800000x87_d1) : (⟨S800000x23, .f32⟩ : BufTy).Contents (Elt F) → (⟨S800000x64, .f32⟩ : BufTy).Contents (Elt F) → (⟨S800000x87, .f32⟩ : BufTy).Contents (Elt F)),
    StableHlo.nullary main_cst_21 (constant S_ .f32 0x00000000#32),
    StableHlo.unary main_cst_21 main_v182 (broadcastInDim S50000x87 ![] bcast_S_S50000x87 : (⟨S_, .f32⟩ : BufTy).Contents (Elt F) → (⟨S50000x87, .f32⟩ : BufTy).Contents (Elt F)),
    StableHlo.unary main_v1 main_v183 (broadcastInDim S800000x1 ![0] bcast_S800000_S800000x1_0 : (⟨S800000, .i32⟩ : BufTy).Contents (Elt F) → (⟨S800000x1, .i32⟩ : BufTy).Contents (Elt F)),
    StableHlo.ternary main_v182 main_v183 main_v181 main_v184 ((fun x i u => Host.scatterAdd scatter_S50000x87_S800000x1_S800000x87_1_0_0_1 x i u) : (⟨S50000x87, .f32⟩ : BufTy).Contents (Elt F) → (⟨S800000x1, .i32⟩ : BufTy).Contents (Elt F) → (⟨S800000x87, .f32⟩ : BufTy).Contents (Elt F) → (⟨S50000x87, .f32⟩ : BufTy).Contents (Elt F)),
    StableHlo.unary main_arg5 main_v185 ((extractStridedSlice S1x87 ![2, 0] · slices_S3x87_S1x87_2_0) : (⟨S3x87, .f32⟩ : BufTy).Contents (Elt F) → (⟨S1x87, .f32⟩ : BufTy).Contents (Elt F)),
    StableHlo.reshape main_v185 main_v186 rfl shapeCasts_S1x87_S87,
    StableHlo.unary main_arg6 main_v187 ((extractStridedSlice S1x87 ![2, 0] · slices_S3x87_S1x87_2_0) : (⟨S3x87, .f32⟩ : BufTy).Contents (Elt F) → (⟨S1x87, .f32⟩ : BufTy).Contents (Elt F)),
    StableHlo.reshape main_v187 main_v188 rfl shapeCasts_S1x87_S87,
    StableHlo.unary main_arg7 main_v189 ((extractStridedSlice S1x87x200 ![2, 0, 0] · slices_S3x87x200_S1x87x200_2_0_0) : (⟨S3x87x200, .f32⟩ : BufTy).Contents (Elt F) → (⟨S1x87x200, .f32⟩ : BufTy).Contents (Elt F)),
    StableHlo.reshape main_v189 main_v190 rfl shapeCasts_S1x87x200_S87x200,
    StableHlo.unary main_arg8 main_v191 ((extractStridedSlice S1x200 ![2, 0] · slices_S3x200_S1x200_2_0) : (⟨S3x200, .f32⟩ : BufTy).Contents (Elt F) → (⟨S1x200, .f32⟩ : BufTy).Contents (Elt F)),
    StableHlo.reshape main_v191 main_v192 rfl shapeCasts_S1x200_S200,
    StableHlo.unary main_arg9 main_v193 ((extractStridedSlice S1x200x200 ![2, 0, 0] · slices_S3x200x200_S1x200x200_2_0_0) : (⟨S3x200x200, .f32⟩ : BufTy).Contents (Elt F) → (⟨S1x200x200, .f32⟩ : BufTy).Contents (Elt F)),
    StableHlo.reshape main_v193 main_v194 rfl shapeCasts_S1x200x200_S200x200,
    StableHlo.unary main_arg10 main_v195 ((extractStridedSlice S1x200 ![2, 0] · slices_S3x200_S1x200_2_0) : (⟨S3x200, .f32⟩ : BufTy).Contents (Elt F) → (⟨S1x200, .f32⟩ : BufTy).Contents (Elt F)),
    StableHlo.reshape main_v195 main_v196 rfl shapeCasts_S1x200_S200,
    StableHlo.unary main_arg11 main_v197 ((extractStridedSlice S1x200x200 ![2, 0, 0] · slices_S3x200x200_S1x200x200_2_0_0) : (⟨S3x200x200, .f32⟩ : BufTy).Contents (Elt F) → (⟨S1x200x200, .f32⟩ : BufTy).Contents (Elt F)),
    StableHlo.reshape main_v197 main_v198 rfl shapeCasts_S1x200x200_S200x200,
    StableHlo.unary main_arg12 main_v199 ((extractStridedSlice S1x200 ![2, 0] · slices_S3x200_S1x200_2_0) : (⟨S3x200, .f32⟩ : BufTy).Contents (Elt F) → (⟨S1x200, .f32⟩ : BufTy).Contents (Elt F)),
    StableHlo.reshape main_v199 main_v200 rfl shapeCasts_S1x200_S200,
    StableHlo.unary main_arg13 main_v201 ((extractStridedSlice S1x200x64 ![2, 0, 0] · slices_S3x200x64_S1x200x64_2_0_0) : (⟨S3x200x64, .f32⟩ : BufTy).Contents (Elt F) → (⟨S1x200x64, .f32⟩ : BufTy).Contents (Elt F)),
    StableHlo.reshape main_v201 main_v202 rfl shapeCasts_S1x200x64_S200x64,
    StableHlo.unary main_arg14 main_v203 ((extractStridedSlice S1x64 ![2, 0] · slices_S3x64_S1x64_2_0) : (⟨S3x64, .f32⟩ : BufTy).Contents (Elt F) → (⟨S1x64, .f32⟩ : BufTy).Contents (Elt F)),
    StableHlo.reshape main_v203 main_v204 rfl shapeCasts_S1x64_S64,
    StableHlo.nullary main_cst_22 (constant S_ .f32 0x00000000#32),
    StableHlo.binary main_v184 main_cst_22 main_v205 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_23 (constant S_ .f32 0x47435000#32),
    StableHlo.unary main_cst_23 main_v206 (broadcastInDim S87 ![] bcast_S_S87 : (⟨S_, .f32⟩ : BufTy).Contents (Elt F) → (⟨S87, .f32⟩ : BufTy).Contents (Elt F)),
    StableHlo.binary main_v205 main_v206 main_v207 (Host.divf : (⟨S87, .f32⟩ : BufTy).Contents (Elt F) → (⟨S87, .f32⟩ : BufTy).Contents (Elt F) → (⟨S87, .f32⟩ : BufTy).Contents (Elt F)),
    StableHlo.unary main_v207 main_v208 (broadcastInDim S1x87 ![1] bcast_S87_S1x87_1 : (⟨S87, .f32⟩ : BufTy).Contents (Elt F) → (⟨S1x87, .f32⟩ : BufTy).Contents (Elt F)),
    StableHlo.unary main_v208 main_v209 (broadcastInDim S50000x87 ![0, 1] bcast_S1x87_S50000x87_0_1 : (⟨S1x87, .f32⟩ : BufTy).Contents (Elt F) → (⟨S50000x87, .f32⟩ : BufTy).Contents (Elt F)),
    StableHlo.binary main_v184 main_v209 main_v210 (subf : (⟨S50000x87, .f32⟩ : BufTy).Contents (Elt F) → (⟨S50000x87, .f32⟩ : BufTy).Contents (Elt F) → (⟨S50000x87, .f32⟩ : BufTy).Contents (Elt F)),
    StableHlo.binary main_v210 main_v210 main_v211 (mulf : (⟨S50000x87, .f32⟩ : BufTy).Contents (Elt F) → (⟨S50000x87, .f32⟩ : BufTy).Contents (Elt F) → (⟨S50000x87, .f32⟩ : BufTy).Contents (Elt F)),
    StableHlo.nullary main_cst_24 (constant S_ .f32 0x00000000#32),
    StableHlo.binary main_v211 main_cst_24 main_v212 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)) ]

/-- Window 3 of the program is that straight line. -/
theorem part3_eq (c : Dev nD) : main_part3 (F := F) c = seq w3 := rfl

/-- Every operation of window 3 touches TensorCore references only. -/
theorem w3_sub : (w3 : List (HloOp τ sig (Elt F))).Forall fun op => op.bufs ⊆ tcRefs τ sig :=
  ⟨binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., unary_bufs_sub .., ternary_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub ..⟩

/-- Every operation of window 3 determines all it writes. -/
theorem w3_fresh : (w3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

/-- Every operation of window 3 writes one buffer, of index at least 25. -/
theorem w3_writes : (w3 : List (HloOp τ sig (Elt F))).Forall fun op => op.writes ⊆ (late.map (Proc.devRef (τ := τ) .tc)).toFinset :=
  ⟨late_sub (y := main_v160) (by decide), late_sub (y := main_call4_cst) (by decide), late_sub (y := main_call4_v0) (by decide),
    late_sub (y := main_v161) (by decide), late_sub (y := main_v162) (by decide), late_sub (y := main_v163) (by decide),
    late_sub (y := main_v164) (by decide), late_sub (y := main_v165) (by decide), late_sub (y := main_call5_cst) (by decide),
    late_sub (y := main_call5_v0) (by decide), late_sub (y := main_v166) (by decide), late_sub (y := main_v167) (by decide),
    late_sub (y := main_v168) (by decide), late_sub (y := main_v169) (by decide), late_sub (y := main_v170) (by decide),
    late_sub (y := main_cst_18) (by decide), late_sub (y := main_v171) (by decide), late_sub (y := main_v172) (by decide),
    late_sub (y := main_v173) (by decide), late_sub (y := main_c_19) (by decide), late_sub (y := main_v174) (by decide),
    late_sub (y := main_v175) (by decide), late_sub (y := main_c_20) (by decide), late_sub (y := main_v176) (by decide),
    late_sub (y := main_v177) (by decide), late_sub (y := main_v178) (by decide), late_sub (y := main_v179) (by decide),
    late_sub (y := main_v180) (by decide), late_sub (y := main_v181) (by decide), late_sub (y := main_cst_21) (by decide),
    late_sub (y := main_v182) (by decide), late_sub (y := main_v183) (by decide), late_sub (y := main_v184) (by decide),
    late_sub (y := main_v185) (by decide), late_sub (y := main_v186) (by decide), late_sub (y := main_v187) (by decide),
    late_sub (y := main_v188) (by decide), late_sub (y := main_v189) (by decide), late_sub (y := main_v190) (by decide),
    late_sub (y := main_v191) (by decide), late_sub (y := main_v192) (by decide), late_sub (y := main_v193) (by decide),
    late_sub (y := main_v194) (by decide), late_sub (y := main_v195) (by decide), late_sub (y := main_v196) (by decide),
    late_sub (y := main_v197) (by decide), late_sub (y := main_v198) (by decide), late_sub (y := main_v199) (by decide),
    late_sub (y := main_v200) (by decide), late_sub (y := main_v201) (by decide), late_sub (y := main_v202) (by decide),
    late_sub (y := main_v203) (by decide), late_sub (y := main_v204) (by decide), late_sub (y := main_cst_22) (by decide),
    late_sub (y := main_v205) (by decide), late_sub (y := main_cst_23) (by decide), late_sub (y := main_v206) (by decide),
    late_sub (y := main_v207) (by decide), late_sub (y := main_v208) (by decide), late_sub (y := main_v209) (by decide),
    late_sub (y := main_v210) (by decide), late_sub (y := main_v211) (by decide), late_sub (y := main_cst_24) (by decide),
    late_sub (y := main_v212) (by decide)⟩

/-! ## Window 4 -/

/-- The operations of window 4, in order (the calls of the rectifier unfolded at their sites): the third pass's affine layers and update, the concatenation of the four feature tables, its statistics and normalisation, the readout's first product. -/
abbrev w4 : List (HloOp τ sig (Elt F)) :=
  [ StableHlo.nullary main_cst_25 (constant S_ .f32 0x47435000#32),
    StableHlo.unary main_cst_25 main_v213 (broadcastInDim S87 ![] bcast_S_S87 : (⟨S_, .f32⟩ : BufTy).Contents (Elt F) → (⟨S87, .f32⟩ : BufTy).Contents (Elt F)),
    StableHlo.binary main_v212 main_v213 main_v214 (Host.divf : (⟨S87, .f32⟩ : BufTy).Contents (Elt F) → (⟨S87, .f32⟩ : BufTy).Contents (Elt F) → (⟨S87, .f32⟩ : BufTy).Contents (Elt F)),
    StableHlo.unary main_v207 main_v215 (broadcastInDim S1x87 ![1] bcast_S87_S1x87_1 : (⟨S87, .f32⟩ : BufTy).Contents (Elt F) → (⟨S1x87, .f32⟩ : BufTy).Contents (Elt F)),
    StableHlo.unary main_v215 main_v216 (broadcastInDim S50000x87 ![0, 1] bcast_S1x87_S50000x87_0_1 : (⟨S1x87, .f32⟩ : BufTy).Contents (Elt F) → (⟨S50000x87, .f32⟩ : BufTy).Contents (Elt F)),
    StableHlo.binary main_v184 main_v216 main_v217 (subf : (⟨S50000x87, .f32⟩ : BufTy).Contents (Elt F) → (⟨S50000x87, .f32⟩ : BufTy).Contents (Elt F) → (⟨S50000x87, .f32⟩ : BufTy).Contents (Elt F)),
    StableHlo.nullary main_cst_26 (constant S_ .f32 0x3727C5AC#32),
    StableHlo.unary main_cst_26 main_v218 (broadcastInDim S87 ![] bcast_S_S87 : (⟨S_, .f32⟩ : BufTy).Contents (Elt F) → (⟨S87, .f32⟩ : BufTy).Contents (Elt F)),
    StableHlo.binary main_v214 main_v218 main_v219 (addf : (⟨S87, .f32⟩ : BufTy).Contents (Elt F) → (⟨S87, .f32⟩ : BufTy).Contents (Elt F) → (⟨S87, .f32⟩ : BufTy).Contents (Elt F)),
    StableHlo.unary main_v219 main_v220 (Host.rsqrt : (⟨S87, .f32⟩ : BufTy).Contents (Elt F) → (⟨S87, .f32⟩ : BufTy).Contents (Elt F)),
    StableHlo.unary main_v220 main_v221 (broadcastInDim S1x87 ![1] bcast_S87_S1x87_1 : (⟨S87, .f32⟩ : BufTy).Contents (Elt F) → (⟨S1x87, .f32⟩ : BufTy).Contents (Elt F)),
    StableHlo.unary main_v221 main_v222 (broadcastInDim S50000x87 ![0, 1] bcast_S1x87_S50000x87_0_1 : (⟨S1x87, .f32⟩ : BufTy).Contents (Elt F) → (⟨S50000x87, .f32⟩ : BufTy).Contents (Elt F)),
    StableHlo.binary main_v217 main_v222 main_v223 (mulf : (⟨S50000x87, .f32⟩ : BufTy).Contents (Elt F) → (⟨S50000x87, .f32⟩ : BufTy).Contents (Elt F) → (⟨S50000x87, .f32⟩ : BufTy).Contents (Elt F)),
    StableHlo.unary main_v186 main_v224 (broadcastInDim S1x87 ![1] bcast_S87_S1x87_1 : (⟨S87, .f32⟩ : BufTy).Contents (Elt F) → (⟨S1x87, .f32⟩ : BufTy).Contents (Elt F)),
    StableHlo.unary main_v224 main_v225 (broadcastInDim S50000x87 ![0, 1] bcast_S1x87_S50000x87_0_1 : (⟨S1x87, .f32⟩ : BufTy).Contents (Elt F) → (⟨S50000x87, .f32⟩ : BufTy).Contents (Elt F)),
    StableHlo.binary main_v223 main_v225 main_v226 (mulf : (⟨S50000x87, .f32⟩ : BufTy).Contents (Elt F) → (⟨S50000x87, .f32⟩ : BufTy).Contents (Elt F) → (⟨S50000x87, .f32⟩ : BufTy).Contents (Elt F)),
    StableHlo.unary main_v188 main_v227 (broadcastInDim S1x87 ![1] bcast_S87_S1x87_1 : (⟨S87, .f32⟩ : BufTy).Contents (Elt F) → (⟨S1x87, .f32⟩ : BufTy).Contents (Elt F)),
    StableHlo.unary main_v227 main_v228 (broadcastInDim S50000x87 ![0, 1] bcast_S1x87_S50000x87_0_1 : (⟨S1x87, .f32⟩ : BufTy).Contents (Elt F) → (⟨S50000x87, .f32⟩ : BufTy).Contents (Elt F)),
    StableHlo.binary main_v226 main_v228 main_v229 (addf : (⟨S50000x87, .f32⟩ : BufTy).Contents (Elt F) → (⟨S50000x87, .f32⟩ : BufTy).Contents (Elt F) → (⟨S50000x87, .f32⟩ : BufTy).Contents (Elt F)),
    StableHlo.binary main_v229 main_v190 main_v230 ((fun l r => Host.dotGeneral dot_S50000x87_S87x200_S50000x200_1_0_0_1_n_n none l r) : (⟨S50000x87, .f32⟩ : BufTy).Contents (Elt F) → (⟨S87x200, .f32⟩ : BufTy).Contents (Elt F) → (⟨S50000x200, .f32⟩ : BufTy).Contents (Elt F)),
    StableHlo.unary main_v192 main_v231 (broadcastInDim S1x200 ![1] bcast_S200_S1x200_1 : (⟨S200, .f32⟩ : BufTy).Contents (Elt F) → (⟨S1x200, .f32⟩ : BufTy).Contents (Elt F)),
    StableHlo.unary main_v231 main_v232 (broadcastInDim S50000x200 ![0, 1] bcast_S1x200_S50000x200_0_1 : (⟨S1x200, .f32⟩ : BufTy).Contents (Elt F) → (⟨S50000x200, .f32⟩ : BufTy).Contents (Elt F)),
    StableHlo.binary main_v230 main_v232 main_v233 (addf : (⟨S50000x200, .f32⟩ : BufTy).Contents (Elt F) → (⟨S50000x200, .f32⟩ : BufTy).Contents (Elt F) → (⟨S50000x200, .f32⟩ : BufTy).Contents (Elt F)),
    StableHlo.TRef.nullary main_call6.cst (constant S_ .f32 0x00000000#32),
    StableHlo.TRef.unary main_call6.cst main_call6.v0 (broadcastInDim S50000x200 ![] bcast_S_S50000x200),
    StableHlo.TRef.binary (.of main_v233 : StableHlo.TRef sig ⟨S50000x200, .f32⟩) main_call6.v0 main_call6.v1 maximumf,
    StableHlo.binary main_v234 main_v194 main_v235 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v196 main_v236 (broadcastInDim S1x200 ![1] bcast_S200_S1x200_1 : (⟨S200, .f32⟩ : BufTy).Contents (Elt F) → (⟨S1x200, .f32⟩ : BufTy).Contents (Elt F)),
    StableHlo.unary main_v236 main_v237 (broadcastInDim S50000x200 ![0, 1] bcast_S1x200_S50000x200_0_1 : (⟨S1x200, .f32⟩ : BufTy).Contents (Elt F) → (⟨S50000x200, .f32⟩ : BufTy).Contents (Elt F)),
    StableHlo.binary main_v235 main_v237 main_v238 (addf : (⟨S50000x200, .f32⟩ : BufTy).Contents (Elt F) → (⟨S50000x200, .f32⟩ : BufTy).Contents (Elt F) → (⟨S50000x200, .f32⟩ : BufTy).Contents (Elt F)),
    StableHlo.TRef.nullary main_call7.cst (constant S_ .f32 0x00000000#32),
    StableHlo.TRef.unary main_call7.cst main_call7.v0 (broadcastInDim S50000x200 ![] bcast_S_S50000x200),
    StableHlo.TRef.binary (.of main_v238 : StableHlo.TRef sig ⟨S50000x200, .f32⟩) main_call7.v0 main_call7.v1 maximumf,
    StableHlo.binary main_v239 main_v198 main_v240 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v200 main_v241 (broadcastInDim S1x200 ![1] bcast_S200_S1x200_1 : (⟨S200, .f32⟩ : BufTy).Contents (Elt F) → (⟨S1x200, .f32⟩ : BufTy).Contents (Elt F)),
    StableHlo.unary main_v241 main_v242 (broadcastInDim S50000x200 ![0, 1] bcast_S1x200_S50000x200_0_1 : (⟨S1x200, .f32⟩ : BufTy).Contents (Elt F) → (⟨S50000x200, .f32⟩ : BufTy).Contents (Elt F)),
    StableHlo.binary main_v240 main_v242 main_v243 (addf : (⟨S50000x200, .f32⟩ : BufTy).Contents (Elt F) → (⟨S50000x200, .f32⟩ : BufTy).Contents (Elt F) → (⟨S50000x200, .f32⟩ : BufTy).Contents (Elt F)),
    StableHlo.TRef.nullary main_call8.cst (constant S_ .f32 0x00000000#32),
    StableHlo.TRef.unary main_call8.cst main_call8.v0 (broadcastInDim S50000x200 ![] bcast_S_S50000x200),
    StableHlo.TRef.binary (.of main_v243 : StableHlo.TRef sig ⟨S50000x200, .f32⟩) main_call8.v0 main_call8.v1 maximumf,
    StableHlo.binary main_v244 main_v202 main_v245 ((fun l r => Host.dotGeneral dot_S50000x200_S200x64_S50000x64_1_0_0_1_n_n none l r) : (⟨S50000x200, .f32⟩ : BufTy).Contents (Elt F) → (⟨S200x64, .f32⟩ : BufTy).Contents (Elt F) → (⟨S50000x64, .f32⟩ : BufTy).Contents (Elt F)),
    StableHlo.unary main_v204 main_v246 (broadcastInDim S1x64 ![1] bcast_S64_S1x64_1 : (⟨S64, .f32⟩ : BufTy).Contents (Elt F) → (⟨S1x64, .f32⟩ : BufTy).Contents (Elt F)),
    StableHlo.unary main_v246 main_v247 (broadcastInDim S50000x64 ![0, 1] bcast_S1x64_S50000x64_0_1 : (⟨S1x64, .f32⟩ : BufTy).Contents (Elt F) → (⟨S50000x64, .f32⟩ : BufTy).Contents (Elt F)),
    StableHlo.binary main_v245 main_v247 main_v248 (addf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x3DCCCCCD#32),
    StableHlo.unary main_cst_27 main_v249 (broadcastInDim S50000x64 ![] bcast_S_S50000x64 : (⟨S_, .f32⟩ : BufTy).Contents (Elt F) → (⟨S50000x64, .f32⟩ : BufTy).Contents (Elt F)),
    StableHlo.binary main_v249 main_v248 main_v250 (mulf : (⟨S50000x64, .f32⟩ : BufTy).Contents (Elt F) → (⟨S50000x64, .f32⟩ : BufTy).Contents (Elt F) → (⟨S50000x64, .f32⟩ : BufTy).Contents (Elt F)),
    StableHlo.binary main_v173 main_v250 main_v251 (addf : (⟨S50000x64, .f32⟩ : BufTy).Contents (Elt F) → (⟨S50000x64, .f32⟩ : BufTy).Contents (Elt F) → (⟨S50000x64, .f32⟩ : BufTy).Contents (Elt F)),
    StableHlo.nary ![main_v17, main_v95, main_v173, main_v251] main_v252 (fun u => concatenate S50000x256 1 [⟨S50000x64, u 0⟩, ⟨S50000x64, u 1⟩, ⟨S50000x64, u 2⟩, ⟨S50000x64, u 3⟩] concatenates_S50000x64_S50000x64_S50000x64_S50000x64_S50000x256_d1),
    StableHlo.nullary main_cst_28 (constant S_ .f32 0x00000000#32),
    StableHlo.binary main_v252 main_cst_28 main_v253 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_29 (constant S_ .f32 0x47435000#32),
    StableHlo.unary main_cst_29 main_v254 (broadcastInDim S256 ![] bcast_S_S256 : (⟨S_, .f32⟩ : BufTy).Contents (Elt F) → (⟨S256, .f32⟩ : BufTy).Contents (Elt F)),
    StableHlo.binary main_v253 main_v254 main_v255 (Host.divf : (⟨S256, .f32⟩ : BufTy).Contents (Elt F) → (⟨S256, .f32⟩ : BufTy).Contents (Elt F) → (⟨S256, .f32⟩ : BufTy).Contents (Elt F)),
    StableHlo.unary main_v255 main_v256 (broadcastInDim S1x256 ![1] bcast_S256_S1x256_1 : (⟨S256, .f32⟩ : BufTy).Contents (Elt F) → (⟨S1x256, .f32⟩ : BufTy).Contents (Elt F)),
    StableHlo.unary main_v256 main_v257 (broadcastInDim S50000x256 ![0, 1] bcast_S1x256_S50000x256_0_1 : (⟨S1x256, .f32⟩ : BufTy).Contents (Elt F) → (⟨S50000x256, .f32⟩ : BufTy).Contents (Elt F)),
    StableHlo.binary main_v252 main_v257 main_v258 (subf : (⟨S50000x256, .f32⟩ : BufTy).Contents (Elt F) → (⟨S50000x256, .f32⟩ : BufTy).Contents (Elt F) → (⟨S50000x256, .f32⟩ : BufTy).Contents (Elt F)),
    StableHlo.binary main_v258 main_v258 main_v259 (mulf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x00000000#32),
    StableHlo.binary main_v259 main_cst_30 main_v260 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_31 (constant S_ .f32 0x47435000#32),
    StableHlo.unary main_cst_31 main_v261 (broadcastInDim S256 ![] bcast_S_S256 : (⟨S_, .f32⟩ : BufTy).Contents (Elt F) → (⟨S256, .f32⟩ : BufTy).Contents (Elt F)),
    StableHlo.binary main_v260 main_v261 main_v262 (Host.divf : (⟨S256, .f32⟩ : BufTy).Contents (Elt F) → (⟨S256, .f32⟩ : BufTy).Contents (Elt F) → (⟨S256, .f32⟩ : BufTy).Contents (Elt F)),
    StableHlo.unary main_v255 main_v263 (broadcastInDim S1x256 ![1] bcast_S256_S1x256_1 : (⟨S256, .f32⟩ : BufTy).Contents (Elt F) → (⟨S1x256, .f32⟩ : BufTy).Contents (Elt F)),
    StableHlo.unary main_v263 main_v264 (broadcastInDim S50000x256 ![0, 1] bcast_S1x256_S50000x256_0_1 : (⟨S1x256, .f32⟩ : BufTy).Contents (Elt F) → (⟨S50000x256, .f32⟩ : BufTy).Contents (Elt F)),
    StableHlo.binary main_v252 main_v264 main_v265 (subf : (⟨S50000x256, .f32⟩ : BufTy).Contents (Elt F) → (⟨S50000x256, .f32⟩ : BufTy).Contents (Elt F) → (⟨S50000x256, .f32⟩ : BufTy).Contents (Elt F)) ]

/-- Window 4 of the program is that straight line. -/
theorem part4_eq (c : Dev nD) : main_part4 (F := F) c = seq w4 := rfl

/-- Every operation of window 4 touches TensorCore references only. -/
theorem w4_sub : (w4 : List (HloOp τ sig (Elt F))).Forall fun op => op.bufs ⊆ tcRefs τ sig :=
  ⟨nullary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    nary_bufs_sub .., nullary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..⟩

/-- Every operation of window 4 determines all it writes. -/
theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- Every operation of window 4 writes one buffer, of index at least 25. -/
theorem w4_writes : (w4 : List (HloOp τ sig (Elt F))).Forall fun op => op.writes ⊆ (late.map (Proc.devRef (τ := τ) .tc)).toFinset :=
  ⟨late_sub (y := main_cst_25) (by decide), late_sub (y := main_v213) (by decide), late_sub (y := main_v214) (by decide),
    late_sub (y := main_v215) (by decide), late_sub (y := main_v216) (by decide), late_sub (y := main_v217) (by decide),
    late_sub (y := main_cst_26) (by decide), late_sub (y := main_v218) (by decide), late_sub (y := main_v219) (by decide),
    late_sub (y := main_v220) (by decide), late_sub (y := main_v221) (by decide), late_sub (y := main_v222) (by decide),
    late_sub (y := main_v223) (by decide), late_sub (y := main_v224) (by decide), late_sub (y := main_v225) (by decide),
    late_sub (y := main_v226) (by decide), late_sub (y := main_v227) (by decide), late_sub (y := main_v228) (by decide),
    late_sub (y := main_v229) (by decide), late_sub (y := main_v230) (by decide), late_sub (y := main_v231) (by decide),
    late_sub (y := main_v232) (by decide), late_sub (y := main_v233) (by decide), late_sub (y := main_call6_cst) (by decide),
    late_sub (y := main_call6_v0) (by decide), late_sub (y := main_v234) (by decide), late_sub (y := main_v235) (by decide),
    late_sub (y := main_v236) (by decide), late_sub (y := main_v237) (by decide), late_sub (y := main_v238) (by decide),
    late_sub (y := main_call7_cst) (by decide), late_sub (y := main_call7_v0) (by decide), late_sub (y := main_v239) (by decide),
    late_sub (y := main_v240) (by decide), late_sub (y := main_v241) (by decide), late_sub (y := main_v242) (by decide),
    late_sub (y := main_v243) (by decide), late_sub (y := main_call8_cst) (by decide), late_sub (y := main_call8_v0) (by decide),
    late_sub (y := main_v244) (by decide), late_sub (y := main_v245) (by decide), late_sub (y := main_v246) (by decide),
    late_sub (y := main_v247) (by decide), late_sub (y := main_v248) (by decide), late_sub (y := main_cst_27) (by decide),
    late_sub (y := main_v249) (by decide), late_sub (y := main_v250) (by decide), late_sub (y := main_v251) (by decide),
    late_sub (y := main_v252) (by decide), late_sub (y := main_cst_28) (by decide), late_sub (y := main_v253) (by decide),
    late_sub (y := main_cst_29) (by decide), late_sub (y := main_v254) (by decide), late_sub (y := main_v255) (by decide),
    late_sub (y := main_v256) (by decide), late_sub (y := main_v257) (by decide), late_sub (y := main_v258) (by decide),
    late_sub (y := main_v259) (by decide), late_sub (y := main_cst_30) (by decide), late_sub (y := main_v260) (by decide),
    late_sub (y := main_cst_31) (by decide), late_sub (y := main_v261) (by decide), late_sub (y := main_v262) (by decide),
    late_sub (y := main_v263) (by decide), late_sub (y := main_v264) (by decide), late_sub (y := main_v265) (by decide)⟩

/-! ## Window 5 -/

/-- The operations of window 5, in order (the calls of the rectifier unfolded at their sites): the readout's layers and the final scatter-add into the per-molecule sums. -/
abbrev w5 : List (HloOp τ sig (Elt F)) :=
  [ StableHlo.nullary main_cst_32 (constant S_ .f32 0x3727C5AC#32),
    StableHlo.unary main_cst_32 main_v266 (broadcastInDim S256 ![] bcast_S_S256 : (⟨S_, .f32⟩ : BufTy).Contents (Elt F) → (⟨S256, .f32⟩ : BufTy).Contents (Elt F)),
    StableHlo.binary main_v262 main_v266 main_v267 (addf : (⟨S256, .f32⟩ : BufTy).Contents (Elt F) → (⟨S256, .f32⟩ : BufTy).Contents (Elt F) → (⟨S256, .f32⟩ : BufTy).Contents (Elt F)),
    StableHlo.unary main_v267 main_v268 (Host.rsqrt : (⟨S256, .f32⟩ : BufTy).Contents (Elt F) → (⟨S256, .f32⟩ : BufTy).Contents (Elt F)),
    StableHlo.unary main_v268 main_v269 (broadcastInDim S1x256 ![1] bcast_S256_S1x256_1 : (⟨S256, .f32⟩ : BufTy).Contents (Elt F) → (⟨S1x256, .f32⟩ : BufTy).Contents (Elt F)),
    StableHlo.unary main_v269 main_v270 (broadcastInDim S50000x256 ![0, 1] bcast_S1x256_S50000x256_0_1 : (⟨S1x256, .f32⟩ : BufTy).Contents (Elt F) → (⟨S50000x256, .f32⟩ : BufTy).Contents (Elt F)),
    StableHlo.binary main_v265 main_v270 main_v271 (mulf : (⟨S50000x256, .f32⟩ : BufTy).Contents (Elt F) → (⟨S50000x256, .f32⟩ : BufTy).Contents (Elt F) → (⟨S50000x256, .f32⟩ : BufTy).Contents (Elt F)),
    StableHlo.unary main_arg15 main_v272 (broadcastInDim S1x256 ![1] bcast_S256_S1x256_1 : (⟨S256, .f32⟩ : BufTy).Contents (Elt F) → (⟨S1x256, .f32⟩ : BufTy).Contents (Elt F)),
    StableHlo.unary main_v272 main_v273 (broadcastInDim S50000x256 ![0, 1] bcast_S1x256_S50000x256_0_1 : (⟨S1x256, .f32⟩ : BufTy).Contents (Elt F) → (⟨S50000x256, .f32⟩ : BufTy).Contents (Elt F)),
    StableHlo.binary main_v271 main_v273 main_v274 (mulf : (⟨S50000x256, .f32⟩ : BufTy).Contents (Elt F) → (⟨S50000x256, .f32⟩ : BufTy).Contents (Elt F) → (⟨S50000x256, .f32⟩ : BufTy).Contents (Elt F)),
    StableHlo.unary main_arg16 main_v275 (broadcastInDim S1x256 ![1] bcast_S256_S1x256_1 : (⟨S256, .f32⟩ : BufTy).Contents (Elt F) → (⟨S1x256, .f32⟩ : BufTy).Contents (Elt F)),
    StableHlo.unary main_v275 main_v276 (broadcastInDim S50000x256 ![0, 1] bcast_S1x256_S50000x256_0_1 : (⟨S1x256, .f32⟩ : BufTy).Contents (Elt F) → (⟨S50000x256, .f32⟩ : BufTy).Contents (Elt F)),
    StableHlo.binary main_v274 main_v276 main_v277 (addf : (⟨S50000x256, .f32⟩ : BufTy).Contents (Elt F) → (⟨S50000x256, .f32⟩ : BufTy).Contents (Elt F) → (⟨S50000x256, .f32⟩ : BufTy).Contents (Elt F)),
    StableHlo.binary main_v277 main_arg17 main_v278 ((fun l r => Host.dotGeneral dot_S50000x256_S256x200_S50000x200_1_0_0_1_n_n none l r) : (⟨S50000x256, .f32⟩ : BufTy).Contents (Elt F) → (⟨S256x200, .f32⟩ : BufTy).Contents (Elt F) → (⟨S50000x200, .f32⟩ : BufTy).Contents (Elt F)),
    StableHlo.unary main_arg18 main_v279 (broadcastInDim S1x200 ![1] bcast_S200_S1x200_1 : (⟨S200, .f32⟩ : BufTy).Contents (Elt F) → (⟨S1x200, .f32⟩ : BufTy).Contents (Elt F)),
    StableHlo.unary main_v279 main_v280 (broadcastInDim S50000x200 ![0, 1] bcast_S1x200_S50000x200_0_1 : (⟨S1x200, .f32⟩ : BufTy).Contents (Elt F) → (⟨S50000x200, .f32⟩ : BufTy).Contents (Elt F)),
    StableHlo.binary main_v278 main_v280 main_v281 (addf : (⟨S50000x200, .f32⟩ : BufTy).Contents (Elt F) → (⟨S50000x200, .f32⟩ : BufTy).Contents (Elt F) → (⟨S50000x200, .f32⟩ : BufTy).Contents (Elt F)),
    StableHlo.TRef.nullary main_call9.cst (constant S_ .f32 0x00000000#32),
    StableHlo.TRef.unary main_call9.cst main_call9.v0 (broadcastInDim S50000x200 ![] bcast_S_S50000x200),
    StableHlo.TRef.binary (.of main_v281 : StableHlo.TRef sig ⟨S50000x200, .f32⟩) main_call9.v0 main_call9.v1 maximumf,
    StableHlo.binary main_v282 main_arg19 main_v283 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_arg20 main_v284 (broadcastInDim S1x200 ![1] bcast_S200_S1x200_1 : (⟨S200, .f32⟩ : BufTy).Contents (Elt F) → (⟨S1x200, .f32⟩ : BufTy).Contents (Elt F)),
    StableHlo.unary main_v284 main_v285 (broadcastInDim S50000x200 ![0, 1] bcast_S1x200_S50000x200_0_1 : (⟨S1x200, .f32⟩ : BufTy).Contents (Elt F) → (⟨S50000x200, .f32⟩ : BufTy).Contents (Elt F)),
    StableHlo.binary main_v283 main_v285 main_v286 (addf : (⟨S50000x200, .f32⟩ : BufTy).Contents (Elt F) → (⟨S50000x200, .f32⟩ : BufTy).Contents (Elt F) → (⟨S50000x200, .f32⟩ : BufTy).Contents (Elt F)),
    StableHlo.TRef.nullary main_call10.cst (constant S_ .f32 0x00000000#32),
    StableHlo.TRef.unary main_call10.cst main_call10.v0 (broadcastInDim S50000x200 ![] bcast_S_S50000x200),
    StableHlo.TRef.binary (.of main_v286 : StableHlo.TRef sig ⟨S50000x200, .f32⟩) main_call10.v0 main_call10.v1 maximumf,
    StableHlo.binary main_v287 main_arg21 main_v288 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_arg22 main_v289 (broadcastInDim S1x200 ![1] bcast_S200_S1x200_1 : (⟨S200, .f32⟩ : BufTy).Contents (Elt F) → (⟨S1x200, .f32⟩ : BufTy).Contents (Elt F)),
    StableHlo.unary main_v289 main_v290 (broadcastInDim S50000x200 ![0, 1] bcast_S1x200_S50000x200_0_1 : (⟨S1x200, .f32⟩ : BufTy).Contents (Elt F) → (⟨S50000x200, .f32⟩ : BufTy).Contents (Elt F)),
    StableHlo.binary main_v288 main_v290 main_v291 (addf : (⟨S50000x200, .f32⟩ : BufTy).Contents (Elt F) → (⟨S50000x200, .f32⟩ : BufTy).Contents (Elt F) → (⟨S50000x200, .f32⟩ : BufTy).Contents (Elt F)),
    StableHlo.TRef.nullary main_call11.cst (constant S_ .f32 0x00000000#32),
    StableHlo.TRef.unary main_call11.cst main_call11.v0 (broadcastInDim S50000x200 ![] bcast_S_S50000x200),
    StableHlo.TRef.binary (.of main_v291 : StableHlo.TRef sig ⟨S50000x200, .f32⟩) main_call11.v0 main_call11.v1 maximumf,
    StableHlo.binary main_v292 main_arg23 main_v293 ((fun l r => Host.dotGeneral dot_S50000x200_S200x1_S50000x1_1_0_0_1_n_n none l r) : (⟨S50000x200, .f32⟩ : BufTy).Contents (Elt F) → (⟨S200x1, .f32⟩ : BufTy).Contents (Elt F) → (⟨S50000x1, .f32⟩ : BufTy).Contents (Elt F)),
    StableHlo.unary main_arg24 main_v294 (broadcastInDim S1x1 ![1] bcast_S1_S1x1_1 : (⟨S1, .f32⟩ : BufTy).Contents (Elt F) → (⟨S1x1, .f32⟩ : BufTy).Contents (Elt F)),
    StableHlo.unary main_v294 main_v295 (broadcastInDim S50000x1 ![0, 1] bcast_S1x1_S50000x1_0_1 : (⟨S1x1, .f32⟩ : BufTy).Contents (Elt F) → (⟨S50000x1, .f32⟩ : BufTy).Contents (Elt F)),
    StableHlo.binary main_v293 main_v295 main_v296 (addf : (⟨S50000x1, .f32⟩ : BufTy).Contents (Elt F) → (⟨S50000x1, .f32⟩ : BufTy).Contents (Elt F) → (⟨S50000x1, .f32⟩ : BufTy).Contents (Elt F)),
    StableHlo.nullary main_cst_33 (constant S_ .f32 0x00000000#32),
    StableHlo.unary main_cst_33 main_v297 (broadcastInDim S2048x1 ![] bcast_S_S2048x1 : (⟨S_, .f32⟩ : BufTy).Contents (Elt F) → (⟨S2048x1, .f32⟩ : BufTy).Contents (Elt F)),
    StableHlo.unary main_arg3 main_v298 (broadcastInDim S50000x1 ![0] bcast_S50000_S50000x1_0 : (⟨S50000, .i32⟩ : BufTy).Contents (Elt F) → (⟨S50000x1, .i32⟩ : BufTy).Contents (Elt F)),
    StableHlo.ternary main_v297 main_v298 main_v296 main_v299 ((fun x i u => Host.scatterAdd scatter_S2048x1_S50000x1_S50000x1_1_0_0_1 x i u) : (⟨S2048x1, .f32⟩ : BufTy).Contents (Elt F) → (⟨S50000x1, .i32⟩ : BufTy).Contents (Elt F) → (⟨S50000x1, .f32⟩ : BufTy).Contents (Elt F) → (⟨S2048x1, .f32⟩ : BufTy).Contents (Elt F)) ]

/-- Window 5 of the program is that straight line. -/
theorem part5_eq (c : Dev nD) : main_part5 (F := F) c = seq w5 := rfl

/-- Every operation of window 5 touches TensorCore references only. -/
theorem w5_sub : (w5 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., unary_bufs_sub .., ternary_bufs_sub ..⟩

/-- Every operation of window 5 determines all it writes. -/
theorem w5_fresh : (w5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- Every operation of window 5 writes one buffer, of index at least 25. -/
theorem w5_writes : (w5 : List (HloOp τ sig (Elt F))).Forall fun op => op.writes ⊆ (late.map (Proc.devRef (τ := τ) .tc)).toFinset :=
  ⟨late_sub (y := main_cst_32) (by decide), late_sub (y := main_v266) (by decide), late_sub (y := main_v267) (by decide),
    late_sub (y := main_v268) (by decide), late_sub (y := main_v269) (by decide), late_sub (y := main_v270) (by decide),
    late_sub (y := main_v271) (by decide), late_sub (y := main_v272) (by decide), late_sub (y := main_v273) (by decide),
    late_sub (y := main_v274) (by decide), late_sub (y := main_v275) (by decide), late_sub (y := main_v276) (by decide),
    late_sub (y := main_v277) (by decide), late_sub (y := main_v278) (by decide), late_sub (y := main_v279) (by decide),
    late_sub (y := main_v280) (by decide), late_sub (y := main_v281) (by decide), late_sub (y := main_call9_cst) (by decide),
    late_sub (y := main_call9_v0) (by decide), late_sub (y := main_v282) (by decide), late_sub (y := main_v283) (by decide),
    late_sub (y := main_v284) (by decide), late_sub (y := main_v285) (by decide), late_sub (y := main_v286) (by decide),
    late_sub (y := main_call10_cst) (by decide), late_sub (y := main_call10_v0) (by decide), late_sub (y := main_v287) (by decide),
    late_sub (y := main_v288) (by decide), late_sub (y := main_v289) (by decide), late_sub (y := main_v290) (by decide),
    late_sub (y := main_v291) (by decide), late_sub (y := main_call11_cst) (by decide), late_sub (y := main_call11_v0) (by decide),
    late_sub (y := main_v292) (by decide), late_sub (y := main_v293) (by decide), late_sub (y := main_v294) (by decide),
    late_sub (y := main_v295) (by decide), late_sub (y := main_v296) (by decide), late_sub (y := main_cst_33) (by decide),
    late_sub (y := main_v297) (by decide), late_sub (y := main_v298) (by decide), late_sub (y := main_v299) (by decide)⟩

/-! ## The whole program -/

/-- @main's operations in order, every call unfolded at its site: the six windows one after another. -/
abbrev ops : List (HloOp τ sig (Elt F)) := w0 ++ (w1 ++ (w2 ++ (w3 ++ (w4 ++ w5))))

/-- @main runs its windows in order, and a concatenation of lines runs them one after the other. -/
theorem main_eq (c : Dev nD) : main (F := F) c = seq ops := by
  rw [show (ops : List (HloOp τ sig (Elt F))) = w0 ++ (w1 ++ (w2 ++ (w3 ++ (w4 ++ w5)))) from rfl,
    seq_append, seq_append, seq_append, seq_append, seq_append,
    ← part0_eq c, ← part1_eq c, ← part2_eq c, ← part3_eq c, ← part4_eq c, ← part5_eq c]
  rfl

/-- No TensorCore buffer of this signature is scoped. -/
theorem scopedRefs_eq : (Finset.univ.filter fun b : Ref sig .tc => b.isScoped) = ∅ := by decide

/-- The signature has no semaphore. -/
theorem scopedSems_eq : (Finset.univ.filter fun sm : SemLoc sig => sm.isScoped .tc) = ∅ := by decide

theorem ops_sub : (ops : List (HloOp τ sig (Elt F))).Forall fun op => op.bufs ⊆ tcRefs τ sig :=
  forall_append w0_sub (forall_append w1_sub (forall_append w2_sub (forall_append w3_sub (forall_append w4_sub w5_sub))))

theorem ops_fresh : (ops : List (HloOp τ sig (Elt F))).Forall fun op => op.fresh = ∅ :=
  forall_append w0_fresh (forall_append w1_fresh (forall_append w2_fresh (forall_append w3_fresh (forall_append w4_fresh w5_fresh))))

theorem ops_writes : (ops : List (HloOp τ sig (Elt F))).Forall fun op => op.writes ⊆ (late.map (Proc.devRef (τ := τ) .tc)).toFinset :=
  forall_append w0_writes (forall_append w1_writes (forall_append w2_writes (forall_append w3_writes (forall_append w4_writes w5_writes))))

/-- An argument (index below 25) is written by no operation: after the line it holds its launch contents. -/
theorem arg_kept (m : (ℓ : Loc nD τ sig) → Buf (Elt F) ℓ) (c : Dev nD) {r : Ref sig .tc} (h : r.idx.val < 25) :
    after ops (launchContents m c) (Proc.devRef .tc r) = m ((c.tc : Thread nD τ).loc r) :=
  after_of_writes_sub ops _ ops_writes (not_mem_late h)

/-- On every device, for any float values, from any memory with zero counters: every weakly fair execution of
    @main terminates; the result buffer ends at the fold of the operations over the launch contents, and each
    of the 25 arguments ends as it started. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v299) = StableHlo.after ops (fun b => m (c, b)) (Proc.devRef .tc main_v299)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨h c main_v299,
      (h c main_arg0).trans (arg_kept m c (by decide)), (h c main_arg1).trans (arg_kept m c (by decide)),
      (h c main_arg2).trans (arg_kept m c (by decide)), (h c main_arg3).trans (arg_kept m c (by decide)),
      (h c main_arg4).trans (arg_kept m c (by decide)), (h c main_arg5).trans (arg_kept m c (by decide)),
      (h c main_arg6).trans (arg_kept m c (by decide)), (h c main_arg7).trans (arg_kept m c (by decide)),
      (h c main_arg8).trans (arg_kept m c (by decide)), (h c main_arg9).trans (arg_kept m c (by decide)),
      (h c main_arg10).trans (arg_kept m c (by decide)), (h c main_arg11).trans (arg_kept m c (by decide)),
      (h c main_arg12).trans (arg_kept m c (by decide)), (h c main_arg13).trans (arg_kept m c (by decide)),
      (h c main_arg14).trans (arg_kept m c (by decide)), (h c main_arg15).trans (arg_kept m c (by decide)),
      (h c main_arg16).trans (arg_kept m c (by decide)), (h c main_arg17).trans (arg_kept m c (by decide)),
      (h c main_arg18).trans (arg_kept m c (by decide)), (h c main_arg19).trans (arg_kept m c (by decide)),
      (h c main_arg20).trans (arg_kept m c (by decide)), (h c main_arg21).trans (arg_kept m c (by decide)),
      (h c main_arg22).trans (arg_kept m c (by decide)), (h c main_arg23).trans (arg_kept m c (by decide)),
      (h c main_arg24).trans (arg_kept m c (by decide))⟩)
    (run_seq scopedRefs_eq scopedSems_eq defs main (fun _ => ops) main_eq (fun _ => ops_sub) m ρ
      (fun _ => List.forall_iff_forall_mem.1 ops_fresh))

end Cert.ReferenceIdeal.HandRun

end
-- ==== Proof.RefStretch.lean ====
import proofs.«131956_j5523327942769_1_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Runs of consecutive buffers

Each value of the program has its own buffer, numbered in program order: operation `k` (from 0) writes the
reference of index `25 + k`. A stretch of consecutive operations therefore writes a run of consecutive indices, and
a reference whose index is outside the run keeps its contents across the stretch. -/

/-- The references whose index lies in `[lo, hi)`. -/
abbrev span (lo hi : Nat) : List (Ref sig .tc) :=
  (Finset.univ.filter fun r : Ref sig .tc => lo ≤ r.idx.val ∧ r.idx.val < hi).toList

/-- An operation that writes exactly the buffer `y`, of index in `[lo, hi)`, writes inside the run. -/
theorem span_sub {lo hi : Nat} {y : Ref sig .tc} (h : lo ≤ y.idx.val ∧ y.idx.val < hi) :
    ({Proc.devRef (τ := τ) .tc y} : Finset (DevRef τ sig)) ⊆ ((span lo hi).map (Proc.devRef (τ := τ) .tc)).toFinset :=
  Finset.singleton_subset_iff.2 (List.mem_toFinset.2 (List.mem_map_of_mem
    (Finset.mem_toList.2 (Finset.mem_filter.2 ⟨Finset.mem_univ _, h⟩))))

/-- A reference of index outside `[lo, hi)` is not in the run. -/
theorem not_mem_span {lo hi : Nat} {r : Ref sig .tc} (h : r.idx.val < lo ∨ hi ≤ r.idx.val) : r ∉ span lo hi := fun hm =>
  have hr := (Finset.mem_filter.1 (Finset.mem_toList.1 hm)).2
  h.elim (fun hlt => absurd hr.1 (Nat.not_le.2 hlt)) (fun hge => absurd hr.2 (Nat.not_lt.2 hge))

/-- A line all of whose writes fall in the run `[lo, hi)` leaves every reference outside the run as it was. -/
theorem keeps_of_span {lo hi : Nat} (l : List (HloOp τ sig (Elt F)))
    (hl : l.Forall fun op => op.writes ⊆ ((span lo hi).map (Proc.devRef (τ := τ) .tc)).toFinset)
    (V : Valuation τ sig (Elt F)) {r : Ref sig .tc} (h : r.idx.val < lo ∨ hi ≤ r.idx.val) :
    after l V (Proc.devRef .tc r) = V (Proc.devRef .tc r) :=
  after_of_writes_sub l V hl (not_mem_span h)

/-! ## The program cut at its natural boundaries

The same 360 operations, in the same order, as seventeen consecutive stretches. -/

/-- Operations 1 … 21 of 360 — the shift table, the two rows of the edge list (sources, sinks), the radial basis of the distances, and the embedding lookup giving the initial node features. -/
abbrev pre : List (HloOp τ sig (Elt F)) :=
  [ StableHlo.nullary main_cst (fun i => FloatOps.ofBits .f32 (lit0 (S23.rowMajor i))),
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_cst main_v4 (broadcastInDim S1x23 ![1] bcast_S23_S1x23_1 : (⟨S23, .f32⟩ : BufTy).Contents (Elt F) → (⟨S1x23, .f32⟩ : BufTy).Contents (Elt F)),
    StableHlo.unary main_arg2 main_v5 (broadcastInDim S800000x23 ![0, 1] bcast_S800000x1_S800000x23_0_1 : (⟨S800000x1, .f32⟩ : BufTy).Contents (Elt F) → (⟨S800000x23, .f32⟩ : BufTy).Contents (Elt F)),
    StableHlo.unary main_v4 main_v6 (broadcastInDim S800000x23 ![0, 1] bcast_S1x23_S800000x23_0_1 : (⟨S1x23, .f32⟩ : BufTy).Contents (Elt F) → (⟨S800000x23, .f32⟩ : BufTy).Contents (Elt F)),
    StableHlo.binary main_v5 main_v6 main_v7 (subf : (⟨S800000x23, .f32⟩ : BufTy).Contents (Elt F) → (⟨S800000x23, .f32⟩ : BufTy).Contents (Elt F) → (⟨S800000x23, .f32⟩ : BufTy).Contents (Elt F)),
    StableHlo.binary main_v7 main_v7 main_v8 (mulf : (⟨S800000x23, .f32⟩ : BufTy).Contents (Elt F) → (⟨S800000x23, .f32⟩ : BufTy).Contents (Elt F) → (⟨S800000x23, .f32⟩ : BufTy).Contents (Elt F)),
    StableHlo.unary main_v8 main_v9 (Host.negf : (⟨S800000x23, .f32⟩ : BufTy).Contents (Elt F) → (⟨S800000x23, .f32⟩ : BufTy).Contents (Elt F)),
    StableHlo.unary main_v9 main_v10 (Host.exp : (⟨S800000x23, .f32⟩ : BufTy).Contents (Elt F) → (⟨S800000x23, .f32⟩ : BufTy).Contents (Elt F)),
    StableHlo.nullary main_c (constantI S_ 32 0#32),
    StableHlo.unary main_c main_v11 (broadcastInDim S50000 ![] bcast_S_S50000 : (⟨S_, .i32⟩ : BufTy).Contents (Elt F) → (⟨S50000, .i32⟩ : BufTy).Contents (Elt F)),
    StableHlo.binary main_arg0 main_v11 main_v12 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 10#32),
    StableHlo.unary main_c_0 main_v13 (broadcastInDim S50000 ![] bcast_S_S50000 : (⟨S_, .i32⟩ : BufTy).Contents (Elt F) → (⟨S50000, .i32⟩ : BufTy).Contents (Elt F)),
    StableHlo.binary main_arg0 main_v13 main_v14 (addi : (⟨S50000, .i32⟩ : BufTy).Contents (Elt F) → (⟨S50000, .i32⟩ : BufTy).Contents (Elt F) → (⟨S50000, .i32⟩ : BufTy).Contents (Elt F)),
    StableHlo.ternary main_v12 main_v14 main_arg0 main_v15 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v15 main_v16 (broadcastInDim S50000x1 ![0] bcast_S50000_S50000x1_0 : (⟨S50000, .i32⟩ : BufTy).Contents (Elt F) → (⟨S50000x1, .i32⟩ : BufTy).Contents (Elt F)),
    StableHlo.binary main_arg4 main_v16 main_v17 ((fun x i => Host.gather gather_S10x64_S50000x1_S50000x64_1_0_n_n_0_1_164 x i) : (⟨S10x64, .f32⟩ : BufTy).Contents (Elt F) → (⟨S50000x1, .i32⟩ : BufTy).Contents (Elt F) → (⟨S50000x64, .f32⟩ : BufTy).Contents (Elt F)) ]

/-- `pre` writes the references of index 25 … 45 (`main_cst` … `main_v17`), one each. -/
theorem pre_writes : (pre : List (HloOp τ sig (Elt F))).Forall fun op =>
    op.writes ⊆ ((span 25 46).map (Proc.devRef (τ := τ) .tc)).toFinset :=
  ⟨span_sub (y := main_cst) (by decide), span_sub (y := main_v0) (by decide), span_sub (y := main_v1) (by decide),
    span_sub (y := main_v2) (by decide), span_sub (y := main_v3) (by decide), span_sub (y := main_v4) (by decide),
    span_sub (y := main_v5) (by decide), span_sub (y := main_v6) (by decide), span_sub (y := main_v7) (by decide),
    span_sub (y := main_v8) (by decide), span_sub (y := main_v9) (by decide), span_sub (y := main_v10) (by decide),
    span_sub (y := main_c) (by decide), span_sub (y := main_v11) (by decide), span_sub (y := main_v12) (by decide),
    span_sub (y := main_c_0) (by decide), span_sub (y := main_v13) (by decide), span_sub (y := main_v14) (by decide),
    span_sub (y := main_v15) (by decide), span_sub (y := main_v16) (by decide), span_sub (y := main_v17) (by decide)⟩

/-- Across `pre` a reference of index below 25 or at least 46 keeps its contents. -/
theorem pre_keeps (V : Valuation τ sig (Elt F)) {r : Ref sig .tc} (h : r.idx.val < 25 ∨ 46 ≤ r.idx.val) :
    after pre V (Proc.devRef .tc r) = V (Proc.devRef .tc r) :=
  keeps_of_span pre pre_writes V h

/-- Operations 22 … 35 of 360 — pass 0, the messages: the sinks' indices made non-negative, the gather of the node features at them, the concatenation with the radial basis, and the scatter-add over the sources giving the aggregated messages. -/
abbrev msg0 : List (HloOp τ sig (Elt F)) :=
  [ StableHlo.nullary main_c_1 (constantI S_ 32 0#32),
    StableHlo.unary main_c_1 main_v18 (broadcastInDim S800000 ![] bcast_S_S800000 : (⟨S_, .i32⟩ : BufTy).Contents (Elt F) → (⟨S800000, .i32⟩ : BufTy).Contents (Elt F)),
    StableHlo.binary main_v3 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v20 (broadcastInDim S800000 ![] bcast_S_S800000 : (⟨S_, .i32⟩ : BufTy).Contents (Elt F) → (⟨S800000, .i32⟩ : BufTy).Contents (Elt F)),
    StableHlo.binary main_v3 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v17 main_v23 main_v24 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v10 main_v24 main_v25 ((fun a b => concatenate S800000x87 1 [⟨S800000x23, a⟩, ⟨S800000x64, b⟩] concatenates_S800000x23_S800000x64_S800000x87_d1) : (⟨S800000x23, .f32⟩ : BufTy).Contents (Elt F) → (⟨S800000x64, .f32⟩ : BufTy).Contents (Elt F) → (⟨S800000x87, .f32⟩ : BufTy).Contents (Elt F)),
    StableHlo.nullary main_cst_3 (constant S_ .f32 0x00000000#32),
    StableHlo.unary main_cst_3 main_v26 (broadcastInDim S50000x87 ![] bcast_S_S50000x87 : (⟨S_, .f32⟩ : BufTy).Contents (Elt F) → (⟨S50000x87, .f32⟩ : BufTy).Contents (Elt F)),
    StableHlo.unary main_v1 main_v27 (broadcastInDim S800000x1 ![0] bcast_S800000_S800000x1_0 : (⟨S800000, .i32⟩ : BufTy).Contents (Elt F) → (⟨S800000x1, .i32⟩ : BufTy).Contents (Elt F)),
    StableHlo.ternary main_v26 main_v27 main_v25 main_v28 ((fun x i u => Host.scatterAdd scatter_S50000x87_S800000x1_S800000x87_1_0_0_1 x i u) : (⟨S50000x87, .f32⟩ : BufTy).Contents (Elt F) → (⟨S800000x1, .i32⟩ : BufTy).Contents (Elt F) → (⟨S800000x87, .f32⟩ : BufTy).Contents (Elt F) → (⟨S50000x87, .f32⟩ : BufTy).Contents (Elt F)) ]

/-- `msg0` writes the references of index 46 … 59 (`main_c_1` … `main_v28`), one each. -/
theorem msg0_writes : (msg0 : List (HloOp τ sig (Elt F))).Forall fun op =>
    op.writes ⊆ ((span 46 60).map (Proc.devRef (τ := τ) .tc)).toFinset :=
  ⟨span_sub (y := main_c_1) (by decide), span_sub (y := main_v18) (by decide), span_sub (y := main_v19) (by decide),
    span_sub (y := main_c_2) (by decide), span_sub (y := main_v20) (by decide), span_sub (y := main_v21) (by decide),
    span_sub (y := main_v22) (by decide), span_sub (y := main_v23) (by decide), span_sub (y := main_v24) (by decide),
    span_sub (y := main_v25) (by decide), span_sub (y := main_cst_3) (by decide), span_sub (y := main_v26) (by decide),
    span_sub (y := main_v27) (by decide), span_sub (y := main_v28) (by decide)⟩

/-- Across `msg0` a reference of index below 46 or at least 60 keeps its contents. -/
theorem msg0_keeps (V : Valuation τ sig (Elt F)) {r : Ref sig .tc} (h : r.idx.val < 46 ∨ 60 ≤ r.idx.val) :
    after msg0 V (Proc.devRef .tc r) = V (Proc.devRef .tc r) :=
  keeps_of_span msg0 msg0_writes V h

/-- Operations 36 … 55 of 360 — pass 0, the parameters: row 0 of each of the ten stacked parameter arrays, sliced and reshaped. -/
abbrev par0 : List (HloOp τ sig (Elt F)) :=
  [ StableHlo.unary main_arg5 main_v29 ((extractStridedSlice S1x87 ![0, 0] · slices_S3x87_S1x87_0_0) : (⟨S3x87, .f32⟩ : BufTy).Contents (Elt F) → (⟨S1x87, .f32⟩ : BufTy).Contents (Elt F)),
    StableHlo.reshape main_v29 main_v30 rfl shapeCasts_S1x87_S87,
    StableHlo.unary main_arg6 main_v31 ((extractStridedSlice S1x87 ![0, 0] · slices_S3x87_S1x87_0_0) : (⟨S3x87, .f32⟩ : BufTy).Contents (Elt F) → (⟨S1x87, .f32⟩ : BufTy).Contents (Elt F)),
    StableHlo.reshape main_v31 main_v32 rfl shapeCasts_S1x87_S87,
    StableHlo.unary main_arg7 main_v33 ((extractStridedSlice S1x87x200 ![0, 0, 0] · slices_S3x87x200_S1x87x200_0_0_0) : (⟨S3x87x200, .f32⟩ : BufTy).Contents (Elt F) → (⟨S1x87x200, .f32⟩ : BufTy).Contents (Elt F)),
    StableHlo.reshape main_v33 main_v34 rfl shapeCasts_S1x87x200_S87x200,
    StableHlo.unary main_arg8 main_v35 ((extractStridedSlice S1x200 ![0, 0] · slices_S3x200_S1x200_0_0) : (⟨S3x200, .f32⟩ : BufTy).Contents (Elt F) → (⟨S1x200, .f32⟩ : BufTy).Contents (Elt F)),
    StableHlo.reshape main_v35 main_v36 rfl shapeCasts_S1x200_S200,
    StableHlo.unary main_arg9 main_v37 ((extractStridedSlice S1x200x200 ![0, 0, 0] · slices_S3x200x200_S1x200x200_0_0_0) : (⟨S3x200x200, .f32⟩ : BufTy).Contents (Elt F) → (⟨S1x200x200, .f32⟩ : BufTy).Contents (Elt F)),
    StableHlo.reshape main_v37 main_v38 rfl shapeCasts_S1x200x200_S200x200,
    StableHlo.unary main_arg10 main_v39 ((extractStridedSlice S1x200 ![0, 0] · slices_S3x200_S1x200_0_0) : (⟨S3x200, .f32⟩ : BufTy).Contents (Elt F) → (⟨S1x200, .f32⟩ : BufTy).Contents (Elt F)),
    StableHlo.reshape main_v39 main_v40 rfl shapeCasts_S1x200_S200,
    StableHlo.unary main_arg11 main_v41 ((extractStridedSlice S1x200x200 ![0, 0, 0] · slices_S3x200x200_S1x200x200_0_0_0) : (⟨S3x200x200, .f32⟩ : BufTy).Contents (Elt F) → (⟨S1x200x200, .f32⟩ : BufTy).Contents (Elt F)),
    StableHlo.reshape main_v41 main_v42 rfl shapeCasts_S1x200x200_S200x200,
    StableHlo.unary main_arg12 main_v43 ((extractStridedSlice S1x200 ![0, 0] · slices_S3x200_S1x200_0_0) : (⟨S3x200, .f32⟩ : BufTy).Contents (Elt F) → (⟨S1x200, .f32⟩ : BufTy).Contents (Elt F)),
    StableHlo.reshape main_v43 main_v44 rfl shapeCasts_S1x200_S200,
    StableHlo.unary main_arg13 main_v45 ((extractStridedSlice S1x200x64 ![0, 0, 0] · slices_S3x200x64_S1x200x64_0_0_0) : (⟨S3x200x64, .f32⟩ : BufTy).Contents (Elt F) → (⟨S1x200x64, .f32⟩ : BufTy).Contents (Elt F)),
    StableHlo.reshape main_v45 main_v46 rfl shapeCasts_S1x200x64_S200x64,
    StableHlo.unary main_arg14 main_v47 ((extractStridedSlice S1x64 ![0, 0] · slices_S3x64_S1x64_0_0) : (⟨S3x64, .f32⟩ : BufTy).Contents (Elt F) → (⟨S1x64, .f32⟩ : BufTy).Contents (Elt F)),
    StableHlo.reshape main_v47 main_v48 rfl shapeCasts_S1x64_S64 ]

/-- `par0` writes the references of index 60 … 79 (`main_v29` … `main_v48`), one each. -/
theorem par0_writes : (par0 : List (HloOp τ sig (Elt F))).Forall fun op =>
    op.writes ⊆ ((span 60 80).map (Proc.devRef (τ := τ) .tc)).toFinset :=
  ⟨span_sub (y := main_v29) (by decide), span_sub (y := main_v30) (by decide), span_sub (y := main_v31) (by decide),
    span_sub (y := main_v32) (by decide), span_sub (y := main_v33) (by decide), span_sub (y := main_v34) (by decide),
    span_sub (y := main_v35) (by decide), span_sub (y := main_v36) (by decide), span_sub (y := main_v37) (by decide),
    span_sub (y := main_v38) (by decide), span_sub (y := main_v39) (by decide), span_sub (y := main_v40) (by decide),
    span_sub (y := main_v41) (by decide), span_sub (y := main_v42) (by decide), span_sub (y := main_v43) (by decide),
    span_sub (y := main_v44) (by decide), span_sub (y := main_v45) (by decide), span_sub (y := main_v46) (by decide),
    span_sub (y := main_v47) (by decide), span_sub (y := main_v48) (by decide)⟩

/-- Across `par0` a reference of index below 60 or at least 80 keeps its contents. -/
theorem par0_keeps (V : Valuation τ sig (Elt F)) {r : Ref sig .tc} (h : r.idx.val < 60 ∨ 80 ≤ r.idx.val) :
    after par0 V (Proc.devRef .tc r) = V (Proc.devRef .tc r) :=
  keeps_of_span par0 par0_writes V h

/-- Operations 56 … 69 of 360 — pass 0, the batch statistics of the aggregated messages: the mean over the nodes, then the mean of the squared deviations. -/
abbrev stat0 : List (HloOp τ sig (Elt F)) :=
  [ StableHlo.nullary main_cst_4 (constant S_ .f32 0x00000000#32),
    StableHlo.binary main_v28 main_cst_4 main_v49 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_5 (constant S_ .f32 0x47435000#32),
    StableHlo.unary main_cst_5 main_v50 (broadcastInDim S87 ![] bcast_S_S87 : (⟨S_, .f32⟩ : BufTy).Contents (Elt F) → (⟨S87, .f32⟩ : BufTy).Contents (Elt F)),
    StableHlo.binary main_v49 main_v50 main_v51 (Host.divf : (⟨S87, .f32⟩ : BufTy).Contents (Elt F) → (⟨S87, .f32⟩ : BufTy).Contents (Elt F) → (⟨S87, .f32⟩ : BufTy).Contents (Elt F)),
    StableHlo.unary main_v51 main_v52 (broadcastInDim S1x87 ![1] bcast_S87_S1x87_1 : (⟨S87, .f32⟩ : BufTy).Contents (Elt F) → (⟨S1x87, .f32⟩ : BufTy).Contents (Elt F)),
    StableHlo.unary main_v52 main_v53 (broadcastInDim S50000x87 ![0, 1] bcast_S1x87_S50000x87_0_1 : (⟨S1x87, .f32⟩ : BufTy).Contents (Elt F) → (⟨S50000x87, .f32⟩ : BufTy).Contents (Elt F)),
    StableHlo.binary main_v28 main_v53 main_v54 (subf : (⟨S50000x87, .f32⟩ : BufTy).Contents (Elt F) → (⟨S50000x87, .f32⟩ : BufTy).Contents (Elt F) → (⟨S50000x87, .f32⟩ : BufTy).Contents (Elt F)),
    StableHlo.binary main_v54 main_v54 main_v55 (mulf : (⟨S50000x87, .f32⟩ : BufTy).Contents (Elt F) → (⟨S50000x87, .f32⟩ : BufTy).Contents (Elt F) → (⟨S50000x87, .f32⟩ : BufTy).Contents (Elt F)),
    StableHlo.nullary main_cst_6 (constant S_ .f32 0x00000000#32),
    StableHlo.binary main_v55 main_cst_6 main_v56 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_7 (constant S_ .f32 0x47435000#32),
    StableHlo.unary main_cst_7 main_v57 (broadcastInDim S87 ![] bcast_S_S87 : (⟨S_, .f32⟩ : BufTy).Contents (Elt F) → (⟨S87, .f32⟩ : BufTy).Contents (Elt F)),
    StableHlo.binary main_v56 main_v57 main_v58 (Host.divf : (⟨S87, .f32⟩ : BufTy).Contents (Elt F) → (⟨S87, .f32⟩ : BufTy).Contents (Elt F) → (⟨S87, .f32⟩ : BufTy).Contents (Elt F)) ]

/-- `stat0` writes the references of index 80 … 93 (`main_cst_4` … `main_v58`), one each. -/
theorem stat0_writes : (stat0 : List (HloOp τ sig (Elt F))).Forall fun op =>
    op.writes ⊆ ((span 80 94).map (Proc.devRef (τ := τ) .tc)).toFinset :=
  ⟨span_sub (y := main_cst_4) (by decide), span_sub (y := main_v49) (by decide), span_sub (y := main_cst_5) (by decide),
    span_sub (y := main_v50) (by decide), span_sub (y := main_v51) (by decide), span_sub (y := main_v52) (by decide),
    span_sub (y := main_v53) (by decide), span_sub (y := main_v54) (by decide), span_sub (y := main_v55) (by decide),
    span_sub (y := main_cst_6) (by decide), span_sub (y := main_v56) (by decide), span_sub (y := main_cst_7) (by decide),
    span_sub (y := main_v57) (by decide), span_sub (y := main_v58) (by decide)⟩

/-- Across `stat0` a reference of index below 80 or at least 94 keeps its contents. -/
theorem stat0_keeps (V : Valuation τ sig (Elt F)) {r : Ref sig .tc} (h : r.idx.val < 80 ∨ 94 ≤ r.idx.val) :
    after stat0 V (Proc.devRef .tc r) = V (Proc.devRef .tc r) :=
  keeps_of_span stat0 stat0_writes V h

/-- Operations 70 … 114 of 360 — pass 0, the update: normalisation by the statistics, scale and shift, the four affine layers with three rectifications between them, and a tenth of the outcome added to the node features. -/
abbrev upd0 : List (HloOp τ sig (Elt F)) :=
  [ StableHlo.unary main_v51 main_v59 (broadcastInDim S1x87 ![1] bcast_S87_S1x87_1 : (⟨S87, .f32⟩ : BufTy).Contents (Elt F) → (⟨S1x87, .f32⟩ : BufTy).Contents (Elt F)),
    StableHlo.unary main_v59 main_v60 (broadcastInDim S50000x87 ![0, 1] bcast_S1x87_S50000x87_0_1 : (⟨S1x87, .f32⟩ : BufTy).Contents (Elt F) → (⟨S50000x87, .f32⟩ : BufTy).Contents (Elt F)),
    StableHlo.binary main_v28 main_v60 main_v61 (subf : (⟨S50000x87, .f32⟩ : BufTy).Contents (Elt F) → (⟨S50000x87, .f32⟩ : BufTy).Contents (Elt F) → (⟨S50000x87, .f32⟩ : BufTy).Contents (Elt F)),
    StableHlo.nullary main_cst_8 (constant S_ .f32 0x3727C5AC#32),
    StableHlo.unary main_cst_8 main_v62 (broadcastInDim S87 ![] bcast_S_S87 : (⟨S_, .f32⟩ : BufTy).Contents (Elt F) → (⟨S87, .f32⟩ : BufTy).Contents (Elt F)),
    StableHlo.binary main_v58 main_v62 main_v63 (addf : (⟨S87, .f32⟩ : BufTy).Contents (Elt F) → (⟨S87, .f32⟩ : BufTy).Contents (Elt F) → (⟨S87, .f32⟩ : BufTy).Contents (Elt F)),
    StableHlo.unary main_v63 main_v64 (Host.rsqrt : (⟨S87, .f32⟩ : BufTy).Contents (Elt F) → (⟨S87, .f32⟩ : BufTy).Contents (Elt F)),
    StableHlo.unary main_v64 main_v65 (broadcastInDim S1x87 ![1] bcast_S87_S1x87_1 : (⟨S87, .f32⟩ : BufTy).Contents (Elt F) → (⟨S1x87, .f32⟩ : BufTy).Contents (Elt F)),
    StableHlo.unary main_v65 main_v66 (broadcastInDim S50000x87 ![0, 1] bcast_S1x87_S50000x87_0_1 : (⟨S1x87, .f32⟩ : BufTy).Contents (Elt F) → (⟨S50000x87, .f32⟩ : BufTy).Contents (Elt F)),
    StableHlo.binary main_v61 main_v66 main_v67 (mulf : (⟨S50000x87, .f32⟩ : BufTy).Contents (Elt F) → (⟨S50000x87, .f32⟩ : BufTy).Contents (Elt F) → (⟨S50000x87, .f32⟩ : BufTy).Contents (Elt F)),
    StableHlo.unary main_v30 main_v68 (broadcastInDim S1x87 ![1] bcast_S87_S1x87_1 : (⟨S87, .f32⟩ : BufTy).Contents (Elt F) → (⟨S1x87, .f32⟩ : BufTy).Contents (Elt F)),
    StableHlo.unary main_v68 main_v69 (broadcastInDim S50000x87 ![0, 1] bcast_S1x87_S50000x87_0_1 : (⟨S1x87, .f32⟩ : BufTy).Contents (Elt F) → (⟨S50000x87, .f32⟩ : BufTy).Contents (Elt F)),
    StableHlo.binary main_v67 main_v69 main_v70 (mulf : (⟨S50000x87, .f32⟩ : BufTy).Contents (Elt F) → (⟨S50000x87, .f32⟩ : BufTy).Contents (Elt F) → (⟨S50000x87, .f32⟩ : BufTy).Contents (Elt F)),
    StableHlo.unary main_v32 main_v71 (broadcastInDim S1x87 ![1] bcast_S87_S1x87_1 : (⟨S87, .f32⟩ : BufTy).Contents (Elt F) → (⟨S1x87, .f32⟩ : BufTy).Contents (Elt F)),
    StableHlo.unary main_v71 main_v72 (broadcastInDim S50000x87 ![0, 1] bcast_S1x87_S50000x87_0_1 : (⟨S1x87, .f32⟩ : BufTy).Contents (Elt F) → (⟨S50000x87, .f32⟩ : BufTy).Contents (Elt F)),
    StableHlo.binary main_v70 main_v72 main_v73 (addf : (⟨S50000x87, .f32⟩ : BufTy).Contents (Elt F) → (⟨S50000x87, .f32⟩ : BufTy).Contents (Elt F) → (⟨S50000x87, .f32⟩ : BufTy).Contents (Elt F)),
    StableHlo.binary main_v73 main_v34 main_v74 ((fun l r => Host.dotGeneral dot_S50000x87_S87x200_S50000x200_1_0_0_1_n_n none l r) : (⟨S50000x87, .f32⟩ : BufTy).Contents (Elt F) → (⟨S87x200, .f32⟩ : BufTy).Contents (Elt F) → (⟨S50000x200, .f32⟩ : BufTy).Contents (Elt F)),
    StableHlo.unary main_v36 main_v75 (broadcastInDim S1x200 ![1] bcast_S200_S1x200_1 : (⟨S200, .f32⟩ : BufTy).Contents (Elt F) → (⟨S1x200, .f32⟩ : BufTy).Contents (Elt F)),
    StableHlo.unary main_v75 main_v76 (broadcastInDim S50000x200 ![0, 1] bcast_S1x200_S50000x200_0_1 : (⟨S1x200, .f32⟩ : BufTy).Contents (Elt F) → (⟨S50000x200, .f32⟩ : BufTy).Contents (Elt F)),
    StableHlo.binary main_v74 main_v76 main_v77 (addf : (⟨S50000x200, .f32⟩ : BufTy).Contents (Elt F) → (⟨S50000x200, .f32⟩ : BufTy).Contents (Elt F) → (⟨S50000x200, .f32⟩ : BufTy).Contents (Elt F)),
    StableHlo.TRef.nullary main_call0.cst (constant S_ .f32 0x00000000#32),
    StableHlo.TRef.unary main_call0.cst main_call0.v0 (broadcastInDim S50000x200 ![] bcast_S_S50000x200),
    StableHlo.TRef.binary (.of main_v77 : StableHlo.TRef sig ⟨S50000x200, .f32⟩) main_call0.v0 main_call0.v1 maximumf,
    StableHlo.binary main_v78 main_v38 main_v79 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v40 main_v80 (broadcastInDim S1x200 ![1] bcast_S200_S1x200_1 : (⟨S200, .f32⟩ : BufTy).Contents (Elt F) → (⟨S1x200, .f32⟩ : BufTy).Contents (Elt F)),
    StableHlo.unary main_v80 main_v81 (broadcastInDim S50000x200 ![0, 1] bcast_S1x200_S50000x200_0_1 : (⟨S1x200, .f32⟩ : BufTy).Contents (Elt F) → (⟨S50000x200, .f32⟩ : BufTy).Contents (Elt F)),
    StableHlo.binary main_v79 main_v81 main_v82 (addf : (⟨S50000x200, .f32⟩ : BufTy).Contents (Elt F) → (⟨S50000x200, .f32⟩ : BufTy).Contents (Elt F) → (⟨S50000x200, .f32⟩ : BufTy).Contents (Elt F)),
    StableHlo.TRef.nullary main_call1.cst (constant S_ .f32 0x00000000#32),
    StableHlo.TRef.unary main_call1.cst main_call1.v0 (broadcastInDim S50000x200 ![] bcast_S_S50000x200),
    StableHlo.TRef.binary (.of main_v82 : StableHlo.TRef sig ⟨S50000x200, .f32⟩) main_call1.v0 main_call1.v1 maximumf,
    StableHlo.binary main_v83 main_v42 main_v84 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v44 main_v85 (broadcastInDim S1x200 ![1] bcast_S200_S1x200_1 : (⟨S200, .f32⟩ : BufTy).Contents (Elt F) → (⟨S1x200, .f32⟩ : BufTy).Contents (Elt F)),
    StableHlo.unary main_v85 main_v86 (broadcastInDim S50000x200 ![0, 1] bcast_S1x200_S50000x200_0_1 : (⟨S1x200, .f32⟩ : BufTy).Contents (Elt F) → (⟨S50000x200, .f32⟩ : BufTy).Contents (Elt F)),
    StableHlo.binary main_v84 main_v86 main_v87 (addf : (⟨S50000x200, .f32⟩ : BufTy).Contents (Elt F) → (⟨S50000x200, .f32⟩ : BufTy).Contents (Elt F) → (⟨S50000x200, .f32⟩ : BufTy).Contents (Elt F)),
    StableHlo.TRef.nullary main_call2.cst (constant S_ .f32 0x00000000#32),
    StableHlo.TRef.unary main_call2.cst main_call2.v0 (broadcastInDim S50000x200 ![] bcast_S_S50000x200),
    StableHlo.TRef.binary (.of main_v87 : StableHlo.TRef sig ⟨S50000x200, .f32⟩) main_call2.v0 main_call2.v1 maximumf,
    StableHlo.binary main_v88 main_v46 main_v89 ((fun l r => Host.dotGeneral dot_S50000x200_S200x64_S50000x64_1_0_0_1_n_n none l r) : (⟨S50000x200, .f32⟩ : BufTy).Contents (Elt F) → (⟨S200x64, .f32⟩ : BufTy).Contents (Elt F) → (⟨S50000x64, .f32⟩ : BufTy).Contents (Elt F)),
    StableHlo.unary main_v48 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S50000x64 ![0, 1] bcast_S1x64_S50000x64_0_1 : (⟨S1x64, .f32⟩ : BufTy).Contents (Elt F) → (⟨S50000x64, .f32⟩ : BufTy).Contents (Elt F)),
    StableHlo.binary main_v89 main_v91 main_v92 (addf : (⟨S50000x64, .f32⟩ : BufTy).Contents (Elt F) → (⟨S50000x64, .f32⟩ : BufTy).Contents (Elt F) → (⟨S50000x64, .f32⟩ : BufTy).Contents (Elt F)),
    StableHlo.nullary main_cst_9 (constant S_ .f32 0x3DCCCCCD#32),
    StableHlo.unary main_cst_9 main_v93 (broadcastInDim S50000x64 ![] bcast_S_S50000x64 : (⟨S_, .f32⟩ : BufTy).Contents (Elt F) → (⟨S50000x64, .f32⟩ : BufTy).Contents (Elt F)),
    StableHlo.binary main_v93 main_v92 main_v94 (mulf : (⟨S50000x64, .f32⟩ : BufTy).Contents (Elt F) → (⟨S50000x64, .f32⟩ : BufTy).Contents (Elt F) → (⟨S50000x64, .f32⟩ : BufTy).Contents (Elt F)),
    StableHlo.binary main_v17 main_v94 main_v95 (addf : (⟨S50000x64, .f32⟩ : BufTy).Contents (Elt F) → (⟨S50000x64, .f32⟩ : BufTy).Contents (Elt F) → (⟨S50000x64, .f32⟩ : BufTy).Contents (Elt F)) ]

/-- `upd0` writes the references of index 94 … 138 (`main_v59` … `main_v95`), one each. -/
theorem upd0_writes : (upd0 : List (HloOp τ sig (Elt F))).Forall fun op =>
    op.writes ⊆ ((span 94 139).map (Proc.devRef (τ := τ) .tc)).toFinset :=
  ⟨span_sub (y := main_v59) (by decide), span_sub (y := main_v60) (by decide), span_sub (y := main_v61) (by decide),
    span_sub (y := main_cst_8) (by decide), span_sub (y := main_v62) (by decide), span_sub (y := main_v63) (by decide),
    span_sub (y := main_v64) (by decide), span_sub (y := main_v65) (by decide), span_sub (y := main_v66) (by decide),
    span_sub (y := main_v67) (by decide), span_sub (y := main_v68) (by decide), span_sub (y := main_v69) (by decide),
    span_sub (y := main_v70) (by decide), span_sub (y := main_v71) (by decide), span_sub (y := main_v72) (by decide),
    span_sub (y := main_v73) (by decide), span_sub (y := main_v74) (by decide), span_sub (y := main_v75) (by decide),
    span_sub (y := main_v76) (by decide), span_sub (y := main_v77) (by decide), span_sub (y := main_call0_cst) (by decide),
    span_sub (y := main_call0_v0) (by decide), span_sub (y := main_v78) (by decide), span_sub (y := main_v79) (by decide),
    span_sub (y := main_v80) (by decide), span_sub (y := main_v81) (by decide), span_sub (y := main_v82) (by decide),
    span_sub (y := main_call1_cst) (by decide), span_sub (y := main_call1_v0) (by decide), span_sub (y := main_v83) (by decide),
    span_sub (y := main_v84) (by decide), span_sub (y := main_v85) (by decide), span_sub (y := main_v86) (by decide),
    span_sub (y := main_v87) (by decide), span_sub (y := main_call2_cst) (by decide), span_sub (y := main_call2_v0) (by decide),
    span_sub (y := main_v88) (by decide), span_sub (y := main_v89) (by decide), span_sub (y := main_v90) (by decide),
    span_sub (y := main_v91) (by decide), span_sub (y := main_v92) (by decide), span_sub (y := main_cst_9) (by decide),
    span_sub (y := main_v93) (by decide), span_sub (y := main_v94) (by decide), span_sub (y := main_v95) (by decide)⟩

/-- Across `upd0` a reference of index below 94 or at least 139 keeps its contents. -/
theorem upd0_keeps (V : Valuation τ sig (Elt F)) {r : Ref sig .tc} (h : r.idx.val < 94 ∨ 139 ≤ r.idx.val) :
    after upd0 V (Proc.devRef .tc r) = V (Proc.devRef .tc r) :=
  keeps_of_span upd0 upd0_writes V h

/-- Operations 115 … 128 of 360 — pass 1, the messages: the sinks' indices made non-negative, the gather of the node features at them, the concatenation with the radial basis, and the scatter-add over the sources giving the aggregated messages. -/
abbrev msg1 : List (HloOp τ sig (Elt F)) :=
  [ StableHlo.nullary main_c_10 (constantI S_ 32 0#32),
    StableHlo.unary main_c_10 main_v96 (broadcastInDim S800000 ![] bcast_S_S800000 : (⟨S_, .i32⟩ : BufTy).Contents (Elt F) → (⟨S800000, .i32⟩ : BufTy).Contents (Elt F)),
    StableHlo.binary main_v3 main_v96 main_v97 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v98 (broadcastInDim S800000 ![] bcast_S_S800000 : (⟨S_, .i32⟩ : BufTy).Contents (Elt F) → (⟨S800000, .i32⟩ : BufTy).Contents (Elt F)),
    StableHlo.binary main_v3 main_v98 main_v99 (addi : (⟨S800000, .i32⟩ : BufTy).Contents (Elt F) → (⟨S800000, .i32⟩ : BufTy).Contents (Elt F) → (⟨S800000, .i32⟩ : BufTy).Contents (Elt F)),
    StableHlo.ternary main_v97 main_v99 main_v3 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v100 main_v101 (broadcastInDim S800000x1 ![0] bcast_S800000_S800000x1_0 : (⟨S800000, .i32⟩ : BufTy).Contents (Elt F) → (⟨S800000x1, .i32⟩ : BufTy).Contents (Elt F)),
    StableHlo.binary main_v95 main_v101 main_v102 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v10 main_v102 main_v103 ((fun a b => concatenate S800000x87 1 [⟨S800000x23, a⟩, ⟨S800000x64, b⟩] concatenates_S800000x23_S800000x64_S800000x87_d1) : (⟨S800000x23, .f32⟩ : BufTy).Contents (Elt F) → (⟨S800000x64, .f32⟩ : BufTy).Contents (Elt F) → (⟨S800000x87, .f32⟩ : BufTy).Contents (Elt F)),
    StableHlo.nullary main_cst_12 (constant S_ .f32 0x00000000#32),
    StableHlo.unary main_cst_12 main_v104 (broadcastInDim S50000x87 ![] bcast_S_S50000x87 : (⟨S_, .f32⟩ : BufTy).Contents (Elt F) → (⟨S50000x87, .f32⟩ : BufTy).Contents (Elt F)),
    StableHlo.unary main_v1 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x87_S800000x1_S800000x87_1_0_0_1 x i u) : (⟨S50000x87, .f32⟩ : BufTy).Contents (Elt F) → (⟨S800000x1, .i32⟩ : BufTy).Contents (Elt F) → (⟨S800000x87, .f32⟩ : BufTy).Contents (Elt F) → (⟨S50000x87, .f32⟩ : BufTy).Contents (Elt F)) ]

/-- `msg1` writes the references of index 139 … 152 (`main_c_10` … `main_v106`), one each. -/
theorem msg1_writes : (msg1 : List (HloOp τ sig (Elt F))).Forall fun op =>
    op.writes ⊆ ((span 139 153).map (Proc.devRef (τ := τ) .tc)).toFinset :=
  ⟨span_sub (y := main_c_10) (by decide), span_sub (y := main_v96) (by decide), span_sub (y := main_v97) (by decide),
    span_sub (y := main_c_11) (by decide), span_sub (y := main_v98) (by decide), span_sub (y := main_v99) (by decide),
    span_sub (y := main_v100) (by decide), span_sub (y := main_v101) (by decide), span_sub (y := main_v102) (by decide),
    span_sub (y := main_v103) (by decide), span_sub (y := main_cst_12) (by decide), span_sub (y := main_v104) (by decide),
    span_sub (y := main_v105) (by decide), span_sub (y := main_v106) (by decide)⟩

/-- Across `msg1` a reference of index below 139 or at least 153 keeps its contents. -/
theorem msg1_keeps (V : Valuation τ sig (Elt F)) {r : Ref sig .tc} (h : r.idx.val < 139 ∨ 153 ≤ r.idx.val) :
    after msg1 V (Proc.devRef .tc r) = V (Proc.devRef .tc r) :=
  keeps_of_span msg1 msg1_writes V h

/-- Operations 129 … 148 of 360 — pass 1, the parameters: row 1 of each of the ten stacked parameter arrays, sliced and reshaped. -/
abbrev par1 : List (HloOp τ sig (Elt F)) :=
  [ StableHlo.unary main_arg5 main_v107 ((extractStridedSlice S1x87 ![1, 0] · slices_S3x87_S1x87_1_0) : (⟨S3x87, .f32⟩ : BufTy).Contents (Elt F) → (⟨S1x87, .f32⟩ : BufTy).Contents (Elt F)),
    StableHlo.reshape main_v107 main_v108 rfl shapeCasts_S1x87_S87,
    StableHlo.unary main_arg6 main_v109 ((extractStridedSlice S1x87 ![1, 0] · slices_S3x87_S1x87_1_0) : (⟨S3x87, .f32⟩ : BufTy).Contents (Elt F) → (⟨S1x87, .f32⟩ : BufTy).Contents (Elt F)),
    StableHlo.reshape main_v109 main_v110 rfl shapeCasts_S1x87_S87,
    StableHlo.unary main_arg7 main_v111 ((extractStridedSlice S1x87x200 ![1, 0, 0] · slices_S3x87x200_S1x87x200_1_0_0) : (⟨S3x87x200, .f32⟩ : BufTy).Contents (Elt F) → (⟨S1x87x200, .f32⟩ : BufTy).Contents (Elt F)),
    StableHlo.reshape main_v111 main_v112 rfl shapeCasts_S1x87x200_S87x200,
    StableHlo.unary main_arg8 main_v113 ((extractStridedSlice S1x200 ![1, 0] · slices_S3x200_S1x200_1_0) : (⟨S3x200, .f32⟩ : BufTy).Contents (Elt F) → (⟨S1x200, .f32⟩ : BufTy).Contents (Elt F)),
    StableHlo.reshape main_v113 main_v114 rfl shapeCasts_S1x200_S200,
    StableHlo.unary main_arg9 main_v115 ((extractStridedSlice S1x200x200 ![1, 0, 0] · slices_S3x200x200_S1x200x200_1_0_0) : (⟨S3x200x200, .f32⟩ : BufTy).Contents (Elt F) → (⟨S1x200x200, .f32⟩ : BufTy).Contents (Elt F)),
    StableHlo.reshape main_v115 main_v116 rfl shapeCasts_S1x200x200_S200x200,
    StableHlo.unary main_arg10 main_v117 ((extractStridedSlice S1x200 ![1, 0] · slices_S3x200_S1x200_1_0) : (⟨S3x200, .f32⟩ : BufTy).Contents (Elt F) → (⟨S1x200, .f32⟩ : BufTy).Contents (Elt F)),
    StableHlo.reshape main_v117 main_v118 rfl shapeCasts_S1x200_S200,
    StableHlo.unary main_arg11 main_v119 ((extractStridedSlice S1x200x200 ![1, 0, 0] · slices_S3x200x200_S1x200x200_1_0_0) : (⟨S3x200x200, .f32⟩ : BufTy).Contents (Elt F) → (⟨S1x200x200, .f32⟩ : BufTy).Contents (Elt F)),
    StableHlo.reshape main_v119 main_v120 rfl shapeCasts_S1x200x200_S200x200,
    StableHlo.unary main_arg12 main_v121 ((extractStridedSlice S1x200 ![1, 0] · slices_S3x200_S1x200_1_0) : (⟨S3x200, .f32⟩ : BufTy).Contents (Elt F) → (⟨S1x200, .f32⟩ : BufTy).Contents (Elt F)),
    StableHlo.reshape main_v121 main_v122 rfl shapeCasts_S1x200_S200,
    StableHlo.unary main_arg13 main_v123 ((extractStridedSlice S1x200x64 ![1, 0, 0] · slices_S3x200x64_S1x200x64_1_0_0) : (⟨S3x200x64, .f32⟩ : BufTy).Contents (Elt F) → (⟨S1x200x64, .f32⟩ : BufTy).Contents (Elt F)),
    StableHlo.reshape main_v123 main_v124 rfl shapeCasts_S1x200x64_S200x64,
    StableHlo.unary main_arg14 main_v125 ((extractStridedSlice S1x64 ![1, 0] · slices_S3x64_S1x64_1_0) : (⟨S3x64, .f32⟩ : BufTy).Contents (Elt F) → (⟨S1x64, .f32⟩ : BufTy).Contents (Elt F)),
    StableHlo.reshape main_v125 main_v126 rfl shapeCasts_S1x64_S64 ]

/-- `par1` writes the references of index 153 … 172 (`main_v107` … `main_v126`), one each. -/
theorem par1_writes : (par1 : List (HloOp τ sig (Elt F))).Forall fun op =>
    op.writes ⊆ ((span 153 173).map (Proc.devRef (τ := τ) .tc)).toFinset :=
  ⟨span_sub (y := main_v107) (by decide), span_sub (y := main_v108) (by decide), span_sub (y := main_v109) (by decide),
    span_sub (y := main_v110) (by decide), span_sub (y := main_v111) (by decide), span_sub (y := main_v112) (by decide),
    span_sub (y := main_v113) (by decide), span_sub (y := main_v114) (by decide), span_sub (y := main_v115) (by decide),
    span_sub (y := main_v116) (by decide), span_sub (y := main_v117) (by decide), span_sub (y := main_v118) (by decide),
    span_sub (y := main_v119) (by decide), span_sub (y := main_v120) (by decide), span_sub (y := main_v121) (by decide),
    span_sub (y := main_v122) (by decide), span_sub (y := main_v123) (by decide), span_sub (y := main_v124) (by decide),
    span_sub (y := main_v125) (by decide), span_sub (y := main_v126) (by decide)⟩

/-- Across `par1` a reference of index below 153 or at least 173 keeps its contents. -/
theorem par1_keeps (V : Valuation τ sig (Elt F)) {r : Ref sig .tc} (h : r.idx.val < 153 ∨ 173 ≤ r.idx.val) :
    after par1 V (Proc.devRef .tc r) = V (Proc.devRef .tc r) :=
  keeps_of_span par1 par1_writes V h

/-- Operations 149 … 162 of 360 — pass 1, the batch statistics of the aggregated messages: the mean over the nodes, then the mean of the squared deviations. -/
abbrev stat1 : List (HloOp τ sig (Elt F)) :=
  [ StableHlo.nullary main_cst_13 (constant S_ .f32 0x00000000#32),
    StableHlo.binary main_v106 main_cst_13 main_v127 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_14 (constant S_ .f32 0x47435000#32),
    StableHlo.unary main_cst_14 main_v128 (broadcastInDim S87 ![] bcast_S_S87 : (⟨S_, .f32⟩ : BufTy).Contents (Elt F) → (⟨S87, .f32⟩ : BufTy).Contents (Elt F)),
    StableHlo.binary main_v127 main_v128 main_v129 (Host.divf : (⟨S87, .f32⟩ : BufTy).Contents (Elt F) → (⟨S87, .f32⟩ : BufTy).Contents (Elt F) → (⟨S87, .f32⟩ : BufTy).Contents (Elt F)),
    StableHlo.unary main_v129 main_v130 (broadcastInDim S1x87 ![1] bcast_S87_S1x87_1 : (⟨S87, .f32⟩ : BufTy).Contents (Elt F) → (⟨S1x87, .f32⟩ : BufTy).Contents (Elt F)),
    StableHlo.unary main_v130 main_v131 (broadcastInDim S50000x87 ![0, 1] bcast_S1x87_S50000x87_0_1 : (⟨S1x87, .f32⟩ : BufTy).Contents (Elt F) → (⟨S50000x87, .f32⟩ : BufTy).Contents (Elt F)),
    StableHlo.binary main_v106 main_v131 main_v132 (subf : (⟨S50000x87, .f32⟩ : BufTy).Contents (Elt F) → (⟨S50000x87, .f32⟩ : BufTy).Contents (Elt F) → (⟨S50000x87, .f32⟩ : BufTy).Contents (Elt F)),
    StableHlo.binary main_v132 main_v132 main_v133 (mulf : (⟨S50000x87, .f32⟩ : BufTy).Contents (Elt F) → (⟨S50000x87, .f32⟩ : BufTy).Contents (Elt F) → (⟨S50000x87, .f32⟩ : BufTy).Contents (Elt F)),
    StableHlo.nullary main_cst_15 (constant S_ .f32 0x00000000#32),
    StableHlo.binary main_v133 main_cst_15 main_v134 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_16 (constant S_ .f32 0x47435000#32),
    StableHlo.unary main_cst_16 main_v135 (broadcastInDim S87 ![] bcast_S_S87 : (⟨S_, .f32⟩ : BufTy).Contents (Elt F) → (⟨S87, .f32⟩ : BufTy).Contents (Elt F)),
    StableHlo.binary main_v134 main_v135 main_v136 (Host.divf : (⟨S87, .f32⟩ : BufTy).Contents (Elt F) → (⟨S87, .f32⟩ : BufTy).Contents (Elt F) → (⟨S87, .f32⟩ : BufTy).Contents (Elt F)) ]

/-- `stat1` writes the references of index 173 … 186 (`main_cst_13` … `main_v136`), one each. -/
theorem stat1_writes : (stat1 : List (HloOp τ sig (Elt F))).Forall fun op =>
    op.writes ⊆ ((span 173 187).map (Proc.devRef (τ := τ) .tc)).toFinset :=
  ⟨span_sub (y := main_cst_13) (by decide), span_sub (y := main_v127) (by decide), span_sub (y := main_cst_14) (by decide),
    span_sub (y := main_v128) (by decide), span_sub (y := main_v129) (by decide), span_sub (y := main_v130) (by decide),
    span_sub (y := main_v131) (by decide), span_sub (y := main_v132) (by decide), span_sub (y := main_v133) (by decide),
    span_sub (y := main_cst_15) (by decide), span_sub (y := main_v134) (by decide), span_sub (y := main_cst_16) (by decide),
    span_sub (y := main_v135) (by decide), span_sub (y := main_v136) (by decide)⟩

/-- Across `stat1` a reference of index below 173 or at least 187 keeps its contents. -/
theorem stat1_keeps (V : Valuation τ sig (Elt F)) {r : Ref sig .tc} (h : r.idx.val < 173 ∨ 187 ≤ r.idx.val) :
    after stat1 V (Proc.devRef .tc r) = V (Proc.devRef .tc r) :=
  keeps_of_span stat1 stat1_writes V h

/-- Operations 163 … 207 of 360 — pass 1, the update: normalisation by the statistics, scale and shift, the four affine layers with three rectifications between them, and a tenth of the outcome added to the node features. -/
abbrev upd1 : List (HloOp τ sig (Elt F)) :=
  [ StableHlo.unary main_v129 main_v137 (broadcastInDim S1x87 ![1] bcast_S87_S1x87_1 : (⟨S87, .f32⟩ : BufTy).Contents (Elt F) → (⟨S1x87, .f32⟩ : BufTy).Contents (Elt F)),
    StableHlo.unary main_v137 main_v138 (broadcastInDim S50000x87 ![0, 1] bcast_S1x87_S50000x87_0_1 : (⟨S1x87, .f32⟩ : BufTy).Contents (Elt F) → (⟨S50000x87, .f32⟩ : BufTy).Contents (Elt F)),
    StableHlo.binary main_v106 main_v138 main_v139 (subf : (⟨S50000x87, .f32⟩ : BufTy).Contents (Elt F) → (⟨S50000x87, .f32⟩ : BufTy).Contents (Elt F) → (⟨S50000x87, .f32⟩ : BufTy).Contents (Elt F)),
    StableHlo.nullary main_cst_17 (constant S_ .f32 0x3727C5AC#32),
    StableHlo.unary main_cst_17 main_v140 (broadcastInDim S87 ![] bcast_S_S87 : (⟨S_, .f32⟩ : BufTy).Contents (Elt F) → (⟨S87, .f32⟩ : BufTy).Contents (Elt F)),
    StableHlo.binary main_v136 main_v140 main_v141 (addf : (⟨S87, .f32⟩ : BufTy).Contents (Elt F) → (⟨S87, .f32⟩ : BufTy).Contents (Elt F) → (⟨S87, .f32⟩ : BufTy).Contents (Elt F)),
    StableHlo.unary main_v141 main_v142 (Host.rsqrt : (⟨S87, .f32⟩ : BufTy).Contents (Elt F) → (⟨S87, .f32⟩ : BufTy).Contents (Elt F)),
    StableHlo.unary main_v142 main_v143 (broadcastInDim S1x87 ![1] bcast_S87_S1x87_1 : (⟨S87, .f32⟩ : BufTy).Contents (Elt F) → (⟨S1x87, .f32⟩ : BufTy).Contents (Elt F)),
    StableHlo.unary main_v143 main_v144 (broadcastInDim S50000x87 ![0, 1] bcast_S1x87_S50000x87_0_1 : (⟨S1x87, .f32⟩ : BufTy).Contents (Elt F) → (⟨S50000x87, .f32⟩ : BufTy).Contents (Elt F)),
    StableHlo.binary main_v139 main_v144 main_v145 (mulf : (⟨S50000x87, .f32⟩ : BufTy).Contents (Elt F) → (⟨S50000x87, .f32⟩ : BufTy).Contents (Elt F) → (⟨S50000x87, .f32⟩ : BufTy).Contents (Elt F)),
    StableHlo.unary main_v108 main_v146 (broadcastInDim S1x87 ![1] bcast_S87_S1x87_1 : (⟨S87, .f32⟩ : BufTy).Contents (Elt F) → (⟨S1x87, .f32⟩ : BufTy).Contents (Elt F)),
    StableHlo.unary main_v146 main_v147 (broadcastInDim S50000x87 ![0, 1] bcast_S1x87_S50000x87_0_1 : (⟨S1x87, .f32⟩ : BufTy).Contents (Elt F) → (⟨S50000x87, .f32⟩ : BufTy).Contents (Elt F)),
    StableHlo.binary main_v145 main_v147 main_v148 (mulf : (⟨S50000x87, .f32⟩ : BufTy).Contents (Elt F) → (⟨S50000x87, .f32⟩ : BufTy).Contents (Elt F) → (⟨S50000x87, .f32⟩ : BufTy).Contents (Elt F)),
    StableHlo.unary main_v110 main_v149 (broadcastInDim S1x87 ![1] bcast_S87_S1x87_1 : (⟨S87, .f32⟩ : BufTy).Contents (Elt F) → (⟨S1x87, .f32⟩ : BufTy).Contents (Elt F)),
    StableHlo.unary main_v149 main_v150 (broadcastInDim S50000x87 ![0, 1] bcast_S1x87_S50000x87_0_1 : (⟨S1x87, .f32⟩ : BufTy).Contents (Elt F) → (⟨S50000x87, .f32⟩ : BufTy).Contents (Elt F)),
    StableHlo.binary main_v148 main_v150 main_v151 (addf : (⟨S50000x87, .f32⟩ : BufTy).Contents (Elt F) → (⟨S50000x87, .f32⟩ : BufTy).Contents (Elt F) → (⟨S50000x87, .f32⟩ : BufTy).Contents (Elt F)),
    StableHlo.binary main_v151 main_v112 main_v152 ((fun l r => Host.dotGeneral dot_S50000x87_S87x200_S50000x200_1_0_0_1_n_n none l r) : (⟨S50000x87, .f32⟩ : BufTy).Contents (Elt F) → (⟨S87x200, .f32⟩ : BufTy).Contents (Elt F) → (⟨S50000x200, .f32⟩ : BufTy).Contents (Elt F)),
    StableHlo.unary main_v114 main_v153 (broadcastInDim S1x200 ![1] bcast_S200_S1x200_1 : (⟨S200, .f32⟩ : BufTy).Contents (Elt F) → (⟨S1x200, .f32⟩ : BufTy).Contents (Elt F)),
    StableHlo.unary main_v153 main_v154 (broadcastInDim S50000x200 ![0, 1] bcast_S1x200_S50000x200_0_1 : (⟨S1x200, .f32⟩ : BufTy).Contents (Elt F) → (⟨S50000x200, .f32⟩ : BufTy).Contents (Elt F)),
    StableHlo.binary main_v152 main_v154 main_v155 (addf : (⟨S50000x200, .f32⟩ : BufTy).Contents (Elt F) → (⟨S50000x200, .f32⟩ : BufTy).Contents (Elt F) → (⟨S50000x200, .f32⟩ : BufTy).Contents (Elt F)),
    StableHlo.TRef.nullary main_call3.cst (constant S_ .f32 0x00000000#32),
    StableHlo.TRef.unary main_call3.cst main_call3.v0 (broadcastInDim S50000x200 ![] bcast_S_S50000x200),
    StableHlo.TRef.binary (.of main_v155 : StableHlo.TRef sig ⟨S50000x200, .f32⟩) main_call3.v0 main_call3.v1 maximumf,
    StableHlo.binary main_v156 main_v116 main_v157 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v118 main_v158 (broadcastInDim S1x200 ![1] bcast_S200_S1x200_1 : (⟨S200, .f32⟩ : BufTy).Contents (Elt F) → (⟨S1x200, .f32⟩ : BufTy).Contents (Elt F)),
    StableHlo.unary main_v158 main_v159 (broadcastInDim S50000x200 ![0, 1] bcast_S1x200_S50000x200_0_1 : (⟨S1x200, .f32⟩ : BufTy).Contents (Elt F) → (⟨S50000x200, .f32⟩ : BufTy).Contents (Elt F)),
    StableHlo.binary main_v157 main_v159 main_v160 (addf : (⟨S50000x200, .f32⟩ : BufTy).Contents (Elt F) → (⟨S50000x200, .f32⟩ : BufTy).Contents (Elt F) → (⟨S50000x200, .f32⟩ : BufTy).Contents (Elt F)),
    StableHlo.TRef.nullary main_call4.cst (constant S_ .f32 0x00000000#32),
    StableHlo.TRef.unary main_call4.cst main_call4.v0 (broadcastInDim S50000x200 ![] bcast_S_S50000x200),
    StableHlo.TRef.binary (.of main_v160 : StableHlo.TRef sig ⟨S50000x200, .f32⟩) main_call4.v0 main_call4.v1 maximumf,
    StableHlo.binary main_v161 main_v120 main_v162 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v122 main_v163 (broadcastInDim S1x200 ![1] bcast_S200_S1x200_1 : (⟨S200, .f32⟩ : BufTy).Contents (Elt F) → (⟨S1x200, .f32⟩ : BufTy).Contents (Elt F)),
    StableHlo.unary main_v163 main_v164 (broadcastInDim S50000x200 ![0, 1] bcast_S1x200_S50000x200_0_1 : (⟨S1x200, .f32⟩ : BufTy).Contents (Elt F) → (⟨S50000x200, .f32⟩ : BufTy).Contents (Elt F)),
    StableHlo.binary main_v162 main_v164 main_v165 (addf : (⟨S50000x200, .f32⟩ : BufTy).Contents (Elt F) → (⟨S50000x200, .f32⟩ : BufTy).Contents (Elt F) → (⟨S50000x200, .f32⟩ : BufTy).Contents (Elt F)),
    StableHlo.TRef.nullary main_call5.cst (constant S_ .f32 0x00000000#32),
    StableHlo.TRef.unary main_call5.cst main_call5.v0 (broadcastInDim S50000x200 ![] bcast_S_S50000x200),
    StableHlo.TRef.binary (.of main_v165 : StableHlo.TRef sig ⟨S50000x200, .f32⟩) main_call5.v0 main_call5.v1 maximumf,
    StableHlo.binary main_v166 main_v124 main_v167 ((fun l r => Host.dotGeneral dot_S50000x200_S200x64_S50000x64_1_0_0_1_n_n none l r) : (⟨S50000x200, .f32⟩ : BufTy).Contents (Elt F) → (⟨S200x64, .f32⟩ : BufTy).Contents (Elt F) → (⟨S50000x64, .f32⟩ : BufTy).Contents (Elt F)),
    StableHlo.unary main_v126 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v169 main_v170 (addf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3DCCCCCD#32),
    StableHlo.unary main_cst_18 main_v171 (broadcastInDim S50000x64 ![] bcast_S_S50000x64 : (⟨S_, .f32⟩ : BufTy).Contents (Elt F) → (⟨S50000x64, .f32⟩ : BufTy).Contents (Elt F)),
    StableHlo.binary main_v171 main_v170 main_v172 (mulf : (⟨S50000x64, .f32⟩ : BufTy).Contents (Elt F) → (⟨S50000x64, .f32⟩ : BufTy).Contents (Elt F) → (⟨S50000x64, .f32⟩ : BufTy).Contents (Elt F)),
    StableHlo.binary main_v95 main_v172 main_v173 (addf : (⟨S50000x64, .f32⟩ : BufTy).Contents (Elt F) → (⟨S50000x64, .f32⟩ : BufTy).Contents (Elt F) → (⟨S50000x64, .f32⟩ : BufTy).Contents (Elt F)) ]

/-- `upd1` writes the references of index 187 … 231 (`main_v137` … `main_v173`), one each. -/
theorem upd1_writes : (upd1 : List (HloOp τ sig (Elt F))).Forall fun op =>
    op.writes ⊆ ((span 187 232).map (Proc.devRef (τ := τ) .tc)).toFinset :=
  ⟨span_sub (y := main_v137) (by decide), span_sub (y := main_v138) (by decide), span_sub (y := main_v139) (by decide),
    span_sub (y := main_cst_17) (by decide), span_sub (y := main_v140) (by decide), span_sub (y := main_v141) (by decide),
    span_sub (y := main_v142) (by decide), span_sub (y := main_v143) (by decide), span_sub (y := main_v144) (by decide),
    span_sub (y := main_v145) (by decide), span_sub (y := main_v146) (by decide), span_sub (y := main_v147) (by decide),
    span_sub (y := main_v148) (by decide), span_sub (y := main_v149) (by decide), span_sub (y := main_v150) (by decide),
    span_sub (y := main_v151) (by decide), span_sub (y := main_v152) (by decide), span_sub (y := main_v153) (by decide),
    span_sub (y := main_v154) (by decide), span_sub (y := main_v155) (by decide), span_sub (y := main_call3_cst) (by decide),
    span_sub (y := main_call3_v0) (by decide), span_sub (y := main_v156) (by decide), span_sub (y := main_v157) (by decide),
    span_sub (y := main_v158) (by decide), span_sub (y := main_v159) (by decide), span_sub (y := main_v160) (by decide),
    span_sub (y := main_call4_cst) (by decide), span_sub (y := main_call4_v0) (by decide), span_sub (y := main_v161) (by decide),
    span_sub (y := main_v162) (by decide), span_sub (y := main_v163) (by decide), span_sub (y := main_v164) (by decide),
    span_sub (y := main_v165) (by decide), span_sub (y := main_call5_cst) (by decide), span_sub (y := main_call5_v0) (by decide),
    span_sub (y := main_v166) (by decide), span_sub (y := main_v167) (by decide), span_sub (y := main_v168) (by decide),
    span_sub (y := main_v169) (by decide), span_sub (y := main_v170) (by decide), span_sub (y := main_cst_18) (by decide),
    span_sub (y := main_v171) (by decide), span_sub (y := main_v172) (by decide), span_sub (y := main_v173) (by decide)⟩

/-- Across `upd1` a reference of index below 187 or at least 232 keeps its contents. -/
theorem upd1_keeps (V : Valuation τ sig (Elt F)) {r : Ref sig .tc} (h : r.idx.val < 187 ∨ 232 ≤ r.idx.val) :
    after upd1 V (Proc.devRef .tc r) = V (Proc.devRef .tc r) :=
  keeps_of_span upd1 upd1_writes V h

/-- Operations 208 … 221 of 360 — pass 2, the messages: the sinks' indices made non-negative, the gather of the node features at them, the concatenation with the radial basis, and the scatter-add over the sources giving the aggregated messages. -/
abbrev msg2 : List (HloOp τ sig (Elt F)) :=
  [ StableHlo.nullary main_c_19 (constantI S_ 32 0#32),
    StableHlo.unary main_c_19 main_v174 (broadcastInDim S800000 ![] bcast_S_S800000 : (⟨S_, .i32⟩ : BufTy).Contents (Elt F) → (⟨S800000, .i32⟩ : BufTy).Contents (Elt F)),
    StableHlo.binary main_v3 main_v174 main_v175 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v176 (broadcastInDim S800000 ![] bcast_S_S800000 : (⟨S_, .i32⟩ : BufTy).Contents (Elt F) → (⟨S800000, .i32⟩ : BufTy).Contents (Elt F)),
    StableHlo.binary main_v3 main_v176 main_v177 (addi : (⟨S800000, .i32⟩ : BufTy).Contents (Elt F) → (⟨S800000, .i32⟩ : BufTy).Contents (Elt F) → (⟨S800000, .i32⟩ : BufTy).Contents (Elt F)),
    StableHlo.ternary main_v175 main_v177 main_v3 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v178 main_v179 (broadcastInDim S800000x1 ![0] bcast_S800000_S800000x1_0 : (⟨S800000, .i32⟩ : BufTy).Contents (Elt F) → (⟨S800000x1, .i32⟩ : BufTy).Contents (Elt F)),
    StableHlo.binary main_v173 main_v179 main_v180 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v10 main_v180 main_v181 ((fun a b => concatenate S800000x87 1 [⟨S800000x23, a⟩, ⟨S800000x64, b⟩] concatenates_S800000x23_S800000x64_S800000x87_d1) : (⟨S800000x23, .f32⟩ : BufTy).Contents (Elt F) → (⟨S800000x64, .f32⟩ : BufTy).Contents (Elt F) → (⟨S800000x87, .f32⟩ : BufTy).Contents (Elt F)),
    StableHlo.nullary main_cst_21 (constant S_ .f32 0x00000000#32),
    StableHlo.unary main_cst_21 main_v182 (broadcastInDim S50000x87 ![] bcast_S_S50000x87 : (⟨S_, .f32⟩ : BufTy).Contents (Elt F) → (⟨S50000x87, .f32⟩ : BufTy).Contents (Elt F)),
    StableHlo.unary main_v1 main_v183 (broadcastInDim S800000x1 ![0] bcast_S800000_S800000x1_0 : (⟨S800000, .i32⟩ : BufTy).Contents (Elt F) → (⟨S800000x1, .i32⟩ : BufTy).Contents (Elt F)),
    StableHlo.ternary main_v182 main_v183 main_v181 main_v184 ((fun x i u => Host.scatterAdd scatter_S50000x87_S800000x1_S800000x87_1_0_0_1 x i u) : (⟨S50000x87, .f32⟩ : BufTy).Contents (Elt F) → (⟨S800000x1, .i32⟩ : BufTy).Contents (Elt F) → (⟨S800000x87, .f32⟩ : BufTy).Contents (Elt F) → (⟨S50000x87, .f32⟩ : BufTy).Contents (Elt F)) ]

/-- `msg2` writes the references of index 232 … 245 (`main_c_19` … `main_v184`), one each. -/
theorem msg2_writes : (msg2 : List (HloOp τ sig (Elt F))).Forall fun op =>
    op.writes ⊆ ((span 232 246).map (Proc.devRef (τ := τ) .tc)).toFinset :=
  ⟨span_sub (y := main_c_19) (by decide), span_sub (y := main_v174) (by decide), span_sub (y := main_v175) (by decide),
    span_sub (y := main_c_20) (by decide), span_sub (y := main_v176) (by decide), span_sub (y := main_v177) (by decide),
    span_sub (y := main_v178) (by decide), span_sub (y := main_v179) (by decide), span_sub (y := main_v180) (by decide),
    span_sub (y := main_v181) (by decide), span_sub (y := main_cst_21) (by decide), span_sub (y := main_v182) (by decide),
    span_sub (y := main_v183) (by decide), span_sub (y := main_v184) (by decide)⟩

/-- Across `msg2` a reference of index below 232 or at least 246 keeps its contents. -/
theorem msg2_keeps (V : Valuation τ sig (Elt F)) {r : Ref sig .tc} (h : r.idx.val < 232 ∨ 246 ≤ r.idx.val) :
    after msg2 V (Proc.devRef .tc r) = V (Proc.devRef .tc r) :=
  keeps_of_span msg2 msg2_writes V h

/-- Operations 222 … 241 of 360 — pass 2, the parameters: row 2 of each of the ten stacked parameter arrays, sliced and reshaped. -/
abbrev par2 : List (HloOp τ sig (Elt F)) :=
  [ StableHlo.unary main_arg5 main_v185 ((extractStridedSlice S1x87 ![2, 0] · slices_S3x87_S1x87_2_0) : (⟨S3x87, .f32⟩ : BufTy).Contents (Elt F) → (⟨S1x87, .f32⟩ : BufTy).Contents (Elt F)),
    StableHlo.reshape main_v185 main_v186 rfl shapeCasts_S1x87_S87,
    StableHlo.unary main_arg6 main_v187 ((extractStridedSlice S1x87 ![2, 0] · slices_S3x87_S1x87_2_0) : (⟨S3x87, .f32⟩ : BufTy).Contents (Elt F) → (⟨S1x87, .f32⟩ : BufTy).Contents (Elt F)),
    StableHlo.reshape main_v187 main_v188 rfl shapeCasts_S1x87_S87,
    StableHlo.unary main_arg7 main_v189 ((extractStridedSlice S1x87x200 ![2, 0, 0] · slices_S3x87x200_S1x87x200_2_0_0) : (⟨S3x87x200, .f32⟩ : BufTy).Contents (Elt F) → (⟨S1x87x200, .f32⟩ : BufTy).Contents (Elt F)),
    StableHlo.reshape main_v189 main_v190 rfl shapeCasts_S1x87x200_S87x200,
    StableHlo.unary main_arg8 main_v191 ((extractStridedSlice S1x200 ![2, 0] · slices_S3x200_S1x200_2_0) : (⟨S3x200, .f32⟩ : BufTy).Contents (Elt F) → (⟨S1x200, .f32⟩ : BufTy).Contents (Elt F)),
    StableHlo.reshape main_v191 main_v192 rfl shapeCasts_S1x200_S200,
    StableHlo.unary main_arg9 main_v193 ((extractStridedSlice S1x200x200 ![2, 0, 0] · slices_S3x200x200_S1x200x200_2_0_0) : (⟨S3x200x200, .f32⟩ : BufTy).Contents (Elt F) → (⟨S1x200x200, .f32⟩ : BufTy).Contents (Elt F)),
    StableHlo.reshape main_v193 main_v194 rfl shapeCasts_S1x200x200_S200x200,
    StableHlo.unary main_arg10 main_v195 ((extractStridedSlice S1x200 ![2, 0] · slices_S3x200_S1x200_2_0) : (⟨S3x200, .f32⟩ : BufTy).Contents (Elt F) → (⟨S1x200, .f32⟩ : BufTy).Contents (Elt F)),
    StableHlo.reshape main_v195 main_v196 rfl shapeCasts_S1x200_S200,
    StableHlo.unary main_arg11 main_v197 ((extractStridedSlice S1x200x200 ![2, 0, 0] · slices_S3x200x200_S1x200x200_2_0_0) : (⟨S3x200x200, .f32⟩ : BufTy).Contents (Elt F) → (⟨S1x200x200, .f32⟩ : BufTy).Contents (Elt F)),
    StableHlo.reshape main_v197 main_v198 rfl shapeCasts_S1x200x200_S200x200,
    StableHlo.unary main_arg12 main_v199 ((extractStridedSlice S1x200 ![2, 0] · slices_S3x200_S1x200_2_0) : (⟨S3x200, .f32⟩ : BufTy).Contents (Elt F) → (⟨S1x200, .f32⟩ : BufTy).Contents (Elt F)),
    StableHlo.reshape main_v199 main_v200 rfl shapeCasts_S1x200_S200,
    StableHlo.unary main_arg13 main_v201 ((extractStridedSlice S1x200x64 ![2, 0, 0] · slices_S3x200x64_S1x200x64_2_0_0) : (⟨S3x200x64, .f32⟩ : BufTy).Contents (Elt F) → (⟨S1x200x64, .f32⟩ : BufTy).Contents (Elt F)),
    StableHlo.reshape main_v201 main_v202 rfl shapeCasts_S1x200x64_S200x64,
    StableHlo.unary main_arg14 main_v203 ((extractStridedSlice S1x64 ![2, 0] · slices_S3x64_S1x64_2_0) : (⟨S3x64, .f32⟩ : BufTy).Contents (Elt F) → (⟨S1x64, .f32⟩ : BufTy).Contents (Elt F)),
    StableHlo.reshape main_v203 main_v204 rfl shapeCasts_S1x64_S64 ]

/-- `par2` writes the references of index 246 … 265 (`main_v185` … `main_v204`), one each. -/
theorem par2_writes : (par2 : List (HloOp τ sig (Elt F))).Forall fun op =>
    op.writes ⊆ ((span 246 266).map (Proc.devRef (τ := τ) .tc)).toFinset :=
  ⟨span_sub (y := main_v185) (by decide), span_sub (y := main_v186) (by decide), span_sub (y := main_v187) (by decide),
    span_sub (y := main_v188) (by decide), span_sub (y := main_v189) (by decide), span_sub (y := main_v190) (by decide),
    span_sub (y := main_v191) (by decide), span_sub (y := main_v192) (by decide), span_sub (y := main_v193) (by decide),
    span_sub (y := main_v194) (by decide), span_sub (y := main_v195) (by decide), span_sub (y := main_v196) (by decide),
    span_sub (y := main_v197) (by decide), span_sub (y := main_v198) (by decide), span_sub (y := main_v199) (by decide),
    span_sub (y := main_v200) (by decide), span_sub (y := main_v201) (by decide), span_sub (y := main_v202) (by decide),
    span_sub (y := main_v203) (by decide), span_sub (y := main_v204) (by decide)⟩

/-- Across `par2` a reference of index below 246 or at least 266 keeps its contents. -/
theorem par2_keeps (V : Valuation τ sig (Elt F)) {r : Ref sig .tc} (h : r.idx.val < 246 ∨ 266 ≤ r.idx.val) :
    after par2 V (Proc.devRef .tc r) = V (Proc.devRef .tc r) :=
  keeps_of_span par2 par2_writes V h

/-- Operations 242 … 255 of 360 — pass 2, the batch statistics of the aggregated messages: the mean over the nodes, then the mean of the squared deviations. -/
abbrev stat2 : List (HloOp τ sig (Elt F)) :=
  [ StableHlo.nullary main_cst_22 (constant S_ .f32 0x00000000#32),
    StableHlo.binary main_v184 main_cst_22 main_v205 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_23 (constant S_ .f32 0x47435000#32),
    StableHlo.unary main_cst_23 main_v206 (broadcastInDim S87 ![] bcast_S_S87 : (⟨S_, .f32⟩ : BufTy).Contents (Elt F) → (⟨S87, .f32⟩ : BufTy).Contents (Elt F)),
    StableHlo.binary main_v205 main_v206 main_v207 (Host.divf : (⟨S87, .f32⟩ : BufTy).Contents (Elt F) → (⟨S87, .f32⟩ : BufTy).Contents (Elt F) → (⟨S87, .f32⟩ : BufTy).Contents (Elt F)),
    StableHlo.unary main_v207 main_v208 (broadcastInDim S1x87 ![1] bcast_S87_S1x87_1 : (⟨S87, .f32⟩ : BufTy).Contents (Elt F) → (⟨S1x87, .f32⟩ : BufTy).Contents (Elt F)),
    StableHlo.unary main_v208 main_v209 (broadcastInDim S50000x87 ![0, 1] bcast_S1x87_S50000x87_0_1 : (⟨S1x87, .f32⟩ : BufTy).Contents (Elt F) → (⟨S50000x87, .f32⟩ : BufTy).Contents (Elt F)),
    StableHlo.binary main_v184 main_v209 main_v210 (subf : (⟨S50000x87, .f32⟩ : BufTy).Contents (Elt F) → (⟨S50000x87, .f32⟩ : BufTy).Contents (Elt F) → (⟨S50000x87, .f32⟩ : BufTy).Contents (Elt F)),
    StableHlo.binary main_v210 main_v210 main_v211 (mulf : (⟨S50000x87, .f32⟩ : BufTy).Contents (Elt F) → (⟨S50000x87, .f32⟩ : BufTy).Contents (Elt F) → (⟨S50000x87, .f32⟩ : BufTy).Contents (Elt F)),
    StableHlo.nullary main_cst_24 (constant S_ .f32 0x00000000#32),
    StableHlo.binary main_v211 main_cst_24 main_v212 ((fun x v => Host.reduceAdd x v reducesTo_S50000x87_S87_d0 h_S_) : (⟨S50000x87, .f32⟩ : BufTy).Contents (Elt F) → (⟨S_, .f32⟩ : BufTy).Contents (Elt F) → (⟨S87, .f32⟩ : BufTy).Contents (Elt F)),
    StableHlo.nullary main_cst_25 (constant S_ .f32 0x47435000#32),
    StableHlo.unary main_cst_25 main_v213 (broadcastInDim S87 ![] bcast_S_S87 : (⟨S_, .f32⟩ : BufTy).Contents (Elt F) → (⟨S87, .f32⟩ : BufTy).Contents (Elt F)),
    StableHlo.binary main_v212 main_v213 main_v214 (Host.divf : (⟨S87, .f32⟩ : BufTy).Contents (Elt F) → (⟨S87, .f32⟩ : BufTy).Contents (Elt F) → (⟨S87, .f32⟩ : BufTy).Contents (Elt F)) ]

/-- `stat2` writes the references of index 266 … 279 (`main_cst_22` … `main_v214`), one each. -/
theorem stat2_writes : (stat2 : List (HloOp τ sig (Elt F))).Forall fun op =>
    op.writes ⊆ ((span 266 280).map (Proc.devRef (τ := τ) .tc)).toFinset :=
  ⟨span_sub (y := main_cst_22) (by decide), span_sub (y := main_v205) (by decide), span_sub (y := main_cst_23) (by decide),
    span_sub (y := main_v206) (by decide), span_sub (y := main_v207) (by decide), span_sub (y := main_v208) (by decide),
    span_sub (y := main_v209) (by decide), span_sub (y := main_v210) (by decide), span_sub (y := main_v211) (by decide),
    span_sub (y := main_cst_24) (by decide), span_sub (y := main_v212) (by decide), span_sub (y := main_cst_25) (by decide),
    span_sub (y := main_v213) (by decide), span_sub (y := main_v214) (by decide)⟩

/-- Across `stat2` a reference of index below 266 or at least 280 keeps its contents. -/
theorem stat2_keeps (V : Valuation τ sig (Elt F)) {r : Ref sig .tc} (h : r.idx.val < 266 ∨ 280 ≤ r.idx.val) :
    after stat2 V (Proc.devRef .tc r) = V (Proc.devRef .tc r) :=
  keeps_of_span stat2 stat2_writes V h

/-- Operations 256 … 300 of 360 — pass 2, the update: normalisation by the statistics, scale and shift, the four affine layers with three rectifications between them, and a tenth of the outcome added to the node features. -/
abbrev upd2 : List (HloOp τ sig (Elt F)) :=
  [ StableHlo.unary main_v207 main_v215 (broadcastInDim S1x87 ![1] bcast_S87_S1x87_1 : (⟨S87, .f32⟩ : BufTy).Contents (Elt F) → (⟨S1x87, .f32⟩ : BufTy).Contents (Elt F)),
    StableHlo.unary main_v215 main_v216 (broadcastInDim S50000x87 ![0, 1] bcast_S1x87_S50000x87_0_1 : (⟨S1x87, .f32⟩ : BufTy).Contents (Elt F) → (⟨S50000x87, .f32⟩ : BufTy).Contents (Elt F)),
    StableHlo.binary main_v184 main_v216 main_v217 (subf : (⟨S50000x87, .f32⟩ : BufTy).Contents (Elt F) → (⟨S50000x87, .f32⟩ : BufTy).Contents (Elt F) → (⟨S50000x87, .f32⟩ : BufTy).Contents (Elt F)),
    StableHlo.nullary main_cst_26 (constant S_ .f32 0x3727C5AC#32),
    StableHlo.unary main_cst_26 main_v218 (broadcastInDim S87 ![] bcast_S_S87 : (⟨S_, .f32⟩ : BufTy).Contents (Elt F) → (⟨S87, .f32⟩ : BufTy).Contents (Elt F)),
    StableHlo.binary main_v214 main_v218 main_v219 (addf : (⟨S87, .f32⟩ : BufTy).Contents (Elt F) → (⟨S87, .f32⟩ : BufTy).Contents (Elt F) → (⟨S87, .f32⟩ : BufTy).Contents (Elt F)),
    StableHlo.unary main_v219 main_v220 (Host.rsqrt : (⟨S87, .f32⟩ : BufTy).Contents (Elt F) → (⟨S87, .f32⟩ : BufTy).Contents (Elt F)),
    StableHlo.unary main_v220 main_v221 (broadcastInDim S1x87 ![1] bcast_S87_S1x87_1 : (⟨S87, .f32⟩ : BufTy).Contents (Elt F) → (⟨S1x87, .f32⟩ : BufTy).Contents (Elt F)),
    StableHlo.unary main_v221 main_v222 (broadcastInDim S50000x87 ![0, 1] bcast_S1x87_S50000x87_0_1 : (⟨S1x87, .f32⟩ : BufTy).Contents (Elt F) → (⟨S50000x87, .f32⟩ : BufTy).Contents (Elt F)),
    StableHlo.binary main_v217 main_v222 main_v223 (mulf : (⟨S50000x87, .f32⟩ : BufTy).Contents (Elt F) → (⟨S50000x87, .f32⟩ : BufTy).Contents (Elt F) → (⟨S50000x87, .f32⟩ : BufTy).Contents (Elt F)),
    StableHlo.unary main_v186 main_v224 (broadcastInDim S1x87 ![1] bcast_S87_S1x87_1 : (⟨S87, .f32⟩ : BufTy).Contents (Elt F) → (⟨S1x87, .f32⟩ : BufTy).Contents (Elt F)),
    StableHlo.unary main_v224 main_v225 (broadcastInDim S50000x87 ![0, 1] bcast_S1x87_S50000x87_0_1 : (⟨S1x87, .f32⟩ : BufTy).Contents (Elt F) → (⟨S50000x87, .f32⟩ : BufTy).Contents (Elt F)),
    StableHlo.binary main_v223 main_v225 main_v226 (mulf : (⟨S50000x87, .f32⟩ : BufTy).Contents (Elt F) → (⟨S50000x87, .f32⟩ : BufTy).Contents (Elt F) → (⟨S50000x87, .f32⟩ : BufTy).Contents (Elt F)),
    StableHlo.unary main_v188 main_v227 (broadcastInDim S1x87 ![1] bcast_S87_S1x87_1 : (⟨S87, .f32⟩ : BufTy).Contents (Elt F) → (⟨S1x87, .f32⟩ : BufTy).Contents (Elt F)),
    StableHlo.unary main_v227 main_v228 (broadcastInDim S50000x87 ![0, 1] bcast_S1x87_S50000x87_0_1 : (⟨S1x87, .f32⟩ : BufTy).Contents (Elt F) → (⟨S50000x87, .f32⟩ : BufTy).Contents (Elt F)),
    StableHlo.binary main_v226 main_v228 main_v229 (addf : (⟨S50000x87, .f32⟩ : BufTy).Contents (Elt F) → (⟨S50000x87, .f32⟩ : BufTy).Contents (Elt F) → (⟨S50000x87, .f32⟩ : BufTy).Contents (Elt F)),
    StableHlo.binary main_v229 main_v190 main_v230 ((fun l r => Host.dotGeneral dot_S50000x87_S87x200_S50000x200_1_0_0_1_n_n none l r) : (⟨S50000x87, .f32⟩ : BufTy).Contents (Elt F) → (⟨S87x200, .f32⟩ : BufTy).Contents (Elt F) → (⟨S50000x200, .f32⟩ : BufTy).Contents (Elt F)),
    StableHlo.unary main_v192 main_v231 (broadcastInDim S1x200 ![1] bcast_S200_S1x200_1 : (⟨S200, .f32⟩ : BufTy).Contents (Elt F) → (⟨S1x200, .f32⟩ : BufTy).Contents (Elt F)),
    StableHlo.unary main_v231 main_v232 (broadcastInDim S50000x200 ![0, 1] bcast_S1x200_S50000x200_0_1 : (⟨S1x200, .f32⟩ : BufTy).Contents (Elt F) → (⟨S50000x200, .f32⟩ : BufTy).Contents (Elt F)),
    StableHlo.binary main_v230 main_v232 main_v233 (addf : (⟨S50000x200, .f32⟩ : BufTy).Contents (Elt F) → (⟨S50000x200, .f32⟩ : BufTy).Contents (Elt F) → (⟨S50000x200, .f32⟩ : BufTy).Contents (Elt F)),
    StableHlo.TRef.nullary main_call6.cst (constant S_ .f32 0x00000000#32),
    StableHlo.TRef.unary main_call6.cst main_call6.v0 (broadcastInDim S50000x200 ![] bcast_S_S50000x200),
    StableHlo.TRef.binary (.of main_v233 : StableHlo.TRef sig ⟨S50000x200, .f32⟩) main_call6.v0 main_call6.v1 maximumf,
    StableHlo.binary main_v234 main_v194 main_v235 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v196 main_v236 (broadcastInDim S1x200 ![1] bcast_S200_S1x200_1 : (⟨S200, .f32⟩ : BufTy).Contents (Elt F) → (⟨S1x200, .f32⟩ : BufTy).Contents (Elt F)),
    StableHlo.unary main_v236 main_v237 (broadcastInDim S50000x200 ![0, 1] bcast_S1x200_S50000x200_0_1 : (⟨S1x200, .f32⟩ : BufTy).Contents (Elt F) → (⟨S50000x200, .f32⟩ : BufTy).Contents (Elt F)),
    StableHlo.binary main_v235 main_v237 main_v238 (addf : (⟨S50000x200, .f32⟩ : BufTy).Contents (Elt F) → (⟨S50000x200, .f32⟩ : BufTy).Contents (Elt F) → (⟨S50000x200, .f32⟩ : BufTy).Contents (Elt F)),
    StableHlo.TRef.nullary main_call7.cst (constant S_ .f32 0x00000000#32),
    StableHlo.TRef.unary main_call7.cst main_call7.v0 (broadcastInDim S50000x200 ![] bcast_S_S50000x200),
    StableHlo.TRef.binary (.of main_v238 : StableHlo.TRef sig ⟨S50000x200, .f32⟩) main_call7.v0 main_call7.v1 maximumf,
    StableHlo.binary main_v239 main_v198 main_v240 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_v200 main_v241 (broadcastInDim S1x200 ![1] bcast_S200_S1x200_1 : (⟨S200, .f32⟩ : BufTy).Contents (Elt F) → (⟨S1x200, .f32⟩ : BufTy).Contents (Elt F)),
    StableHlo.unary main_v241 main_v242 (broadcastInDim S50000x200 ![0, 1] bcast_S1x200_S50000x200_0_1 : (⟨S1x200, .f32⟩ : BufTy).Contents (Elt F) → (⟨S50000x200, .f32⟩ : BufTy).Contents (Elt F)),
    StableHlo.binary main_v240 main_v242 main_v243 (addf : (⟨S50000x200, .f32⟩ : BufTy).Contents (Elt F) → (⟨S50000x200, .f32⟩ : BufTy).Contents (Elt F) → (⟨S50000x200, .f32⟩ : BufTy).Contents (Elt F)),
    StableHlo.TRef.nullary main_call8.cst (constant S_ .f32 0x00000000#32),
    StableHlo.TRef.unary main_call8.cst main_call8.v0 (broadcastInDim S50000x200 ![] bcast_S_S50000x200),
    StableHlo.TRef.binary (.of main_v243 : StableHlo.TRef sig ⟨S50000x200, .f32⟩) main_call8.v0 main_call8.v1 maximumf,
    StableHlo.binary main_v244 main_v202 main_v245 ((fun l r => Host.dotGeneral dot_S50000x200_S200x64_S50000x64_1_0_0_1_n_n none l r) : (⟨S50000x200, .f32⟩ : BufTy).Contents (Elt F) → (⟨S200x64, .f32⟩ : BufTy).Contents (Elt F) → (⟨S50000x64, .f32⟩ : BufTy).Contents (Elt F)),
    StableHlo.unary main_v204 main_v246 (broadcastInDim S1x64 ![1] bcast_S64_S1x64_1 : (⟨S64, .f32⟩ : BufTy).Contents (Elt F) → (⟨S1x64, .f32⟩ : BufTy).Contents (Elt F)),
    StableHlo.unary main_v246 main_v247 (broadcastInDim S50000x64 ![0, 1] bcast_S1x64_S50000x64_0_1 : (⟨S1x64, .f32⟩ : BufTy).Contents (Elt F) → (⟨S50000x64, .f32⟩ : BufTy).Contents (Elt F)),
    StableHlo.binary main_v245 main_v247 main_v248 (addf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x3DCCCCCD#32),
    StableHlo.unary main_cst_27 main_v249 (broadcastInDim S50000x64 ![] bcast_S_S50000x64 : (⟨S_, .f32⟩ : BufTy).Contents (Elt F) → (⟨S50000x64, .f32⟩ : BufTy).Contents (Elt F)),
    StableHlo.binary main_v249 main_v248 main_v250 (mulf : (⟨S50000x64, .f32⟩ : BufTy).Contents (Elt F) → (⟨S50000x64, .f32⟩ : BufTy).Contents (Elt F) → (⟨S50000x64, .f32⟩ : BufTy).Contents (Elt F)),
    StableHlo.binary main_v173 main_v250 main_v251 (addf : (⟨S50000x64, .f32⟩ : BufTy).Contents (Elt F) → (⟨S50000x64, .f32⟩ : BufTy).Contents (Elt F) → (⟨S50000x64, .f32⟩ : BufTy).Contents (Elt F)) ]

/-- `upd2` writes the references of index 280 … 324 (`main_v215` … `main_v251`), one each. -/
theorem upd2_writes : (upd2 : List (HloOp τ sig (Elt F))).Forall fun op =>
    op.writes ⊆ ((span 280 325).map (Proc.devRef (τ := τ) .tc)).toFinset :=
  ⟨span_sub (y := main_v215) (by decide), span_sub (y := main_v216) (by decide), span_sub (y := main_v217) (by decide),
    span_sub (y := main_cst_26) (by decide), span_sub (y := main_v218) (by decide), span_sub (y := main_v219) (by decide),
    span_sub (y := main_v220) (by decide), span_sub (y := main_v221) (by decide), span_sub (y := main_v222) (by decide),
    span_sub (y := main_v223) (by decide), span_sub (y := main_v224) (by decide), span_sub (y := main_v225) (by decide),
    span_sub (y := main_v226) (by decide), span_sub (y := main_v227) (by decide), span_sub (y := main_v228) (by decide),
    span_sub (y := main_v229) (by decide), span_sub (y := main_v230) (by decide), span_sub (y := main_v231) (by decide),
    span_sub (y := main_v232) (by decide), span_sub (y := main_v233) (by decide), span_sub (y := main_call6_cst) (by decide),
    span_sub (y := main_call6_v0) (by decide), span_sub (y := main_v234) (by decide), span_sub (y := main_v235) (by decide),
    span_sub (y := main_v236) (by decide), span_sub (y := main_v237) (by decide), span_sub (y := main_v238) (by decide),
    span_sub (y := main_call7_cst) (by decide), span_sub (y := main_call7_v0) (by decide), span_sub (y := main_v239) (by decide),
    span_sub (y := main_v240) (by decide), span_sub (y := main_v241) (by decide), span_sub (y := main_v242) (by decide),
    span_sub (y := main_v243) (by decide), span_sub (y := main_call8_cst) (by decide), span_sub (y := main_call8_v0) (by decide),
    span_sub (y := main_v244) (by decide), span_sub (y := main_v245) (by decide), span_sub (y := main_v246) (by decide),
    span_sub (y := main_v247) (by decide), span_sub (y := main_v248) (by decide), span_sub (y := main_cst_27) (by decide),
    span_sub (y := main_v249) (by decide), span_sub (y := main_v250) (by decide), span_sub (y := main_v251) (by decide)⟩

/-- Across `upd2` a reference of index below 280 or at least 325 keeps its contents. -/
theorem upd2_keeps (V : Valuation τ sig (Elt F)) {r : Ref sig .tc} (h : r.idx.val < 280 ∨ 325 ≤ r.idx.val) :
    after upd2 V (Proc.devRef .tc r) = V (Proc.devRef .tc r) :=
  keeps_of_span upd2 upd2_writes V h

/-- Operations 301 … 301 of 360 — the concatenation of the four node-feature tables. -/
abbrev cat : List (HloOp τ sig (Elt F)) :=
  [ StableHlo.nary ![main_v17, main_v95, main_v173, main_v251] main_v252 (fun u => concatenate S50000x256 1 [⟨S50000x64, u 0⟩, ⟨S50000x64, u 1⟩, ⟨S50000x64, u 2⟩, ⟨S50000x64, u 3⟩] concatenates_S50000x64_S50000x64_S50000x64_S50000x64_S50000x256_d1) ]

/-- `cat` writes the references of index 325 … 325 (`main_v252` … `main_v252`), one each. -/
theorem cat_writes : (cat : List (HloOp τ sig (Elt F))).Forall fun op =>
    op.writes ⊆ ((span 325 326).map (Proc.devRef (τ := τ) .tc)).toFinset :=
  span_sub (y := main_v252) (by decide)

/-- Across `cat` a reference of index below 325 or at least 326 keeps its contents. -/
theorem cat_keeps (V : Valuation τ sig (Elt F)) {r : Ref sig .tc} (h : r.idx.val < 325 ∨ 326 ≤ r.idx.val) :
    after cat V (Proc.devRef .tc r) = V (Proc.devRef .tc r) :=
  keeps_of_span cat cat_writes V h

/-- Operations 302 … 315 of 360 — the batch statistics of the concatenated features: mean and mean squared deviation over the nodes. -/
abbrev rstat : List (HloOp τ sig (Elt F)) :=
  [ StableHlo.nullary main_cst_28 (constant S_ .f32 0x00000000#32),
    StableHlo.binary main_v252 main_cst_28 main_v253 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_29 (constant S_ .f32 0x47435000#32),
    StableHlo.unary main_cst_29 main_v254 (broadcastInDim S256 ![] bcast_S_S256 : (⟨S_, .f32⟩ : BufTy).Contents (Elt F) → (⟨S256, .f32⟩ : BufTy).Contents (Elt F)),
    StableHlo.binary main_v253 main_v254 main_v255 (Host.divf : (⟨S256, .f32⟩ : BufTy).Contents (Elt F) → (⟨S256, .f32⟩ : BufTy).Contents (Elt F) → (⟨S256, .f32⟩ : BufTy).Contents (Elt F)),
    StableHlo.unary main_v255 main_v256 (broadcastInDim S1x256 ![1] bcast_S256_S1x256_1 : (⟨S256, .f32⟩ : BufTy).Contents (Elt F) → (⟨S1x256, .f32⟩ : BufTy).Contents (Elt F)),
    StableHlo.unary main_v256 main_v257 (broadcastInDim S50000x256 ![0, 1] bcast_S1x256_S50000x256_0_1 : (⟨S1x256, .f32⟩ : BufTy).Contents (Elt F) → (⟨S50000x256, .f32⟩ : BufTy).Contents (Elt F)),
    StableHlo.binary main_v252 main_v257 main_v258 (subf : (⟨S50000x256, .f32⟩ : BufTy).Contents (Elt F) → (⟨S50000x256, .f32⟩ : BufTy).Contents (Elt F) → (⟨S50000x256, .f32⟩ : BufTy).Contents (Elt F)),
    StableHlo.binary main_v258 main_v258 main_v259 (mulf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x00000000#32),
    StableHlo.binary main_v259 main_cst_30 main_v260 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_31 (constant S_ .f32 0x47435000#32),
    StableHlo.unary main_cst_31 main_v261 (broadcastInDim S256 ![] bcast_S_S256 : (⟨S_, .f32⟩ : BufTy).Contents (Elt F) → (⟨S256, .f32⟩ : BufTy).Contents (Elt F)),
    StableHlo.binary main_v260 main_v261 main_v262 (Host.divf : (⟨S256, .f32⟩ : BufTy).Contents (Elt F) → (⟨S256, .f32⟩ : BufTy).Contents (Elt F) → (⟨S256, .f32⟩ : BufTy).Contents (Elt F)) ]

/-- `rstat` writes the references of index 326 … 339 (`main_cst_28` … `main_v262`), one each. -/
theorem rstat_writes : (rstat : List (HloOp τ sig (Elt F))).Forall fun op =>
    op.writes ⊆ ((span 326 340).map (Proc.devRef (τ := τ) .tc)).toFinset :=
  ⟨span_sub (y := main_cst_28) (by decide), span_sub (y := main_v253) (by decide), span_sub (y := main_cst_29) (by decide),
    span_sub (y := main_v254) (by decide), span_sub (y := main_v255) (by decide), span_sub (y := main_v256) (by decide),
    span_sub (y := main_v257) (by decide), span_sub (y := main_v258) (by decide), span_sub (y := main_v259) (by decide),
    span_sub (y := main_cst_30) (by decide), span_sub (y := main_v260) (by decide), span_sub (y := main_cst_31) (by decide),
    span_sub (y := main_v261) (by decide), span_sub (y := main_v262) (by decide)⟩

/-- Across `rstat` a reference of index below 326 or at least 340 keeps its contents. -/
theorem rstat_keeps (V : Valuation τ sig (Elt F)) {r : Ref sig .tc} (h : r.idx.val < 326 ∨ 340 ≤ r.idx.val) :
    after rstat V (Proc.devRef .tc r) = V (Proc.devRef .tc r) :=
  keeps_of_span rstat rstat_writes V h

/-- Operations 316 … 356 of 360 — the readout: normalisation, scale and shift, the four affine layers with three rectifications, giving one number per node. -/
abbrev rmlp : List (HloOp τ sig (Elt F)) :=
  [ StableHlo.unary main_v255 main_v263 (broadcastInDim S1x256 ![1] bcast_S256_S1x256_1 : (⟨S256, .f32⟩ : BufTy).Contents (Elt F) → (⟨S1x256, .f32⟩ : BufTy).Contents (Elt F)),
    StableHlo.unary main_v263 main_v264 (broadcastInDim S50000x256 ![0, 1] bcast_S1x256_S50000x256_0_1 : (⟨S1x256, .f32⟩ : BufTy).Contents (Elt F) → (⟨S50000x256, .f32⟩ : BufTy).Contents (Elt F)),
    StableHlo.binary main_v252 main_v264 main_v265 (subf : (⟨S50000x256, .f32⟩ : BufTy).Contents (Elt F) → (⟨S50000x256, .f32⟩ : BufTy).Contents (Elt F) → (⟨S50000x256, .f32⟩ : BufTy).Contents (Elt F)),
    StableHlo.nullary main_cst_32 (constant S_ .f32 0x3727C5AC#32),
    StableHlo.unary main_cst_32 main_v266 (broadcastInDim S256 ![] bcast_S_S256 : (⟨S_, .f32⟩ : BufTy).Contents (Elt F) → (⟨S256, .f32⟩ : BufTy).Contents (Elt F)),
    StableHlo.binary main_v262 main_v266 main_v267 (addf : (⟨S256, .f32⟩ : BufTy).Contents (Elt F) → (⟨S256, .f32⟩ : BufTy).Contents (Elt F) → (⟨S256, .f32⟩ : BufTy).Contents (Elt F)),
    StableHlo.unary main_v267 main_v268 (Host.rsqrt : (⟨S256, .f32⟩ : BufTy).Contents (Elt F) → (⟨S256, .f32⟩ : BufTy).Contents (Elt F)),
    StableHlo.unary main_v268 main_v269 (broadcastInDim S1x256 ![1] bcast_S256_S1x256_1 : (⟨S256, .f32⟩ : BufTy).Contents (Elt F) → (⟨S1x256, .f32⟩ : BufTy).Contents (Elt F)),
    StableHlo.unary main_v269 main_v270 (broadcastInDim S50000x256 ![0, 1] bcast_S1x256_S50000x256_0_1 : (⟨S1x256, .f32⟩ : BufTy).Contents (Elt F) → (⟨S50000x256, .f32⟩ : BufTy).Contents (Elt F)),
    StableHlo.binary main_v265 main_v270 main_v271 (mulf : (⟨S50000x256, .f32⟩ : BufTy).Contents (Elt F) → (⟨S50000x256, .f32⟩ : BufTy).Contents (Elt F) → (⟨S50000x256, .f32⟩ : BufTy).Contents (Elt F)),
    StableHlo.unary main_arg15 main_v272 (broadcastInDim S1x256 ![1] bcast_S256_S1x256_1 : (⟨S256, .f32⟩ : BufTy).Contents (Elt F) → (⟨S1x256, .f32⟩ : BufTy).Contents (Elt F)),
    StableHlo.unary main_v272 main_v273 (broadcastInDim S50000x256 ![0, 1] bcast_S1x256_S50000x256_0_1 : (⟨S1x256, .f32⟩ : BufTy).Contents (Elt F) → (⟨S50000x256, .f32⟩ : BufTy).Contents (Elt F)),
    StableHlo.binary main_v271 main_v273 main_v274 (mulf : (⟨S50000x256, .f32⟩ : BufTy).Contents (Elt F) → (⟨S50000x256, .f32⟩ : BufTy).Contents (Elt F) → (⟨S50000x256, .f32⟩ : BufTy).Contents (Elt F)),
    StableHlo.unary main_arg16 main_v275 (broadcastInDim S1x256 ![1] bcast_S256_S1x256_1 : (⟨S256, .f32⟩ : BufTy).Contents (Elt F) → (⟨S1x256, .f32⟩ : BufTy).Contents (Elt F)),
    StableHlo.unary main_v275 main_v276 (broadcastInDim S50000x256 ![0, 1] bcast_S1x256_S50000x256_0_1 : (⟨S1x256, .f32⟩ : BufTy).Contents (Elt F) → (⟨S50000x256, .f32⟩ : BufTy).Contents (Elt F)),
    StableHlo.binary main_v274 main_v276 main_v277 (addf : (⟨S50000x256, .f32⟩ : BufTy).Contents (Elt F) → (⟨S50000x256, .f32⟩ : BufTy).Contents (Elt F) → (⟨S50000x256, .f32⟩ : BufTy).Contents (Elt F)),
    StableHlo.binary main_v277 main_arg17 main_v278 ((fun l r => Host.dotGeneral dot_S50000x256_S256x200_S50000x200_1_0_0_1_n_n none l r) : (⟨S50000x256, .f32⟩ : BufTy).Contents (Elt F) → (⟨S256x200, .f32⟩ : BufTy).Contents (Elt F) → (⟨S50000x200, .f32⟩ : BufTy).Contents (Elt F)),
    StableHlo.unary main_arg18 main_v279 (broadcastInDim S1x200 ![1] bcast_S200_S1x200_1 : (⟨S200, .f32⟩ : BufTy).Contents (Elt F) → (⟨S1x200, .f32⟩ : BufTy).Contents (Elt F)),
    StableHlo.unary main_v279 main_v280 (broadcastInDim S50000x200 ![0, 1] bcast_S1x200_S50000x200_0_1 : (⟨S1x200, .f32⟩ : BufTy).Contents (Elt F) → (⟨S50000x200, .f32⟩ : BufTy).Contents (Elt F)),
    StableHlo.binary main_v278 main_v280 main_v281 (addf : (⟨S50000x200, .f32⟩ : BufTy).Contents (Elt F) → (⟨S50000x200, .f32⟩ : BufTy).Contents (Elt F) → (⟨S50000x200, .f32⟩ : BufTy).Contents (Elt F)),
    StableHlo.TRef.nullary main_call9.cst (constant S_ .f32 0x00000000#32),
    StableHlo.TRef.unary main_call9.cst main_call9.v0 (broadcastInDim S50000x200 ![] bcast_S_S50000x200),
    StableHlo.TRef.binary (.of main_v281 : StableHlo.TRef sig ⟨S50000x200, .f32⟩) main_call9.v0 main_call9.v1 maximumf,
    StableHlo.binary main_v282 main_arg19 main_v283 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_arg20 main_v284 (broadcastInDim S1x200 ![1] bcast_S200_S1x200_1 : (⟨S200, .f32⟩ : BufTy).Contents (Elt F) → (⟨S1x200, .f32⟩ : BufTy).Contents (Elt F)),
    StableHlo.unary main_v284 main_v285 (broadcastInDim S50000x200 ![0, 1] bcast_S1x200_S50000x200_0_1 : (⟨S1x200, .f32⟩ : BufTy).Contents (Elt F) → (⟨S50000x200, .f32⟩ : BufTy).Contents (Elt F)),
    StableHlo.binary main_v283 main_v285 main_v286 (addf : (⟨S50000x200, .f32⟩ : BufTy).Contents (Elt F) → (⟨S50000x200, .f32⟩ : BufTy).Contents (Elt F) → (⟨S50000x200, .f32⟩ : BufTy).Contents (Elt F)),
    StableHlo.TRef.nullary main_call10.cst (constant S_ .f32 0x00000000#32),
    StableHlo.TRef.unary main_call10.cst main_call10.v0 (broadcastInDim S50000x200 ![] bcast_S_S50000x200),
    StableHlo.TRef.binary (.of main_v286 : StableHlo.TRef sig ⟨S50000x200, .f32⟩) main_call10.v0 main_call10.v1 maximumf,
    StableHlo.binary main_v287 main_arg21 main_v288 ((fun l r => Host.dotGeneral dot_S50000x200_S200x200_S50000x200_1_0_0_1_n_n none l r) : (⟨S50000x200, .f32⟩ : BufTy).Contents (Elt F) → (⟨S200x200, .f32⟩ : BufTy).Contents (Elt F) → (⟨S50000x200, .f32⟩ : BufTy).Contents (Elt F)),
    StableHlo.unary main_arg22 main_v289 (broadcastInDim S1x200 ![1] bcast_S200_S1x200_1 : (⟨S200, .f32⟩ : BufTy).Contents (Elt F) → (⟨S1x200, .f32⟩ : BufTy).Contents (Elt F)),
    StableHlo.unary main_v289 main_v290 (broadcastInDim S50000x200 ![0, 1] bcast_S1x200_S50000x200_0_1 : (⟨S1x200, .f32⟩ : BufTy).Contents (Elt F) → (⟨S50000x200, .f32⟩ : BufTy).Contents (Elt F)),
    StableHlo.binary main_v288 main_v290 main_v291 (addf : (⟨S50000x200, .f32⟩ : BufTy).Contents (Elt F) → (⟨S50000x200, .f32⟩ : BufTy).Contents (Elt F) → (⟨S50000x200, .f32⟩ : BufTy).Contents (Elt F)),
    StableHlo.TRef.nullary main_call11.cst (constant S_ .f32 0x00000000#32),
    StableHlo.TRef.unary main_call11.cst main_call11.v0 (broadcastInDim S50000x200 ![] bcast_S_S50000x200),
    StableHlo.TRef.binary (.of main_v291 : StableHlo.TRef sig ⟨S50000x200, .f32⟩) main_call11.v0 main_call11.v1 maximumf,
    StableHlo.binary main_v292 main_arg23 main_v293 ((fun l r => Host.dotGeneral dot_S50000x200_S200x1_S50000x1_1_0_0_1_n_n none l r) : (⟨S50000x200, .f32⟩ : BufTy).Contents (Elt F) → (⟨S200x1, .f32⟩ : BufTy).Contents (Elt F) → (⟨S50000x1, .f32⟩ : BufTy).Contents (Elt F)),
    StableHlo.unary main_arg24 main_v294 (broadcastInDim S1x1 ![1] bcast_S1_S1x1_1 : (⟨S1, .f32⟩ : BufTy).Contents (Elt F) → (⟨S1x1, .f32⟩ : BufTy).Contents (Elt F)),
    StableHlo.unary main_v294 main_v295 (broadcastInDim S50000x1 ![0, 1] bcast_S1x1_S50000x1_0_1 : (⟨S1x1, .f32⟩ : BufTy).Contents (Elt F) → (⟨S50000x1, .f32⟩ : BufTy).Contents (Elt F)),
    StableHlo.binary main_v293 main_v295 main_v296 (addf : (⟨S50000x1, .f32⟩ : BufTy).Contents (Elt F) → (⟨S50000x1, .f32⟩ : BufTy).Contents (Elt F) → (⟨S50000x1, .f32⟩ : BufTy).Contents (Elt F)) ]

/-- `rmlp` writes the references of index 340 … 380 (`main_v263` … `main_v296`), one each. -/
theorem rmlp_writes : (rmlp : List (HloOp τ sig (Elt F))).Forall fun op =>
    op.writes ⊆ ((span 340 381).map (Proc.devRef (τ := τ) .tc)).toFinset :=
  ⟨span_sub (y := main_v263) (by decide), span_sub (y := main_v264) (by decide), span_sub (y := main_v265) (by decide),
    span_sub (y := main_cst_32) (by decide), span_sub (y := main_v266) (by decide), span_sub (y := main_v267) (by decide),
    span_sub (y := main_v268) (by decide), span_sub (y := main_v269) (by decide), span_sub (y := main_v270) (by decide),
    span_sub (y := main_v271) (by decide), span_sub (y := main_v272) (by decide), span_sub (y := main_v273) (by decide),
    span_sub (y := main_v274) (by decide), span_sub (y := main_v275) (by decide), span_sub (y := main_v276) (by decide),
    span_sub (y := main_v277) (by decide), span_sub (y := main_v278) (by decide), span_sub (y := main_v279) (by decide),
    span_sub (y := main_v280) (by decide), span_sub (y := main_v281) (by decide), span_sub (y := main_call9_cst) (by decide),
    span_sub (y := main_call9_v0) (by decide), span_sub (y := main_v282) (by decide), span_sub (y := main_v283) (by decide),
    span_sub (y := main_v284) (by decide), span_sub (y := main_v285) (by decide), span_sub (y := main_v286) (by decide),
    span_sub (y := main_call10_cst) (by decide), span_sub (y := main_call10_v0) (by decide), span_sub (y := main_v287) (by decide),
    span_sub (y := main_v288) (by decide), span_sub (y := main_v289) (by decide), span_sub (y := main_v290) (by decide),
    span_sub (y := main_v291) (by decide), span_sub (y := main_call11_cst) (by decide), span_sub (y := main_call11_v0) (by decide),
    span_sub (y := main_v292) (by decide), span_sub (y := main_v293) (by decide), span_sub (y := main_v294) (by decide),
    span_sub (y := main_v295) (by decide), span_sub (y := main_v296) (by decide)⟩

/-- Across `rmlp` a reference of index below 340 or at least 381 keeps its contents. -/
theorem rmlp_keeps (V : Valuation τ sig (Elt F)) {r : Ref sig .tc} (h : r.idx.val < 340 ∨ 381 ≤ r.idx.val) :
    after rmlp V (Proc.devRef .tc r) = V (Proc.devRef .tc r) :=
  keeps_of_span rmlp rmlp_writes V h

/-- Operations 357 … 360 of 360 — the sum of the per-node outputs over each molecule's nodes. -/
abbrev tail : List (HloOp τ sig (Elt F)) :=
  [ StableHlo.nullary main_cst_33 (constant S_ .f32 0x00000000#32),
    StableHlo.unary main_cst_33 main_v297 (broadcastInDim S2048x1 ![] bcast_S_S2048x1 : (⟨S_, .f32⟩ : BufTy).Contents (Elt F) → (⟨S2048x1, .f32⟩ : BufTy).Contents (Elt F)),
    StableHlo.unary main_arg3 main_v298 (broadcastInDim S50000x1 ![0] bcast_S50000_S50000x1_0 : (⟨S50000, .i32⟩ : BufTy).Contents (Elt F) → (⟨S50000x1, .i32⟩ : BufTy).Contents (Elt F)),
    StableHlo.ternary main_v297 main_v298 main_v296 main_v299 ((fun x i u => Host.scatterAdd scatter_S2048x1_S50000x1_S50000x1_1_0_0_1 x i u) : (⟨S2048x1, .f32⟩ : BufTy).Contents (Elt F) → (⟨S50000x1, .i32⟩ : BufTy).Contents (Elt F) → (⟨S50000x1, .f32⟩ : BufTy).Contents (Elt F) → (⟨S2048x1, .f32⟩ : BufTy).Contents (Elt F)) ]

/-- `tail` writes the references of index 381 … 384 (`main_cst_33` … `main_v299`), one each. -/
theorem tail_writes : (tail : List (HloOp τ sig (Elt F))).Forall fun op =>
    op.writes ⊆ ((span 381 385).map (Proc.devRef (τ := τ) .tc)).toFinset :=
  ⟨span_sub (y := main_cst_33) (by decide), span_sub (y := main_v297) (by decide), span_sub (y := main_v298) (by decide),
    span_sub (y := main_v299) (by decide)⟩

/-- Across `tail` a reference of index below 381 or at least 385 keeps its contents. -/
theorem tail_keeps (V : Valuation τ sig (Elt F)) {r : Ref sig .tc} (h : r.idx.val < 381 ∨ 385 ≤ r.idx.val) :
    after tail V (Proc.devRef .tc r) = V (Proc.devRef .tc r) :=
  keeps_of_span tail tail_writes V h

/-- The program is its seventeen stretches in order. -/
theorem ops_eq : (ops : List (HloOp τ sig (Elt F))) =
    pre ++ msg0 ++ par0 ++ stat0 ++ upd0 ++ msg1 ++ par1 ++ stat1 ++ upd1 ++ msg2 ++ par2 ++ stat2 ++ upd2 ++ cat ++ rstat ++ rmlp ++ tail := by
  simp only [ops, w0, w1, w2, w3, w4, w5, pre, msg0, par0, stat0, upd0, msg1, par1, stat1, upd1, msg2, par2, stat2, upd2, cat, rstat, rmlp, tail, List.cons_append, List.nil_append]

/-- The fold of the program, stretch by stretch. -/
theorem after_ops (V : Valuation τ sig (Elt F)) :
    after ops V = after tail (after rmlp (after rstat (after cat (after upd2 (after stat2 (after par2 (after msg2 (after upd1 (after stat1 (after par1 (after msg1 (after upd0 (after stat0 (after par0 (after msg0 (after pre (V))))))))))))))))) := by
  rw [ops_eq, after_append, after_append, after_append, after_append, after_append, after_append, after_append, after_append, after_append, after_append, after_append, after_append, after_append, after_append, after_append, after_append]

end Cert.ReferenceIdeal.HandRun

end
-- ==== Proof.RefRead.lean ====
import proofs.«131956_j5523327942769_1_alg».proof.Proof.RefStretch
import proofs.«131956_j5523327942769_1_alg».proof.Proof.HostFns

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## What each stretch leaves in its boundary buffers

For an arbitrary valuation `W` of the device's buffers before a stretch, the contents of the stretch's boundary
buffers after it, as the shared host functions of the arrays `W` holds at the stretch's inputs. -/

/-! ### Before the passes -/

/-- Row 0 of the edge list: where each edge's message is summed. -/
theorem pre_esrc (W : Valuation τ sig (Elt F)) :
    after pre W (Proc.devRef .tc main_v1) =
      Cert.HostStages.edgeRow0 (W (Proc.devRef .tc main_arg1) : (⟨S2x800000, .i32⟩ : BufTy).Contents (Elt F)) := by
  after_results_simp
  all_goals rfl

/-- Row 1 of the edge list: where each edge reads its neighbour's features. -/
theorem pre_esink (W : Valuation τ sig (Elt F)) :
    after pre W (Proc.devRef .tc main_v3) =
      Cert.HostStages.edgeRow1 (W (Proc.devRef .tc main_arg1) : (⟨S2x800000, .i32⟩ : BufTy).Contents (Elt F)) := by
  after_results_simp
  all_goals rfl

/-- The radial features of the edge lengths. -/
theorem pre_rbf (W : Valuation τ sig (Elt F)) :
    after pre W (Proc.devRef .tc main_v10) =
      Cert.HostStages.rbf (W (Proc.devRef .tc main_arg2) : (⟨S800000x1, .f32⟩ : BufTy).Contents (Elt F)) := by
  after_results_simp
  all_goals rfl

/-- The initial node features: the embedding lookup. -/
theorem pre_x0 (W : Valuation τ sig (Elt F)) :
    after pre W (Proc.devRef .tc main_v17) =
      Cert.HostStages.embed (W (Proc.devRef .tc main_arg4) : (⟨S10x64, .f32⟩ : BufTy).Contents (Elt F)) (W (Proc.devRef .tc main_arg0) : (⟨S50000, .i32⟩ : BufTy).Contents (Elt F)) := by
  after_results_simp
  all_goals rfl

/-! ### Pass 0 -/

/-- Pass 0's aggregated messages: the message sum of the radial features and the node features entering the pass. -/
theorem msg0_m (W : Valuation τ sig (Elt F)) :
    after msg0 W (Proc.devRef .tc main_v28) =
      Cert.HostStages.msg (W (Proc.devRef .tc main_v10) : (⟨S800000x23, .f32⟩ : BufTy).Contents (Elt F)) (W (Proc.devRef .tc main_v17) : (⟨S50000x64, .f32⟩ : BufTy).Contents (Elt F)) (W (Proc.devRef .tc main_v3) : (⟨S800000, .i32⟩ : BufTy).Contents (Elt F)) (W (Proc.devRef .tc main_v1) : (⟨S800000, .i32⟩ : BufTy).Contents (Elt F)) := by
  after_results_simp
  all_goals rfl

/-- Pass 0's slice of the stacked parameters: the normalisation's scale. -/
theorem par0_g (W : Valuation τ sig (Elt F)) :
    after par0 W (Proc.devRef .tc main_v30) =
      Cert.HostStages.vec87 0 (W (Proc.devRef .tc main_arg5) : (⟨S3x87, .f32⟩ : BufTy).Contents (Elt F)) := by
  after_results_simp
  all_goals rfl

/-- Pass 0's slice of the stacked parameters: the normalisation's shift. -/
theorem par0_b (W : Valuation τ sig (Elt F)) :
    after par0 W (Proc.devRef .tc main_v32) =
      Cert.HostStages.vec87 0 (W (Proc.devRef .tc main_arg6) : (⟨S3x87, .f32⟩ : BufTy).Contents (Elt F)) := by
  after_results_simp
  all_goals rfl

/-- Pass 0's slice of the stacked parameters: the first weight matrix. -/
theorem par0_w1 (W : Valuation τ sig (Elt F)) :
    after par0 W (Proc.devRef .tc main_v34) =
      Cert.HostStages.mat87x200 0 (W (Proc.devRef .tc main_arg7) : (⟨S3x87x200, .f32⟩ : BufTy).Contents (Elt F)) := by
  after_results_simp
  all_goals rfl

/-- Pass 0's slice of the stacked parameters: the first bias. -/
theorem par0_c1 (W : Valuation τ sig (Elt F)) :
    after par0 W (Proc.devRef .tc main_v36) =
      Cert.HostStages.vec200 0 (W (Proc.devRef .tc main_arg8) : (⟨S3x200, .f32⟩ : BufTy).Contents (Elt F)) := by
  after_results_simp
  all_goals rfl

/-- Pass 0's slice of the stacked parameters: the second weight matrix. -/
theorem par0_w2 (W : Valuation τ sig (Elt F)) :
    after par0 W (Proc.devRef .tc main_v38) =
      Cert.HostStages.mat200x200 0 (W (Proc.devRef .tc main_arg9) : (⟨S3x200x200, .f32⟩ : BufTy).Contents (Elt F)) := by
  after_results_simp
  all_goals rfl

/-- Pass 0's slice of the stacked parameters: the second bias. -/
theorem par0_c2 (W : Valuation τ sig (Elt F)) :
    after par0 W (Proc.devRef .tc main_v40) =
      Cert.HostStages.vec200 0 (W (Proc.devRef .tc main_arg10) : (⟨S3x200, .f32⟩ : BufTy).Contents (Elt F)) := by
  after_results_simp
  all_goals rfl

/-- Pass 0's slice of the stacked parameters: the third weight matrix. -/
theorem par0_w3 (W : Valuation τ sig (Elt F)) :
    after par0 W (Proc.devRef .tc main_v42) =
      Cert.HostStages.mat200x200 0 (W (Proc.devRef .tc main_arg11) : (⟨S3x200x200, .f32⟩ : BufTy).Contents (Elt F)) := by
  after_results_simp
  all_goals rfl

/-- Pass 0's slice of the stacked parameters: the third bias. -/
theorem par0_c3 (W : Valuation τ sig (Elt F)) :
    after par0 W (Proc.devRef .tc main_v44) =
      Cert.HostStages.vec200 0 (W (Proc.devRef .tc main_arg12) : (⟨S3x200, .f32⟩ : BufTy).Contents (Elt F)) := by
  after_results_simp
  all_goals rfl

/-- Pass 0's slice of the stacked parameters: the fourth weight matrix. -/
theorem par0_w4 (W : Valuation τ sig (Elt F)) :
    after par0 W (Proc.devRef .tc main_v46) =
      Cert.HostStages.mat200x64 0 (W (Proc.devRef .tc main_arg13) : (⟨S3x200x64, .f32⟩ : BufTy).Contents (Elt F)) := by
  after_results_simp
  all_goals rfl

/-- Pass 0's slice of the stacked parameters: the fourth bias. -/
theorem par0_c4 (W : Valuation τ sig (Elt F)) :
    after par0 W (Proc.devRef .tc main_v48) =
      Cert.HostStages.vec64 0 (W (Proc.devRef .tc main_arg14) : (⟨S3x64, .f32⟩ : BufTy).Contents (Elt F)) := by
  after_results_simp
  all_goals rfl

/-- Pass 0: the column means of the aggregated messages. -/
theorem stat0_mean (W : Valuation τ sig (Elt F)) :
    after stat0 W (Proc.devRef .tc main_v51) =
      Cert.HostStages.meanOf (W (Proc.devRef .tc main_v28) : (⟨S50000x87, .f32⟩ : BufTy).Contents (Elt F)) := by
  after_results_simp
  all_goals rfl

/-- Pass 0: the column variances of the aggregated messages. -/
theorem stat0_var (W : Valuation τ sig (Elt F)) :
    after stat0 W (Proc.devRef .tc main_v58) =
      Cert.HostStages.varOf (W (Proc.devRef .tc main_v28) : (⟨S50000x87, .f32⟩ : BufTy).Contents (Elt F)) := by
  after_results_simp
  all_goals rfl

/-! ### Pass 1 -/

/-- Pass 1's aggregated messages: the message sum of the radial features and the node features entering the pass. -/
theorem msg1_m (W : Valuation τ sig (Elt F)) :
    after msg1 W (Proc.devRef .tc main_v106) =
      Cert.HostStages.msg (W (Proc.devRef .tc main_v10) : (⟨S800000x23, .f32⟩ : BufTy).Contents (Elt F)) (W (Proc.devRef .tc main_v95) : (⟨S50000x64, .f32⟩ : BufTy).Contents (Elt F)) (W (Proc.devRef .tc main_v3) : (⟨S800000, .i32⟩ : BufTy).Contents (Elt F)) (W (Proc.devRef .tc main_v1) : (⟨S800000, .i32⟩ : BufTy).Contents (Elt F)) := by
  after_results_simp
  all_goals rfl

/-- Pass 1's slice of the stacked parameters: the normalisation's scale. -/
theorem par1_g (W : Valuation τ sig (Elt F)) :
    after par1 W (Proc.devRef .tc main_v108) =
      Cert.HostStages.vec87 1 (W (Proc.devRef .tc main_arg5) : (⟨S3x87, .f32⟩ : BufTy).Contents (Elt F)) := by
  after_results_simp
  all_goals rfl

/-- Pass 1's slice of the stacked parameters: the normalisation's shift. -/
theorem par1_b (W : Valuation τ sig (Elt F)) :
    after par1 W (Proc.devRef .tc main_v110) =
      Cert.HostStages.vec87 1 (W (Proc.devRef .tc main_arg6) : (⟨S3x87, .f32⟩ : BufTy).Contents (Elt F)) := by
  after_results_simp
  all_goals rfl

/-- Pass 1's slice of the stacked parameters: the first weight matrix. -/
theorem par1_w1 (W : Valuation τ sig (Elt F)) :
    after par1 W (Proc.devRef .tc main_v112) =
      Cert.HostStages.mat87x200 1 (W (Proc.devRef .tc main_arg7) : (⟨S3x87x200, .f32⟩ : BufTy).Contents (Elt F)) := by
  after_results_simp
  all_goals rfl

/-- Pass 1's slice of the stacked parameters: the first bias. -/
theorem par1_c1 (W : Valuation τ sig (Elt F)) :
    after par1 W (Proc.devRef .tc main_v114) =
      Cert.HostStages.vec200 1 (W (Proc.devRef .tc main_arg8) : (⟨S3x200, .f32⟩ : BufTy).Contents (Elt F)) := by
  after_results_simp
  all_goals rfl

/-- Pass 1's slice of the stacked parameters: the second weight matrix. -/
theorem par1_w2 (W : Valuation τ sig (Elt F)) :
    after par1 W (Proc.devRef .tc main_v116) =
      Cert.HostStages.mat200x200 1 (W (Proc.devRef .tc main_arg9) : (⟨S3x200x200, .f32⟩ : BufTy).Contents (Elt F)) := by
  after_results_simp
  all_goals rfl

/-- Pass 1's slice of the stacked parameters: the second bias. -/
theorem par1_c2 (W : Valuation τ sig (Elt F)) :
    after par1 W (Proc.devRef .tc main_v118) =
      Cert.HostStages.vec200 1 (W (Proc.devRef .tc main_arg10) : (⟨S3x200, .f32⟩ : BufTy).Contents (Elt F)) := by
  after_results_simp
  all_goals rfl

/-- Pass 1's slice of the stacked parameters: the third weight matrix. -/
theorem par1_w3 (W : Valuation τ sig (Elt F)) :
    after par1 W (Proc.devRef .tc main_v120) =
      Cert.HostStages.mat200x200 1 (W (Proc.devRef .tc main_arg11) : (⟨S3x200x200, .f32⟩ : BufTy).Contents (Elt F)) := by
  after_results_simp
  all_goals rfl

/-- Pass 1's slice of the stacked parameters: the third bias. -/
theorem par1_c3 (W : Valuation τ sig (Elt F)) :
    after par1 W (Proc.devRef .tc main_v122) =
      Cert.HostStages.vec200 1 (W (Proc.devRef .tc main_arg12) : (⟨S3x200, .f32⟩ : BufTy).Contents (Elt F)) := by
  after_results_simp
  all_goals rfl

/-- Pass 1's slice of the stacked parameters: the fourth weight matrix. -/
theorem par1_w4 (W : Valuation τ sig (Elt F)) :
    after par1 W (Proc.devRef .tc main_v124) =
      Cert.HostStages.mat200x64 1 (W (Proc.devRef .tc main_arg13) : (⟨S3x200x64, .f32⟩ : BufTy).Contents (Elt F)) := by
  after_results_simp
  all_goals rfl

/-- Pass 1's slice of the stacked parameters: the fourth bias. -/
theorem par1_c4 (W : Valuation τ sig (Elt F)) :
    after par1 W (Proc.devRef .tc main_v126) =
      Cert.HostStages.vec64 1 (W (Proc.devRef .tc main_arg14) : (⟨S3x64, .f32⟩ : BufTy).Contents (Elt F)) := by
  after_results_simp
  all_goals rfl

/-- Pass 1: the column means of the aggregated messages. -/
theorem stat1_mean (W : Valuation τ sig (Elt F)) :
    after stat1 W (Proc.devRef .tc main_v129) =
      Cert.HostStages.meanOf (W (Proc.devRef .tc main_v106) : (⟨S50000x87, .f32⟩ : BufTy).Contents (Elt F)) := by
  after_results_simp
  all_goals rfl

/-- Pass 1: the column variances of the aggregated messages. -/
theorem stat1_var (W : Valuation τ sig (Elt F)) :
    after stat1 W (Proc.devRef .tc main_v136) =
      Cert.HostStages.varOf (W (Proc.devRef .tc main_v106) : (⟨S50000x87, .f32⟩ : BufTy).Contents (Elt F)) := by
  after_results_simp
  all_goals rfl

/-! ### Pass 2 -/

/-- Pass 2's aggregated messages: the message sum of the radial features and the node features entering the pass. -/
theorem msg2_m (W : Valuation τ sig (Elt F)) :
    after msg2 W (Proc.devRef .tc main_v184) =
      Cert.HostStages.msg (W (Proc.devRef .tc main_v10) : (⟨S800000x23, .f32⟩ : BufTy).Contents (Elt F)) (W (Proc.devRef .tc main_v173) : (⟨S50000x64, .f32⟩ : BufTy).Contents (Elt F)) (W (Proc.devRef .tc main_v3) : (⟨S800000, .i32⟩ : BufTy).Contents (Elt F)) (W (Proc.devRef .tc main_v1) : (⟨S800000, .i32⟩ : BufTy).Contents (Elt F)) := by
  after_results_simp
  all_goals rfl

/-- Pass 2's slice of the stacked parameters: the normalisation's scale. -/
theorem par2_g (W : Valuation τ sig (Elt F)) :
    after par2 W (Proc.devRef .tc main_v186) =
      Cert.HostStages.vec87 2 (W (Proc.devRef .tc main_arg5) : (⟨S3x87, .f32⟩ : BufTy).Contents (Elt F)) := by
  after_results_simp
  all_goals rfl

/-- Pass 2's slice of the stacked parameters: the normalisation's shift. -/
theorem par2_b (W : Valuation τ sig (Elt F)) :
    after par2 W (Proc.devRef .tc main_v188) =
      Cert.HostStages.vec87 2 (W (Proc.devRef .tc main_arg6) : (⟨S3x87, .f32⟩ : BufTy).Contents (Elt F)) := by
  after_results_simp
  all_goals rfl

/-- Pass 2's slice of the stacked parameters: the first weight matrix. -/
theorem par2_w1 (W : Valuation τ sig (Elt F)) :
    after par2 W (Proc.devRef .tc main_v190) =
      Cert.HostStages.mat87x200 2 (W (Proc.devRef .tc main_arg7) : (⟨S3x87x200, .f32⟩ : BufTy).Contents (Elt F)) := by
  after_results_simp
  all_goals rfl

/-- Pass 2's slice of the stacked parameters: the first bias. -/
theorem par2_c1 (W : Valuation τ sig (Elt F)) :
    after par2 W (Proc.devRef .tc main_v192) =
      Cert.HostStages.vec200 2 (W (Proc.devRef .tc main_arg8) : (⟨S3x200, .f32⟩ : BufTy).Contents (Elt F)) := by
  after_results_simp
  all_goals rfl

/-- Pass 2's slice of the stacked parameters: the second weight matrix. -/
theorem par2_w2 (W : Valuation τ sig (Elt F)) :
    after par2 W (Proc.devRef .tc main_v194) =
      Cert.HostStages.mat200x200 2 (W (Proc.devRef .tc main_arg9) : (⟨S3x200x200, .f32⟩ : BufTy).Contents (Elt F)) := by
  after_results_simp
  all_goals rfl

/-- Pass 2's slice of the stacked parameters: the second bias. -/
theorem par2_c2 (W : Valuation τ sig (Elt F)) :
    after par2 W (Proc.devRef .tc main_v196) =
      Cert.HostStages.vec200 2 (W (Proc.devRef .tc main_arg10) : (⟨S3x200, .f32⟩ : BufTy).Contents (Elt F)) := by
  after_results_simp
  all_goals rfl

/-- Pass 2's slice of the stacked parameters: the third weight matrix. -/
theorem par2_w3 (W : Valuation τ sig (Elt F)) :
    after par2 W (Proc.devRef .tc main_v198) =
      Cert.HostStages.mat200x200 2 (W (Proc.devRef .tc main_arg11) : (⟨S3x200x200, .f32⟩ : BufTy).Contents (Elt F)) := by
  after_results_simp
  all_goals rfl

/-- Pass 2's slice of the stacked parameters: the third bias. -/
theorem par2_c3 (W : Valuation τ sig (Elt F)) :
    after par2 W (Proc.devRef .tc main_v200) =
      Cert.HostStages.vec200 2 (W (Proc.devRef .tc main_arg12) : (⟨S3x200, .f32⟩ : BufTy).Contents (Elt F)) := by
  after_results_simp
  all_goals rfl

/-- Pass 2's slice of the stacked parameters: the fourth weight matrix. -/
theorem par2_w4 (W : Valuation τ sig (Elt F)) :
    after par2 W (Proc.devRef .tc main_v202) =
      Cert.HostStages.mat200x64 2 (W (Proc.devRef .tc main_arg13) : (⟨S3x200x64, .f32⟩ : BufTy).Contents (Elt F)) := by
  after_results_simp
  all_goals rfl

/-- Pass 2's slice of the stacked parameters: the fourth bias. -/
theorem par2_c4 (W : Valuation τ sig (Elt F)) :
    after par2 W (Proc.devRef .tc main_v204) =
      Cert.HostStages.vec64 2 (W (Proc.devRef .tc main_arg14) : (⟨S3x64, .f32⟩ : BufTy).Contents (Elt F)) := by
  after_results_simp
  all_goals rfl

/-- Pass 2: the column means of the aggregated messages. -/
theorem stat2_mean (W : Valuation τ sig (Elt F)) :
    after stat2 W (Proc.devRef .tc main_v207) =
      Cert.HostStages.meanOf (W (Proc.devRef .tc main_v184) : (⟨S50000x87, .f32⟩ : BufTy).Contents (Elt F)) := by
  after_results_simp
  all_goals rfl

/-- Pass 2: the column variances of the aggregated messages. -/
theorem stat2_var (W : Valuation τ sig (Elt F)) :
    after stat2 W (Proc.devRef .tc main_v214) =
      Cert.HostStages.varOf (W (Proc.devRef .tc main_v184) : (⟨S50000x87, .f32⟩ : BufTy).Contents (Elt F)) := by
  after_results_simp
  all_goals rfl

/-! ### The readout's input and the final sum -/

/-- The four node-feature tables side by side. -/
theorem cat_xall (W : Valuation τ sig (Elt F)) :
    after cat W (Proc.devRef .tc main_v252) =
      Cert.HostStages.catAll (W (Proc.devRef .tc main_v17) : (⟨S50000x64, .f32⟩ : BufTy).Contents (Elt F)) (W (Proc.devRef .tc main_v95) : (⟨S50000x64, .f32⟩ : BufTy).Contents (Elt F)) (W (Proc.devRef .tc main_v173) : (⟨S50000x64, .f32⟩ : BufTy).Contents (Elt F)) (W (Proc.devRef .tc main_v251) : (⟨S50000x64, .f32⟩ : BufTy).Contents (Elt F)) := by
  after_results_simp
  all_goals rfl

/-- The column means of the readout's input. -/
theorem rstat_mean (W : Valuation τ sig (Elt F)) :
    after rstat W (Proc.devRef .tc main_v255) =
      Cert.HostStages.meanOf256 (W (Proc.devRef .tc main_v252) : (⟨S50000x256, .f32⟩ : BufTy).Contents (Elt F)) := by
  after_results_simp
  all_goals rfl

/-- The column variances of the readout's input. -/
theorem rstat_var (W : Valuation τ sig (Elt F)) :
    after rstat W (Proc.devRef .tc main_v262) =
      Cert.HostStages.varOf256 (W (Proc.devRef .tc main_v252) : (⟨S50000x256, .f32⟩ : BufTy).Contents (Elt F)) := by
  after_results_simp
  all_goals rfl

/-- The result: the per-node outputs summed over each molecule. -/
theorem tail_out (W : Valuation τ sig (Elt F)) :
    after tail W (Proc.devRef .tc main_v299) =
      Cert.HostStages.graphSum (W (Proc.devRef .tc main_arg3) : (⟨S50000, .i32⟩ : BufTy).Contents (Elt F)) (W (Proc.devRef .tc main_v296) : (⟨S50000x1, .f32⟩ : BufTy).Contents (Elt F)) := by
  after_results_simp
  all_goals rfl

end Cert.ReferenceIdeal.HandRun

end
-- ==== Proof.RefReadUpd.lean ====
import proofs.«131956_j5523327942769_1_alg».proof.Proof.RefStretch
import proofs.«131956_j5523327942769_1_alg».proof.Proof.UpdateLayer

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## What each pass's update leaves in the node features

At the ideal float instance, for an arbitrary valuation `W` of the device's buffers before the update stretch of a
pass: the updated node features are the reference's update function of the arrays `W` holds in the aggregated
messages, the node features entering the pass, the mean and variance vectors, and the pass's ten parameters. -/

/-- Pass 0: the node features after the update stretch. -/
theorem upd0_x (W : Valuation τ sig (Elt Ideal)) :
    after (upd0 (F := Ideal)) W (Proc.devRef .tc main_v95) =
      Cert.UpdateLayer.refUpdate (W (Proc.devRef .tc main_v28) : (⟨S50000x87, .f32⟩ : BufTy).Contents (Elt Ideal)) (W (Proc.devRef .tc main_v17) : (⟨S50000x64, .f32⟩ : BufTy).Contents (Elt Ideal))
        (W (Proc.devRef .tc main_v51) : (⟨S87, .f32⟩ : BufTy).Contents (Elt Ideal)) (W (Proc.devRef .tc main_v58) : (⟨S87, .f32⟩ : BufTy).Contents (Elt Ideal))
        (W (Proc.devRef .tc main_v30) : (⟨S87, .f32⟩ : BufTy).Contents (Elt Ideal))
        (W (Proc.devRef .tc main_v32) : (⟨S87, .f32⟩ : BufTy).Contents (Elt Ideal))
        (W (Proc.devRef .tc main_v34) : (⟨S87x200, .f32⟩ : BufTy).Contents (Elt Ideal))
        (W (Proc.devRef .tc main_v36) : (⟨S200, .f32⟩ : BufTy).Contents (Elt Ideal))
        (W (Proc.devRef .tc main_v38) : (⟨S200x200, .f32⟩ : BufTy).Contents (Elt Ideal))
        (W (Proc.devRef .tc main_v40) : (⟨S200, .f32⟩ : BufTy).Contents (Elt Ideal))
        (W (Proc.devRef .tc main_v42) : (⟨S200x200, .f32⟩ : BufTy).Contents (Elt Ideal))
        (W (Proc.devRef .tc main_v44) : (⟨S200, .f32⟩ : BufTy).Contents (Elt Ideal))
        (W (Proc.devRef .tc main_v46) : (⟨S200x64, .f32⟩ : BufTy).Contents (Elt Ideal))
        (W (Proc.devRef .tc main_v48) : (⟨S64, .f32⟩ : BufTy).Contents (Elt Ideal)) := by
  after_results_simp
  all_goals rfl

/-- Pass 1: the node features after the update stretch. -/
theorem upd1_x (W : Valuation τ sig (Elt Ideal)) :
    after (upd1 (F := Ideal)) W (Proc.devRef .tc main_v173) =
      Cert.UpdateLayer.refUpdate (W (Proc.devRef .tc main_v106) : (⟨S50000x87, .f32⟩ : BufTy).Contents (Elt Ideal)) (W (Proc.devRef .tc main_v95) : (⟨S50000x64, .f32⟩ : BufTy).Contents (Elt Ideal))
        (W (Proc.devRef .tc main_v129) : (⟨S87, .f32⟩ : BufTy).Contents (Elt Ideal)) (W (Proc.devRef .tc main_v136) : (⟨S87, .f32⟩ : BufTy).Contents (Elt Ideal))
        (W (Proc.devRef .tc main_v108) : (⟨S87, .f32⟩ : BufTy).Contents (Elt Ideal))
        (W (Proc.devRef .tc main_v110) : (⟨S87, .f32⟩ : BufTy).Contents (Elt Ideal))
        (W (Proc.devRef .tc main_v112) : (⟨S87x200, .f32⟩ : BufTy).Contents (Elt Ideal))
        (W (Proc.devRef .tc main_v114) : (⟨S200, .f32⟩ : BufTy).Contents (Elt Ideal))
        (W (Proc.devRef .tc main_v116) : (⟨S200x200, .f32⟩ : BufTy).Contents (Elt Ideal))
        (W (Proc.devRef .tc main_v118) : (⟨S200, .f32⟩ : BufTy).Contents (Elt Ideal))
        (W (Proc.devRef .tc main_v120) : (⟨S200x200, .f32⟩ : BufTy).Contents (Elt Ideal))
        (W (Proc.devRef .tc main_v122) : (⟨S200, .f32⟩ : BufTy).Contents (Elt Ideal))
        (W (Proc.devRef .tc main_v124) : (⟨S200x64, .f32⟩ : BufTy).Contents (Elt Ideal))
        (W (Proc.devRef .tc main_v126) : (⟨S64, .f32⟩ : BufTy).Contents (Elt Ideal)) := by
  after_results_simp
  all_goals rfl

/-- Pass 2: the node features after the update stretch. -/
theorem upd2_x (W : Valuation τ sig (Elt Ideal)) :
    after (upd2 (F := Ideal)) W (Proc.devRef .tc main_v251) =
      Cert.UpdateLayer.refUpdate (W (Proc.devRef .tc main_v184) : (⟨S50000x87, .f32⟩ : BufTy).Contents (Elt Ideal)) (W (Proc.devRef .tc main_v173) : (⟨S50000x64, .f32⟩ : BufTy).Contents (Elt Ideal))
        (W (Proc.devRef .tc main_v207) : (⟨S87, .f32⟩ : BufTy).Contents (Elt Ideal)) (W (Proc.devRef .tc main_v214) : (⟨S87, .f32⟩ : BufTy).Contents (Elt Ideal))
        (W (Proc.devRef .tc main_v186) : (⟨S87, .f32⟩ : BufTy).Contents (Elt Ideal))
        (W (Proc.devRef .tc main_v188) : (⟨S87, .f32⟩ : BufTy).Contents (Elt Ideal))
        (W (Proc.devRef .tc main_v190) : (⟨S87x200, .f32⟩ : BufTy).Contents (Elt Ideal))
        (W (Proc.devRef .tc main_v192) : (⟨S200, .f32⟩ : BufTy).Contents (Elt Ideal))
        (W (Proc.devRef .tc main_v194) : (⟨S200x200, .f32⟩ : BufTy).Contents (Elt Ideal))
        (W (Proc.devRef .tc main_v196) : (⟨S200, .f32⟩ : BufTy).Contents (Elt Ideal))
        (W (Proc.devRef .tc main_v198) : (⟨S200x200, .f32⟩ : BufTy).Contents (Elt Ideal))
        (W (Proc.devRef .tc main_v200) : (⟨S200, .f32⟩ : BufTy).Contents (Elt Ideal))
        (W (Proc.devRef .tc main_v202) : (⟨S200x64, .f32⟩ : BufTy).Contents (Elt Ideal))
        (W (Proc.devRef .tc main_v204) : (⟨S64, .f32⟩ : BufTy).Contents (Elt Ideal)) := by
  after_results_simp
  all_goals rfl

end Cert.ReferenceIdeal.HandRun

end
-- ==== Proof.RefSpec.lean ====
import proofs.«131956_j5523327942769_1_alg».proof.Proof.RefRead
import proofs.«131956_j5523327942769_1_alg».proof.Proof.RefReadUpd
import proofs.«131956_j5523327942769_1_alg».proof.Proof.Spec

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## The reference's result as the specification's function of its arguments

At the ideal float instance. The program's fold is taken stretch by stretch; each stretch's boundary buffers are the
shared host functions, the update function or the readout function of the previous boundary buffers, and what a
stretch does not write it leaves as it was. Composed, the result buffer holds the specification's function of the
25 argument arrays. -/

/-- An index outside a run of indices is outside every run inside it. -/
theorem outside_mono {n lo hi lo' hi' : Nat} (h : n < lo ∨ hi ≤ n) (h₁ : lo ≤ lo') (h₂ : hi' ≤ hi) : n < lo' ∨ hi' ≤ n :=
  h.imp (fun h => Nat.lt_of_lt_of_le h h₁) (fun h => Nat.le_trans h₂ h)

/-- The readout stretch: the per-node outputs are the readout function of the concatenated features, their column
    statistics, and the ten readout parameters (arguments 15 … 24). -/
theorem rmlp_y (W : Valuation τ sig (Elt Ideal)) :
    after (rmlp (F := Ideal)) W (Proc.devRef .tc main_v296) =
      Cert.UpdateLayer.refReadout (W (Proc.devRef .tc main_v252) : (⟨S50000x256, .f32⟩ : BufTy).Contents (Elt Ideal)) (W (Proc.devRef .tc main_v255) : (⟨S256, .f32⟩ : BufTy).Contents (Elt Ideal)) (W (Proc.devRef .tc main_v262) : (⟨S256, .f32⟩ : BufTy).Contents (Elt Ideal))
        (W (Proc.devRef .tc main_arg15) : (⟨S256, .f32⟩ : BufTy).Contents (Elt Ideal))
        (W (Proc.devRef .tc main_arg16) : (⟨S256, .f32⟩ : BufTy).Contents (Elt Ideal))
        (W (Proc.devRef .tc main_arg17) : (⟨S256x200, .f32⟩ : BufTy).Contents (Elt Ideal))
        (W (Proc.devRef .tc main_arg18) : (⟨S200, .f32⟩ : BufTy).Contents (Elt Ideal))
        (W (Proc.devRef .tc main_arg19) : (⟨S200x200, .f32⟩ : BufTy).Contents (Elt Ideal))
        (W (Proc.devRef .tc main_arg20) : (⟨S200, .f32⟩ : BufTy).Contents (Elt Ideal))
        (W (Proc.devRef .tc main_arg21) : (⟨S200x200, .f32⟩ : BufTy).Contents (Elt Ideal))
        (W (Proc.devRef .tc main_arg22) : (⟨S200, .f32⟩ : BufTy).Contents (Elt Ideal))
        (W (Proc.devRef .tc main_arg23) : (⟨S200x1, .f32⟩ : BufTy).Contents (Elt Ideal))
        (W (Proc.devRef .tc main_arg24) : (⟨S1, .f32⟩ : BufTy).Contents (Elt Ideal)) := by
  after_results_simp
  all_goals rfl

/-! ### Pass 0 as a whole -/

/-- Across pass 0 a reference of index below 46 or at least 139 keeps its contents. -/
theorem pass0_keeps (V : Valuation τ sig (Elt Ideal)) {r : Ref sig .tc} (h : r.idx.val < 46 ∨ 139 ≤ r.idx.val) :
    after upd0 (after stat0 (after par0 (after msg0 V))) (Proc.devRef .tc r) = V (Proc.devRef .tc r) :=
  (upd0_keeps _ (outside_mono h (by decide) (by decide))).trans
    ((stat0_keeps _ (outside_mono h (by decide) (by decide))).trans
      ((par0_keeps _ (outside_mono h (by decide) (by decide))).trans
        (msg0_keeps _ (outside_mono h (by decide) (by decide)))))

/-- Pass 0: the node features it leaves are the specification's pass 0 of the radial features, the node features
    entering it, the two rows of the edge list and the ten stacked parameter arrays. -/
theorem pass0_value (V : Valuation τ sig (Elt Ideal)) :
    after upd0 (after stat0 (after par0 (after msg0 V))) (Proc.devRef .tc main_v95) =
      Cert.Spec.pass 0 (V (Proc.devRef .tc main_v10) : (⟨S800000x23, .f32⟩ : BufTy).Contents (Elt Ideal)) (V (Proc.devRef .tc main_v17) : (⟨S50000x64, .f32⟩ : BufTy).Contents (Elt Ideal))
        (V (Proc.devRef .tc main_v3) : (⟨S800000, .i32⟩ : BufTy).Contents (Elt Ideal)) (V (Proc.devRef .tc main_v1) : (⟨S800000, .i32⟩ : BufTy).Contents (Elt Ideal))
        (V (Proc.devRef .tc main_arg5) : (⟨S3x87, .f32⟩ : BufTy).Contents (Elt Ideal))
        (V (Proc.devRef .tc main_arg6) : (⟨S3x87, .f32⟩ : BufTy).Contents (Elt Ideal))
        (V (Proc.devRef .tc main_arg7) : (⟨S3x87x200, .f32⟩ : BufTy).Contents (Elt Ideal))
        (V (Proc.devRef .tc main_arg8) : (⟨S3x200, .f32⟩ : BufTy).Contents (Elt Ideal))
        (V (Proc.devRef .tc main_arg9) : (⟨S3x200x200, .f32⟩ : BufTy).Contents (Elt Ideal))
        (V (Proc.devRef .tc main_arg10) : (⟨S3x200, .f32⟩ : BufTy).Contents (Elt Ideal))
        (V (Proc.devRef .tc main_arg11) : (⟨S3x200x200, .f32⟩ : BufTy).Contents (Elt Ideal))
        (V (Proc.devRef .tc main_arg12) : (⟨S3x200, .f32⟩ : BufTy).Contents (Elt Ideal))
        (V (Proc.devRef .tc main_arg13) : (⟨S3x200x64, .f32⟩ : BufTy).Contents (Elt Ideal))
        (V (Proc.devRef .tc main_arg14) : (⟨S3x64, .f32⟩ : BufTy).Contents (Elt Ideal)) := by
  rw [upd0_x, stat0_mean, stat0_var,
    stat0_keeps _ (r := main_v28) (by decide),
    stat0_keeps _ (r := main_v17) (by decide),
    stat0_keeps _ (r := main_v30) (by decide),
    stat0_keeps _ (r := main_v32) (by decide),
    stat0_keeps _ (r := main_v34) (by decide),
    stat0_keeps _ (r := main_v36) (by decide),
    stat0_keeps _ (r := main_v38) (by decide),
    stat0_keeps _ (r := main_v40) (by decide),
    stat0_keeps _ (r := main_v42) (by decide),
    stat0_keeps _ (r := main_v44) (by decide),
    stat0_keeps _ (r := main_v46) (by decide),
    stat0_keeps _ (r := main_v48) (by decide),
    par0_keeps _ (r := main_v28) (by decide), par0_keeps _ (r := main_v17) (by decide),
    par0_g, par0_b, par0_w1, par0_c1, par0_w2, par0_c2, par0_w3, par0_c3, par0_w4, par0_c4,
    msg0_m,
    msg0_keeps _ (r := main_v17) (by decide),
    msg0_keeps _ (r := main_arg5) (by decide),
    msg0_keeps _ (r := main_arg6) (by decide),
    msg0_keeps _ (r := main_arg7) (by decide),
    msg0_keeps _ (r := main_arg8) (by decide),
    msg0_keeps _ (r := main_arg9) (by decide),
    msg0_keeps _ (r := main_arg10) (by decide),
    msg0_keeps _ (r := main_arg11) (by decide),
    msg0_keeps _ (r := main_arg12) (by decide),
    msg0_keeps _ (r := main_arg13) (by decide),
    msg0_keeps _ (r := main_arg14) (by decide)]
  all_goals rfl

/-! ### Pass 1 as a whole -/

/-- Across pass 1 a reference of index below 139 or at least 232 keeps its contents. -/
theorem pass1_keeps (V : Valuation τ sig (Elt Ideal)) {r : Ref sig .tc} (h : r.idx.val < 139 ∨ 232 ≤ r.idx.val) :
    after upd1 (after stat1 (after par1 (after msg1 V))) (Proc.devRef .tc r) = V (Proc.devRef .tc r) :=
  (upd1_keeps _ (outside_mono h (by decide) (by decide))).trans
    ((stat1_keeps _ (outside_mono h (by decide) (by decide))).trans
      ((par1_keeps _ (outside_mono h (by decide) (by decide))).trans
        (msg1_keeps _ (outside_mono h (by decide) (by decide)))))

/-- Pass 1: the node features it leaves are the specification's pass 1 of the radial features, the node features
    entering it, the two rows of the edge list and the ten stacked parameter arrays. -/
theorem pass1_value (V : Valuation τ sig (Elt Ideal)) :
    after upd1 (after stat1 (after par1 (after msg1 V))) (Proc.devRef .tc main_v173) =
      Cert.Spec.pass 1 (V (Proc.devRef .tc main_v10) : (⟨S800000x23, .f32⟩ : BufTy).Contents (Elt Ideal)) (V (Proc.devRef .tc main_v95) : (⟨S50000x64, .f32⟩ : BufTy).Contents (Elt Ideal))
        (V (Proc.devRef .tc main_v3) : (⟨S800000, .i32⟩ : BufTy).Contents (Elt Ideal)) (V (Proc.devRef .tc main_v1) : (⟨S800000, .i32⟩ : BufTy).Contents (Elt Ideal))
        (V (Proc.devRef .tc main_arg5) : (⟨S3x87, .f32⟩ : BufTy).Contents (Elt Ideal))
        (V (Proc.devRef .tc main_arg6) : (⟨S3x87, .f32⟩ : BufTy).Contents (Elt Ideal))
        (V (Proc.devRef .tc main_arg7) : (⟨S3x87x200, .f32⟩ : BufTy).Contents (Elt Ideal))
        (V (Proc.devRef .tc main_arg8) : (⟨S3x200, .f32⟩ : BufTy).Contents (Elt Ideal))
        (V (Proc.devRef .tc main_arg9) : (⟨S3x200x200, .f32⟩ : BufTy).Contents (Elt Ideal))
        (V (Proc.devRef .tc main_arg10) : (⟨S3x200, .f32⟩ : BufTy).Contents (Elt Ideal))
        (V (Proc.devRef .tc main_arg11) : (⟨S3x200x200, .f32⟩ : BufTy).Contents (Elt Ideal))
        (V (Proc.devRef .tc main_arg12) : (⟨S3x200, .f32⟩ : BufTy).Contents (Elt Ideal))
        (V (Proc.devRef .tc main_arg13) : (⟨S3x200x64, .f32⟩ : BufTy).Contents (Elt Ideal))
        (V (Proc.devRef .tc main_arg14) : (⟨S3x64, .f32⟩ : BufTy).Contents (Elt Ideal)) := by
  rw [upd1_x, stat1_mean, stat1_var,
    stat1_keeps _ (r := main_v106) (by decide),
    stat1_keeps _ (r := main_v95) (by decide),
    stat1_keeps _ (r := main_v108) (by decide),
    stat1_keeps _ (r := main_v110) (by decide),
    stat1_keeps _ (r := main_v112) (by decide),
    stat1_keeps _ (r := main_v114) (by decide),
    stat1_keeps _ (r := main_v116) (by decide),
    stat1_keeps _ (r := main_v118) (by decide),
    stat1_keeps _ (r := main_v120) (by decide),
    stat1_keeps _ (r := main_v122) (by decide),
    stat1_keeps _ (r := main_v124) (by decide),
    stat1_keeps _ (r := main_v126) (by decide),
    par1_keeps _ (r := main_v106) (by decide), par1_keeps _ (r := main_v95) (by decide),
    par1_g, par1_b, par1_w1, par1_c1, par1_w2, par1_c2, par1_w3, par1_c3, par1_w4, par1_c4,
    msg1_m,
    msg1_keeps _ (r := main_v95) (by decide),
    msg1_keeps _ (r := main_arg5) (by decide),
    msg1_keeps _ (r := main_arg6) (by decide),
    msg1_keeps _ (r := main_arg7) (by decide),
    msg1_keeps _ (r := main_arg8) (by decide),
    msg1_keeps _ (r := main_arg9) (by decide),
    msg1_keeps _ (r := main_arg10) (by decide),
    msg1_keeps _ (r := main_arg11) (by decide),
    msg1_keeps _ (r := main_arg12) (by decide),
    msg1_keeps _ (r := main_arg13) (by decide),
    msg1_keeps _ (r := main_arg14) (by decide)]
  all_goals rfl

/-! ### Pass 2 as a whole -/

/-- Across pass 2 a reference of index below 232 or at least 325 keeps its contents. -/
theorem pass2_keeps (V : Valuation τ sig (Elt Ideal)) {r : Ref sig .tc} (h : r.idx.val < 232 ∨ 325 ≤ r.idx.val) :
    after upd2 (after stat2 (after par2 (after msg2 V))) (Proc.devRef .tc r) = V (Proc.devRef .tc r) :=
  (upd2_keeps _ (outside_mono h (by decide) (by decide))).trans
    ((stat2_keeps _ (outside_mono h (by decide) (by decide))).trans
      ((par2_keeps _ (outside_mono h (by decide) (by decide))).trans
        (msg2_keeps _ (outside_mono h (by decide) (by decide)))))

/-- Pass 2: the node features it leaves are the specification's pass 2 of the radial features, the node features
    entering it, the two rows of the edge list and the ten stacked parameter arrays. -/
theorem pass2_value (V : Valuation τ sig (Elt Ideal)) :
    after upd2 (after stat2 (after par2 (after msg2 V))) (Proc.devRef .tc main_v251) =
      Cert.Spec.pass 2 (V (Proc.devRef .tc main_v10) : (⟨S800000x23, .f32⟩ : BufTy).Contents (Elt Ideal)) (V (Proc.devRef .tc main_v173) : (⟨S50000x64, .f32⟩ : BufTy).Contents (Elt Ideal))
        (V (Proc.devRef .tc main_v3) : (⟨S800000, .i32⟩ : BufTy).Contents (Elt Ideal)) (V (Proc.devRef .tc main_v1) : (⟨S800000, .i32⟩ : BufTy).Contents (Elt Ideal))
        (V (Proc.devRef .tc main_arg5) : (⟨S3x87, .f32⟩ : BufTy).Contents (Elt Ideal))
        (V (Proc.devRef .tc main_arg6) : (⟨S3x87, .f32⟩ : BufTy).Contents (Elt Ideal))
        (V (Proc.devRef .tc main_arg7) : (⟨S3x87x200, .f32⟩ : BufTy).Contents (Elt Ideal))
        (V (Proc.devRef .tc main_arg8) : (⟨S3x200, .f32⟩ : BufTy).Contents (Elt Ideal))
        (V (Proc.devRef .tc main_arg9) : (⟨S3x200x200, .f32⟩ : BufTy).Contents (Elt Ideal))
        (V (Proc.devRef .tc main_arg10) : (⟨S3x200, .f32⟩ : BufTy).Contents (Elt Ideal))
        (V (Proc.devRef .tc main_arg11) : (⟨S3x200x200, .f32⟩ : BufTy).Contents (Elt Ideal))
        (V (Proc.devRef .tc main_arg12) : (⟨S3x200, .f32⟩ : BufTy).Contents (Elt Ideal))
        (V (Proc.devRef .tc main_arg13) : (⟨S3x200x64, .f32⟩ : BufTy).Contents (Elt Ideal))
        (V (Proc.devRef .tc main_arg14) : (⟨S3x64, .f32⟩ : BufTy).Contents (Elt Ideal)) := by
  rw [upd2_x, stat2_mean, stat2_var,
    stat2_keeps _ (r := main_v184) (by decide),
    stat2_keeps _ (r := main_v173) (by decide),
    stat2_keeps _ (r := main_v186) (by decide),
    stat2_keeps _ (r := main_v188) (by decide),
    stat2_keeps _ (r := main_v190) (by decide),
    stat2_keeps _ (r := main_v192) (by decide),
    stat2_keeps _ (r := main_v194) (by decide),
    stat2_keeps _ (r := main_v196) (by decide),
    stat2_keeps _ (r := main_v198) (by decide),
    stat2_keeps _ (r := main_v200) (by decide),
    stat2_keeps _ (r := main_v202) (by decide),
    stat2_keeps _ (r := main_v204) (by decide),
    par2_keeps _ (r := main_v184) (by decide), par2_keeps _ (r := main_v173) (by decide),
    par2_g, par2_b, par2_w1, par2_c1, par2_w2, par2_c2, par2_w3, par2_c3, par2_w4, par2_c4,
    msg2_m,
    msg2_keeps _ (r := main_v173) (by decide),
    msg2_keeps _ (r := main_arg5) (by decide),
    msg2_keeps _ (r := main_arg6) (by decide),
    msg2_keeps _ (r := main_arg7) (by decide),
    msg2_keeps _ (r := main_arg8) (by decide),
    msg2_keeps _ (r := main_arg9) (by decide),
    msg2_keeps _ (r := main_arg10) (by decide),
    msg2_keeps _ (r := main_arg11) (by decide),
    msg2_keeps _ (r := main_arg12) (by decide),
    msg2_keeps _ (r := main_arg13) (by decide),
    msg2_keeps _ (r := main_arg14) (by decide)]
  all_goals rfl

/-! ### The readout and the final sum as a whole -/

/-- From the four node-feature tables to the result: the sum over each molecule of the readout function of the
    concatenated tables and their column statistics. -/
theorem out_value (V : Valuation τ sig (Elt Ideal)) :
    after tail (after rmlp (after rstat (after cat V))) (Proc.devRef .tc main_v299) =
      Cert.HostStages.graphSum (V (Proc.devRef .tc main_arg3) : (⟨S50000, .i32⟩ : BufTy).Contents (Elt Ideal))
        (Cert.UpdateLayer.refReadout (Cert.HostStages.catAll (V (Proc.devRef .tc main_v17) : (⟨S50000x64, .f32⟩ : BufTy).Contents (Elt Ideal)) (V (Proc.devRef .tc main_v95) : (⟨S50000x64, .f32⟩ : BufTy).Contents (Elt Ideal)) (V (Proc.devRef .tc main_v173) : (⟨S50000x64, .f32⟩ : BufTy).Contents (Elt Ideal)) (V (Proc.devRef .tc main_v251) : (⟨S50000x64, .f32⟩ : BufTy).Contents (Elt Ideal)))
          (Cert.HostStages.meanOf256 (Cert.HostStages.catAll (V (Proc.devRef .tc main_v17) : (⟨S50000x64, .f32⟩ : BufTy).Contents (Elt Ideal)) (V (Proc.devRef .tc main_v95) : (⟨S50000x64, .f32⟩ : BufTy).Contents (Elt Ideal)) (V (Proc.devRef .tc main_v173) : (⟨S50000x64, .f32⟩ : BufTy).Contents (Elt Ideal)) (V (Proc.devRef .tc main_v251) : (⟨S50000x64, .f32⟩ : BufTy).Contents (Elt Ideal))))
          (Cert.HostStages.varOf256 (Cert.HostStages.catAll (V (Proc.devRef .tc main_v17) : (⟨S50000x64, .f32⟩ : BufTy).Contents (Elt Ideal)) (V (Proc.devRef .tc main_v95) : (⟨S50000x64, .f32⟩ : BufTy).Contents (Elt Ideal)) (V (Proc.devRef .tc main_v173) : (⟨S50000x64, .f32⟩ : BufTy).Contents (Elt Ideal)) (V (Proc.devRef .tc main_v251) : (⟨S50000x64, .f32⟩ : BufTy).Contents (Elt Ideal))))
          (V (Proc.devRef .tc main_arg15) : (⟨S256, .f32⟩ : BufTy).Contents (Elt Ideal))
          (V (Proc.devRef .tc main_arg16) : (⟨S256, .f32⟩ : BufTy).Contents (Elt Ideal))
          (V (Proc.devRef .tc main_arg17) : (⟨S256x200, .f32⟩ : BufTy).Contents (Elt Ideal))
          (V (Proc.devRef .tc main_arg18) : (⟨S200, .f32⟩ : BufTy).Contents (Elt Ideal))
          (V (Proc.devRef .tc main_arg19) : (⟨S200x200, .f32⟩ : BufTy).Contents (Elt Ideal))
          (V (Proc.devRef .tc main_arg20) : (⟨S200, .f32⟩ : BufTy).Contents (Elt Ideal))
          (V (Proc.devRef .tc main_arg21) : (⟨S200x200, .f32⟩ : BufTy).Contents (Elt Ideal))
          (V (Proc.devRef .tc main_arg22) : (⟨S200, .f32⟩ : BufTy).Contents (Elt Ideal))
          (V (Proc.devRef .tc main_arg23) : (⟨S200x1, .f32⟩ : BufTy).Contents (Elt Ideal))
          (V (Proc.devRef .tc main_arg24) : (⟨S1, .f32⟩ : BufTy).Contents (Elt Ideal))) := by
  rw [tail_out, rmlp_keeps _ (r := main_arg3) (by decide), rmlp_y, rstat_mean, rstat_var,
    rstat_keeps _ (r := main_v252) (by decide),
    rstat_keeps _ (r := main_arg3) (by decide),
    rstat_keeps _ (r := main_arg15) (by decide),
    rstat_keeps _ (r := main_arg16) (by decide),
    rstat_keeps _ (r := main_arg17) (by decide),
    rstat_keeps _ (r := main_arg18) (by decide),
    rstat_keeps _ (r := main_arg19) (by decide),
    rstat_keeps _ (r := main_arg20) (by decide),
    rstat_keeps _ (r := main_arg21) (by decide),
    rstat_keeps _ (r := main_arg22) (by decide),
    rstat_keeps _ (r := main_arg23) (by decide),
    rstat_keeps _ (r := main_arg24) (by decide),
    cat_xall,
    cat_keeps _ (r := main_arg3) (by decide),
    cat_keeps _ (r := main_arg15) (by decide),
    cat_keeps _ (r := main_arg16) (by decide),
    cat_keeps _ (r := main_arg17) (by decide),
    cat_keeps _ (r := main_arg18) (by decide),
    cat_keeps _ (r := main_arg19) (by decide),
    cat_keeps _ (r := main_arg20) (by decide),
    cat_keeps _ (r := main_arg21) (by decide),
    cat_keeps _ (r := main_arg22) (by decide),
    cat_keeps _ (r := main_arg23) (by decide),
    cat_keeps _ (r := main_arg24) (by decide)]
  all_goals rfl

/-! ### The whole program -/

/-- For any contents of the device's buffers, the program's fold leaves in the result buffer the specification's function
    of the contents of the 25 argument buffers. -/
theorem value_of (V : Valuation τ sig (Elt Ideal)) :
    after ops V (Proc.devRef .tc main_v299) =
      Cert.Spec.spec (V (Proc.devRef .tc main_arg0) : (⟨S50000, .i32⟩ : BufTy).Contents (Elt Ideal))
        (V (Proc.devRef .tc main_arg1) : (⟨S2x800000, .i32⟩ : BufTy).Contents (Elt Ideal))
        (V (Proc.devRef .tc main_arg2) : (⟨S800000x1, .f32⟩ : BufTy).Contents (Elt Ideal))
        (V (Proc.devRef .tc main_arg3) : (⟨S50000, .i32⟩ : BufTy).Contents (Elt Ideal))
        (V (Proc.devRef .tc main_arg4) : (⟨S10x64, .f32⟩ : BufTy).Contents (Elt Ideal))
        (V (Proc.devRef .tc main_arg5) : (⟨S3x87, .f32⟩ : BufTy).Contents (Elt Ideal))
        (V (Proc.devRef .tc main_arg6) : (⟨S3x87, .f32⟩ : BufTy).Contents (Elt Ideal))
        (V (Proc.devRef .tc main_arg7) : (⟨S3x87x200, .f32⟩ : BufTy).Contents (Elt Ideal))
        (V (Proc.devRef .tc main_arg8) : (⟨S3x200, .f32⟩ : BufTy).Contents (Elt Ideal))
        (V (Proc.devRef .tc main_arg9) : (⟨S3x200x200, .f32⟩ : BufTy).Contents (Elt Ideal))
        (V (Proc.devRef .tc main_arg10) : (⟨S3x200, .f32⟩ : BufTy).Contents (Elt Ideal))
        (V (Proc.devRef .tc main_arg11) : (⟨S3x200x200, .f32⟩ : BufTy).Contents (Elt Ideal))
        (V (Proc.devRef .tc main_arg12) : (⟨S3x200, .f32⟩ : BufTy).Contents (Elt Ideal))
        (V (Proc.devRef .tc main_arg13) : (⟨S3x200x64, .f32⟩ : BufTy).Contents (Elt Ideal))
        (V (Proc.devRef .tc main_arg14) : (⟨S3x64, .f32⟩ : BufTy).Contents (Elt Ideal))
        (V (Proc.devRef .tc main_arg15) : (⟨S256, .f32⟩ : BufTy).Contents (Elt Ideal))
        (V (Proc.devRef .tc main_arg16) : (⟨S256, .f32⟩ : BufTy).Contents (Elt Ideal))
        (V (Proc.devRef .tc main_arg17) : (⟨S256x200, .f32⟩ : BufTy).Contents (Elt Ideal))
        (V (Proc.devRef .tc main_arg18) : (⟨S200, .f32⟩ : BufTy).Contents (Elt Ideal))
        (V (Proc.devRef .tc main_arg19) : (⟨S200x200, .f32⟩ : BufTy).Contents (Elt Ideal))
        (V (Proc.devRef .tc main_arg20) : (⟨S200, .f32⟩ : BufTy).Contents (Elt Ideal))
        (V (Proc.devRef .tc main_arg21) : (⟨S200x200, .f32⟩ : BufTy).Contents (Elt Ideal))
        (V (Proc.devRef .tc main_arg22) : (⟨S200, .f32⟩ : BufTy).Contents (Elt Ideal))
        (V (Proc.devRef .tc main_arg23) : (⟨S200x1, .f32⟩ : BufTy).Contents (Elt Ideal))
        (V (Proc.devRef .tc main_arg24) : (⟨S1, .f32⟩ : BufTy).Contents (Elt Ideal)) := by
  rw [after_ops, out_value,
    pass2_value,
    pass2_keeps _ (r := main_arg3) (by decide),
    pass2_keeps _ (r := main_arg15) (by decide),
    pass2_keeps _ (r := main_arg16) (by decide),
    pass2_keeps _ (r := main_arg17) (by decide),
    pass2_keeps _ (r := main_arg18) (by decide),
    pass2_keeps _ (r := main_arg19) (by decide),
    pass2_keeps _ (r := main_arg20) (by decide),
    pass2_keeps _ (r := main_arg21) (by decide),
    pass2_keeps _ (r := main_arg22) (by decide),
    pass2_keeps _ (r := main_arg23) (by decide),
    pass2_keeps _ (r := main_arg24) (by decide),
    pass2_keeps _ (r := main_v17) (by decide),
    pass2_keeps _ (r := main_v95) (by decide),
    pass2_keeps _ (r := main_v173) (by decide),
    pass1_value,
    pass1_keeps _ (r := main_arg3) (by decide),
    pass1_keeps _ (r := main_arg15) (by decide),
    pass1_keeps _ (r := main_arg16) (by decide),
    pass1_keeps _ (r := main_arg17) (by decide),
    pass1_keeps _ (r := main_arg18) (by decide),
    pass1_keeps _ (r := main_arg19) (by decide),
    pass1_keeps _ (r := main_arg20) (by decide),
    pass1_keeps _ (r := main_arg21) (by decide),
    pass1_keeps _ (r := main_arg22) (by decide),
    pass1_keeps _ (r := main_arg23) (by decide),
    pass1_keeps _ (r := main_arg24) (by decide),
    pass1_keeps _ (r := main_v17) (by decide),
    pass1_keeps _ (r := main_v95) (by decide),
    pass1_keeps _ (r := main_v10) (by decide),
    pass1_keeps _ (r := main_v3) (by decide),
    pass1_keeps _ (r := main_v1) (by decide),
    pass1_keeps _ (r := main_arg5) (by decide),
    pass1_keeps _ (r := main_arg6) (by decide),
    pass1_keeps _ (r := main_arg7) (by decide),
    pass1_keeps _ (r := main_arg8) (by decide),
    pass1_keeps _ (r := main_arg9) (by decide),
    pass1_keeps _ (r := main_arg10) (by decide),
    pass1_keeps _ (r := main_arg11) (by decide),
    pass1_keeps _ (r := main_arg12) (by decide),
    pass1_keeps _ (r := main_arg13) (by decide),
    pass1_keeps _ (r := main_arg14) (by decide),
    pass0_value,
    pass0_keeps _ (r := main_arg3) (by decide),
    pass0_keeps _ (r := main_arg15) (by decide),
    pass0_keeps _ (r := main_arg16) (by decide),
    pass0_keeps _ (r := main_arg17) (by decide),
    pass0_keeps _ (r := main_arg18) (by decide),
    pass0_keeps _ (r := main_arg19) (by decide),
    pass0_keeps _ (r := main_arg20) (by decide),
    pass0_keeps _ (r := main_arg21) (by decide),
    pass0_keeps _ (r := main_arg22) (by decide),
    pass0_keeps _ (r := main_arg23) (by decide),
    pass0_keeps _ (r := main_arg24) (by decide),
    pass0_keeps _ (r := main_v17) (by decide),
    pass0_keeps _ (r := main_v10) (by decide),
    pass0_keeps _ (r := main_v3) (by decide),
    pass0_keeps _ (r := main_v1) (by decide),
    pass0_keeps _ (r := main_arg5) (by decide),
    pass0_keeps _ (r := main_arg6) (by decide),
    pass0_keeps _ (r := main_arg7) (by decide),
    pass0_keeps _ (r := main_arg8) (by decide),
    pass0_keeps _ (r := main_arg9) (by decide),
    pass0_keeps _ (r := main_arg10) (by decide),
    pass0_keeps _ (r := main_arg11) (by decide),
    pass0_keeps _ (r := main_arg12) (by decide),
    pass0_keeps _ (r := main_arg13) (by decide),
    pass0_keeps _ (r := main_arg14) (by decide),
    pre_x0, pre_rbf, pre_esink, pre_esrc,
    pre_keeps _ (r := main_arg3) (by decide),
    pre_keeps _ (r := main_arg15) (by decide),
    pre_keeps _ (r := main_arg16) (by decide),
    pre_keeps _ (r := main_arg17) (by decide),
    pre_keeps _ (r := main_arg18) (by decide),
    pre_keeps _ (r := main_arg19) (by decide),
    pre_keeps _ (r := main_arg20) (by decide),
    pre_keeps _ (r := main_arg21) (by decide),
    pre_keeps _ (r := main_arg22) (by decide),
    pre_keeps _ (r := main_arg23) (by decide),
    pre_keeps _ (r := main_arg24) (by decide),
    pre_keeps _ (r := main_arg5) (by decide),
    pre_keeps _ (r := main_arg6) (by decide),
    pre_keeps _ (r := main_arg7) (by decide),
    pre_keeps _ (r := main_arg8) (by decide),
    pre_keeps _ (r := main_arg9) (by decide),
    pre_keeps _ (r := main_arg10) (by decide),
    pre_keeps _ (r := main_arg11) (by decide),
    pre_keeps _ (r := main_arg12) (by decide),
    pre_keeps _ (r := main_arg13) (by decide),
    pre_keeps _ (r := main_arg14) (by decide)]
  all_goals rfl

/-- The reference's result buffer, from the launch contents `m` on device `c`: the specification's function of the 25
    argument arrays. -/
theorem ref_value (m : (ℓ : Loc nD τ sig) → Buf (Elt Ideal) ℓ) (c : Dev nD) :
    StableHlo.after ops (fun b => m (c, b)) (Proc.devRef .tc main_v299) =
      Cert.Spec.spec (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20))
        (m ((c.tc : Thread nD τ).loc main_arg21))
        (m ((c.tc : Thread nD τ).loc main_arg22))
        (m ((c.tc : Thread nD τ).loc main_arg23))
        (m ((c.tc : Thread nD τ).loc main_arg24)) :=
  value_of (fun b => m (c, b))

end Cert.ReferenceIdeal.HandRun

end
-- ==== Proof.lean ====
/-
  The certificate of a message-passing network's kernel against its reference.

  Both programs form radial features of the edge lengths and embeddings of the atom types, then three times gather the
  node features along the edges, sum the messages into their source nodes, normalise the sums by their column mean and
  variance and pass them through a four-layer perceptron whose tenth is added to the node features; the four stages of
  node features, side by side, are normalised and passed through a readout perceptron, and its per-node output is summed
  over each molecule. The kernel program does each perceptron (with its normalisation) as a launch over five blocks of
  10000 rows; the reference does it by host operations on whole arrays. Over the extended reals a row of a perceptron
  layer depends only on that row of its input, so a block's rows are the whole array's rows; the statistics, gathers and
  sums are the same host operations in both programs. The ideal pass rewrote nothing.

  The frames: each kernel program is run as twelve items, eight stretches of host operations and the four launches, each
  launch's body run at a generic grid point; the reference as one line of host operations. No item writes an argument.
-/
import proofs.«131956_j5523327942769_1_alg».proof.Defs
import proofs.«131956_j5523327942769_1_alg».proof.Proof.Gen.Kernel
import proofs.«131956_j5523327942769_1_alg».proof.Proof.Gen.KernelIdeal
import proofs.«131956_j5523327942769_1_alg».proof.Proof.Gen.ReferenceIdeal
import proofs.«131956_j5523327942769_1_alg».proof.Proof.Gen.Pre_finite_inputs
import proofs.«131956_j5523327942769_1_alg».proof.Proof.BitsRun
import proofs.«131956_j5523327942769_1_alg».proof.Proof.IdealRun
import proofs.«131956_j5523327942769_1_alg».proof.Proof.IdealChain
import proofs.«131956_j5523327942769_1_alg».proof.Proof.RefRun
import proofs.«131956_j5523327942769_1_alg».proof.Proof.RefSpec

noncomputable section

namespace Cert.Proof

open Idealize.ShloMosaic Idealize.SL.Sem

/-- The word-level kernel program runs to the end and leaves its arguments as launched. -/
theorem frame_k : Cert.frame_Kernel := fun m ρ _ =>
  (θ_run Cert.Kernel.defs _ _).mono (fun _ h c => (h c).2) (Cert.Kernel.Run.run_main (F := Bits) m ρ)

/-- So does the idealized kernel program. -/
theorem frame_ki : Cert.frame_KernelIdeal := fun m ρ _ =>
  (θ_run Cert.KernelIdeal.defs _ _).mono (fun _ h c => (h c).2) (Cert.KernelIdeal.Run.run_main (F := Ideal) m ρ)

/-- So does the idealized reference. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- From memories agreeing on the arguments both idealized programs end with the common function of the arguments in
    their result buffers. -/
theorem algebraic : Cert.algebraic_KernelIdeal_ReferenceIdeal := by
  intro m ρ m' ρ' _ hagree
  refine ⟨fun c => Cert.Spec.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run Cert.KernelIdeal.defs _ _).mono (fun _ h c => ⟨(h c).1.trans (Cert.KernelIdeal.Chain.kernel_value m c), (h c).2⟩)
      (Cert.KernelIdeal.Run.run_main (F := Ideal) m ρ)
  · refine (θ_run Cert.ReferenceIdeal.defs _ _).mono (fun _ h c => ⟨(h c).1.trans ?_, (h c).2⟩) (Cert.ReferenceIdeal.HandRun.run (F := Ideal) m' ρ')
    rw [Cert.ReferenceIdeal.HandRun.ref_value m' c]
    obtain ⟨e0, e1, e2, e3, e4, e5, e6, e7, e8, e9, e10, e11, e12, e13, e14, e15, e16, e17, e18, e19, e20, e21, e22, e23, e24⟩ := hagree c
    rw [e0, e1, e2, e3, e4, e5, e6, e7, e8, e9, e10, e11, e12, e13, e14, e15, e16, e17, e18, e19, e20, e21, e22, e23, e24]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
